-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S256x256 : Shape := ⟨2, ![256, 256]⟩
abbrev S1x64 : Shape := ⟨2, ![1, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S64 .f32) (main_arg5 : FVec F S64x1 .f32) (main_arg6 : FVec F S1 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S8192x256 .f32) (main_arg1 : FVec F S256x256 .f32) (main_arg2 : FVec F S256x256 .f32) (main_arg3 : FVec F S1x64 .f32) (main_arg4 : FVec F S64 .f32) (main_arg5 : FVec F S64x1 .f32) (main_arg6 : FVec F S1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_arg6 main_v13 main_v16
-- ==== Kernel.lean ====
abbrev S8192x256 : Shape := ⟨2, ![8192, 256]⟩
abbrev S256x256 : Shape := ⟨2, ![256, 256]⟩
abbrev S1x64 : Shape := ⟨2, ![1, 64]⟩
abbrev S64 : Shape := ⟨1, ![64]⟩
abbrev S64x1 : Shape := ⟨2, ![64, 1]⟩
abbrev S1 : Shape := ⟨1, ![1]⟩
abbrev S8192x1 : Shape := ⟨2, ![8192, 1]⟩
abbrev S2048x256 : Shape := ⟨2, ![2048, 256]⟩
abbrev S512x256 : Shape := ⟨2, ![512, 256]⟩
abbrev S2048x1 : Shape := ⟨2, ![2048, 1]⟩
abbrev S256x512 : Shape := ⟨2, ![256, 512]⟩
abbrev S2048x512 : Shape := ⟨2, ![2048, 512]⟩
abbrev S2048 : Shape := ⟨1, ![2048]⟩
abbrev S1x1 : Shape := ⟨2, ![1, 1]⟩
abbrev S512x1 : Shape := ⟨2, ![512, 1]⟩
abbrev S1x512 : Shape := ⟨2, ![1, 512]⟩
abbrev S2048x64 : Shape := ⟨2, ![2048, 64]⟩
abbrev S8192 : Shape := ⟨1, ![8192]⟩

abbrev nBuf : Space → Nat
  | .hbm => 22
  | .vmem => 28
  | .smem => 0
  | _ => 0

abbrev bufTy : (tb : Table) → Fin (tcTables nBuf tb) → BufTy
  | .hbm, ⟨0, _⟩ => ⟨S8192x256, .f32⟩
  | .hbm, ⟨1, _⟩ => ⟨S256x256, .f32⟩
  | .hbm, ⟨2, _⟩ => ⟨S256x256, .f32⟩
  | .hbm, ⟨3, _⟩ => ⟨S1x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S8192x256, .bf16⟩
  | .hbm, ⟨8, _⟩ => ⟨S256x256, .bf16⟩
  | .hbm, ⟨9, _⟩ => ⟨S8192x256, .f32⟩
  | .hbm, ⟨10, _⟩ => ⟨S8192x256, .bf16⟩
  | .hbm, ⟨11, _⟩ => ⟨S8192x256, .bf16⟩
  | .hbm, ⟨12, _⟩ => ⟨S256x256, .bf16⟩
  | .hbm, ⟨13, _⟩ => ⟨S8192x256, .f32⟩
  | .hbm, ⟨14, _⟩ => ⟨S8192x256, .bf16⟩
  | .hbm, ⟨15, _⟩ => ⟨S8192x256, .bf16⟩
  | .hbm, ⟨16, _⟩ => ⟨S8192x256, .bf16⟩
  | .hbm, ⟨17, _⟩ => ⟨S8192x1, .f32⟩
  | .hbm, ⟨18, _⟩ => ⟨S1x64, .f32⟩
  | .hbm, ⟨19, _⟩ => ⟨S1x1, .f32⟩
  | .hbm, ⟨20, _⟩ => ⟨S8192x1, .f32⟩
  | .hbm, ⟨21, _⟩ => ⟨S8192, .f32⟩
  | .local _ .vmem, ⟨0, _⟩ => ⟨S2048x256, .bf16⟩
  | .local _ .vmem, ⟨1, _⟩ => ⟨S2048x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S2048x256, .bf16⟩
  | .local _ .vmem, ⟨7, _⟩ => ⟨S2048x256, .bf16⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | .local _ .vmem, ⟨11, _⟩ => ⟨S2048x1, .f32⟩
  | .local _ .vmem, ⟨12, _⟩ => ⟨S2048x256, .f32⟩
  | .local _ .vmem, ⟨13, _⟩ => ⟨S2048x256, .bf16⟩
  | .local _ .vmem, ⟨14, _⟩ => ⟨S2048x256, .bf16⟩
  | .local _ .vmem, ⟨15, _⟩ => ⟨S512x256, .bf16⟩
  | .local _ .vmem, ⟨16, _⟩ => ⟨S512x256, .bf16⟩
  | .local _ .vmem, ⟨17, _⟩ => ⟨S2048x1, .f32⟩
  | .local _ .vmem, ⟨18, _⟩ => ⟨S2048x1, .f32⟩
  | .local _ .vmem, ⟨19, _⟩ => ⟨S512x1, .f32⟩
  | .local _ .vmem, ⟨20, _⟩ => ⟨S512x1, .f32⟩
  | .local _ .vmem, ⟨21, _⟩ => ⟨S1x64, .f32⟩
  | .local _ .vmem, ⟨22, _⟩ => ⟨S1x64, .f32⟩
  | .local _ .vmem, ⟨23, _⟩ => ⟨S64x1, .f32⟩
  | .local _ .vmem, ⟨24, _⟩ => ⟨S1x1, .f32⟩
  | .local _ .vmem, ⟨25, _⟩ => ⟨S2048x1, .f32⟩
  | .local _ .vmem, ⟨26, _⟩ => ⟨S2048x1, .f32⟩
  | .local _ .vmem, ⟨27, _⟩ => ⟨S2048x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg8_1 : Ref sig .tc := ⟨.vmem, 26, rfl⟩
abbrev cc1_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v43 : BitVec 1 := Scalar.cmpi .eq arg1 c15_i32
  let v44 : BitVec 32 := Scalar.extui v43
  let c0_i32_24 : BitVec 32 := 0#32
  let v45 : BitVec 1 := Scalar.cmpi .ne v44 c0_i32_24
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 16], ![false, false]⟩

def k1_cond2 (i : grid1.Coords) : BitVec 1 :=
  let arg1 : BitVec 32 := BitVec.ofNat 32 (i 1).val
  let c15_i32 : BitVec 32 := 15#32
  let v32 : BitVec 1 := Scalar.cmpi .eq arg1 c15_i32
  let v33 : BitVec 32 := Scalar.extui v32
  let c0_i32_16 : BitVec 32 := 0#32
  let v34 : BitVec 1 := Scalar.cmpi .ne v33 c0_i32_16
  v34

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S64x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S2048x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

class Facts₀ : Prop where
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S512x256_p1_0_S256x512 : S512x256.Transposes [1, 0] S256x512
  reduces_S2048x512_S2048 : S2048x512.Reduces [1] S2048
  shapeCasts_S2048_S2048x1 : S2048.ShapeCasts S2048x1
  broadcasts_S2048x1_S2048x512 : S2048x1.Broadcasts S2048x512
  broadcasts_S2048x1_S2048x256 : S2048x1.Broadcasts S2048x256
  reduces_S2048x256_S2048 : S2048x256.Reduces [1] S2048
  packedbf16_S2048x256_S2048x256_0_0 : (Rect.unit (s := S2048x256) ![0, 0] S2048x256.size inb_S2048x256_S2048x256_0_0).PackedRows (EltTy.packing .bf16)
  shapeCasts_S64_S1x64 : S64.ShapeCasts S1x64
  shapeCasts_S1_S1x1 : S1.ShapeCasts S1x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  transposes_S512x1_p1_0_S1x512 : S512x1.Transposes [1, 0] S1x512
  broadcasts_S1x512_S2048x512 : S1x512.Broadcasts S2048x512
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S2048x1_S2048x64 : S2048x1.Broadcasts S2048x64
  broadcasts_S1x64_S2048x64 : S1x64.Broadcasts S2048x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  shapeCasts_S8192x1_S8192 : S8192x1.ShapeCasts S8192
  dot_S8192x256_S256x256_S8192x256_1_0_0_1_n_n_wf : DotDims.WF S8192x256 S256x256 S8192x256 [1] [0] [0] [1] [] []
  dot_S2048x256_S256x512_S2048x512_1_0_0_1_n_n_wf : DotDims.WF S2048x256 S256x512 S2048x512 [1] [0] [0] [1] [] []
  dot_S2048x512_S512x256_S2048x256_1_0_0_1_n_n_wf : DotDims.WF S2048x512 S512x256 S2048x256 [1] [0] [0] [1] [] []
  dot_S2048x64_S64x1_S2048x1_1_0_0_1_n_n_wf : DotDims.WF S2048x64 S64x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .bf16 = 32 ∨ (Rect.block (s := S8192x256) S2048x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .bf16 = 32 ∨ (Rect.block (s := S8192x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x256.size a
  hwx0_2 : ∀ i : grid0.Coords, EltTy.bits .bf16 = 32 ∨ (Rect.block (s := S8192x256) S512x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S8192x256.size a
  hwx0_3 : ∀ i : grid0.Coords, EltTy.bits .bf16 = 32 ∨ (Rect.block (s := S8192x256) S2048x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S8192x1.size a
  hwx0_4 : ∀ i : grid0.Coords, EltTy.bits .f32 = 32 ∨ (Rect.block (s := S8192x1) S2048x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S8192x256.size a
  hwx1_0 : ∀ i : grid1.Coords, EltTy.bits .bf16 = 32 ∨ (Rect.block (s := S8192x256) S2048x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S8192x256.size a
  hwx1_1 : ∀ i : grid1.Coords, EltTy.bits .bf16 = 32 ∨ (Rect.block (s := S8192x256) S512x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S8192x1.size a
  hwx1_2 : ∀ i : grid1.Coords, EltTy.bits .f32 = 32 ∨ (Rect.block (s := S8192x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S8192x1.size a
  hwx1_3 : ∀ i : grid1.Coords, EltTy.bits .f32 = 32 ∨ (Rect.block (s := S8192x1) S512x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x1.size a ≤ S64x1.size a
  hwx1_6 : ∀ i : grid1.Coords, EltTy.bits .f32 = 32 ∨ (Rect.block (s := S64x1) S64x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2048x1.size a ≤ S8192x1.size a
  hwx1_8 : ∀ i : grid1.Coords, EltTy.bits .f32 = 32 ∨ (Rect.block (s := S8192x1) S2048x1.size (cc1_transform_8 i) (hinb1_8 i)).WholeWords (EltTy.packing .f32)

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win0_0 : Pipeline.Window sig grid0 :=
  Pipeline.Window.ofSpec (Memref.whole main_v3) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9_0) S2048x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_1) S2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v9_0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_0) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9_1) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9_1) S512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg5) S64x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v11) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v12) S2048x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

class Facts : Prop extends Facts₀ where

variable [Facts]
-- ==== ReferenceIdeal.lean ====
abbrev S8192x256 : Shape := ⟨2, ![8192, 256]⟩
abbrev S256x256 : Shape := ⟨2, ![256, 256]⟩
abbrev S1x64 : Shape := ⟨2, ![1, 64]⟩
abbrev S64 : Shape := ⟨1, ![64]⟩
abbrev S64x1 : Shape := ⟨2, ![64, 1]⟩
abbrev S1 : Shape := ⟨1, ![1]⟩
abbrev S256x8192 : Shape := ⟨2, ![256, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x64 : Shape := ⟨2, ![8192, 64]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x256, .f32⟩
  | .hbm, ⟨2, _⟩ => ⟨S256x256, .f32⟩
  | .hbm, ⟨3, _⟩ => ⟨S1x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S8192x256, .f32⟩
  | .hbm, ⟨8, _⟩ => ⟨S8192x256, .f32⟩
  | .hbm, ⟨9, _⟩ => ⟨S256x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S8192x1, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S8192x8192, .f32⟩
  | .hbm, ⟨27, _⟩ => ⟨S8192x8192, .f32⟩
  | .hbm, ⟨28, _⟩ => ⟨S8192x256, .f32⟩
  | .hbm, ⟨29, _⟩ => ⟨S8192x256, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S1x8192, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S256x8192, .f32⟩
  | .hbm, ⟨38, _⟩ => ⟨S8192x8192, .f32⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x64, .f32⟩
  | .hbm, ⟨57, _⟩ => ⟨S1x64, .f32⟩
  | .hbm, ⟨58, _⟩ => ⟨S8192x64, .f32⟩
  | .hbm, ⟨59, _⟩ => ⟨S8192x64, .f32⟩
  | .hbm, ⟨60, _⟩ => ⟨S_, .f32⟩
  | .hbm, ⟨61, _⟩ => ⟨S8192x64, .f32⟩
  | .hbm, ⟨62, _⟩ => ⟨S8192x64, .f32⟩
  | .hbm, ⟨63, _⟩ => ⟨S8192x1, .f32⟩
  | .hbm, ⟨64, _⟩ => ⟨S1x1, .f32⟩
  | .hbm, ⟨65, _⟩ => ⟨S8192x1, .f32⟩
  | .hbm, ⟨66, _⟩ => ⟨S8192x1, .f32⟩
  | .hbm, ⟨67, _⟩ => ⟨S8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_call0_cst : Ref sig .tc := ⟨.hbm, 60, rfl⟩
abbrev main_call0_v0 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]

class Facts₀ : Prop where
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  reducesTo_S8192x256_S8192_d1 : S8192x256.ReducesTo [1] S8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x1 : S_.BroadcastsInDim S8192x1 (![] : Fin 0 → Fin S8192x1.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  dot_S8192x256_S256x256_S8192x256_1_0_0_1_n_n_wf : DotDims.WF S8192x256 S256x256 S8192x256 [1] [0] [0] [1] [] []
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []
  dot_S8192x1_S1x64_S8192x64_1_0_0_1_n_n_wf : DotDims.WF S8192x1 S1x64 S8192x64 [1] [0] [0] [1] [] []
  dot_S8192x64_S64x1_S8192x1_1_0_0_1_n_n_wf : DotDims.WF S8192x64 S64x1 S8192x1 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x1_S1x64_S8192x64_1_0_0_1_n_n : DotDims S8192x1 S1x64 S8192x64 where
  lhsContracting := [1]
  rhsContracting := [0]
  lhsNonContracting := [0]
  rhsNonContracting := [1]
  lhsBatch := []
  rhsBatch := []
  wf := dot_S8192x1_S1x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf

class Facts : Prop extends Facts₀ where

variable [Facts]
-- ==== Proof.K.R0Base.lean ====
/-
  The attention kernel (the first of the program's two kernel regions), on a grid of 4 row tiles by 16 column tiles:
  which of its two conditionals a grid point takes, where its two output windows are idle, the staging and scratch
  buffers it is called with, the blocks of its input arrays, and the region's invariant opened into the three
  scratch buffers the kernel carries from one column tile to the next (running maximum, running denominator,
  running numerator), the buffers it never touches, and the generator register.
-/
import proofs.«178816_j65481071400898_2_alg».proof.Proof.Gen.Kernel.Launch
import proofs.«178816_j65481071400898_2_alg».proof.Proof.Gen.Kernel.Skeleton
import proofs.«178816_j65481071400898_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The two conditionals over the grid -/

/-- The first conditional (reset the running maximum, denominator and numerator): taken at column tile 0. -/
abbrev cond0_0 (i : grid0.Coords) : Prop := (Scalar.cmpi .ne (Scalar.extui (Scalar.cmpi .eq (BitVec.ofNat 32 (i 1).val) 0#32)) 0#32) = 1#1
/-- Point `t` is at column tile `t % 16`: the reset happens where that is 0. -/
theorem hcond0_0 : ∀ t : Fin cfg0.N, cond0_0 (grid0.coords t) ↔ t.val % 16 = 0 :=
  (by decide +kernel : ∀ t : Fin grid0.N, cond0_0 (grid0.coords t) ↔ t.val % 16 = 0)

/-- The second conditional (normalise and write the two outputs): taken at the last column tile. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Before the last column tile neither output is stored into, nor written back. -/
theorem idleAt0_3 : ∀ t : Fin cfg0.N, ¬cond0_1 (grid0.coords t) → cfg0.idle 3 (grid0.coords t) = true := by decide +kernel
theorem idleAt0_4 : ∀ t : Fin cfg0.N, ¬cond0_1 (grid0.coords t) → cfg0.idle 4 (grid0.coords t) = true := by decide +kernel
theorem noFlush0_3 : ∀ t : Fin cfg0.N, ¬cond0_1 (grid0.coords t) → (cfg0.win 3).flush t = false := by decide +kernel
theorem noFlush0_4 : ∀ t : Fin cfg0.N, ¬cond0_1 (grid0.coords t) → (cfg0.win 4).flush t = false := by decide +kernel
/-- At the last column tile both outputs are stored whole. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The buffers the body is called with -/

abbrev ms0_0 (t : Fin cfg0.N) : Memref sig .tc .vmem S2048x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1 .f32 := win0_4.stage (cfg0.slots t 4)
abbrev hs0_4 (t : Fin cfg0.N) : (ms0_4 t).IsWhole := hstage0_4 ((cfg0.slots t 4).cast nbuf0_4)
/-- The running maximum, the running denominator and the running numerator. -/
abbrev scM0_0 : Memref sig .tc .vmem S2048x1 .f32 := Memref.whole cc0_scratch0
abbrev scM0_1 : Memref sig .tc .vmem S2048x1 .f32 := Memref.whole cc0_scratch1
abbrev scM0_2 : Memref sig .tc .vmem S2048x256 .f32 := Memref.whole cc0_scratch2
abbrev VS0_0 : View sig .tc .vmem S2048x1 .f32 := scM0_0.view
abbrev VS0_1 : View sig .tc .vmem S2048x1 .f32 := scM0_1.view
abbrev VS0_2 : View sig .tc .vmem S2048x256 .f32 := scM0_2.view
/-- One staging buffer of each output, through which its contents are stated. -/
abbrev VO0_3 : View sig .tc .vmem S2048x256 .bf16 := (Memref.whole cc0_stg3_0 : Memref sig .tc .vmem S2048x256 .bf16).view
abbrev VO0_4 : View sig .tc .vmem S2048x1 .f32 := (Memref.whole cc0_stg4_0 : Memref sig .tc .vmem S2048x1 .f32).view

/-! ## The input blocks -/

/-- Window `w`'s block at point `t`, read off its array at the contents `V` the region is entered with. -/
def iblk0 {c : Dev nD} (V : (b : Ref sig .tc) → Buf (Elt F) ((c : Thread nD τ).loc b)) (w : Fin cfg0.W) (t : Fin cfg0.N) :
    ((cfg0.win w).xblock (cfg0.grid.coords t)).Idx → Elt F (cfg0.win w).elt :=
  ((cfg0.win w).blk t).view.read (Elt F) (V (Pipeline.arrRef spec0 w))

/-- An input's staging buffer holds its block at every point, whether fetched there or kept from the point before
    (the row block does not move while the column tile advances). -/
theorem before0_0_of {c : Dev nD} (V : (b : Ref sig .tc) → Buf (Elt F) ((c : Thread nD τ).loc b)) (dat : Dat τ (Elt F) Unit ℕ (Pipeline.UD sig nD τ) ℕ cfg0 c) (hA : dat.A 0 = V (Pipeline.arrRef spec0 0))
    (hafter : ∀ t, dat.after 0 t = iblk0 V 0 t) (t : Fin cfg0.N) (d) : dat.before 0 t d = iblk0 V 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (V : (b : Ref sig .tc) → Buf (Elt F) ((c : Thread nD τ).loc b)) (dat : Dat τ (Elt F) Unit ℕ (Pipeline.UD sig nD τ) ℕ cfg0 c) (hA : dat.A 1 = V (Pipeline.arrRef spec0 1))
    (hafter : ∀ t, dat.after 1 t = iblk0 V 1 t) (t : Fin cfg0.N) (d) : dat.before 1 t d = iblk0 V 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (V : (b : Ref sig .tc) → Buf (Elt F) ((c : Thread nD τ).loc b)) (dat : Dat τ (Elt F) Unit ℕ (Pipeline.UD sig nD τ) ℕ cfg0 c) (hA : dat.A 2 = V (Pipeline.arrRef spec0 2))
    (hafter : ∀ t, dat.after 2 t = iblk0 V 2 t) (t : Fin cfg0.N) (d) : dat.before 2 t d = iblk0 V 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The region's invariant, opened -/

/-- The scoped buffers this kernel never touches (the other kernel's staging buffers and scratch), each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_scratch0), ((c : Thread nD τ).loc cc1_scratch0) ↦{fullShare} f))

/-- What the launch hands the kernel: its three scratch buffers at anything, the buffers it never touches, the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ rest0 c) ∗ (∃ r, prngReg c r)) := by
  unfold Pipeline.ΦA rest0; rw [scopedRest0_eq]; simp only [scM0_0, scM0_1, scM0_2, owns_whole]; try rfl

end Cert.Kernel.Hand

end
-- ==== Proof.K.R0RunA.lean ====
/-
  The attention kernel's body at the first column tile of a row tile: it resets the running maximum to minus infinity and the running denominator and numerator to zero, then processes the tile; the three scratch buffers may hold anything on entry.
-/
import proofs.«178816_j65481071400898_2_alg».proof.Proof.K.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The attention kernel's body at the first column tile of a row tile: it resets the running maximum to minus infinity and the running denominator and numerator to zero, then processes the tile; the three scratch buffers may hold anything on entry. The stores' pieces are what the run finds. -/
noncomputable def kernelRun0_A (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole)
    (hc0 : cond0_0 i) (hc1 : ¬cond0_1 i)
    (x0 : Vec F S2048x256 .bf16) (x1 : Vec F S512x256 .bf16) (x2 : Vec F S512x256 .bf16) :
    Σ' (LS0 : List (View.Piece (Elt F) S2048x1 .f32)) (LS1 : List (View.Piece (Elt F) S2048x1 .f32)), { LS2 : List (View.Piece (Elt F) S2048x256 .f32) //
      ∀ (xi3 : Vec F S2048x256 .bf16) (xi4 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E
              (cc0__attn_kernel i arg2 harg2 arg3 harg3 arg4 harg4 arg5 harg5 arg6 harg6 arg7 harg7 arg8 harg8 arg9 harg9) K } := by
  refine ⟨?_, ?_, ?_, fun xi3 xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.K.R0RunB.lean ====
/-
  The attention kernel's body at a column tile that is neither the first nor the last: from the three input blocks and the running maximum, denominator and numerator the tile before left, it runs to the end leaving the inputs and the two idle output buffers as they were and the three running quantities rewritten.
-/
import proofs.«178816_j65481071400898_2_alg».proof.Proof.K.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The attention kernel's body at a column tile that is neither the first nor the last: from the three input blocks and the running maximum, denominator and numerator the tile before left, it runs to the end leaving the inputs and the two idle output buffers as they were and the three running quantities rewritten. The stores' pieces are what the run finds. -/
noncomputable def kernelRun0_B (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole)
    (hc0 : ¬cond0_0 i) (hc1 : ¬cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) :
    Σ' (LS0 : List (View.Piece (Elt F) S2048x1 .f32)) (LS1 : List (View.Piece (Elt F) S2048x1 .f32)), { LS2 : List (View.Piece (Elt F) S2048x256 .f32) //
      ∀ (xi3 : Vec F S2048x256 .bf16) (xi4 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E
              (cc0__attn_kernel i arg2 harg2 arg3 harg3 arg4 harg4 arg5 harg5 arg6 harg6 arg7 harg7 arg8 harg8 arg9 harg9) K } := by
  refine ⟨?_, ?_, ?_, fun xi3 xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.K.R0RunC.lean ====
/-
  The attention kernel's body at the last column tile of a row tile: it processes the tile, then divides the running numerator by the running denominator, stores the quotient's row sums of squares into one output and the quotient into the other; the two output buffers may hold anything on entry.
-/
import proofs.«178816_j65481071400898_2_alg».proof.Proof.K.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The attention kernel's body at the last column tile of a row tile: it processes the tile, then divides the running numerator by the running denominator, stores the quotient's row sums of squares into one output and the quotient into the other; the two output buffers may hold anything on entry. The stores' pieces are what the run finds. -/
noncomputable def kernelRun0_C (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole)
    (hc0 : ¬cond0_0 i) (hc1 : cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) :
    Σ' (L3 : List (View.Piece (Elt F) S2048x256 .bf16)) (L4 : List (View.Piece (Elt F) S2048x1 .f32)) (LS0 : List (View.Piece (Elt F) S2048x1 .f32)) (LS1 : List (View.Piece (Elt F) S2048x1 .f32)), { LS2 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E
              (cc0__attn_kernel i arg2 harg2 arg3 harg3 arg4 harg4 arg5 harg5 arg6 harg6 arg7 harg7 arg8 harg8 arg9 harg9) K } := by
  refine ⟨?_, ?_, ?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    isplitl [HS1]; · iexists _; iexact HS1
    iexists _; iexact HS2

end Cert.Kernel.Hand

end
-- ==== Proof.K.R0Dat.lean ====
/-
  The attention kernel point by point: what each case of its body leaves in the three running quantities and in the
  two outputs, those contents by recursion on the grid point (the running quantities are reset at the first column
  tile of a row tile and carried through the other fifteen; the outputs are written at the last), the pipeline's
  proof data, and the body obligation at every point.
-/
import proofs.«178816_j65481071400898_2_alg».proof.Proof.K.R0RunA
import proofs.«178816_j65481071400898_2_alg».proof.Proof.K.R0RunB
import proofs.«178816_j65481071400898_2_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What each case leaves -/

/-- In this case the stores into the running maximum cover its buffer. -/
theorem scover0_A_0 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : cond0_0 i) (hc1 : ¬cond0_1 i)
    (x0 : Vec F S2048x256 .bf16) (x1 : Vec F S512x256 .bf16) (x2 : Vec F S512x256 .bf16) (y : S2048x1.Idx) :
    ∃ pc ∈ (kernelRun0_A c i arg2 harg2 arg3 harg3 arg4 harg4 arg5 harg5 arg6 harg6 arg7 harg7 arg8 harg8 arg9 harg9 hc0 hc1 x0 x1 x2).1, y ∈ pc.1.set :=
  View.cover_of_tiledL (kernelRun0_A c i arg2 harg2 arg3 harg3 arg4 harg4 arg5 harg5 arg6 harg6 arg7 harg7 arg8 harg8 arg9 harg9 hc0 hc1 x0 x1 x2).1 S2048x1.size (by sl_kernel_rfl) y

/-- What this case leaves in the running maximum: its pieces read back. -/
def sout0_A_0 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : cond0_0 i) (hc1 : ¬cond0_1 i)
    (x0 : Vec F S2048x256 .bf16) (x1 : Vec F S512x256 .bf16) (x2 : Vec F S512x256 .bf16) : Vec F S2048x1 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2).1)

/-- In this case the stores into the running denominator cover its buffer. -/
theorem scover0_A_1 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : cond0_0 i) (hc1 : ¬cond0_1 i)
    (x0 : Vec F S2048x256 .bf16) (x1 : Vec F S512x256 .bf16) (x2 : Vec F S512x256 .bf16) (y : S2048x1.Idx) :
    ∃ pc ∈ (kernelRun0_A c i arg2 harg2 arg3 harg3 arg4 harg4 arg5 harg5 arg6 harg6 arg7 harg7 arg8 harg8 arg9 harg9 hc0 hc1 x0 x1 x2).2.1, y ∈ pc.1.set :=
  View.cover_of_tiledL (kernelRun0_A c i arg2 harg2 arg3 harg3 arg4 harg4 arg5 harg5 arg6 harg6 arg7 harg7 arg8 harg8 arg9 harg9 hc0 hc1 x0 x1 x2).2.1 S2048x1.size (by sl_kernel_rfl) y

/-- What this case leaves in the running denominator: its pieces read back. -/
def sout0_A_1 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : cond0_0 i) (hc1 : ¬cond0_1 i)
    (x0 : Vec F S2048x256 .bf16) (x1 : Vec F S512x256 .bf16) (x2 : Vec F S512x256 .bf16) : Vec F S2048x1 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2).2.1)

/-- In this case the stores into the running numerator cover its buffer. -/
theorem scover0_A_2 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : cond0_0 i) (hc1 : ¬cond0_1 i)
    (x0 : Vec F S2048x256 .bf16) (x1 : Vec F S512x256 .bf16) (x2 : Vec F S512x256 .bf16) (y : S2048x256.Idx) :
    ∃ pc ∈ (kernelRun0_A c i arg2 harg2 arg3 harg3 arg4 harg4 arg5 harg5 arg6 harg6 arg7 harg7 arg8 harg8 arg9 harg9 hc0 hc1 x0 x1 x2).2.2.1, y ∈ pc.1.set :=
  View.cover_of_tiledL (kernelRun0_A c i arg2 harg2 arg3 harg3 arg4 harg4 arg5 harg5 arg6 harg6 arg7 harg7 arg8 harg8 arg9 harg9 hc0 hc1 x0 x1 x2).2.2.1 S2048x256.size (by sl_kernel_rfl) y

/-- What this case leaves in the running numerator: its pieces read back. -/
def sout0_A_2 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : cond0_0 i) (hc1 : ¬cond0_1 i)
    (x0 : Vec F S2048x256 .bf16) (x1 : Vec F S512x256 .bf16) (x2 : Vec F S512x256 .bf16) : Vec F S2048x256 .f32 :=
  VS0_2.read (Elt F) (VS0_2.writes (Elt F) VS0_2.junk (kernelRun0_A c i arg2 harg2 arg3 harg3 arg4 harg4 arg5 harg5 arg6 harg6 arg7 harg7 arg8 harg8 arg9 harg9 hc0 hc1 x0 x1 x2).2.2.1)

/-- In this case the stores into the running maximum cover its buffer. -/
theorem scover0_B_0 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : ¬cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) (y : S2048x1.Idx) :
    ∃ pc ∈ (kernelRun0_B c i arg2 harg2 arg3 harg3 arg4 harg4 arg5 harg5 arg6 harg6 arg7 harg7 arg8 harg8 arg9 harg9 hc0 hc1 x0 x1 x2 xs0 xs1 xs2).1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1 xs2).1 S2048x1.size (by sl_kernel_rfl) y

/-- What this case leaves in the running maximum: its pieces read back. -/
def sout0_B_0 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : ¬cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) : Vec F S2048x1 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 xs0 xs1 xs2).1)

/-- In this case the stores into the running denominator cover its buffer. -/
theorem scover0_B_1 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : ¬cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) (y : S2048x1.Idx) :
    ∃ pc ∈ (kernelRun0_B c i arg2 harg2 arg3 harg3 arg4 harg4 arg5 harg5 arg6 harg6 arg7 harg7 arg8 harg8 arg9 harg9 hc0 hc1 x0 x1 x2 xs0 xs1 xs2).2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1 xs2).2.1 S2048x1.size (by sl_kernel_rfl) y

/-- What this case leaves in the running denominator: its pieces read back. -/
def sout0_B_1 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : ¬cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) : Vec F S2048x1 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 xs0 xs1 xs2).2.1)

/-- In this case the stores into the running numerator cover its buffer. -/
theorem scover0_B_2 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : ¬cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) (y : S2048x256.Idx) :
    ∃ pc ∈ (kernelRun0_B c i arg2 harg2 arg3 harg3 arg4 harg4 arg5 harg5 arg6 harg6 arg7 harg7 arg8 harg8 arg9 harg9 hc0 hc1 x0 x1 x2 xs0 xs1 xs2).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1 xs2).2.2.1 S2048x256.size (by sl_kernel_rfl) y

/-- What this case leaves in the running numerator: its pieces read back. -/
def sout0_B_2 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : ¬cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) : Vec F S2048x256 .f32 :=
  VS0_2.read (Elt F) (VS0_2.writes (Elt F) VS0_2.junk (kernelRun0_B c i arg2 harg2 arg3 harg3 arg4 harg4 arg5 harg5 arg6 harg6 arg7 harg7 arg8 harg8 arg9 harg9 hc0 hc1 x0 x1 x2 xs0 xs1 xs2).2.2.1)

/-- In this case the stores into the running maximum cover its buffer. -/
theorem scover0_C_0 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) (y : S2048x1.Idx) :
    ∃ pc ∈ (kernelRun0_C c i arg2 harg2 arg3 harg3 arg4 harg4 arg5 harg5 arg6 harg6 arg7 harg7 arg8 harg8 arg9 harg9 hc0 hc1 x0 x1 x2 xs0 xs1 xs2).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1 xs2).2.2.1 S2048x1.size (by sl_kernel_rfl) y

/-- What this case leaves in the running maximum: its pieces read back. -/
def sout0_C_0 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) : Vec F S2048x1 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 xs0 xs1 xs2).2.2.1)

/-- In this case the stores into the running denominator cover its buffer. -/
theorem scover0_C_1 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) (y : S2048x1.Idx) :
    ∃ pc ∈ (kernelRun0_C c i arg2 harg2 arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1 xs2).2.2.2.1 S2048x1.size (by sl_kernel_rfl) y

/-- What this case leaves in the running denominator: its pieces read back. -/
def sout0_C_1 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) : Vec F S2048x1 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 xs0 xs1 xs2).2.2.2.1)

/-- In this case the stores into the running numerator cover its buffer. -/
theorem scover0_C_2 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) (y : S2048x256.Idx) :
    ∃ pc ∈ (kernelRun0_C c i arg2 harg2 arg3 harg3 arg4 harg4 arg5 harg5 arg6 harg6 arg7 harg7 arg8 harg8 arg9 harg9 hc0 hc1 x0 x1 x2 xs0 xs1 xs2).2.2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1 xs2).2.2.2.2.1 S2048x256.size (by sl_kernel_rfl) y

/-- What this case leaves in the running numerator: its pieces read back. -/
def sout0_C_2 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) : Vec F S2048x256 .f32 :=
  VS0_2.read (Elt F) (VS0_2.writes (Elt F) VS0_2.junk (kernelRun0_C c i arg2 harg2 arg3 harg3 arg4 harg4 arg5 harg5 arg6 harg6 arg7 harg7 arg8 harg8 arg9 harg9 hc0 hc1 x0 x1 x2 xs0 xs1 xs2).2.2.2.2.1)

/-- At the last column tile the stores into the normalised-attention output cover its buffer. -/
theorem cover0_C_3 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) (y : S2048x256.Idx) :
    ∃ pc ∈ (kernelRun0_C c i arg2 harg2 arg3 harg3 arg4 harg4 arg5 harg5 arg6 harg6 arg7 harg7 arg8 harg8 arg9 harg9 hc0 hc1 x0 x1 x2 xs0 xs1 xs2).1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1 xs2).1 S2048x256.size (by sl_kernel_rfl) y
/-- What it leaves there. -/
def out0_C_3 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) : Vec F S2048x256 .bf16 :=
  VO0_3.read (Elt F) (VO0_3.writes (Elt F) VO0_3.junk (kernelRun0_C c i arg2 harg2 arg3 harg3 arg4 harg4 arg5 harg5 arg6 harg6 arg7 harg7 arg8 harg8 arg9 harg9 hc0 hc1 x0 x1 x2 xs0 xs1 xs2).1)
/-- At the last column tile the stores into the sum-of-squares output cover its buffer. -/
theorem cover0_C_4 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) (y : S2048x1.Idx) :
    ∃ pc ∈ (kernelRun0_C c i arg2 harg2 arg3 harg3 arg4 harg4 arg5 harg5 arg6 harg6 arg7 harg7 arg8 harg8 arg9 harg9 hc0 hc1 x0 x1 x2 xs0 xs1 xs2).2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1 xs2).2.1 S2048x1.size (by sl_kernel_rfl) y
/-- What it leaves there. -/
def out0_C_4 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) : Vec F S2048x1 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 x2 xs0 xs1 xs2).2.1)

/-! ## The running quantities, point by point -/

variable (V : (c : Dev nD) → (b : Ref sig .tc) → Buf (Elt F) ((c : Thread nD τ).loc b))

/-- THE RECURRENCE. What the running maximum, denominator and numerator hold after the body at position `n`: at the
    first column tile of a row tile what the reset case computes from that tile's blocks alone; at every other column
    tile what the carrying cases compute from the tile's blocks and what position `n - 1` left. -/
def scrAt0 (c : Dev nD) : (n : ℕ) → n < cfg0.N → Vec F S2048x1 .f32 × Vec F S2048x1 .f32 × Vec F S2048x256 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 (V c) 0 ⟨0, hn⟩) (iblk0 (V c) 1 ⟨0, hn⟩) (iblk0 (V c) 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 (V c) 0 ⟨0, hn⟩) (iblk0 (V c) 1 ⟨0, hn⟩) (iblk0 (V c) 2 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 (V c) 0 ⟨0, hn⟩) (iblk0 (V c) 1 ⟨0, hn⟩) (iblk0 (V c) 2 ⟨0, hn⟩))
  | n + 1, hn =>
    if h0 : (n + 1) % 16 = 0 then
      if h1 : (n + 1) % 16 = 15 then
        False.elim (by omega)
      else
        (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 (V c) 0 ⟨n + 1, hn⟩) (iblk0 (V c) 1 ⟨n + 1, hn⟩) (iblk0 (V c) 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 (V c) 0 ⟨n + 1, hn⟩) (iblk0 (V c) 1 ⟨n + 1, hn⟩) (iblk0 (V c) 2 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 (V c) 0 ⟨n + 1, hn⟩) (iblk0 (V c) 1 ⟨n + 1, hn⟩) (iblk0 (V c) 2 ⟨n + 1, hn⟩))
    else
      if h1 : (n + 1) % 16 = 15 then
        (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 (V c) 0 ⟨n + 1, hn⟩) (iblk0 (V c) 1 ⟨n + 1, hn⟩) (iblk0 (V c) 2 ⟨n + 1, hn⟩) (scrAt0 c n (Nat.lt_of_succ_lt hn)).1 (scrAt0 c n (Nat.lt_of_succ_lt hn)).2.1 (scrAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 (V c) 0 ⟨n + 1, hn⟩) (iblk0 (V c) 1 ⟨n + 1, hn⟩) (iblk0 (V c) 2 ⟨n + 1, hn⟩) (scrAt0 c n (Nat.lt_of_succ_lt hn)).1 (scrAt0 c n (Nat.lt_of_succ_lt hn)).2.1 (scrAt0 c n (Nat.lt_of_succ_lt hn)).2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 (V c) 0 ⟨n + 1, hn⟩) (iblk0 (V c) 1 ⟨n + 1, hn⟩) (iblk0 (V c) 2 ⟨n + 1, hn⟩) (scrAt0 c n (Nat.lt_of_succ_lt hn)).1 (scrAt0 c n (Nat.lt_of_succ_lt hn)).2.1 (scrAt0 c n (Nat.lt_of_succ_lt hn)).2.2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 (V c) 0 ⟨n + 1, hn⟩) (iblk0 (V c) 1 ⟨n + 1, hn⟩) (iblk0 (V c) 2 ⟨n + 1, hn⟩) (scrAt0 c n (Nat.lt_of_succ_lt hn)).1 (scrAt0 c n (Nat.lt_of_succ_lt hn)).2.1 (scrAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 (V c) 0 ⟨n + 1, hn⟩) (iblk0 (V c) 1 ⟨n + 1, hn⟩) (iblk0 (V c) 2 ⟨n + 1, hn⟩) (scrAt0 c n (Nat.lt_of_succ_lt hn)).1 (scrAt0 c n (Nat.lt_of_succ_lt hn)).2.1 (scrAt0 c n (Nat.lt_of_succ_lt hn)).2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 (V c) 0 ⟨n + 1, hn⟩) (iblk0 (V c) 1 ⟨n + 1, hn⟩) (iblk0 (V c) 2 ⟨n + 1, hn⟩) (scrAt0 c n (Nat.lt_of_succ_lt hn)).1 (scrAt0 c n (Nat.lt_of_succ_lt hn)).2.1 (scrAt0 c n (Nat.lt_of_succ_lt hn)).2.2)

/-- At the first column tile of a row tile: the reset case's contents. -/
theorem scrAt0_A (c : Dev nD) (t : Fin cfg0.N) (h0 : t.val % 16 = 0) (h1 : ¬t.val % 16 = 15) :
    scrAt0 V c t.val t.isLt = (sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk0 (V c) 0 t) (iblk0 (V c) 1 t) (iblk0 (V c) 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk0 (V c) 0 t) (iblk0 (V c) 1 t) (iblk0 (V c) 2 t), sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk0 (V c) 0 t) (iblk0 (V c) 1 t) (iblk0 (V c) 2 t)) := by
  obtain ⟨n, hn⟩ := t
  cases n with
  | zero => exact rfl
  | succ n => exact (dif_pos h0).trans ((dif_neg h1).trans rfl)

/-- At a middle column tile: the carrying case's contents over what the point before left. -/
theorem scrAt0_B (c : Dev nD) (t : Fin cfg0.N) (h0 : ¬t.val % 16 = 0) (h1 : ¬t.val % 16 = 15) :
    scrAt0 V c t.val t.isLt = (sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk0 (V c) 0 t) (iblk0 (V c) 1 t) (iblk0 (V c) 2 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk0 (V c) 0 t) (iblk0 (V c) 1 t) (iblk0 (V c) 2 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2, sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk0 (V c) 0 t) (iblk0 (V c) 1 t) (iblk0 (V c) 2 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At the last column tile: the normalising case's contents over what the point before left. -/
theorem scrAt0_C (c : Dev nD) (t : Fin cfg0.N) (h0 : ¬t.val % 16 = 0) (h1 : t.val % 16 = 15) :
    scrAt0 V c t.val t.isLt = (sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk0 (V c) 0 t) (iblk0 (V c) 1 t) (iblk0 (V c) 2 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk0 (V c) 0 t) (iblk0 (V c) 1 t) (iblk0 (V c) 2 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2, sout0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk0 (V c) 0 t) (iblk0 (V c) 1 t) (iblk0 (V c) 2 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- What the two outputs' staging buffers hold after the body at point `t`: at the last column tile of a row tile the
    normalised attention block and its rows' sums of squares, computed from the tile's blocks and the running quantities
    the point before left; elsewhere the outputs are idle and the value is never consulted. -/
def outAt0_3 (c : Dev nD) (t : Fin cfg0.N) : Vec F S2048x256 .bf16 :=
  if h1 : t.val % 16 = 15 then
    out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => (fun h => by omega) ((hcond0_0 t).mp h)) ((hcond0_1 t).mpr h1) (iblk0 (V c) 0 t) (iblk0 (V c) 1 t) (iblk0 (V c) 2 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2
  else VO0_3.read (Elt F) VO0_3.junk
def outAt0_4 (c : Dev nD) (t : Fin cfg0.N) : Vec F S2048x1 .f32 :=
  if h1 : t.val % 16 = 15 then
    out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => (fun h => by omega) ((hcond0_0 t).mp h)) ((hcond0_1 t).mpr h1) (iblk0 (V c) 0 t) (iblk0 (V c) 1 t) (iblk0 (V c) 2 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2
  else VO0_4.read (Elt F) VO0_4.junk

/-! ## The invariant between points -/

/-- Before the first point the three scratch buffers hold anything; before any later point they hold what the point
    before left. The buffers the kernel never touches and the generator register ride along. -/
def PhiS0 (c : Dev nD) : (n : ℕ) → n ≤ cfg0.N → sProp 𝕄
  | 0, _ => Pipeline.ΦA spec0 c
  | n + 1, hn => iprop(iprop(owns (c : Thread nD τ) scM0_0 fullShare (scrAt0 V c n hn).1 ∗ owns (c : Thread nD τ) scM0_1 fullShare (scrAt0 V c n hn).2.1 ∗ owns (c : Thread nD τ) scM0_2 fullShare (scrAt0 V c n hn).2.2 ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (scrAt0 V c n hn).1 ∗ owns (c : Thread nD τ) scM0_1 fullShare (scrAt0 V c n hn).2.1 ∗ owns (c : Thread nD τ) scM0_2 fullShare (scrAt0 V c n hn).2.2 ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (scrAt0 V c (n - 1) (by omega)).1 ∗ owns (c : Thread nD τ) scM0_1 fullShare (scrAt0 V c (n - 1) (by omega)).2.1 ∗ owns (c : Thread nD τ) scM0_2 fullShare (scrAt0 V c (n - 1) (by omega)).2.2 ∗ rest0 c) ∗ (∃ r, prngReg c r)) := by
  cases n with
  | zero => exact absurd rfl hz
  | succ n => rfl

/-! ## The pipeline's proof data -/

/-- The attention kernel's proof data on core `c`: its arrays at the contents `V` the region is entered with; after the
    body each input's buffer at its block, the outputs' at `outAt0_3` / `outAt0_4`; the invariant `PhiS0`; nothing owed. -/
def dat0 (c : Dev nD) : Dat τ (Elt F) Unit ℕ (Pipeline.UD sig nD τ) ℕ cfg0 c where
  A w := V c (Pipeline.arrRef spec0 w)
  after w t := match w with
    | ⟨0, _⟩ => iblk0 (V c) 0 t
    | ⟨1, _⟩ => iblk0 (V c) 1 t
    | ⟨2, _⟩ => iblk0 (V c) 2 t
    | ⟨3, _⟩ => outAt0_3 V c t
    | ⟨4, _⟩ => outAt0_4 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 (V c) 0 t := by dsimp only [dat0]
theorem after0_1 (c : Dev nD) (t : Fin cfg0.N) : (dat0 V c).after 1 t = iblk0 (V c) 1 t := by dsimp only [dat0]
theorem after0_2 (c : Dev nD) (t : Fin cfg0.N) : (dat0 V c).after 2 t = iblk0 (V c) 2 t := by dsimp only [dat0]
theorem after0_3 (c : Dev nD) (t : Fin cfg0.N) : (dat0 V c).after 3 t = outAt0_3 V c t := by dsimp only [dat0]
theorem after0_4 (c : Dev nD) (t : Fin cfg0.N) : (dat0 V c).after 4 t = outAt0_4 V c t := by dsimp only [dat0]
theorem before0_0 (c : Dev nD) (t : Fin cfg0.N) (d) : (dat0 V c).before 0 t d = iblk0 (V c) 0 t :=
  before0_0_of (V c) (dat0 V c) (A_eq0 V c 0) (after0_0 V c) t d
theorem before0_1 (c : Dev nD) (t : Fin cfg0.N) (d) : (dat0 V c).before 1 t d = iblk0 (V c) 1 t :=
  before0_1_of (V c) (dat0 V c) (A_eq0 V c 1) (after0_1 V c) t d
theorem before0_2 (c : Dev nD) (t : Fin cfg0.N) (d) : (dat0 V c).before 2 t d = iblk0 (V c) 2 t :=
  before0_2_of (V c) (dat0 V c) (A_eq0 V c 2) (after0_2 V c) t d

/-! ## The body obligation -/

/-- What the body is called with at point `t`: the invariant, the core's dues, and each window's current staging
    buffer at what the pipeline left there. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t ∗ (dat0 V c).leavesExact 4 t)

set_option maxHeartbeats 8000000 in
/-- The body at any point. Its column tile decides the case; the inputs' buffers hold their blocks; the invariant hands
    the body the three running quantities at what the point before left (anything at the very first point, and the
    reset case does not read them) and takes them back at this point's contents; before the last column tile the two
    outputs are handed back untouched, at it they hold the stored blocks. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  rw [show (dat0 V c).leavesExact 2 t = owns (c : Thread nD τ) (ms0_2 t) fullShare ((dat0 V c).after 2 t) from by
        unfold Dat.leavesExact; rw [liveAt0_2 t], after0_2]
  by_cases h0 : t.val % 16 = 0
  · have h1 : ¬t.val % 16 = 15 := by omega
    have hc0' : cond0_0 (grid0.coords t) := (hcond0_0 t).mpr h0
    have hc1' : ¬cond0_1 (grid0.coords t) := fun h => h1 ((hcond0_1 t).mp h)
    rw [Dat.leavesExact_idle (dat0 V c) 3 t (idleAt0_3 t hc1') (noFlush0_3 t hc1')]
    rw [Dat.leavesExact_idle (dat0 V c) 4 t (idleAt0_4 t hc1') (noFlush0_4 t hc1')]
    rw [scrAt0_A V c t h0 h1]
    unfold sout0_A_0 sout0_A_1 sout0_A_2; (try dsimp only)
    by_cases hz : t.val = 0
    ·
        rw [PhiS0_castSucc V c t, PhiS0_zero V c _ _ hz, PhiA0_eq]
        iintro ⟨⟨⟨HS0, HS1, HS2, Hrest⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ hc0' hc1' (iblk0 (V c) 0 t) (iblk0 (V c) 1 t) (iblk0 (V c) 2 t)).2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hrest Hg]
        · isplitl [HS0 HS1 HS2 Hrest]
          swap; · iexact Hg
          isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _)
          iexact Hrest
        isplitl [Ho]; · iexact Ho
        isplitl [H0]; · iexact H0
        isplitl [H1]; · iexact H1
        isplitl [H2]; · iexact H2
        isplitl [H3]; · iexists _; iexact H3
        iexists _; iexact H4
    ·
        rw [PhiS0_castSucc V c t, PhiS0_pos V c _ _ hz]
        iintro ⟨⟨⟨HS0, HS1, HS2, Hrest⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ hc0' hc1' (iblk0 (V c) 0 t) (iblk0 (V c) 1 t) (iblk0 (V c) 2 t)).2.2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HS0 HS1 HS2 Hrest Hg]
        · isplitl [HS0 HS1 HS2 Hrest]
          swap; · iexact Hg
          isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _)
          iexact Hrest
        isplitl [Ho]; · iexact Ho
        isplitl [H0]; · iexact H0
        isplitl [H1]; · iexact H1
        isplitl [H2]; · iexact H2
        isplitl [H3]; · iexists _; iexact H3
        iexists _; iexact H4
  · have hc0' : ¬cond0_0 (grid0.coords t) := fun h => h0 ((hcond0_0 t).mp h)
    have hz : t.val ≠ 0 := fun h => h0 (by rw [h])
    by_cases h1 : t.val % 16 = 15
    · have hc1' : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hc1'], after0_3]
      rw [show (dat0 V c).leavesExact 4 t = owns (c : Thread nD τ) (ms0_4 t) fullShare ((dat0 V c).after 4 t) from by
        unfold Dat.leavesExact; rw [liveAt0_4 t hc1'], after0_4]
      rw [scrAt0_C V c t h0 h1]
      unfold outAt0_3 outAt0_4; rw [dif_pos h1, dif_pos h1]
      unfold out0_C_3 out0_C_4 sout0_C_0 sout0_C_1 sout0_C_2; (try dsimp only)
      ·
        rw [PhiS0_castSucc V c t, PhiS0_pos V c _ _ hz]
        iintro ⟨⟨⟨HS0, HS1, HS2, Hrest⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ _ _ hc0' hc1' (iblk0 (V c) 0 t) (iblk0 (V c) 1 t) (iblk0 (V c) 2 t) _ _ _).2.2.2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        isplitl [HS1]; · iexact HS1
        isplitl [HS2]; · iexact HS2
        iintro ⟨H0, H1, H2, ⟨%e3, H3⟩, ⟨%e4, H4⟩, ⟨%es0, HS0⟩, ⟨%es1, HS1⟩, ⟨%es2, HS2⟩⟩
        isplitl [HS0 HS1 HS2 Hrest Hg]
        · isplitl [HS0 HS1 HS2 Hrest]
          swap; · iexact Hg
          isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_C_2 c _ _ _ _ _ _ _ _ _ _ _ _ _ _ _ _ _ _ _ _ _ _ _ _ _)
          iexact Hrest
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _ _ _ _ _ _ _)
    · have hc1' : ¬cond0_1 (grid0.coords t) := fun h => h1 ((hcond0_1 t).mp h)
      rw [Dat.leavesExact_idle (dat0 V c) 3 t (idleAt0_3 t hc1') (noFlush0_3 t hc1')]
      rw [Dat.leavesExact_idle (dat0 V c) 4 t (idleAt0_4 t hc1') (noFlush0_4 t hc1')]
      rw [scrAt0_B V c t h0 h1]
      unfold sout0_B_0 sout0_B_1 sout0_B_2; (try dsimp only)
      ·
        rw [PhiS0_castSucc V c t, PhiS0_pos V c _ _ hz]
        iintro ⟨⟨⟨HS0, HS1, HS2, Hrest⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ _ _ hc0' hc1' (iblk0 (V c) 0 t) (iblk0 (V c) 1 t) (iblk0 (V c) 2 t) _ _ _).2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hrest Hg]
        · isplitl [HS0 HS1 HS2 Hrest]
          swap; · iexact Hg
          isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _)
          iexact Hrest
        isplitl [Ho]; · iexact Ho
        isplitl [H0]; · iexact H0
        isplitl [H1]; · iexact H1
        isplitl [H2]; · iexact H2
        isplitl [H3]; · iexists _; iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back: the running quantities' contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl, PhiS0_pos V c _ _ hne, PhiA0_eq]
  iintro ⟨⟨HS0, HS1, HS2, Hrest⟩, Hg⟩
  isplitl [HS0 HS1 HS2 Hrest]
  · isplitl [HS0]; · iexists _; iexact HS0
    isplitl [HS1]; · iexists _; iexact HS1
    isplitl [HS2]; · iexists _; iexact HS2
    iexact Hrest
  iexact Hg

end Cert.Kernel.Hand

end
-- ==== Proof.K.R1Base.lean ====
/-
  The second kernel (pairwise squared distances of the attention rows, their Gaussian kernel summed along each row,
  and at the last column tile the mean and a two-layer head), on a grid of 4 row tiles by 16 column tiles: which of
  its two conditionals a grid point takes, where its output window is idle, the staging and scratch buffers it is
  called with, the blocks of its input arrays, and the region's invariant opened into the running row sum the kernel
  carries from one column tile to the next, the buffers it never touches, and the generator register.
-/
import proofs.«178816_j65481071400898_2_alg».proof.Proof.Gen.Kernel.Launch
import proofs.«178816_j65481071400898_2_alg».proof.Proof.Gen.Kernel.Skeleton
import proofs.«178816_j65481071400898_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The second kernel's branch conditions -/

/-- The condition of the second kernel's first conditional, from the grid coordinates: the column
    coordinate is zero. -/
abbrev cond1_0 (i : grid1.Coords) : Prop := (Scalar.cmpi .ne (Scalar.extui (Scalar.cmpi .eq (BitVec.ofNat 32 (i 1).val) 0#32)) 0#32) = 1#1
/-- It holds at the points ≡ 0 (mod 16): the first column tile of each row tile. -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of its second conditional: the column coordinate is the last one. -/
abbrev cond1_1 (i : grid1.Coords) : Prop := k1_cond2 i = 1#1
/-- It holds at the points ≡ 15 (mod 16): the last column tile of each row tile. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

/-- Input window 0 is never idle. -/
theorem liveAt1_0 : ∀ t : Fin cfg1.N, cfg1.idle 0 (grid1.coords t) = false := by decide +kernel
/-- Input window 1 is never idle. -/
theorem liveAt1_1 : ∀ t : Fin cfg1.N, cfg1.idle 1 (grid1.coords t) = false := by decide +kernel
/-- Input window 2 is never idle. -/
theorem liveAt1_2 : ∀ t : Fin cfg1.N, cfg1.idle 2 (grid1.coords t) = false := by decide +kernel
/-- Input window 3 is never idle. -/
theorem liveAt1_3 : ∀ t : Fin cfg1.N, cfg1.idle 3 (grid1.coords t) = false := by decide +kernel
/-- Input window 4 is never idle. -/
theorem liveAt1_4 : ∀ t : Fin cfg1.N, cfg1.idle 4 (grid1.coords t) = false := by decide +kernel
/-- Input window 5 is never idle. -/
theorem liveAt1_5 : ∀ t : Fin cfg1.N, cfg1.idle 5 (grid1.coords t) = false := by decide +kernel
/-- Input window 6 is never idle. -/
theorem liveAt1_6 : ∀ t : Fin cfg1.N, cfg1.idle 6 (grid1.coords t) = false := by decide +kernel
/-- Input window 7 is never idle. -/
theorem liveAt1_7 : ∀ t : Fin cfg1.N, cfg1.idle 7 (grid1.coords t) = false := by decide +kernel
/-- At a first column tile the body stores nothing into the output: the window is idle there. -/
theorem idleAt1_8_A : ∀ t : Fin cfg1.N, cond1_0 (grid1.coords t) → ¬cond1_1 (grid1.coords t) → cfg1.idle 8 (grid1.coords t) = true := by decide +kernel
/-- and its block is not written back there. -/
theorem noFlush1_8_A : ∀ t : Fin cfg1.N, cond1_0 (grid1.coords t) → ¬cond1_1 (grid1.coords t) → (cfg1.win 8).flush t = false := by decide +kernel
/-- At an inner column tile the body stores nothing into the output: the window is idle there. -/
theorem idleAt1_8_B : ∀ t : Fin cfg1.N, ¬cond1_0 (grid1.coords t) → ¬cond1_1 (grid1.coords t) → cfg1.idle 8 (grid1.coords t) = true := by decide +kernel
/-- and its block is not written back there. -/
theorem noFlush1_8_B : ∀ t : Fin cfg1.N, ¬cond1_0 (grid1.coords t) → ¬cond1_1 (grid1.coords t) → (cfg1.win 8).flush t = false := by decide +kernel
/-- At a last column tile the body stores the output block: the window is live there. -/
theorem liveAt1_8_C : ∀ t : Fin cfg1.N, ¬cond1_0 (grid1.coords t) → cond1_1 (grid1.coords t) → cfg1.idle 8 (grid1.coords t) = false := by decide +kernel

/-! ## The memrefs the body is called with -/

/-- Each window's current staging memref at point `t`, and its wholeness. -/
abbrev ms1_0 (t : Fin cfg1.N) : Memref sig .tc .vmem S2048x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S2048x1 .f32 := win1_8.stage (cfg1.slots t 8)
abbrev hs1_8 (t : Fin cfg1.N) : (ms1_8 t).IsWhole := hstage1_8 ((cfg1.slots t 8).cast nbuf1_8)
/-- The accumulator of row sums: a whole buffer of the kernel's own, carried from one column tile to the next. -/
abbrev scM1_0 : Memref sig .tc .vmem S2048x1 .f32 := Memref.whole cc1_scratch0
/-- The accumulator as a view: what it holds is stated through it. -/
abbrev VS1_0 : View sig .tc .vmem S2048x1 .f32 := scM1_0.view
/-- One staging buffer of the output window, through which its contents are stated (reading back what was
    written over a covered view does not depend on the view). -/
abbrev VO1_8 : View sig .tc .vmem S2048x1 .f32 := (Memref.whole cc1_stg8_0 : Memref sig .tc .vmem S2048x1 .f32).view

/-! ## The windows' blocks -/

/-- Window `w`'s block at point `t`, read off its array at the contents `V` the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s and whose body leaves the block in place: unfetched, the block index has not moved. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s and whose body leaves the block in place: unfetched, the block index has not moved. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s and whose body leaves the block in place: unfetched, the block index has not moved. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s and whose body leaves the block in place: unfetched, the block index has not moved. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is `V`'s and whose body leaves the block in place: unfetched, the block index has not moved. -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for any proof
    data whose array is `V`'s and whose body leaves the block in place: unfetched, the block index has not moved. -/
theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for any proof
    data whose array is `V`'s and whose body leaves the block in place: unfetched, the block index has not moved. -/
theorem before1_7_of {c : Dev nD} (dat : Dat τ (Elt F) Unit ℕ (Pipeline.UD sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The region invariant -/

/-- The other kernel's staging buffers and scratch, each whole at some contents: the part of the region
    invariant this kernel never touches. -/
def rest1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f))

/-- Two propositions that entail each other are equal. -/
theorem eq_of_entails1 {P Q : sProp 𝕄} (h₁ : P ⊢ Q) (h₂ : Q ⊢ P) : P = Q := BI.equiv_iff.mp ⟨h₁, h₂⟩

/-- The class's region invariant, with the accumulator as a memref owned at some contents: the other kernel's
    buffers, the accumulator, the generator register. -/
theorem PhiA1_eq (c : Dev nD) :
    (Pipeline.ΦA spec1 c : sProp 𝕄)
      = iprop(rest1 (F := F) c ∗ (∃ d, owns (c : Thread nD τ) scM1_0 fullShare d) ∗ (∃ r, prngReg c r)) := by
  unfold Pipeline.ΦA; rw [scopedRest1_eq]; simp only [scM1_0, owns_whole]; unfold rest1
  refine eq_of_entails1 ?_ ?_
  · iintro ⟨⟨A0, A1, A2, A3, A4, A5, A6, A7, A8, A9, A10, A11, A12, HS⟩, Hg⟩
    isplitl [A0 A1 A2 A3 A4 A5 A6 A7 A8 A9 A10 A11 A12]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      iexact A12
    isplitl [HS]; · iexact HS
    iexact Hg
  · iintro ⟨⟨A0, A1, A2, A3, A4, A5, A6, A7, A8, A9, A10, A11, A12⟩, HS, Hg⟩
    isplitr [Hg]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      iexact HS
    iexact Hg

end Cert.Kernel.Hand

end
-- ==== Proof.K.R1RunA.lean ====
/-
  The second kernel's body at the first column tile of a row tile: it resets the running row sum to zero, then adds
  the tile's row sums of the Gaussian kernel; the scratch buffer may hold anything on entry.
-/
import proofs.«178816_j65481071400898_2_alg».proof.Proof.K.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The second kernel's body at a first column tile (first conditional taken, second not): on whole memrefs,
    the inputs' at their blocks, the output's at contents it hands back untouched, the accumulator at anything
    (the body overwrites it whole with zeros before reading it), the body runs to the continuation holding the
    inputs and the output as they were and the accumulator with the pieces its two stores wrote (last first);
    the pieces are the witness the run finds. The output gets no piece. -/
noncomputable def kernelRun1_A (c : Dev nD) (i : grid1.Coords)
    (arg2 : Memref sig .tc .vmem S2048x256 .bf16) (harg2 : arg2.IsWhole) (arg3 : Memref sig .tc .vmem S512x256 .bf16) (harg3 : arg3.IsWhole)
    (arg4 : Memref sig .tc .vmem S2048x1 .f32) (harg4 : arg4.IsWhole) (arg5 : Memref sig .tc .vmem S512x1 .f32) (harg5 : arg5.IsWhole)
    (arg6 : Memref sig .tc .vmem S1x64 .f32) (harg6 : arg6.IsWhole) (arg7 : Memref sig .tc .vmem S1x64 .f32) (harg7 : arg7.IsWhole)
    (arg8 : Memref sig .tc .vmem S64x1 .f32) (harg8 : arg8.IsWhole) (arg9 : Memref sig .tc .vmem S1x1 .f32) (harg9 : arg9.IsWhole)
    (arg10 : Memref sig .tc .vmem S2048x1 .f32) (harg10 : arg10.IsWhole) (arg11 : Memref sig .tc .vmem S2048x1 .f32) (harg11 : arg11.IsWhole)
    (hc0 : cond1_0 i) (hc1 : ¬cond1_1 i)
    (x0 : Vec F S2048x256 .bf16) (x1 : Vec F S512x256 .bf16) (x2 : Vec F S2048x1 .f32) (x3 : Vec F S512x1 .f32)
    (x4 : Vec F S1x64 .f32) (x5 : Vec F S1x64 .f32) (x6 : Vec F S64x1 .f32) (x7 : Vec F S1x1 .f32) :
    Σ' (L8 : List (View.Piece (Elt F) S2048x1 .f32)), { LS0 : List (View.Piece (Elt F) S2048x1 .f32) //
      ∀ (xi8 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare x4 ∗ owns (c : Thread nD τ) arg7 fullShare x5 ∗ owns (c : Thread nD τ) arg8 fullShare x6 ∗ owns (c : Thread nD τ) arg9 fullShare x7
                ∗ owns (c : Thread nD τ) arg10 fullShare xi8
                ∗ (∃ f, arg11.view.loc (c : Thread nD τ) ↦[arg11.view.set]{fullShare} arg11.view.writes (Elt F) f LS0)) -∗ K ⟨⟩))
          ⊢ wp frame (wpE (defs₀ (F := F)) Variants.none c none) E
              (cc1__rbf_kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc1__rbf_kernel_eq_skeleton]; unfold cc1__rbf_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.Kernel.Hand

end
-- ==== Proof.K.R1RunB.lean ====
/-
  The second kernel's body at a column tile that is neither the first nor the last: it adds the tile's row sums of the
  Gaussian kernel to the running row sum the tile before left, and leaves everything else as it was.
-/
import proofs.«178816_j65481071400898_2_alg».proof.Proof.K.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The second kernel's body at an inner column tile (neither conditional taken): on whole memrefs, the inputs'
    at their blocks, the output's at contents it hands back untouched, the accumulator at what the tile before
    left, the body runs to the continuation holding the inputs and the output as they were and the accumulator
    with the piece its store wrote; the piece is the witness the run finds. The output gets no piece. -/
noncomputable def kernelRun1_B (c : Dev nD) (i : grid1.Coords)
    (arg2 : Memref sig .tc .vmem S2048x256 .bf16) (harg2 : arg2.IsWhole) (arg3 : Memref sig .tc .vmem S512x256 .bf16) (harg3 : arg3.IsWhole)
    (arg4 : Memref sig .tc .vmem S2048x1 .f32) (harg4 : arg4.IsWhole) (arg5 : Memref sig .tc .vmem S512x1 .f32) (harg5 : arg5.IsWhole)
    (arg6 : Memref sig .tc .vmem S1x64 .f32) (harg6 : arg6.IsWhole) (arg7 : Memref sig .tc .vmem S1x64 .f32) (harg7 : arg7.IsWhole)
    (arg8 : Memref sig .tc .vmem S64x1 .f32) (harg8 : arg8.IsWhole) (arg9 : Memref sig .tc .vmem S1x1 .f32) (harg9 : arg9.IsWhole)
    (arg10 : Memref sig .tc .vmem S2048x1 .f32) (harg10 : arg10.IsWhole) (arg11 : Memref sig .tc .vmem S2048x1 .f32) (harg11 : arg11.IsWhole)
    (hc0 : ¬cond1_0 i) (hc1 : ¬cond1_1 i)
    (x0 : Vec F S2048x256 .bf16) (x1 : Vec F S512x256 .bf16) (x2 : Vec F S2048x1 .f32) (x3 : Vec F S512x1 .f32)
    (x4 : Vec F S1x64 .f32) (x5 : Vec F S1x64 .f32) (x6 : Vec F S64x1 .f32) (x7 : Vec F S1x1 .f32) (xs0 : Vec F S2048x1 .f32) :
    Σ' (L8 : List (View.Piece (Elt F) S2048x1 .f32)), { LS0 : List (View.Piece (Elt F) S2048x1 .f32) //
      ∀ (xi8 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare x4 ∗ owns (c : Thread nD τ) arg7 fullShare x5 ∗ owns (c : Thread nD τ) arg8 fullShare x6 ∗ owns (c : Thread nD τ) arg9 fullShare x7
                ∗ owns (c : Thread nD τ) arg10 fullShare xi8
                ∗ (∃ f, arg11.view.loc (c : Thread nD τ) ↦[arg11.view.set]{fullShare} arg11.view.writes (Elt F) f LS0)) -∗ K ⟨⟩))
          ⊢ wp frame (wpE (defs₀ (F := F)) Variants.none c none) E
              (cc1__rbf_kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc1__rbf_kernel_eq_skeleton]; unfold cc1__rbf_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hf8; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.Kernel.Hand

end
-- ==== Proof.K.R1RunC.lean ====
/-
  The second kernel's body at the last column tile of a row tile: it adds the tile's row sums, then stores into the
  output the two-layer head applied to the mean of the row sums; the output buffer may hold anything on entry.
-/
import proofs.«178816_j65481071400898_2_alg».proof.Proof.K.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The second kernel's body at a last column tile (first conditional not taken, second taken): on whole
    memrefs, the inputs' at their blocks, the output's at anything, the accumulator at what the tile before
    left, the body runs to the continuation holding the inputs as they were, the accumulator with the piece its
    store wrote and the output with the piece the closing store wrote; the pieces are the witness the run finds. -/
noncomputable def kernelRun1_C (c : Dev nD) (i : grid1.Coords)
    (arg2 : Memref sig .tc .vmem S2048x256 .bf16) (harg2 : arg2.IsWhole) (arg3 : Memref sig .tc .vmem S512x256 .bf16) (harg3 : arg3.IsWhole)
    (arg4 : Memref sig .tc .vmem S2048x1 .f32) (harg4 : arg4.IsWhole) (arg5 : Memref sig .tc .vmem S512x1 .f32) (harg5 : arg5.IsWhole)
    (arg6 : Memref sig .tc .vmem S1x64 .f32) (harg6 : arg6.IsWhole) (arg7 : Memref sig .tc .vmem S1x64 .f32) (harg7 : arg7.IsWhole)
    (arg8 : Memref sig .tc .vmem S64x1 .f32) (harg8 : arg8.IsWhole) (arg9 : Memref sig .tc .vmem S1x1 .f32) (harg9 : arg9.IsWhole)
    (arg10 : Memref sig .tc .vmem S2048x1 .f32) (harg10 : arg10.IsWhole) (arg11 : Memref sig .tc .vmem S2048x1 .f32) (harg11 : arg11.IsWhole)
    (hc0 : ¬cond1_0 i) (hc1 : cond1_1 i)
    (x0 : Vec F S2048x256 .bf16) (x1 : Vec F S512x256 .bf16) (x2 : Vec F S2048x1 .f32) (x3 : Vec F S512x1 .f32)
    (x4 : Vec F S1x64 .f32) (x5 : Vec F S1x64 .f32) (x6 : Vec F S64x1 .f32) (x7 : Vec F S1x1 .f32) (xs0 : Vec F S2048x1 .f32) :
    Σ' (L8 : List (View.Piece (Elt F) S2048x1 .f32)), { LS0 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare x6 ∗ owns (c : Thread nD τ) arg9 fullShare x7
            ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare x4 ∗ owns (c : Thread nD τ) arg7 fullShare x5 ∗ owns (c : Thread nD τ) arg8 fullShare x6 ∗ owns (c : Thread nD τ) arg9 fullShare x7
                ∗ (∃ f, arg10.view.loc (c : Thread nD τ) ↦[arg10.view.set]{fullShare} arg10.view.writes (Elt F) f L8)
                ∗ (∃ f, arg11.view.loc (c : Thread nD τ) ↦[arg11.view.set]{fullShare} arg11.view.writes (Elt F) f LS0)) -∗ K ⟨⟩))
          ⊢ wp frame (wpE (defs₀ (F := F)) Variants.none c none) E
              (cc1__rbf_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__rbf_kernel_eq_skeleton]; unfold cc1__rbf_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

end Cert.Kernel.Hand

end
-- ==== Proof.K.R1Dat.lean ====
/-
  The second kernel point by point: what each case of its body leaves in the running row sum and in the output,
  those contents by recursion on the grid point, the pipeline's proof data (each of the two arrays handed to two
  windows is held as two half shares), and the body obligation at every point.
-/
import proofs.«178816_j65481071400898_2_alg».proof.Proof.K.R1RunA
import proofs.«178816_j65481071400898_2_alg».proof.Proof.K.R1RunB
import proofs.«178816_j65481071400898_2_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each case leaves -/

/-- At a first column tile the body stores nothing into the output (the window is idle there and not written back): no
    pieces, a placeholder (junk read back) that nothing consults. -/
def out1_A_8 (c : Dev nD) (i : grid1.Coords)
    (arg2 : Memref sig .tc .vmem S2048x256 .bf16) (harg2 : arg2.IsWhole) (arg3 : Memref sig .tc .vmem S512x256 .bf16) (harg3 : arg3.IsWhole)
    (arg4 : Memref sig .tc .vmem S2048x1 .f32) (harg4 : arg4.IsWhole) (arg5 : Memref sig .tc .vmem S512x1 .f32) (harg5 : arg5.IsWhole)
    (arg6 : Memref sig .tc .vmem S1x64 .f32) (harg6 : arg6.IsWhole) (arg7 : Memref sig .tc .vmem S1x64 .f32) (harg7 : arg7.IsWhole)
    (arg8 : Memref sig .tc .vmem S64x1 .f32) (harg8 : arg8.IsWhole) (arg9 : Memref sig .tc .vmem S1x1 .f32) (harg9 : arg9.IsWhole)
    (arg10 : Memref sig .tc .vmem S2048x1 .f32) (harg10 : arg10.IsWhole) (arg11 : Memref sig .tc .vmem S2048x1 .f32) (harg11 : arg11.IsWhole)
    (hc0 : cond1_0 i) (hc1 : ¬cond1_1 i)
    (x0 : Vec F S2048x256 .bf16) (x1 : Vec F S512x256 .bf16) (x2 : Vec F S2048x1 .f32) (x3 : Vec F S512x1 .f32)
    (x4 : Vec F S1x64 .f32) (x5 : Vec F S1x64 .f32) (x6 : Vec F S64x1 .f32) (x7 : Vec F S1x1 .f32) : Vec F S2048x1 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 hc0 hc1 x0 x1 x2 x3 x4 x5 x6 x7).1)

/-- At a first column tile the pieces stored into the accumulator cover it (the zeros, then the first partial sums: each the whole buffer). -/
theorem scover1_A_0 (c : Dev nD) (i : grid1.Coords)
    (arg2 : Memref sig .tc .vmem S2048x256 .bf16) (harg2 : arg2.IsWhole) (arg3 : Memref sig .tc .vmem S512x256 .bf16) (harg3 : arg3.IsWhole)
    (arg4 : Memref sig .tc .vmem S2048x1 .f32) (harg4 : arg4.IsWhole) (arg5 : Memref sig .tc .vmem S512x1 .f32) (harg5 : arg5.IsWhole)
    (arg6 : Memref sig .tc .vmem S1x64 .f32) (harg6 : arg6.IsWhole) (arg7 : Memref sig .tc .vmem S1x64 .f32) (harg7 : arg7.IsWhole)
    (arg8 : Memref sig .tc .vmem S64x1 .f32) (harg8 : arg8.IsWhole) (arg9 : Memref sig .tc .vmem S1x1 .f32) (harg9 : arg9.IsWhole)
    (arg10 : Memref sig .tc .vmem S2048x1 .f32) (harg10 : arg10.IsWhole) (arg11 : Memref sig .tc .vmem S2048x1 .f32) (harg11 : arg11.IsWhole)
    (hc0 : cond1_0 i) (hc1 : ¬cond1_1 i)
    (x0 : Vec F S2048x256 .bf16) (x1 : Vec F S512x256 .bf16) (x2 : Vec F S2048x1 .f32) (x3 : Vec F S512x1 .f32)
    (x4 : Vec F S1x64 .f32) (x5 : Vec F S1x64 .f32) (x6 : Vec F S64x1 .f32) (x7 : Vec F S1x1 .f32) (y : S2048x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1 S2048x1.size (by sl_kernel_rfl) y

/-- What the body leaves in the accumulator at a first column tile: its pieces read back over junk. -/
def sout1_A_0 (c : Dev nD) (i : grid1.Coords)
    (arg2 : Memref sig .tc .vmem S2048x256 .bf16) (harg2 : arg2.IsWhole) (arg3 : Memref sig .tc .vmem S512x256 .bf16) (harg3 : arg3.IsWhole)
    (arg4 : Memref sig .tc .vmem S2048x1 .f32) (harg4 : arg4.IsWhole) (arg5 : Memref sig .tc .vmem S512x1 .f32) (harg5 : arg5.IsWhole)
    (arg6 : Memref sig .tc .vmem S1x64 .f32) (harg6 : arg6.IsWhole) (arg7 : Memref sig .tc .vmem S1x64 .f32) (harg7 : arg7.IsWhole)
    (arg8 : Memref sig .tc .vmem S64x1 .f32) (harg8 : arg8.IsWhole) (arg9 : Memref sig .tc .vmem S1x1 .f32) (harg9 : arg9.IsWhole)
    (arg10 : Memref sig .tc .vmem S2048x1 .f32) (harg10 : arg10.IsWhole) (arg11 : Memref sig .tc .vmem S2048x1 .f32) (harg11 : arg11.IsWhole)
    (hc0 : cond1_0 i) (hc1 : ¬cond1_1 i)
    (x0 : Vec F S2048x256 .bf16) (x1 : Vec F S512x256 .bf16) (x2 : Vec F S2048x1 .f32) (x3 : Vec F S512x1 .f32)
    (x4 : Vec F S1x64 .f32) (x5 : Vec F S1x64 .f32) (x6 : Vec F S64x1 .f32) (x7 : Vec F S1x1 .f32) : Vec F S2048x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1)

/-- At an inner column tile the body stores nothing into the output (the window is idle there and not written back): no
    pieces, a placeholder (junk read back) that nothing consults. -/
def out1_B_8 (c : Dev nD) (i : grid1.Coords)
    (arg2 : Memref sig .tc .vmem S2048x256 .bf16) (harg2 : arg2.IsWhole) (arg3 : Memref sig .tc .vmem S512x256 .bf16) (harg3 : arg3.IsWhole)
    (arg4 : Memref sig .tc .vmem S2048x1 .f32) (harg4 : arg4.IsWhole) (arg5 : Memref sig .tc .vmem S512x1 .f32) (harg5 : arg5.IsWhole)
    (arg6 : Memref sig .tc .vmem S1x64 .f32) (harg6 : arg6.IsWhole) (arg7 : Memref sig .tc .vmem S1x64 .f32) (harg7 : arg7.IsWhole)
    (arg8 : Memref sig .tc .vmem S64x1 .f32) (harg8 : arg8.IsWhole) (arg9 : Memref sig .tc .vmem S1x1 .f32) (harg9 : arg9.IsWhole)
    (arg10 : Memref sig .tc .vmem S2048x1 .f32) (harg10 : arg10.IsWhole) (arg11 : Memref sig .tc .vmem S2048x1 .f32) (harg11 : arg11.IsWhole)
    (hc0 : ¬cond1_0 i) (hc1 : ¬cond1_1 i)
    (x0 : Vec F S2048x256 .bf16) (x1 : Vec F S512x256 .bf16) (x2 : Vec F S2048x1 .f32) (x3 : Vec F S512x1 .f32)
    (x4 : Vec F S1x64 .f32) (x5 : Vec F S1x64 .f32) (x6 : Vec F S64x1 .f32) (x7 : Vec F S1x1 .f32) (xs0 : Vec F S2048x1 .f32) : Vec F S2048x1 .f32 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs0).1)

/-- At an inner column tile the pieces stored into the accumulator cover it (one piece, the whole buffer). -/
theorem scover1_B_0 (c : Dev nD) (i : grid1.Coords)
    (arg2 : Memref sig .tc .vmem S2048x256 .bf16) (harg2 : arg2.IsWhole) (arg3 : Memref sig .tc .vmem S512x256 .bf16) (harg3 : arg3.IsWhole)
    (arg4 : Memref sig .tc .vmem S2048x1 .f32) (harg4 : arg4.IsWhole) (arg5 : Memref sig .tc .vmem S512x1 .f32) (harg5 : arg5.IsWhole)
    (arg6 : Memref sig .tc .vmem S1x64 .f32) (harg6 : arg6.IsWhole) (arg7 : Memref sig .tc .vmem S1x64 .f32) (harg7 : arg7.IsWhole)
    (arg8 : Memref sig .tc .vmem S64x1 .f32) (harg8 : arg8.IsWhole) (arg9 : Memref sig .tc .vmem S1x1 .f32) (harg9 : arg9.IsWhole)
    (arg10 : Memref sig .tc .vmem S2048x1 .f32) (harg10 : arg10.IsWhole) (arg11 : Memref sig .tc .vmem S2048x1 .f32) (harg11 : arg11.IsWhole)
    (hc0 : ¬cond1_0 i) (hc1 : ¬cond1_1 i)
    (x0 : Vec F S2048x256 .bf16) (x1 : Vec F S512x256 .bf16) (x2 : Vec F S2048x1 .f32) (x3 : Vec F S512x1 .f32)
    (x4 : Vec F S1x64 .f32) (x5 : Vec F S1x64 .f32) (x6 : Vec F S64x1 .f32) (x7 : Vec F S1x1 .f32) (xs0 : Vec F S2048x1 .f32) (y : S2048x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs0).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs0).2.1 S2048x1.size (by sl_kernel_rfl) y

/-- What the body leaves in the accumulator at an inner column tile: its pieces read back over junk. -/
def sout1_B_0 (c : Dev nD) (i : grid1.Coords)
    (arg2 : Memref sig .tc .vmem S2048x256 .bf16) (harg2 : arg2.IsWhole) (arg3 : Memref sig .tc .vmem S512x256 .bf16) (harg3 : arg3.IsWhole)
    (arg4 : Memref sig .tc .vmem S2048x1 .f32) (harg4 : arg4.IsWhole) (arg5 : Memref sig .tc .vmem S512x1 .f32) (harg5 : arg5.IsWhole)
    (arg6 : Memref sig .tc .vmem S1x64 .f32) (harg6 : arg6.IsWhole) (arg7 : Memref sig .tc .vmem S1x64 .f32) (harg7 : arg7.IsWhole)
    (arg8 : Memref sig .tc .vmem S64x1 .f32) (harg8 : arg8.IsWhole) (arg9 : Memref sig .tc .vmem S1x1 .f32) (harg9 : arg9.IsWhole)
    (arg10 : Memref sig .tc .vmem S2048x1 .f32) (harg10 : arg10.IsWhole) (arg11 : Memref sig .tc .vmem S2048x1 .f32) (harg11 : arg11.IsWhole)
    (hc0 : ¬cond1_0 i) (hc1 : ¬cond1_1 i)
    (x0 : Vec F S2048x256 .bf16) (x1 : Vec F S512x256 .bf16) (x2 : Vec F S2048x1 .f32) (x3 : Vec F S512x1 .f32)
    (x4 : Vec F S1x64 .f32) (x5 : Vec F S1x64 .f32) (x6 : Vec F S64x1 .f32) (x7 : Vec F S1x1 .f32) (xs0 : Vec F S2048x1 .f32) : Vec F S2048x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs0).2.1)

/-- At a last column tile the closing store covers the output block: one piece, the whole block. -/
theorem cover1_C_8 (c : Dev nD) (i : grid1.Coords)
    (arg2 : Memref sig .tc .vmem S2048x256 .bf16) (harg2 : arg2.IsWhole) (arg3 : Memref sig .tc .vmem S512x256 .bf16) (harg3 : arg3.IsWhole)
    (arg4 : Memref sig .tc .vmem S2048x1 .f32) (harg4 : arg4.IsWhole) (arg5 : Memref sig .tc .vmem S512x1 .f32) (harg5 : arg5.IsWhole)
    (arg6 : Memref sig .tc .vmem S1x64 .f32) (harg6 : arg6.IsWhole) (arg7 : Memref sig .tc .vmem S1x64 .f32) (harg7 : arg7.IsWhole)
    (arg8 : Memref sig .tc .vmem S64x1 .f32) (harg8 : arg8.IsWhole) (arg9 : Memref sig .tc .vmem S1x1 .f32) (harg9 : arg9.IsWhole)
    (arg10 : Memref sig .tc .vmem S2048x1 .f32) (harg10 : arg10.IsWhole) (arg11 : Memref sig .tc .vmem S2048x1 .f32) (harg11 : arg11.IsWhole)
    (hc0 : ¬cond1_0 i) (hc1 : cond1_1 i)
    (x0 : Vec F S2048x256 .bf16) (x1 : Vec F S512x256 .bf16) (x2 : Vec F S2048x1 .f32) (x3 : Vec F S512x1 .f32)
    (x4 : Vec F S1x64 .f32) (x5 : Vec F S1x64 .f32) (x6 : Vec F S64x1 .f32) (x7 : Vec F S1x1 .f32) (xs0 : Vec F S2048x1 .f32) (y : S2048x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).1 S2048x1.size (by sl_kernel_rfl) y

/-- What the body leaves in the output's staging buffer at a last column tile: its piece read back over junk. -/
def out1_C_8 (c : Dev nD) (i : grid1.Coords)
    (arg2 : Memref sig .tc .vmem S2048x256 .bf16) (harg2 : arg2.IsWhole) (arg3 : Memref sig .tc .vmem S512x256 .bf16) (harg3 : arg3.IsWhole)
    (arg4 : Memref sig .tc .vmem S2048x1 .f32) (harg4 : arg4.IsWhole) (arg5 : Memref sig .tc .vmem S512x1 .f32) (harg5 : arg5.IsWhole)
    (arg6 : Memref sig .tc .vmem S1x64 .f32) (harg6 : arg6.IsWhole) (arg7 : Memref sig .tc .vmem S1x64 .f32) (harg7 : arg7.IsWhole)
    (arg8 : Memref sig .tc .vmem S64x1 .f32) (harg8 : arg8.IsWhole) (arg9 : Memref sig .tc .vmem S1x1 .f32) (harg9 : arg9.IsWhole)
    (arg10 : Memref sig .tc .vmem S2048x1 .f32) (harg10 : arg10.IsWhole) (arg11 : Memref sig .tc .vmem S2048x1 .f32) (harg11 : arg11.IsWhole)
    (hc0 : ¬cond1_0 i) (hc1 : cond1_1 i)
    (x0 : Vec F S2048x256 .bf16) (x1 : Vec F S512x256 .bf16) (x2 : Vec F S2048x1 .f32) (x3 : Vec F S512x1 .f32)
    (x4 : Vec F S1x64 .f32) (x5 : Vec F S1x64 .f32) (x6 : Vec F S64x1 .f32) (x7 : Vec F S1x1 .f32) (xs0 : Vec F S2048x1 .f32) : Vec F S2048x1 .f32 :=
  VO1_8.read (Elt F) (VO1_8.writes (Elt F) VO1_8.junk (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).1)

/-- At a last column tile the pieces stored into the accumulator cover it (one piece, the whole buffer). -/
theorem scover1_C_0 (c : Dev nD) (i : grid1.Coords)
    (arg2 : Memref sig .tc .vmem S2048x256 .bf16) (harg2 : arg2.IsWhole) (arg3 : Memref sig .tc .vmem S512x256 .bf16) (harg3 : arg3.IsWhole)
    (arg4 : Memref sig .tc .vmem S2048x1 .f32) (harg4 : arg4.IsWhole) (arg5 : Memref sig .tc .vmem S512x1 .f32) (harg5 : arg5.IsWhole)
    (arg6 : Memref sig .tc .vmem S1x64 .f32) (harg6 : arg6.IsWhole) (arg7 : Memref sig .tc .vmem S1x64 .f32) (harg7 : arg7.IsWhole)
    (arg8 : Memref sig .tc .vmem S64x1 .f32) (harg8 : arg8.IsWhole) (arg9 : Memref sig .tc .vmem S1x1 .f32) (harg9 : arg9.IsWhole)
    (arg10 : Memref sig .tc .vmem S2048x1 .f32) (harg10 : arg10.IsWhole) (arg11 : Memref sig .tc .vmem S2048x1 .f32) (harg11 : arg11.IsWhole)
    (hc0 : ¬cond1_0 i) (hc1 : cond1_1 i)
    (x0 : Vec F S2048x256 .bf16) (x1 : Vec F S512x256 .bf16) (x2 : Vec F S2048x1 .f32) (x3 : Vec F S512x1 .f32)
    (x4 : Vec F S1x64 .f32) (x5 : Vec F S1x64 .f32) (x6 : Vec F S64x1 .f32) (x7 : Vec F S1x1 .f32) (xs0 : Vec F S2048x1 .f32) (y : S2048x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).2.1 S2048x1.size (by sl_kernel_rfl) y

/-- What the body leaves in the accumulator at a last column tile: its pieces read back over junk. -/
def sout1_C_0 (c : Dev nD) (i : grid1.Coords)
    (arg2 : Memref sig .tc .vmem S2048x256 .bf16) (harg2 : arg2.IsWhole) (arg3 : Memref sig .tc .vmem S512x256 .bf16) (harg3 : arg3.IsWhole)
    (arg4 : Memref sig .tc .vmem S2048x1 .f32) (harg4 : arg4.IsWhole) (arg5 : Memref sig .tc .vmem S512x1 .f32) (harg5 : arg5.IsWhole)
    (arg6 : Memref sig .tc .vmem S1x64 .f32) (harg6 : arg6.IsWhole) (arg7 : Memref sig .tc .vmem S1x64 .f32) (harg7 : arg7.IsWhole)
    (arg8 : Memref sig .tc .vmem S64x1 .f32) (harg8 : arg8.IsWhole) (arg9 : Memref sig .tc .vmem S1x1 .f32) (harg9 : arg9.IsWhole)
    (arg10 : Memref sig .tc .vmem S2048x1 .f32) (harg10 : arg10.IsWhole) (arg11 : Memref sig .tc .vmem S2048x1 .f32) (harg11 : arg11.IsWhole)
    (hc0 : ¬cond1_0 i) (hc1 : cond1_1 i)
    (x0 : Vec F S2048x256 .bf16) (x1 : Vec F S512x256 .bf16) (x2 : Vec F S2048x1 .f32) (x3 : Vec F S512x1 .f32)
    (x4 : Vec F S1x64 .f32) (x5 : Vec F S1x64 .f32) (x6 : Vec F S64x1 .f32) (x7 : Vec F S1x1 .f32) (xs0 : Vec F S2048x1 .f32) : Vec F S2048x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).2.1)

/-! ## What the output's buffer and the accumulator hold after each point -/

/-- THE ACCUMULATION. What the output's staging buffer and the accumulator hold after the body at position `n`
    (the output's buffer, then the accumulator): the case the closed forms select at `n`, run at the point's
    memrefs and input blocks, the accumulator read at what this leaves at `n - 1`. A first column tile that is
    also a last one meets no point. -/
def outsAt1 (c : Dev nD) : (n : ℕ) → n < cfg1.N → Vec F S2048x1 .f32 × Vec F S2048x1 .f32
  | 0, hn =>
      (out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩),
       sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩))
  | n + 1, hn =>
    if h0 : (n + 1) % 16 = 0 then
      if h1 : (n + 1) % 16 = 15 then
        False.elim (by omega)
      else
        (out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩),
       sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩))
    else
      if h1 : (n + 1) % 16 = 15 then
        (out1_C_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2,
       sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)
      else
        (out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)

/-- `outsAt1` at a first column tile: that case's contents. -/
theorem outsAt1_A (c : Dev nD) (t : Fin cfg1.N) (h0 : t.val % 16 = 0) (h1 : ¬t.val % 16 = 15) :
    outsAt1 V c t.val t.isLt =
      (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t),
       sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)) := by
  obtain ⟨n, hn⟩ := t
  cases n with
  | zero => exact rfl
  | succ n => exact (dif_pos h0).trans ((dif_neg h1).trans rfl)

/-- `outsAt1` at an inner column tile: that case's contents, over what the point before left. -/
theorem outsAt1_B (c : Dev nD) (t : Fin cfg1.N) (h0 : ¬t.val % 16 = 0) (h1 : ¬t.val % 16 = 15) :
    outsAt1 V c t.val t.isLt =
      (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2,
       sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last column tile: that case's contents, over what the point before left. -/
theorem outsAt1_C (c : Dev nD) (t : Fin cfg1.N) (h0 : ¬t.val % 16 = 0) (h1 : t.val % 16 = 15) :
    outsAt1 V c t.val t.isLt =
      (out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2,
       sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- The region invariant before position `n`: before the first point the class's (every scoped buffer that is
    no staging buffer of this kernel at anything); afterwards the other kernel's buffers at anything, the
    accumulator at what the point before left in it, and the generator register at some state. -/
def PhiS1 (c : Dev nD) : (n : ℕ) → n ≤ cfg1.N → sProp 𝕄
  | 0, _ => Pipeline.ΦA spec1 c
  | n + 1, hn => iprop(rest1 (F := F) c ∗ owns (c : Thread nD τ) scM1_0 fullShare ((outsAt1 V c n hn).2) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(rest1 (F := F) c ∗ owns (c : Thread nD τ) scM1_0 fullShare ((outsAt1 V c n hn).2) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(rest1 (F := F) c ∗ owns (c : Thread nD τ) scM1_0 fullShare ((outsAt1 V c (n - 1) (by omega)).2) ∗ (∃ r, prngReg c r)) := by
  cases n with
  | zero => exact absurd rfl hz
  | succ n => rfl

/-! ## The pipeline's proof data -/

/-- The proof data of the second kernel's pipeline on core `c`: the arrays at the contents `V` the region is
    entered with; after the body at point `t` each input's buffer at its block and the output's at `outsAt1`'s
    first component; the invariant `PhiS1`; nothing owed. The two arrays that two windows each read are held
    at complementary halves, one per window; every other array at the full share. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`: the invariant, what the core owes, every window's current
    staging buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4800000 in
/-- The body at any point. The inputs' memrefs hold their blocks; the closed forms say which case the point is
    in; so that case's run applies. The invariant hands the body the accumulator at what the point before left
    (at anything at the first point) and takes it back at this point's contents, the other kernel's buffers and
    the generator register untouched; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 16 = 0
  · by_cases h1 : t.val % 16 = 15
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [Dat.leavesExact_idle (dat1 V c) 8 t (idleAt1_8_A t ((hcond1_0 t).mpr h0) (fun h => h1 ((hcond1_1 t).mp h))) (noFlush1_8_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨HR, HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · rw [PhiS1_castSucc V c t, PhiS1_pos V c _ _ hz]
        iintro ⟨⟨HR, HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        iintro ⟨H0, H1, H2, H3, H4, H5, H6, H7, H8, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
  · by_cases h1 : t.val % 16 = 15
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8_C t (fun h => h0 ((hcond1_0 t).mp h)) ((hcond1_1 t).mpr h1)], after1_8]
      rw [outsAt1_C V c t h0 h1]
      unfold out1_C_8 sout1_C_0; (try dsimp only)
      by_cases hz : t.val = 0
      · exfalso; omega
      · rw [PhiS1_castSucc V c t, PhiS1_pos V c _ _ hz]
        iintro ⟨⟨HR, HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [HS0]; · iexact HS0
        iintro ⟨H0, H1, H2, H3, H4, H5, H6, H7, ⟨%e8, H8⟩, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (cover1_C_8 c _ _ _ _ _ _ _ _ _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [Dat.leavesExact_idle (dat1 V c) 8 t (idleAt1_8_B t (fun h => h0 ((hcond1_0 t).mp h)) (fun h => h1 ((hcond1_1 t).mp h))) (noFlush1_8_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨HR, HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HR, HS0, Hg⟩
  isplitl [HR]; · iexact HR
  isplitl [HS0]
  · iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.K.R1Share.lean ====
/-
  The second kernel region's arrays when two windows read one array.

  The region has nine windows over seven arrays: windows 0 and 1 read the same array, windows 2 and 3 read the
  same array, windows 4 to 7 read one array each, and window 8 writes the output array. The core holds every one
  of its arrays whole at the full share. The region's invariant instead holds one points-to per window: the output's
  at the full share, an input's at the share the proof data gives that window. When the two windows on a shared
  array hold the left and the right half of the full share, and every other input window holds the full share,
  the two descriptions are the same assertion: a points-to at the full share is the separating conjunction of the
  same points-to at the left half and at the right half.

  So, at the region's entry, the core's arrays at a valuation split into the nine windows' points-tos and the
  arrays no window names; and at its exit the nine points-tos, the two halves of a shared array holding the same
  contents, join back into the core's arrays at the updated valuation.
-/
import proofs.«178816_j65481071400898_2_alg».proof.Proof.Gen.Kernel.Launch
import Idealize.ShloMosaic.Lib.Pipeline.Regions
import Idealize.ShloMosaic.Lib.Pipeline.RegionsLoop
import Idealize.ShloMosaic.Lib.Pipeline.Frame

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (Pipeline.UD sig nD τ) ℕ

/-- Separating conjunction is associative, as an equation between assertions. -/
theorem sep_assoc1 (P Q R : sProp 𝕄) : iprop((P ∗ Q) ∗ R) = iprop(P ∗ Q ∗ R) :=
  Entails.antisymm Idealize.SL.BI.sep_assoc Idealize.SL.BI.sep_assoc'

/-- A whole buffer held at the full share is the same buffer held at the left half and at the right half of the
    full share, at the same contents. -/
theorem pointsTo_halves1 (c : Dev nD) (V : (b : Ref sig .tc) → Buf (Elt F) ((c : Thread nD τ).loc b)) (b : Ref sig .tc) :
    ((((c : Thread nD τ).loc b) ↦{fullShare} V b) : sProp 𝕄)
      = iprop((((c : Thread nD τ).loc b) ↦{fullShare.left} V b) ∗ (((c : Thread nD τ).loc b) ↦{fullShare.right} V b)) :=
  have h := pointsTo_share (Ix := Unit) (Name := ℕ) (U := Pipeline.UD sig nD τ) (Lvl := ℕ) (ℓ := (c : Thread nD τ).loc b)
    (I := Finset.univ) (f := V b) (PosShare.mem_left_op_right fullShare)
  BI.equiv_iff.mp ⟨h.1, h.2⟩

/-- The shares the nine windows hold their arrays at: the two windows on a shared array the left and the right
    half of the full share, every other window the full share. -/
abbrev shares1 : Fin 9 → PosShare TreeShare :=
  fun | 0 => fullShare.left | 1 => fullShare.right | 2 => fullShare.left | 3 => fullShare.right
      | 4 => fullShare | 5 => fullShare | 6 => fullShare | 7 => fullShare | 8 => fullShare
      | ⟨_ + 9, h⟩ => absurd h (Nat.not_lt.2 (Nat.le_add_left _ _))

section Arrays

variable {c : Dev nD} (dat : Dat τ (Elt F) Unit ℕ (Pipeline.UD sig nD τ) ℕ cfg1 c)

/-- With the proof data's input shares as stated, each window holds its array at the share listed above (the output
    window, window 8, at the full share whatever the proof data says). -/
theorem share1_eq (hq0 : dat.q 0 = fullShare.left) (hq1 : dat.q 1 = fullShare.right)
    (hq2 : dat.q 2 = fullShare.left) (hq3 : dat.q 3 = fullShare.right) (hq4 : dat.q 4 = fullShare)
    (hq5 : dat.q 5 = fullShare) (hq6 : dat.q 6 = fullShare) (hq7 : dat.q 7 = fullShare) :
    ∀ w : Fin 9, dat.share w = shares1 w :=
  fun | 0 => hq0 | 1 => hq1 | 2 => hq2 | 3 => hq3 | 4 => hq4 | 5 => hq5 | 6 => hq6 | 7 => hq7 | 8 => rfl
      | ⟨_ + 9, h⟩ => absurd h (Nat.not_lt.2 (Nat.le_add_left _ _))

/-- The region's arrays at contents G are, window by window, the window's array held whole at the window's
    share. -/
theorem arrays1_eq (s : Fin 9 → PosShare TreeShare) (hs : ∀ w, dat.share w = s w)
    (G : (w : Fin cfg1.W) → Buf (Elt F) ((cfg1.win w).arr.view.loc (c : Thread nD τ))) :
    (dat.arrays G : sProp 𝕄)
      = bigSep Finset.univ fun w : Fin 9 => (((c : Thread nD τ).loc (Pipeline.arrRef spec1 w)) ↦{s w} G w : sProp 𝕄) := by
  unfold Dat.arrays
  exact bigSep_congr fun w _ => by rw [(arr_whole1 w).set_eq_univ, hs]

end Arrays

/-- The seven distinct arrays behind the nine windows, each held whole at the full share, one by one. -/
theorem arrBufs1_eq (c : Dev nD) (V : (b : Ref sig .tc) → Buf (Elt F) ((c : Thread nD τ).loc b)) :
    (Pipeline.arrBufs spec1 c V : sProp 𝕄)
      = iprop((((c : Thread nD τ).loc main_v9_0) ↦{fullShare} V main_v9_0) ∗ (((c : Thread nD τ).loc main_v9_1) ↦{fullShare} V main_v9_1) ∗ (((c : Thread nD τ).loc main_arg3) ↦{fullShare} V main_arg3) ∗ (((c : Thread nD τ).loc main_v10) ↦{fullShare} V main_v10) ∗ (((c : Thread nD τ).loc main_arg5) ↦{fullShare} V main_arg5) ∗ (((c : Thread nD τ).loc main_v11) ↦{fullShare} V main_v11) ∗ (((c : Thread nD τ).loc main_v12) ↦{fullShare} V main_v12)) := by
  unfold Pipeline.arrBufs
  exact bigSep_eq_bigSepL_of_eq [main_v9_0, main_v9_1, main_arg3, main_v10, main_arg5, main_v11, main_v12] (by decide) (by decide) _

/-- The core's unscoped buffers at a valuation are the seven arrays behind the region's windows and the unscoped
    buffers no window names, all at that valuation. -/
theorem unscopedBufs_split1 (c : Dev nD) (V : (b : Ref sig .tc) → Buf (Elt F) ((c : Thread nD τ).loc b)) :
    (unscopedBufs c V : sProp 𝕄) = iprop((Pipeline.arrBufs spec1 c V : sProp 𝕄) ∗ Pipeline.unscopedRest spec1 c V) := by
  classical
  have hA : Finset.univ.image (Pipeline.arrRef spec1) ⊆ Finset.univ.filter fun b : Ref sig .tc => ¬ b.isScoped := fun b hb => by
    obtain ⟨w, -, rfl⟩ := Finset.mem_image.mp hb
    exact Finset.mem_filter.mpr ⟨Finset.mem_univ _, by simp [winFacts₀1.arr_unscoped w]⟩
  unfold unscopedBufs Pipeline.unscopedRest Pipeline.arrBufs
  rw [bigSep_sdiff_split hA]
  rfl

section Arrays

variable {c : Dev nD} (dat : Dat τ (Elt F) Unit ℕ (Pipeline.UD sig nD τ) ℕ cfg1 c)

/-- The region's arrays at the contents a valuation V gives them, window by window: the two windows on each shared
    array hold it at the left and the right half of the full share, the other windows at the full share. -/
theorem arrays1_chain (hq0 : dat.q 0 = fullShare.left) (hq1 : dat.q 1 = fullShare.right)
    (hq2 : dat.q 2 = fullShare.left) (hq3 : dat.q 3 = fullShare.right) (hq4 : dat.q 4 = fullShare)
    (hq5 : dat.q 5 = fullShare) (hq6 : dat.q 6 = fullShare) (hq7 : dat.q 7 = fullShare)
    (V : (b : Ref sig .tc) → Buf (Elt F) ((c : Thread nD τ).loc b)) :
    (dat.arrays (fun w => V (Pipeline.arrRef spec1 w)) : sProp 𝕄)
      = iprop((((c : Thread nD τ).loc main_v9_0) ↦{fullShare.left} V main_v9_0)
          ∗ (((c : Thread nD τ).loc main_v9_0) ↦{fullShare.right} V main_v9_0)
          ∗ (((c : Thread nD τ).loc main_v9_1) ↦{fullShare.left} V main_v9_1)
          ∗ (((c : Thread nD τ).loc main_v9_1) ↦{fullShare.right} V main_v9_1)
          ∗ (((c : Thread nD τ).loc main_arg3) ↦{fullShare} V main_arg3)
          ∗ (((c : Thread nD τ).loc main_v10) ↦{fullShare} V main_v10)
          ∗ (((c : Thread nD τ).loc main_arg5) ↦{fullShare} V main_arg5)
          ∗ (((c : Thread nD τ).loc main_v11) ↦{fullShare} V main_v11)
          ∗ (((c : Thread nD τ).loc main_v12) ↦{fullShare} V main_v12)) := by
  rw [arrays1_eq dat shares1 (share1_eq dat hq0 hq1 hq2 hq3 hq4 hq5 hq6 hq7), bigSep_W1]

/-- The region's arrays at the contents a valuation V gives them are the seven distinct arrays, each whole at the
    full share at V: on a shared array the two windows' halves make up the full share. -/
theorem arrays1_eq_arrBufs (hq0 : dat.q 0 = fullShare.left) (hq1 : dat.q 1 = fullShare.right)
    (hq2 : dat.q 2 = fullShare.left) (hq3 : dat.q 3 = fullShare.right) (hq4 : dat.q 4 = fullShare)
    (hq5 : dat.q 5 = fullShare) (hq6 : dat.q 6 = fullShare) (hq7 : dat.q 7 = fullShare)
    (V : (b : Ref sig .tc) → Buf (Elt F) ((c : Thread nD τ).loc b)) :
    (dat.arrays (fun w => V (Pipeline.arrRef spec1 w)) : sProp 𝕄) = Pipeline.arrBufs spec1 c V := by
  rw [arrays1_chain dat hq0 hq1 hq2 hq3 hq4 hq5 hq6 hq7 V, arrBufs1_eq c V, pointsTo_halves1 c V main_v9_0, pointsTo_halves1 c V main_v9_1,
    sep_assoc1, sep_assoc1]

/-- ENTRY. The core's unscoped buffers at a valuation V are the region's arrays, window by window at the contents V
    gives them (a shared array's two windows at the two halves of the full share), and the unscoped buffers no
    window names. -/
theorem arrays1_of_unscopedBufs (hq0 : dat.q 0 = fullShare.left) (hq1 : dat.q 1 = fullShare.right)
    (hq2 : dat.q 2 = fullShare.left) (hq3 : dat.q 3 = fullShare.right) (hq4 : dat.q 4 = fullShare)
    (hq5 : dat.q 5 = fullShare) (hq6 : dat.q 6 = fullShare) (hq7 : dat.q 7 = fullShare)
    (V : (b : Ref sig .tc) → Buf (Elt F) ((c : Thread nD τ).loc b)) :
    (unscopedBufs c V : sProp 𝕄)
      ⊢ iprop(dat.arrays (fun w => V (Pipeline.arrRef spec1 w)) ∗ Pipeline.unscopedRest spec1 c V) := by
  rw [unscopedBufs_split1 c V, arrays1_eq_arrBufs dat hq0 hq1 hq2 hq3 hq4 hq5 hq6 hq7 V]

/-- EXIT. The region's arrays at contents G and the unscoped buffers no window names at V are the core's unscoped
    buffers at any valuation V' that gives every window's array the contents G has for that window (so the two
    windows on a shared array hold the same contents, and their halves join) and agrees with V off the windows'
    arrays. -/
theorem unscopedBufs_of_arrays1 (hq0 : dat.q 0 = fullShare.left) (hq1 : dat.q 1 = fullShare.right)
    (hq2 : dat.q 2 = fullShare.left) (hq3 : dat.q 3 = fullShare.right) (hq4 : dat.q 4 = fullShare)
    (hq5 : dat.q 5 = fullShare) (hq6 : dat.q 6 = fullShare) (hq7 : dat.q 7 = fullShare)
    (V V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w))
    (hrest : ∀ b, b ∉ Finset.univ.image (Pipeline.arrRef spec1) → V' b = V b) :
    iprop(dat.arrays G ∗ Pipeline.unscopedRest spec1 c V) ⊢ (unscopedBufs c V' : sProp 𝕄) := by
  have hGe : G = fun w => V' (Pipeline.arrRef spec1 w) := funext hG
  have hR : (Pipeline.unscopedRest spec1 c V : sProp 𝕄) = Pipeline.unscopedRest spec1 c V' := by
    unfold Pipeline.unscopedRest
    exact bigSep_congr fun b hb => by rw [hrest b (Finset.mem_sdiff.mp hb).2]
  rw [hGe, hR, arrays1_eq_arrBufs dat hq0 hq1 hq2 hq3 hq4 hq5 hq6 hq7 V', ← unscopedBufs_split1 c V']

end Arrays

end Cert.Kernel.Hand
-- ==== Proof.K.Launch.lean ====
/-
  The whole program as five segments — the projections on the host, the attention kernel, two reshapes on the host,
  the kernel-mean-and-head kernel, a last reshape — run from the launch to the return: what every buffer that
  outlives a kernel holds at each boundary, each kernel region entered from and left at those contents, and from
  the one run both what the program's result buffer holds at the end and that no argument array changes.
-/
import proofs.«178816_j65481071400898_2_alg».proof.Proof.K.R0Dat
import proofs.«178816_j65481071400898_2_alg».proof.Proof.K.R1Dat
import proofs.«178816_j65481071400898_2_alg».proof.Proof.K.R1Share
import proofs.«178816_j65481071400898_2_alg».proof.Proof.Gen.Kernel.Regions
import Idealize.ShloMosaic.Lib.Pipeline.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the buffers hold at each boundary -/

/-- At launch. -/
abbrev W0 : Dev nD → Valuation τ sig (Elt F) := fun c b => m (c, b)
/-- After the projections: the attention kernel's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the attention kernel: its two output arrays at what the write-backs leave, everything else as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the two reshapes: the second kernel's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second kernel: its one output array at what the write-backs leave, everything else as entered. -/
def W4 (c : Dev nD) : Valuation τ sig (Elt F) :=
  Function.update (W3 m c) (Proc.devRef .tc main_v12) ((dat1 (V3 m) c).arrAt 8 cfg1.N)
abbrev V4 : (c : Dev nD) → (b : Ref sig .tc) → Buf (Elt F) ((c : Thread nD τ).loc b) := fun c b => W4 m c b
theorem W4_out (c : Dev nD) : W4 m c (Proc.devRef .tc main_v12) = (dat1 (V3 m) c).arrAt 8 cfg1.N := by
  unfold W4; exact Function.update_self _ _ _
theorem W4_of_ne (c : Dev nD) (b : Ref sig .tc) (hb : b ≠ main_v12) :
    W4 m c (Proc.devRef .tc b) = W3 m c (Proc.devRef .tc b) := by
  unfold W4; exact Function.update_of_ne (StableHlo.devRef_ne_of_ne hb) _ _
/-- After the last reshape: the return. -/
abbrev W5 : Dev nD → Valuation τ sig (Elt F) := fun c => StableHlo.after hostOps2 (W4 m c)

/-- Each array of the second kernel holds at its exit what the pipeline leaves: an input what it held at entry, the
    output its write-backs. -/
theorem hF1 (c : Dev nD) (w : Fin cfg1.W) : (dat1 (V3 m) c).arrAt w cfg1.N = V4 m c (Pipeline.arrRef spec1 w) := by
  have hin : ∀ w : Fin cfg1.W, (cfg1.win w).isOut = false → Pipeline.arrRef spec1 w ≠ main_v12 →
      (dat1 (V3 m) c).arrAt w cfg1.N = V4 m c (Pipeline.arrRef spec1 w) := fun w ho hne =>
    (((dat1 (V3 m) c).arrAt_in w ho _).trans (A_eq1 (V3 m) c w)).trans (W4_of_ne m c _ hne).symm
  fin_cases w
  · exact hin 0 rfl (by decide)
  · exact hin 1 rfl (by decide)
  · exact hin 2 rfl (by decide)
  · exact hin 3 rfl (by decide)
  · exact hin 4 rfl (by decide)
  · exact hin 5 rfl (by decide)
  · exact hin 6 rfl (by decide)
  · exact hin 7 rfl (by decide)
  · exact (W4_out m c).symm
theorem hrest1 (c : Dev nD) : ∀ b, b ∉ Finset.univ.image (Pipeline.arrRef spec1) → V4 m c b = V3 m c b :=
  fun b hb => W4_of_ne m c b fun e => hb (Finset.mem_image.mpr ⟨8, Finset.mem_univ _, e.symm⟩)

/-! ## The proof data family and what rides along -/

abbrev adm : (p : Fin 2) → (pcfgs (F := F) p).Adm := fun p => (cfgs p).toPCfg_adm
/-- Both kernels' proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The two kernels as segments -/

set_option backward.isDefEq.respectTransparency.types false in
/-- The attention kernel: entered with every buffer at `W1`, left with them at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel: entered with every buffer at `W3`, left with them at `W4`. Two of its input arrays are each
    handed to two windows, so each is held as two half shares while the region runs. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m c)
  hentry c := by
    rw [Pipeline.ownSems0_none]
    have hsplit := arrays1_of_unscopedBufs (pdats m 1 c) (by rfl) (by rfl) (by rfl) (by rfl) (by rfl) (by rfl) (by rfl) (by rfl) (V3 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    rw [Pipeline.ownSems0_none]
    refine (hout1 (V3 m) c).trans ?_
    unfold Pipeline.ΦA
    iintro ⟨Hr, Hp⟩
    isplitl [Hp]; · iexact Hp
    isplitr; · iempintro
    iexact Hr
  hexit c := by
    have hjoin := unscopedBufs_of_arrays1 (pdats m 1 c) (by rfl) (by rfl) (by rfl) (by rfl) (by rfl) (by rfl) (by rfl) (by rfl) (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor

abbrev segs : List (Pipeline.Seg (pcfgs (F := F)) adm (pdats m) () defs₀ 𝒱₀ L lv) :=
  [ .host (hseg hostOps0 hostOps0_sub hostOps0_fresh' (W0 m)),
    .region (reg0 m),
    .host (hseg hostOps1 hostOps1_sub hostOps1_fresh' (W2 m)),
    .region (reg1 m),
    .host (hseg hostOps2 hostOps2_sub hostOps2_fresh' (W4 m)) ]

set_option backward.isDefEq.respectTransparency.types false in
/-- THE RUN. From any memory with zero counters every weakly fair execution of the program terminates, nothing
    faulting, and in every final state every buffer that outlives the kernels holds what the last boundary says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj embL defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- info: 'Cert.Kernel.Hand.run_all' depends on axioms: [propext, Classical.choice, Quot.sound] -/
#guard_msgs in #print axioms run_all

/-! ## What the run says of the arguments and of the result -/

/-- No host operation and no kernel writes an argument: at the last boundary it holds what it held at launch. -/
theorem W5_arg (c : Dev nD) (b : Ref sig .tc) (h0 : b ∉ hostOps0_W) (h1 : b ∉ hostOps1_W) (h2 : b ∉ hostOps2_W)
    (hk0 : ∀ w, (cfg0.win w).isOut = true → Pipeline.arrRef spec0 w ≠ b) (hk1 : b ≠ main_v12) :
    W5 m c (Proc.devRef .tc b) = m ((c : Thread nD τ).loc b) := by
  have e5 : W5 m c (Proc.devRef .tc b) = W4 m c (Proc.devRef .tc b) := StableHlo.after_of_writes_sub hostOps2 _ hostOps2_writes h2
  have e4 : W4 m c (Proc.devRef .tc b) = W3 m c (Proc.devRef .tc b) := W4_of_ne m c b hk1
  have e3 : W3 m c (Proc.devRef .tc b) = W2 m c (Proc.devRef .tc b) := StableHlo.after_of_writes_sub hostOps1 _ hostOps1_writes h1
  have e1 : W1 m c (Proc.devRef .tc b) = W0 m c (Proc.devRef .tc b) := StableHlo.after_of_writes_sub hostOps0 _ hostOps0_writes h0
  have e2 : W2 m c (Proc.devRef .tc b) = W1 m c (Proc.devRef .tc b) := by
    by_cases hb : ∃ w, Pipeline.arrRef spec0 w = b
    · obtain ⟨w, rfl⟩ := hb
      have hin : (cfg0.win w).isOut = false := by
        cases hw : (cfg0.win w).isOut
        · rfl
        · exact absurd rfl (hk0 w hw)
      exact (W2_arr m c w).trans (((dat0 (V1 m) c).arrAt_in w hin _).trans (A_eq0 (V1 m) c w))
    · exact W2_of_ne m c b fun w e => hb ⟨w, e⟩
  exact e5.trans (e4.trans (e3.trans (e2.trans (e1.trans rfl))))

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
    (h c _ (mem_uc main_arg0 (by decide))).trans (W5_arg m c main_arg0 (by decide) (by decide) (by decide) (by decide) (by decide)),
    (h c _ (mem_uc main_arg1 (by decide))).trans (W5_arg m c main_arg1 (by decide) (by decide) (by decide) (by decide) (by decide)),
    (h c _ (mem_uc main_arg2 (by decide))).trans (W5_arg m c main_arg2 (by decide) (by decide) (by decide) (by decide) (by decide)),
    (h c _ (mem_uc main_arg3 (by decide))).trans (W5_arg m c main_arg3 (by decide) (by decide) (by decide) (by decide) (by decide)),
    (h c _ (mem_uc main_arg4 (by decide))).trans (W5_arg m c main_arg4 (by decide) (by decide) (by decide) (by decide) (by decide)),
    (h c _ (mem_uc main_arg5 (by decide))).trans (W5_arg m c main_arg5 (by decide) (by decide) (by decide) (by decide) (by decide)),
    (h c _ (mem_uc main_arg6 (by decide))).trans (W5_arg m c main_arg6 (by decide) (by decide) (by decide) (by decide) (by decide))⟩) (run_all m ρ)

/-- THE RESULT: the program's result buffer ends holding the last reshape of what the second kernel's output array
    holds at its exit; and every argument array ends as launched. -/
theorem run_value : θ_run defs (onTc (τ := τ) (main (F := F))) ⟨m, fun _ => 0, ρ⟩ (fun r => ∀ c : Dev nD,
      r.2.mem ((c.tc : Thread nD τ).loc main_v13) = W5 m c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨h c _ (mem_uc main_v13 (by decide)),
    (h c _ (mem_uc main_arg0 (by decide))).trans (W5_arg m c main_arg0 (by decide) (by decide) (by decide) (by decide) (by decide)),
    (h c _ (mem_uc main_arg1 (by decide))).trans (W5_arg m c main_arg1 (by decide) (by decide) (by decide) (by decide) (by decide)),
    (h c _ (mem_uc main_arg2 (by decide))).trans (W5_arg m c main_arg2 (by decide) (by decide) (by decide) (by decide) (by decide)),
    (h c _ (mem_uc main_arg3 (by decide))).trans (W5_arg m c main_arg3 (by decide) (by decide) (by decide) (by decide) (by decide)),
    (h c _ (mem_uc main_arg4 (by decide))).trans (W5_arg m c main_arg4 (by decide) (by decide) (by decide) (by decide) (by decide)),
    (h c _ (mem_uc main_arg5 (by decide))).trans (W5_arg m c main_arg5 (by decide) (by decide) (by decide) (by decide) (by decide)),
    (h c _ (mem_uc main_arg6 (by decide))).trans (W5_arg m c main_arg6 (by decide) (by decide) (by decide) (by decide) (by decide))⟩) (run_all m ρ)

end Cert.Kernel.Hand

end
-- ==== Proof.KI.R0Base.lean ====
/-
  The attention kernel (the first of the program's two kernel regions), on a grid of 4 row tiles by 16 column tiles:
  which of its two conditionals a grid point takes, where its two output windows are idle, the staging and scratch
  buffers it is called with, the blocks of its input arrays, and the region's invariant opened into the three
  scratch buffers the kernel carries from one column tile to the next (running maximum, running denominator,
  running numerator), the buffers it never touches, and the generator register.
-/
import proofs.«178816_j65481071400898_2_alg».proof.Proof.Gen.KernelIdeal.Launch
import proofs.«178816_j65481071400898_2_alg».proof.Proof.Gen.KernelIdeal.Skeleton
import proofs.«178816_j65481071400898_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The two conditionals over the grid -/

/-- The first conditional (reset the running maximum, denominator and numerator): taken at column tile 0. -/
abbrev cond0_0 (i : grid0.Coords) : Prop := (Scalar.cmpi .ne (Scalar.extui (Scalar.cmpi .eq (BitVec.ofNat 32 (i 1).val) 0#32)) 0#32) = 1#1
/-- Point `t` is at column tile `t % 16`: the reset happens where that is 0. -/
theorem hcond0_0 : ∀ t : Fin cfg0.N, cond0_0 (grid0.coords t) ↔ t.val % 16 = 0 :=
  (by decide +kernel : ∀ t : Fin grid0.N, cond0_0 (grid0.coords t) ↔ t.val % 16 = 0)

/-- The second conditional (normalise and write the two outputs): taken at the last column tile. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Before the last column tile neither output is stored into, nor written back. -/
theorem idleAt0_3 : ∀ t : Fin cfg0.N, ¬cond0_1 (grid0.coords t) → cfg0.idle 3 (grid0.coords t) = true := by decide +kernel
theorem idleAt0_4 : ∀ t : Fin cfg0.N, ¬cond0_1 (grid0.coords t) → cfg0.idle 4 (grid0.coords t) = true := by decide +kernel
theorem noFlush0_3 : ∀ t : Fin cfg0.N, ¬cond0_1 (grid0.coords t) → (cfg0.win 3).flush t = false := by decide +kernel
theorem noFlush0_4 : ∀ t : Fin cfg0.N, ¬cond0_1 (grid0.coords t) → (cfg0.win 4).flush t = false := by decide +kernel
/-- At the last column tile both outputs are stored whole. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The buffers the body is called with -/

abbrev ms0_0 (t : Fin cfg0.N) : Memref sig .tc .vmem S2048x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1 .f32 := win0_4.stage (cfg0.slots t 4)
abbrev hs0_4 (t : Fin cfg0.N) : (ms0_4 t).IsWhole := hstage0_4 ((cfg0.slots t 4).cast nbuf0_4)
/-- The running maximum, the running denominator and the running numerator. -/
abbrev scM0_0 : Memref sig .tc .vmem S2048x1 .f32 := Memref.whole cc0_scratch0
abbrev scM0_1 : Memref sig .tc .vmem S2048x1 .f32 := Memref.whole cc0_scratch1
abbrev scM0_2 : Memref sig .tc .vmem S2048x256 .f32 := Memref.whole cc0_scratch2
abbrev VS0_0 : View sig .tc .vmem S2048x1 .f32 := scM0_0.view
abbrev VS0_1 : View sig .tc .vmem S2048x1 .f32 := scM0_1.view
abbrev VS0_2 : View sig .tc .vmem S2048x256 .f32 := scM0_2.view
/-- One staging buffer of each output, through which its contents are stated. -/
abbrev VO0_3 : View sig .tc .vmem S2048x256 .bf16 := (Memref.whole cc0_stg3_0 : Memref sig .tc .vmem S2048x256 .bf16).view
abbrev VO0_4 : View sig .tc .vmem S2048x1 .f32 := (Memref.whole cc0_stg4_0 : Memref sig .tc .vmem S2048x1 .f32).view

/-! ## The input blocks -/

/-- Window `w`'s block at point `t`, read off its array at the contents `V` the region is entered with. -/
def iblk0 {c : Dev nD} (V : (b : Ref sig .tc) → Buf (Elt F) ((c : Thread nD τ).loc b)) (w : Fin cfg0.W) (t : Fin cfg0.N) :
    ((cfg0.win w).xblock (cfg0.grid.coords t)).Idx → Elt F (cfg0.win w).elt :=
  ((cfg0.win w).blk t).view.read (Elt F) (V (Pipeline.arrRef spec0 w))

/-- An input's staging buffer holds its block at every point, whether fetched there or kept from the point before
    (the row block does not move while the column tile advances). -/
theorem before0_0_of {c : Dev nD} (V : (b : Ref sig .tc) → Buf (Elt F) ((c : Thread nD τ).loc b)) (dat : Dat τ (Elt F) Unit ℕ (Pipeline.UD sig nD τ) ℕ cfg0 c) (hA : dat.A 0 = V (Pipeline.arrRef spec0 0))
    (hafter : ∀ t, dat.after 0 t = iblk0 V 0 t) (t : Fin cfg0.N) (d) : dat.before 0 t d = iblk0 V 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (V : (b : Ref sig .tc) → Buf (Elt F) ((c : Thread nD τ).loc b)) (dat : Dat τ (Elt F) Unit ℕ (Pipeline.UD sig nD τ) ℕ cfg0 c) (hA : dat.A 1 = V (Pipeline.arrRef spec0 1))
    (hafter : ∀ t, dat.after 1 t = iblk0 V 1 t) (t : Fin cfg0.N) (d) : dat.before 1 t d = iblk0 V 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (V : (b : Ref sig .tc) → Buf (Elt F) ((c : Thread nD τ).loc b)) (dat : Dat τ (Elt F) Unit ℕ (Pipeline.UD sig nD τ) ℕ cfg0 c) (hA : dat.A 2 = V (Pipeline.arrRef spec0 2))
    (hafter : ∀ t, dat.after 2 t = iblk0 V 2 t) (t : Fin cfg0.N) (d) : dat.before 2 t d = iblk0 V 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The region's invariant, opened -/

/-- The scoped buffers this kernel never touches (the other kernel's staging buffers and scratch), each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_scratch0), ((c : Thread nD τ).loc cc1_scratch0) ↦{fullShare} f))

/-- What the launch hands the kernel: its three scratch buffers at anything, the buffers it never touches, the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ rest0 c) ∗ (∃ r, prngReg c r)) := by
  unfold Pipeline.ΦA rest0; rw [scopedRest0_eq]; simp only [scM0_0, scM0_1, scM0_2, owns_whole]; try rfl

end Cert.KernelIdeal.Hand

end
-- ==== Proof.KI.R0RunA.lean ====
/-
  The attention kernel's body at the first column tile of a row tile: it resets the running maximum to minus infinity and the running denominator and numerator to zero, then processes the tile; the three scratch buffers may hold anything on entry.
-/
import proofs.«178816_j65481071400898_2_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The attention kernel's body at the first column tile of a row tile: it resets the running maximum to minus infinity and the running denominator and numerator to zero, then processes the tile; the three scratch buffers may hold anything on entry. The stores' pieces are what the run finds. -/
noncomputable def kernelRun0_A (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole)
    (hc0 : cond0_0 i) (hc1 : ¬cond0_1 i)
    (x0 : Vec F S2048x256 .bf16) (x1 : Vec F S512x256 .bf16) (x2 : Vec F S512x256 .bf16) :
    Σ' (LS0 : List (View.Piece (Elt F) S2048x1 .f32)) (LS1 : List (View.Piece (Elt F) S2048x1 .f32)), { LS2 : List (View.Piece (Elt F) S2048x256 .f32) //
      ∀ (xi3 : Vec F S2048x256 .bf16) (xi4 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E
              (cc0__attn_kernel i arg2 harg2 arg3 harg3 arg4 harg4 arg5 harg5 arg6 harg6 arg7 harg7 arg8 harg8 arg9 harg9) K } := by
  refine ⟨?_, ?_, ?_, fun xi3 xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.KI.R0RunB.lean ====
/-
  The attention kernel's body at a column tile that is neither the first nor the last: from the three input blocks and the running maximum, denominator and numerator the tile before left, it runs to the end leaving the inputs and the two idle output buffers as they were and the three running quantities rewritten.
-/
import proofs.«178816_j65481071400898_2_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The attention kernel's body at a column tile that is neither the first nor the last: from the three input blocks and the running maximum, denominator and numerator the tile before left, it runs to the end leaving the inputs and the two idle output buffers as they were and the three running quantities rewritten. The stores' pieces are what the run finds. -/
noncomputable def kernelRun0_B (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole)
    (hc0 : ¬cond0_0 i) (hc1 : ¬cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) :
    Σ' (LS0 : List (View.Piece (Elt F) S2048x1 .f32)) (LS1 : List (View.Piece (Elt F) S2048x1 .f32)), { LS2 : List (View.Piece (Elt F) S2048x256 .f32) //
      ∀ (xi3 : Vec F S2048x256 .bf16) (xi4 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E
              (cc0__attn_kernel i arg2 harg2 arg3 harg3 arg4 harg4 arg5 harg5 arg6 harg6 arg7 harg7 arg8 harg8 arg9 harg9) K } := by
  refine ⟨?_, ?_, ?_, fun xi3 xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.KI.R0RunC.lean ====
/-
  The attention kernel's body at the last column tile of a row tile: it processes the tile, then divides the running numerator by the running denominator, stores the quotient's row sums of squares into one output and the quotient into the other; the two output buffers may hold anything on entry.
-/
import proofs.«178816_j65481071400898_2_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The attention kernel's body at the last column tile of a row tile: it processes the tile, then divides the running numerator by the running denominator, stores the quotient's row sums of squares into one output and the quotient into the other; the two output buffers may hold anything on entry. The stores' pieces are what the run finds. -/
noncomputable def kernelRun0_C (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole)
    (hc0 : ¬cond0_0 i) (hc1 : cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) :
    Σ' (L3 : List (View.Piece (Elt F) S2048x256 .bf16)) (L4 : List (View.Piece (Elt F) S2048x1 .f32)) (LS0 : List (View.Piece (Elt F) S2048x1 .f32)) (LS1 : List (View.Piece (Elt F) S2048x1 .f32)), { LS2 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E
              (cc0__attn_kernel i arg2 harg2 arg3 harg3 arg4 harg4 arg5 harg5 arg6 harg6 arg7 harg7 arg8 harg8 arg9 harg9) K } := by
  refine ⟨?_, ?_, ?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    isplitl [HS1]; · iexists _; iexact HS1
    iexists _; iexact HS2

end Cert.KernelIdeal.Hand

end
-- ==== Proof.KI.R0Dat.lean ====
/-
  The attention kernel point by point: what each case of its body leaves in the three running quantities and in the
  two outputs, those contents by recursion on the grid point (the running quantities are reset at the first column
  tile of a row tile and carried through the other fifteen; the outputs are written at the last), the pipeline's
  proof data, and the body obligation at every point.
-/
import proofs.«178816_j65481071400898_2_alg».proof.Proof.KI.R0RunA
import proofs.«178816_j65481071400898_2_alg».proof.Proof.KI.R0RunB
import proofs.«178816_j65481071400898_2_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What each case leaves -/

/-- In this case the stores into the running maximum cover its buffer. -/
theorem scover0_A_0 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : cond0_0 i) (hc1 : ¬cond0_1 i)
    (x0 : Vec F S2048x256 .bf16) (x1 : Vec F S512x256 .bf16) (x2 : Vec F S512x256 .bf16) (y : S2048x1.Idx) :
    ∃ pc ∈ (kernelRun0_A c i arg2 harg2 arg3 harg3 arg4 harg4 arg5 harg5 arg6 harg6 arg7 harg7 arg8 harg8 arg9 harg9 hc0 hc1 x0 x1 x2).1, y ∈ pc.1.set :=
  View.cover_of_tiledL (kernelRun0_A c i arg2 harg2 arg3 harg3 arg4 harg4 arg5 harg5 arg6 harg6 arg7 harg7 arg8 harg8 arg9 harg9 hc0 hc1 x0 x1 x2).1 S2048x1.size (by sl_kernel_rfl) y

/-- What this case leaves in the running maximum: its pieces read back. -/
def sout0_A_0 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : cond0_0 i) (hc1 : ¬cond0_1 i)
    (x0 : Vec F S2048x256 .bf16) (x1 : Vec F S512x256 .bf16) (x2 : Vec F S512x256 .bf16) : Vec F S2048x1 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2).1)

/-- In this case the stores into the running denominator cover its buffer. -/
theorem scover0_A_1 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : cond0_0 i) (hc1 : ¬cond0_1 i)
    (x0 : Vec F S2048x256 .bf16) (x1 : Vec F S512x256 .bf16) (x2 : Vec F S512x256 .bf16) (y : S2048x1.Idx) :
    ∃ pc ∈ (kernelRun0_A c i arg2 harg2 arg3 harg3 arg4 harg4 arg5 harg5 arg6 harg6 arg7 harg7 arg8 harg8 arg9 harg9 hc0 hc1 x0 x1 x2).2.1, y ∈ pc.1.set :=
  View.cover_of_tiledL (kernelRun0_A c i arg2 harg2 arg3 harg3 arg4 harg4 arg5 harg5 arg6 harg6 arg7 harg7 arg8 harg8 arg9 harg9 hc0 hc1 x0 x1 x2).2.1 S2048x1.size (by sl_kernel_rfl) y

/-- What this case leaves in the running denominator: its pieces read back. -/
def sout0_A_1 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : cond0_0 i) (hc1 : ¬cond0_1 i)
    (x0 : Vec F S2048x256 .bf16) (x1 : Vec F S512x256 .bf16) (x2 : Vec F S512x256 .bf16) : Vec F S2048x1 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2).2.1)

/-- In this case the stores into the running numerator cover its buffer. -/
theorem scover0_A_2 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : cond0_0 i) (hc1 : ¬cond0_1 i)
    (x0 : Vec F S2048x256 .bf16) (x1 : Vec F S512x256 .bf16) (x2 : Vec F S512x256 .bf16) (y : S2048x256.Idx) :
    ∃ pc ∈ (kernelRun0_A c i arg2 harg2 arg3 harg3 arg4 harg4 arg5 harg5 arg6 harg6 arg7 harg7 arg8 harg8 arg9 harg9 hc0 hc1 x0 x1 x2).2.2.1, y ∈ pc.1.set :=
  View.cover_of_tiledL (kernelRun0_A c i arg2 harg2 arg3 harg3 arg4 harg4 arg5 harg5 arg6 harg6 arg7 harg7 arg8 harg8 arg9 harg9 hc0 hc1 x0 x1 x2).2.2.1 S2048x256.size (by sl_kernel_rfl) y

/-- What this case leaves in the running numerator: its pieces read back. -/
def sout0_A_2 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : cond0_0 i) (hc1 : ¬cond0_1 i)
    (x0 : Vec F S2048x256 .bf16) (x1 : Vec F S512x256 .bf16) (x2 : Vec F S512x256 .bf16) : Vec F S2048x256 .f32 :=
  VS0_2.read (Elt F) (VS0_2.writes (Elt F) VS0_2.junk (kernelRun0_A c i arg2 harg2 arg3 harg3 arg4 harg4 arg5 harg5 arg6 harg6 arg7 harg7 arg8 harg8 arg9 harg9 hc0 hc1 x0 x1 x2).2.2.1)

/-- In this case the stores into the running maximum cover its buffer. -/
theorem scover0_B_0 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : ¬cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) (y : S2048x1.Idx) :
    ∃ pc ∈ (kernelRun0_B c i arg2 harg2 arg3 harg3 arg4 harg4 arg5 harg5 arg6 harg6 arg7 harg7 arg8 harg8 arg9 harg9 hc0 hc1 x0 x1 x2 xs0 xs1 xs2).1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1 xs2).1 S2048x1.size (by sl_kernel_rfl) y

/-- What this case leaves in the running maximum: its pieces read back. -/
def sout0_B_0 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : ¬cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) : Vec F S2048x1 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 xs0 xs1 xs2).1)

/-- In this case the stores into the running denominator cover its buffer. -/
theorem scover0_B_1 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : ¬cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) (y : S2048x1.Idx) :
    ∃ pc ∈ (kernelRun0_B c i arg2 harg2 arg3 harg3 arg4 harg4 arg5 harg5 arg6 harg6 arg7 harg7 arg8 harg8 arg9 harg9 hc0 hc1 x0 x1 x2 xs0 xs1 xs2).2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1 xs2).2.1 S2048x1.size (by sl_kernel_rfl) y

/-- What this case leaves in the running denominator: its pieces read back. -/
def sout0_B_1 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : ¬cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) : Vec F S2048x1 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 xs0 xs1 xs2).2.1)

/-- In this case the stores into the running numerator cover its buffer. -/
theorem scover0_B_2 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : ¬cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) (y : S2048x256.Idx) :
    ∃ pc ∈ (kernelRun0_B c i arg2 harg2 arg3 harg3 arg4 harg4 arg5 harg5 arg6 harg6 arg7 harg7 arg8 harg8 arg9 harg9 hc0 hc1 x0 x1 x2 xs0 xs1 xs2).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1 xs2).2.2.1 S2048x256.size (by sl_kernel_rfl) y

/-- What this case leaves in the running numerator: its pieces read back. -/
def sout0_B_2 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : ¬cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) : Vec F S2048x256 .f32 :=
  VS0_2.read (Elt F) (VS0_2.writes (Elt F) VS0_2.junk (kernelRun0_B c i arg2 harg2 arg3 harg3 arg4 harg4 arg5 harg5 arg6 harg6 arg7 harg7 arg8 harg8 arg9 harg9 hc0 hc1 x0 x1 x2 xs0 xs1 xs2).2.2.1)

/-- In this case the stores into the running maximum cover its buffer. -/
theorem scover0_C_0 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) (y : S2048x1.Idx) :
    ∃ pc ∈ (kernelRun0_C c i arg2 harg2 arg3 harg3 arg4 harg4 arg5 harg5 arg6 harg6 arg7 harg7 arg8 harg8 arg9 harg9 hc0 hc1 x0 x1 x2 xs0 xs1 xs2).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1 xs2).2.2.1 S2048x1.size (by sl_kernel_rfl) y

/-- What this case leaves in the running maximum: its pieces read back. -/
def sout0_C_0 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) : Vec F S2048x1 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 xs0 xs1 xs2).2.2.1)

/-- In this case the stores into the running denominator cover its buffer. -/
theorem scover0_C_1 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) (y : S2048x1.Idx) :
    ∃ pc ∈ (kernelRun0_C c i arg2 harg2 arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1 xs2).2.2.2.1 S2048x1.size (by sl_kernel_rfl) y

/-- What this case leaves in the running denominator: its pieces read back. -/
def sout0_C_1 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) : Vec F S2048x1 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 xs0 xs1 xs2).2.2.2.1)

/-- In this case the stores into the running numerator cover its buffer. -/
theorem scover0_C_2 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) (y : S2048x256.Idx) :
    ∃ pc ∈ (kernelRun0_C c i arg2 harg2 arg3 harg3 arg4 harg4 arg5 harg5 arg6 harg6 arg7 harg7 arg8 harg8 arg9 harg9 hc0 hc1 x0 x1 x2 xs0 xs1 xs2).2.2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1 xs2).2.2.2.2.1 S2048x256.size (by sl_kernel_rfl) y

/-- What this case leaves in the running numerator: its pieces read back. -/
def sout0_C_2 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) : Vec F S2048x256 .f32 :=
  VS0_2.read (Elt F) (VS0_2.writes (Elt F) VS0_2.junk (kernelRun0_C c i arg2 harg2 arg3 harg3 arg4 harg4 arg5 harg5 arg6 harg6 arg7 harg7 arg8 harg8 arg9 harg9 hc0 hc1 x0 x1 x2 xs0 xs1 xs2).2.2.2.2.1)

/-- At the last column tile the stores into the normalised-attention output cover its buffer. -/
theorem cover0_C_3 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) (y : S2048x256.Idx) :
    ∃ pc ∈ (kernelRun0_C c i arg2 harg2 arg3 harg3 arg4 harg4 arg5 harg5 arg6 harg6 arg7 harg7 arg8 harg8 arg9 harg9 hc0 hc1 x0 x1 x2 xs0 xs1 xs2).1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1 xs2).1 S2048x256.size (by sl_kernel_rfl) y
/-- What it leaves there. -/
def out0_C_3 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) : Vec F S2048x256 .bf16 :=
  VO0_3.read (Elt F) (VO0_3.writes (Elt F) VO0_3.junk (kernelRun0_C c i arg2 harg2 arg3 harg3 arg4 harg4 arg5 harg5 arg6 harg6 arg7 harg7 arg8 harg8 arg9 harg9 hc0 hc1 x0 x1 x2 xs0 xs1 xs2).1)
/-- At the last column tile the stores into the sum-of-squares output cover its buffer. -/
theorem cover0_C_4 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) (y : S2048x1.Idx) :
    ∃ pc ∈ (kernelRun0_C c i arg2 harg2 arg3 harg3 arg4 harg4 arg5 harg5 arg6 harg6 arg7 harg7 arg8 harg8 arg9 harg9 hc0 hc1 x0 x1 x2 xs0 xs1 xs2).2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1 xs2).2.1 S2048x1.size (by sl_kernel_rfl) y
/-- What it leaves there. -/
def out0_C_4 (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) : Vec F S2048x1 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 x2 xs0 xs1 xs2).2.1)

/-! ## The running quantities, point by point -/

variable (V : (c : Dev nD) → (b : Ref sig .tc) → Buf (Elt F) ((c : Thread nD τ).loc b))

/-- THE RECURRENCE. What the running maximum, denominator and numerator hold after the body at position `n`: at the
    first column tile of a row tile what the reset case computes from that tile's blocks alone; at every other column
    tile what the carrying cases compute from the tile's blocks and what position `n - 1` left. -/
def scrAt0 (c : Dev nD) : (n : ℕ) → n < cfg0.N → Vec F S2048x1 .f32 × Vec F S2048x1 .f32 × Vec F S2048x256 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 (V c) 0 ⟨0, hn⟩) (iblk0 (V c) 1 ⟨0, hn⟩) (iblk0 (V c) 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 (V c) 0 ⟨0, hn⟩) (iblk0 (V c) 1 ⟨0, hn⟩) (iblk0 (V c) 2 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 (V c) 0 ⟨0, hn⟩) (iblk0 (V c) 1 ⟨0, hn⟩) (iblk0 (V c) 2 ⟨0, hn⟩))
  | n + 1, hn =>
    if h0 : (n + 1) % 16 = 0 then
      if h1 : (n + 1) % 16 = 15 then
        False.elim (by omega)
      else
        (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 (V c) 0 ⟨n + 1, hn⟩) (iblk0 (V c) 1 ⟨n + 1, hn⟩) (iblk0 (V c) 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 (V c) 0 ⟨n + 1, hn⟩) (iblk0 (V c) 1 ⟨n + 1, hn⟩) (iblk0 (V c) 2 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 (V c) 0 ⟨n + 1, hn⟩) (iblk0 (V c) 1 ⟨n + 1, hn⟩) (iblk0 (V c) 2 ⟨n + 1, hn⟩))
    else
      if h1 : (n + 1) % 16 = 15 then
        (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 (V c) 0 ⟨n + 1, hn⟩) (iblk0 (V c) 1 ⟨n + 1, hn⟩) (iblk0 (V c) 2 ⟨n + 1, hn⟩) (scrAt0 c n (Nat.lt_of_succ_lt hn)).1 (scrAt0 c n (Nat.lt_of_succ_lt hn)).2.1 (scrAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 (V c) 0 ⟨n + 1, hn⟩) (iblk0 (V c) 1 ⟨n + 1, hn⟩) (iblk0 (V c) 2 ⟨n + 1, hn⟩) (scrAt0 c n (Nat.lt_of_succ_lt hn)).1 (scrAt0 c n (Nat.lt_of_succ_lt hn)).2.1 (scrAt0 c n (Nat.lt_of_succ_lt hn)).2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 (V c) 0 ⟨n + 1, hn⟩) (iblk0 (V c) 1 ⟨n + 1, hn⟩) (iblk0 (V c) 2 ⟨n + 1, hn⟩) (scrAt0 c n (Nat.lt_of_succ_lt hn)).1 (scrAt0 c n (Nat.lt_of_succ_lt hn)).2.1 (scrAt0 c n (Nat.lt_of_succ_lt hn)).2.2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 (V c) 0 ⟨n + 1, hn⟩) (iblk0 (V c) 1 ⟨n + 1, hn⟩) (iblk0 (V c) 2 ⟨n + 1, hn⟩) (scrAt0 c n (Nat.lt_of_succ_lt hn)).1 (scrAt0 c n (Nat.lt_of_succ_lt hn)).2.1 (scrAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 (V c) 0 ⟨n + 1, hn⟩) (iblk0 (V c) 1 ⟨n + 1, hn⟩) (iblk0 (V c) 2 ⟨n + 1, hn⟩) (scrAt0 c n (Nat.lt_of_succ_lt hn)).1 (scrAt0 c n (Nat.lt_of_succ_lt hn)).2.1 (scrAt0 c n (Nat.lt_of_succ_lt hn)).2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 (V c) 0 ⟨n + 1, hn⟩) (iblk0 (V c) 1 ⟨n + 1, hn⟩) (iblk0 (V c) 2 ⟨n + 1, hn⟩) (scrAt0 c n (Nat.lt_of_succ_lt hn)).1 (scrAt0 c n (Nat.lt_of_succ_lt hn)).2.1 (scrAt0 c n (Nat.lt_of_succ_lt hn)).2.2)

/-- At the first column tile of a row tile: the reset case's contents. -/
theorem scrAt0_A (c : Dev nD) (t : Fin cfg0.N) (h0 : t.val % 16 = 0) (h1 : ¬t.val % 16 = 15) :
    scrAt0 V c t.val t.isLt = (sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk0 (V c) 0 t) (iblk0 (V c) 1 t) (iblk0 (V c) 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk0 (V c) 0 t) (iblk0 (V c) 1 t) (iblk0 (V c) 2 t), sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk0 (V c) 0 t) (iblk0 (V c) 1 t) (iblk0 (V c) 2 t)) := by
  obtain ⟨n, hn⟩ := t
  cases n with
  | zero => exact rfl
  | succ n => exact (dif_pos h0).trans ((dif_neg h1).trans rfl)

/-- At a middle column tile: the carrying case's contents over what the point before left. -/
theorem scrAt0_B (c : Dev nD) (t : Fin cfg0.N) (h0 : ¬t.val % 16 = 0) (h1 : ¬t.val % 16 = 15) :
    scrAt0 V c t.val t.isLt = (sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk0 (V c) 0 t) (iblk0 (V c) 1 t) (iblk0 (V c) 2 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk0 (V c) 0 t) (iblk0 (V c) 1 t) (iblk0 (V c) 2 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2, sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk0 (V c) 0 t) (iblk0 (V c) 1 t) (iblk0 (V c) 2 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At the last column tile: the normalising case's contents over what the point before left. -/
theorem scrAt0_C (c : Dev nD) (t : Fin cfg0.N) (h0 : ¬t.val % 16 = 0) (h1 : t.val % 16 = 15) :
    scrAt0 V c t.val t.isLt = (sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk0 (V c) 0 t) (iblk0 (V c) 1 t) (iblk0 (V c) 2 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk0 (V c) 0 t) (iblk0 (V c) 1 t) (iblk0 (V c) 2 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2, sout0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk0 (V c) 0 t) (iblk0 (V c) 1 t) (iblk0 (V c) 2 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- What the two outputs' staging buffers hold after the body at point `t`: at the last column tile of a row tile the
    normalised attention block and its rows' sums of squares, computed from the tile's blocks and the running quantities
    the point before left; elsewhere the outputs are idle and the value is never consulted. -/
def outAt0_3 (c : Dev nD) (t : Fin cfg0.N) : Vec F S2048x256 .bf16 :=
  if h1 : t.val % 16 = 15 then
    out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => (fun h => by omega) ((hcond0_0 t).mp h)) ((hcond0_1 t).mpr h1) (iblk0 (V c) 0 t) (iblk0 (V c) 1 t) (iblk0 (V c) 2 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2
  else VO0_3.read (Elt F) VO0_3.junk
def outAt0_4 (c : Dev nD) (t : Fin cfg0.N) : Vec F S2048x1 .f32 :=
  if h1 : t.val % 16 = 15 then
    out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => (fun h => by omega) ((hcond0_0 t).mp h)) ((hcond0_1 t).mpr h1) (iblk0 (V c) 0 t) (iblk0 (V c) 1 t) (iblk0 (V c) 2 t) (scrAt0 V c (t.val - 1) (Nat.lt_of_le_of_lt (Nat.sub_le _ _) t.isLt)).1 (scrAt0 V c (t.val - 1) (Nat.lt_of_le_of_lt (Nat.sub_le _ _) t.isLt)).2.1 (scrAt0 V c (t.val - 1) (Nat.lt_of_le_of_lt (Nat.sub_le _ _) t.isLt)).2.2
  else VO0_4.read (Elt F) VO0_4.junk

/-! ## The invariant between points -/

/-- Before the first point the three scratch buffers hold anything; before any later point they hold what the point
    before left. The buffers the kernel never touches and the generator register ride along. -/
def PhiS0 (c : Dev nD) : (n : ℕ) → n ≤ cfg0.N → sProp 𝕄
  | 0, _ => Pipeline.ΦA spec0 c
  | n + 1, hn => iprop(iprop(owns (c : Thread nD τ) scM0_0 fullShare (scrAt0 V c n hn).1 ∗ owns (c : Thread nD τ) scM0_1 fullShare (scrAt0 V c n hn).2.1 ∗ owns (c : Thread nD τ) scM0_2 fullShare (scrAt0 V c n hn).2.2 ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (scrAt0 V c n hn).1 ∗ owns (c : Thread nD τ) scM0_1 fullShare (scrAt0 V c n hn).2.1 ∗ owns (c : Thread nD τ) scM0_2 fullShare (scrAt0 V c n hn).2.2 ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (scrAt0 V c (n - 1) (by omega)).1 ∗ owns (c : Thread nD τ) scM0_1 fullShare (scrAt0 V c (n - 1) (by omega)).2.1 ∗ owns (c : Thread nD τ) scM0_2 fullShare (scrAt0 V c (n - 1) (by omega)).2.2 ∗ rest0 c) ∗ (∃ r, prngReg c r)) := by
  cases n with
  | zero => exact absurd rfl hz
  | succ n => rfl

/-! ## The pipeline's proof data -/

/-- The attention kernel's proof data on core `c`: its arrays at the contents `V` the region is entered with; after the
    body each input's buffer at its block, the outputs' at `outAt0_3` / `outAt0_4`; the invariant `PhiS0`; nothing owed. -/
def dat0 (c : Dev nD) : Dat τ (Elt F) Unit ℕ (Pipeline.UD sig nD τ) ℕ cfg0 c where
  A w := V c (Pipeline.arrRef spec0 w)
  after w t := match w with
    | ⟨0, _⟩ => iblk0 (V c) 0 t
    | ⟨1, _⟩ => iblk0 (V c) 1 t
    | ⟨2, _⟩ => iblk0 (V c) 2 t
    | ⟨3, _⟩ => outAt0_3 V c t
    | ⟨4, _⟩ => outAt0_4 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 (V c) 0 t := by dsimp only [dat0]
theorem after0_1 (c : Dev nD) (t : Fin cfg0.N) : (dat0 V c).after 1 t = iblk0 (V c) 1 t := by dsimp only [dat0]
theorem after0_2 (c : Dev nD) (t : Fin cfg0.N) : (dat0 V c).after 2 t = iblk0 (V c) 2 t := by dsimp only [dat0]
theorem after0_3 (c : Dev nD) (t : Fin cfg0.N) : (dat0 V c).after 3 t = outAt0_3 V c t := by dsimp only [dat0]
theorem after0_4 (c : Dev nD) (t : Fin cfg0.N) : (dat0 V c).after 4 t = outAt0_4 V c t := by dsimp only [dat0]
theorem before0_0 (c : Dev nD) (t : Fin cfg0.N) (d) : (dat0 V c).before 0 t d = iblk0 (V c) 0 t :=
  before0_0_of (V c) (dat0 V c) (A_eq0 V c 0) (after0_0 V c) t d
theorem before0_1 (c : Dev nD) (t : Fin cfg0.N) (d) : (dat0 V c).before 1 t d = iblk0 (V c) 1 t :=
  before0_1_of (V c) (dat0 V c) (A_eq0 V c 1) (after0_1 V c) t d
theorem before0_2 (c : Dev nD) (t : Fin cfg0.N) (d) : (dat0 V c).before 2 t d = iblk0 (V c) 2 t :=
  before0_2_of (V c) (dat0 V c) (A_eq0 V c 2) (after0_2 V c) t d

/-! ## The body obligation -/

/-- What the body is called with at point `t`: the invariant, the core's dues, and each window's current staging
    buffer at what the pipeline left there. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t ∗ (dat0 V c).leavesExact 4 t)

set_option maxHeartbeats 8000000 in
/-- The body at any point. Its column tile decides the case; the inputs' buffers hold their blocks; the invariant hands
    the body the three running quantities at what the point before left (anything at the very first point, and the
    reset case does not read them) and takes them back at this point's contents; before the last column tile the two
    outputs are handed back untouched, at it they hold the stored blocks. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  rw [show (dat0 V c).leavesExact 2 t = owns (c : Thread nD τ) (ms0_2 t) fullShare ((dat0 V c).after 2 t) from by
        unfold Dat.leavesExact; rw [liveAt0_2 t], after0_2]
  by_cases h0 : t.val % 16 = 0
  · have h1 : ¬t.val % 16 = 15 := by omega
    have hc0' : cond0_0 (grid0.coords t) := (hcond0_0 t).mpr h0
    have hc1' : ¬cond0_1 (grid0.coords t) := fun h => h1 ((hcond0_1 t).mp h)
    rw [Dat.leavesExact_idle (dat0 V c) 3 t (idleAt0_3 t hc1') (noFlush0_3 t hc1')]
    rw [Dat.leavesExact_idle (dat0 V c) 4 t (idleAt0_4 t hc1') (noFlush0_4 t hc1')]
    rw [scrAt0_A V c t h0 h1]
    unfold sout0_A_0 sout0_A_1 sout0_A_2; (try dsimp only)
    by_cases hz : t.val = 0
    ·
        rw [PhiS0_castSucc V c t, PhiS0_zero V c _ _ hz, PhiA0_eq]
        iintro ⟨⟨⟨HS0, HS1, HS2, Hrest⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ hc0' hc1' (iblk0 (V c) 0 t) (iblk0 (V c) 1 t) (iblk0 (V c) 2 t)).2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hrest Hg]
        · isplitl [HS0 HS1 HS2 Hrest]
          swap; · iexact Hg
          isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _)
          iexact Hrest
        isplitl [Ho]; · iexact Ho
        isplitl [H0]; · iexact H0
        isplitl [H1]; · iexact H1
        isplitl [H2]; · iexact H2
        isplitl [H3]; · iexists _; iexact H3
        iexists _; iexact H4
    ·
        rw [PhiS0_castSucc V c t, PhiS0_pos V c _ _ hz]
        iintro ⟨⟨⟨HS0, HS1, HS2, Hrest⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ hc0' hc1' (iblk0 (V c) 0 t) (iblk0 (V c) 1 t) (iblk0 (V c) 2 t)).2.2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HS0 HS1 HS2 Hrest Hg]
        · isplitl [HS0 HS1 HS2 Hrest]
          swap; · iexact Hg
          isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _)
          iexact Hrest
        isplitl [Ho]; · iexact Ho
        isplitl [H0]; · iexact H0
        isplitl [H1]; · iexact H1
        isplitl [H2]; · iexact H2
        isplitl [H3]; · iexists _; iexact H3
        iexists _; iexact H4
  · have hc0' : ¬cond0_0 (grid0.coords t) := fun h => h0 ((hcond0_0 t).mp h)
    have hz : t.val ≠ 0 := fun h => h0 (by rw [h])
    by_cases h1 : t.val % 16 = 15
    · have hc1' : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hc1'], after0_3]
      rw [show (dat0 V c).leavesExact 4 t = owns (c : Thread nD τ) (ms0_4 t) fullShare ((dat0 V c).after 4 t) from by
        unfold Dat.leavesExact; rw [liveAt0_4 t hc1'], after0_4]
      rw [scrAt0_C V c t h0 h1]
      unfold outAt0_3 outAt0_4; rw [dif_pos h1, dif_pos h1]
      unfold out0_C_3 out0_C_4 sout0_C_0 sout0_C_1 sout0_C_2; (try dsimp only)
      ·
        rw [PhiS0_castSucc V c t, PhiS0_pos V c _ _ hz]
        iintro ⟨⟨⟨HS0, HS1, HS2, Hrest⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ _ _ hc0' hc1' (iblk0 (V c) 0 t) (iblk0 (V c) 1 t) (iblk0 (V c) 2 t) _ _ _).2.2.2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        isplitl [HS1]; · iexact HS1
        isplitl [HS2]; · iexact HS2
        iintro ⟨H0, H1, H2, ⟨%e3, H3⟩, ⟨%e4, H4⟩, ⟨%es0, HS0⟩, ⟨%es1, HS1⟩, ⟨%es2, HS2⟩⟩
        isplitl [HS0 HS1 HS2 Hrest Hg]
        · isplitl [HS0 HS1 HS2 Hrest]
          swap; · iexact Hg
          isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_C_2 c _ _ _ _ _ _ _ _ _ _ _ _ _ _ _ _ _ _ _ _ _ _ _ _ _)
          iexact Hrest
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _ _ _ _ _ _ _)
    · have hc1' : ¬cond0_1 (grid0.coords t) := fun h => h1 ((hcond0_1 t).mp h)
      rw [Dat.leavesExact_idle (dat0 V c) 3 t (idleAt0_3 t hc1') (noFlush0_3 t hc1')]
      rw [Dat.leavesExact_idle (dat0 V c) 4 t (idleAt0_4 t hc1') (noFlush0_4 t hc1')]
      rw [scrAt0_B V c t h0 h1]
      unfold sout0_B_0 sout0_B_1 sout0_B_2; (try dsimp only)
      ·
        rw [PhiS0_castSucc V c t, PhiS0_pos V c _ _ hz]
        iintro ⟨⟨⟨HS0, HS1, HS2, Hrest⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ _ _ hc0' hc1' (iblk0 (V c) 0 t) (iblk0 (V c) 1 t) (iblk0 (V c) 2 t) _ _ _).2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hrest Hg]
        · isplitl [HS0 HS1 HS2 Hrest]
          swap; · iexact Hg
          isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _)
          iexact Hrest
        isplitl [Ho]; · iexact Ho
        isplitl [H0]; · iexact H0
        isplitl [H1]; · iexact H1
        isplitl [H2]; · iexact H2
        isplitl [H3]; · iexists _; iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back: the running quantities' contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl, PhiS0_pos V c _ _ hne, PhiA0_eq]
  iintro ⟨⟨HS0, HS1, HS2, Hrest⟩, Hg⟩
  isplitl [HS0 HS1 HS2 Hrest]
  · isplitl [HS0]; · iexists _; iexact HS0
    isplitl [HS1]; · iexists _; iexact HS1
    isplitl [HS2]; · iexists _; iexact HS2
    iexact Hrest
  iexact Hg

end Cert.KernelIdeal.Hand

end
-- ==== Proof.KI.R1Base.lean ====
/-
  The second kernel (pairwise squared distances of the attention rows, their Gaussian kernel summed along each row,
  and at the last column tile the mean and a two-layer head), on a grid of 4 row tiles by 16 column tiles: which of
  its two conditionals a grid point takes, where its output window is idle, the staging and scratch buffers it is
  called with, the blocks of its input arrays, and the region's invariant opened into the running row sum the kernel
  carries from one column tile to the next, the buffers it never touches, and the generator register.
-/
import proofs.«178816_j65481071400898_2_alg».proof.Proof.Gen.KernelIdeal.Launch
import proofs.«178816_j65481071400898_2_alg».proof.Proof.Gen.KernelIdeal.Skeleton
import proofs.«178816_j65481071400898_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The second kernel's branch conditions -/

/-- The condition of the second kernel's first conditional, from the grid coordinates: the column
    coordinate is zero. -/
abbrev cond1_0 (i : grid1.Coords) : Prop := (Scalar.cmpi .ne (Scalar.extui (Scalar.cmpi .eq (BitVec.ofNat 32 (i 1).val) 0#32)) 0#32) = 1#1
/-- It holds at the points ≡ 0 (mod 16): the first column tile of each row tile. -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of its second conditional: the column coordinate is the last one. -/
abbrev cond1_1 (i : grid1.Coords) : Prop := k1_cond2 i = 1#1
/-- It holds at the points ≡ 15 (mod 16): the last column tile of each row tile. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

/-- Input window 0 is never idle. -/
theorem liveAt1_0 : ∀ t : Fin cfg1.N, cfg1.idle 0 (grid1.coords t) = false := by decide +kernel
/-- Input window 1 is never idle. -/
theorem liveAt1_1 : ∀ t : Fin cfg1.N, cfg1.idle 1 (grid1.coords t) = false := by decide +kernel
/-- Input window 2 is never idle. -/
theorem liveAt1_2 : ∀ t : Fin cfg1.N, cfg1.idle 2 (grid1.coords t) = false := by decide +kernel
/-- Input window 3 is never idle. -/
theorem liveAt1_3 : ∀ t : Fin cfg1.N, cfg1.idle 3 (grid1.coords t) = false := by decide +kernel
/-- Input window 4 is never idle. -/
theorem liveAt1_4 : ∀ t : Fin cfg1.N, cfg1.idle 4 (grid1.coords t) = false := by decide +kernel
/-- Input window 5 is never idle. -/
theorem liveAt1_5 : ∀ t : Fin cfg1.N, cfg1.idle 5 (grid1.coords t) = false := by decide +kernel
/-- Input window 6 is never idle. -/
theorem liveAt1_6 : ∀ t : Fin cfg1.N, cfg1.idle 6 (grid1.coords t) = false := by decide +kernel
/-- Input window 7 is never idle. -/
theorem liveAt1_7 : ∀ t : Fin cfg1.N, cfg1.idle 7 (grid1.coords t) = false := by decide +kernel
/-- At a first column tile the body stores nothing into the output: the window is idle there. -/
theorem idleAt1_8_A : ∀ t : Fin cfg1.N, cond1_0 (grid1.coords t) → ¬cond1_1 (grid1.coords t) → cfg1.idle 8 (grid1.coords t) = true := by decide +kernel
/-- and its block is not written back there. -/
theorem noFlush1_8_A : ∀ t : Fin cfg1.N, cond1_0 (grid1.coords t) → ¬cond1_1 (grid1.coords t) → (cfg1.win 8).flush t = false := by decide +kernel
/-- At an inner column tile the body stores nothing into the output: the window is idle there. -/
theorem idleAt1_8_B : ∀ t : Fin cfg1.N, ¬cond1_0 (grid1.coords t) → ¬cond1_1 (grid1.coords t) → cfg1.idle 8 (grid1.coords t) = true := by decide +kernel
/-- and its block is not written back there. -/
theorem noFlush1_8_B : ∀ t : Fin cfg1.N, ¬cond1_0 (grid1.coords t) → ¬cond1_1 (grid1.coords t) → (cfg1.win 8).flush t = false := by decide +kernel
/-- At a last column tile the body stores the output block: the window is live there. -/
theorem liveAt1_8_C : ∀ t : Fin cfg1.N, ¬cond1_0 (grid1.coords t) → cond1_1 (grid1.coords t) → cfg1.idle 8 (grid1.coords t) = false := by decide +kernel

/-! ## The memrefs the body is called with -/

/-- Each window's current staging memref at point `t`, and its wholeness. -/
abbrev ms1_0 (t : Fin cfg1.N) : Memref sig .tc .vmem S2048x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S2048x1 .f32 := win1_8.stage (cfg1.slots t 8)
abbrev hs1_8 (t : Fin cfg1.N) : (ms1_8 t).IsWhole := hstage1_8 ((cfg1.slots t 8).cast nbuf1_8)
/-- The accumulator of row sums: a whole buffer of the kernel's own, carried from one column tile to the next. -/
abbrev scM1_0 : Memref sig .tc .vmem S2048x1 .f32 := Memref.whole cc1_scratch0
/-- The accumulator as a view: what it holds is stated through it. -/
abbrev VS1_0 : View sig .tc .vmem S2048x1 .f32 := scM1_0.view
/-- One staging buffer of the output window, through which its contents are stated (reading back what was
    written over a covered view does not depend on the view). -/
abbrev VO1_8 : View sig .tc .vmem S2048x1 .f32 := (Memref.whole cc1_stg8_0 : Memref sig .tc .vmem S2048x1 .f32).view

/-! ## The windows' blocks -/

/-- Window `w`'s block at point `t`, read off its array at the contents `V` the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s and whose body leaves the block in place: unfetched, the block index has not moved. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s and whose body leaves the block in place: unfetched, the block index has not moved. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s and whose body leaves the block in place: unfetched, the block index has not moved. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s and whose body leaves the block in place: unfetched, the block index has not moved. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is `V`'s and whose body leaves the block in place: unfetched, the block index has not moved. -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for any proof
    data whose array is `V`'s and whose body leaves the block in place: unfetched, the block index has not moved. -/
theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for any proof
    data whose array is `V`'s and whose body leaves the block in place: unfetched, the block index has not moved. -/
theorem before1_7_of {c : Dev nD} (dat : Dat τ (Elt F) Unit ℕ (Pipeline.UD sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The region invariant -/

/-- The other kernel's staging buffers and scratch, each whole at some contents: the part of the region
    invariant this kernel never touches. -/
def rest1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f))

/-- Two propositions that entail each other are equal. -/
theorem eq_of_entails1 {P Q : sProp 𝕄} (h₁ : P ⊢ Q) (h₂ : Q ⊢ P) : P = Q := BI.equiv_iff.mp ⟨h₁, h₂⟩

/-- The class's region invariant, with the accumulator as a memref owned at some contents: the other kernel's
    buffers, the accumulator, the generator register. -/
theorem PhiA1_eq (c : Dev nD) :
    (Pipeline.ΦA spec1 c : sProp 𝕄)
      = iprop(rest1 (F := F) c ∗ (∃ d, owns (c : Thread nD τ) scM1_0 fullShare d) ∗ (∃ r, prngReg c r)) := by
  unfold Pipeline.ΦA; rw [scopedRest1_eq]; simp only [scM1_0, owns_whole]; unfold rest1
  refine eq_of_entails1 ?_ ?_
  · iintro ⟨⟨A0, A1, A2, A3, A4, A5, A6, A7, A8, A9, A10, A11, A12, HS⟩, Hg⟩
    isplitl [A0 A1 A2 A3 A4 A5 A6 A7 A8 A9 A10 A11 A12]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      iexact A12
    isplitl [HS]; · iexact HS
    iexact Hg
  · iintro ⟨⟨A0, A1, A2, A3, A4, A5, A6, A7, A8, A9, A10, A11, A12⟩, HS, Hg⟩
    isplitr [Hg]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      iexact HS
    iexact Hg

end Cert.KernelIdeal.Hand

end
-- ==== Proof.KI.R1RunA.lean ====
/-
  The second kernel's body at the first column tile of a row tile: it resets the running row sum to zero, then adds
  the tile's row sums of the Gaussian kernel; the scratch buffer may hold anything on entry.
-/
import proofs.«178816_j65481071400898_2_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The second kernel's body at a first column tile (first conditional taken, second not): on whole memrefs,
    the inputs' at their blocks, the output's at contents it hands back untouched, the accumulator at anything
    (the body overwrites it whole with zeros before reading it), the body runs to the continuation holding the
    inputs and the output as they were and the accumulator with the pieces its two stores wrote (last first);
    the pieces are the witness the run finds. The output gets no piece. -/
noncomputable def kernelRun1_A (c : Dev nD) (i : grid1.Coords)
    (arg2 : Memref sig .tc .vmem S2048x256 .bf16) (harg2 : arg2.IsWhole) (arg3 : Memref sig .tc .vmem S512x256 .bf16) (harg3 : arg3.IsWhole)
    (arg4 : Memref sig .tc .vmem S2048x1 .f32) (harg4 : arg4.IsWhole) (arg5 : Memref sig .tc .vmem S512x1 .f32) (harg5 : arg5.IsWhole)
    (arg6 : Memref sig .tc .vmem S1x64 .f32) (harg6 : arg6.IsWhole) (arg7 : Memref sig .tc .vmem S1x64 .f32) (harg7 : arg7.IsWhole)
    (arg8 : Memref sig .tc .vmem S64x1 .f32) (harg8 : arg8.IsWhole) (arg9 : Memref sig .tc .vmem S1x1 .f32) (harg9 : arg9.IsWhole)
    (arg10 : Memref sig .tc .vmem S2048x1 .f32) (harg10 : arg10.IsWhole) (arg11 : Memref sig .tc .vmem S2048x1 .f32) (harg11 : arg11.IsWhole)
    (hc0 : cond1_0 i) (hc1 : ¬cond1_1 i)
    (x0 : Vec F S2048x256 .bf16) (x1 : Vec F S512x256 .bf16) (x2 : Vec F S2048x1 .f32) (x3 : Vec F S512x1 .f32)
    (x4 : Vec F S1x64 .f32) (x5 : Vec F S1x64 .f32) (x6 : Vec F S64x1 .f32) (x7 : Vec F S1x1 .f32) :
    Σ' (L8 : List (View.Piece (Elt F) S2048x1 .f32)), { LS0 : List (View.Piece (Elt F) S2048x1 .f32) //
      ∀ (xi8 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare x4 ∗ owns (c : Thread nD τ) arg7 fullShare x5 ∗ owns (c : Thread nD τ) arg8 fullShare x6 ∗ owns (c : Thread nD τ) arg9 fullShare x7
                ∗ owns (c : Thread nD τ) arg10 fullShare xi8
                ∗ (∃ f, arg11.view.loc (c : Thread nD τ) ↦[arg11.view.set]{fullShare} arg11.view.writes (Elt F) f LS0)) -∗ K ⟨⟩))
          ⊢ wp frame (wpE (defs₀ (F := F)) Variants.none c none) E
              (cc1__rbf_kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc1__rbf_kernel_eq_skeleton]; unfold cc1__rbf_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.KernelIdeal.Hand

end
-- ==== Proof.KI.R1RunB.lean ====
/-
  The second kernel's body at a column tile that is neither the first nor the last: it adds the tile's row sums of the
  Gaussian kernel to the running row sum the tile before left, and leaves everything else as it was.
-/
import proofs.«178816_j65481071400898_2_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The second kernel's body at an inner column tile (neither conditional taken): on whole memrefs, the inputs'
    at their blocks, the output's at contents it hands back untouched, the accumulator at what the tile before
    left, the body runs to the continuation holding the inputs and the output as they were and the accumulator
    with the piece its store wrote; the piece is the witness the run finds. The output gets no piece. -/
noncomputable def kernelRun1_B (c : Dev nD) (i : grid1.Coords)
    (arg2 : Memref sig .tc .vmem S2048x256 .bf16) (harg2 : arg2.IsWhole) (arg3 : Memref sig .tc .vmem S512x256 .bf16) (harg3 : arg3.IsWhole)
    (arg4 : Memref sig .tc .vmem S2048x1 .f32) (harg4 : arg4.IsWhole) (arg5 : Memref sig .tc .vmem S512x1 .f32) (harg5 : arg5.IsWhole)
    (arg6 : Memref sig .tc .vmem S1x64 .f32) (harg6 : arg6.IsWhole) (arg7 : Memref sig .tc .vmem S1x64 .f32) (harg7 : arg7.IsWhole)
    (arg8 : Memref sig .tc .vmem S64x1 .f32) (harg8 : arg8.IsWhole) (arg9 : Memref sig .tc .vmem S1x1 .f32) (harg9 : arg9.IsWhole)
    (arg10 : Memref sig .tc .vmem S2048x1 .f32) (harg10 : arg10.IsWhole) (arg11 : Memref sig .tc .vmem S2048x1 .f32) (harg11 : arg11.IsWhole)
    (hc0 : ¬cond1_0 i) (hc1 : ¬cond1_1 i)
    (x0 : Vec F S2048x256 .bf16) (x1 : Vec F S512x256 .bf16) (x2 : Vec F S2048x1 .f32) (x3 : Vec F S512x1 .f32)
    (x4 : Vec F S1x64 .f32) (x5 : Vec F S1x64 .f32) (x6 : Vec F S64x1 .f32) (x7 : Vec F S1x1 .f32) (xs0 : Vec F S2048x1 .f32) :
    Σ' (L8 : List (View.Piece (Elt F) S2048x1 .f32)), { LS0 : List (View.Piece (Elt F) S2048x1 .f32) //
      ∀ (xi8 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare x4 ∗ owns (c : Thread nD τ) arg7 fullShare x5 ∗ owns (c : Thread nD τ) arg8 fullShare x6 ∗ owns (c : Thread nD τ) arg9 fullShare x7
                ∗ owns (c : Thread nD τ) arg10 fullShare xi8
                ∗ (∃ f, arg11.view.loc (c : Thread nD τ) ↦[arg11.view.set]{fullShare} arg11.view.writes (Elt F) f LS0)) -∗ K ⟨⟩))
          ⊢ wp frame (wpE (defs₀ (F := F)) Variants.none c none) E
              (cc1__rbf_kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc1__rbf_kernel_eq_skeleton]; unfold cc1__rbf_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hf8; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.KernelIdeal.Hand

end
-- ==== Proof.KI.R1RunC.lean ====
/-
  The second kernel's body at the last column tile of a row tile: it adds the tile's row sums, then stores into the
  output the two-layer head applied to the mean of the row sums; the output buffer may hold anything on entry.
-/
import proofs.«178816_j65481071400898_2_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The second kernel's body at a last column tile (first conditional not taken, second taken): on whole
    memrefs, the inputs' at their blocks, the output's at anything, the accumulator at what the tile before
    left, the body runs to the continuation holding the inputs as they were, the accumulator with the piece its
    store wrote and the output with the piece the closing store wrote; the pieces are the witness the run finds. -/
noncomputable def kernelRun1_C (c : Dev nD) (i : grid1.Coords)
    (arg2 : Memref sig .tc .vmem S2048x256 .bf16) (harg2 : arg2.IsWhole) (arg3 : Memref sig .tc .vmem S512x256 .bf16) (harg3 : arg3.IsWhole)
    (arg4 : Memref sig .tc .vmem S2048x1 .f32) (harg4 : arg4.IsWhole) (arg5 : Memref sig .tc .vmem S512x1 .f32) (harg5 : arg5.IsWhole)
    (arg6 : Memref sig .tc .vmem S1x64 .f32) (harg6 : arg6.IsWhole) (arg7 : Memref sig .tc .vmem S1x64 .f32) (harg7 : arg7.IsWhole)
    (arg8 : Memref sig .tc .vmem S64x1 .f32) (harg8 : arg8.IsWhole) (arg9 : Memref sig .tc .vmem S1x1 .f32) (harg9 : arg9.IsWhole)
    (arg10 : Memref sig .tc .vmem S2048x1 .f32) (harg10 : arg10.IsWhole) (arg11 : Memref sig .tc .vmem S2048x1 .f32) (harg11 : arg11.IsWhole)
    (hc0 : ¬cond1_0 i) (hc1 : cond1_1 i)
    (x0 : Vec F S2048x256 .bf16) (x1 : Vec F S512x256 .bf16) (x2 : Vec F S2048x1 .f32) (x3 : Vec F S512x1 .f32)
    (x4 : Vec F S1x64 .f32) (x5 : Vec F S1x64 .f32) (x6 : Vec F S64x1 .f32) (x7 : Vec F S1x1 .f32) (xs0 : Vec F S2048x1 .f32) :
    Σ' (L8 : List (View.Piece (Elt F) S2048x1 .f32)), { LS0 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare x6 ∗ owns (c : Thread nD τ) arg9 fullShare x7
            ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare x4 ∗ owns (c : Thread nD τ) arg7 fullShare x5 ∗ owns (c : Thread nD τ) arg8 fullShare x6 ∗ owns (c : Thread nD τ) arg9 fullShare x7
                ∗ (∃ f, arg10.view.loc (c : Thread nD τ) ↦[arg10.view.set]{fullShare} arg10.view.writes (Elt F) f L8)
                ∗ (∃ f, arg11.view.loc (c : Thread nD τ) ↦[arg11.view.set]{fullShare} arg11.view.writes (Elt F) f LS0)) -∗ K ⟨⟩))
          ⊢ wp frame (wpE (defs₀ (F := F)) Variants.none c none) E
              (cc1__rbf_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__rbf_kernel_eq_skeleton]; unfold cc1__rbf_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

end Cert.KernelIdeal.Hand

end
-- ==== Proof.KI.R1Dat.lean ====
/-
  The second kernel point by point: what each case of its body leaves in the running row sum and in the output,
  those contents by recursion on the grid point, the pipeline's proof data (each of the two arrays handed to two
  windows is held as two half shares), and the body obligation at every point.
-/
import proofs.«178816_j65481071400898_2_alg».proof.Proof.KI.R1RunA
import proofs.«178816_j65481071400898_2_alg».proof.Proof.KI.R1RunB
import proofs.«178816_j65481071400898_2_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each case leaves -/

/-- At a first column tile the body stores nothing into the output (the window is idle there and not written back): no
    pieces, a placeholder (junk read back) that nothing consults. -/
def out1_A_8 (c : Dev nD) (i : grid1.Coords)
    (arg2 : Memref sig .tc .vmem S2048x256 .bf16) (harg2 : arg2.IsWhole) (arg3 : Memref sig .tc .vmem S512x256 .bf16) (harg3 : arg3.IsWhole)
    (arg4 : Memref sig .tc .vmem S2048x1 .f32) (harg4 : arg4.IsWhole) (arg5 : Memref sig .tc .vmem S512x1 .f32) (harg5 : arg5.IsWhole)
    (arg6 : Memref sig .tc .vmem S1x64 .f32) (harg6 : arg6.IsWhole) (arg7 : Memref sig .tc .vmem S1x64 .f32) (harg7 : arg7.IsWhole)
    (arg8 : Memref sig .tc .vmem S64x1 .f32) (harg8 : arg8.IsWhole) (arg9 : Memref sig .tc .vmem S1x1 .f32) (harg9 : arg9.IsWhole)
    (arg10 : Memref sig .tc .vmem S2048x1 .f32) (harg10 : arg10.IsWhole) (arg11 : Memref sig .tc .vmem S2048x1 .f32) (harg11 : arg11.IsWhole)
    (hc0 : cond1_0 i) (hc1 : ¬cond1_1 i)
    (x0 : Vec F S2048x256 .bf16) (x1 : Vec F S512x256 .bf16) (x2 : Vec F S2048x1 .f32) (x3 : Vec F S512x1 .f32)
    (x4 : Vec F S1x64 .f32) (x5 : Vec F S1x64 .f32) (x6 : Vec F S64x1 .f32) (x7 : Vec F S1x1 .f32) : Vec F S2048x1 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 hc0 hc1 x0 x1 x2 x3 x4 x5 x6 x7).1)

/-- At a first column tile the pieces stored into the accumulator cover it (the zeros, then the first partial sums: each the whole buffer). -/
theorem scover1_A_0 (c : Dev nD) (i : grid1.Coords)
    (arg2 : Memref sig .tc .vmem S2048x256 .bf16) (harg2 : arg2.IsWhole) (arg3 : Memref sig .tc .vmem S512x256 .bf16) (harg3 : arg3.IsWhole)
    (arg4 : Memref sig .tc .vmem S2048x1 .f32) (harg4 : arg4.IsWhole) (arg5 : Memref sig .tc .vmem S512x1 .f32) (harg5 : arg5.IsWhole)
    (arg6 : Memref sig .tc .vmem S1x64 .f32) (harg6 : arg6.IsWhole) (arg7 : Memref sig .tc .vmem S1x64 .f32) (harg7 : arg7.IsWhole)
    (arg8 : Memref sig .tc .vmem S64x1 .f32) (harg8 : arg8.IsWhole) (arg9 : Memref sig .tc .vmem S1x1 .f32) (harg9 : arg9.IsWhole)
    (arg10 : Memref sig .tc .vmem S2048x1 .f32) (harg10 : arg10.IsWhole) (arg11 : Memref sig .tc .vmem S2048x1 .f32) (harg11 : arg11.IsWhole)
    (hc0 : cond1_0 i) (hc1 : ¬cond1_1 i)
    (x0 : Vec F S2048x256 .bf16) (x1 : Vec F S512x256 .bf16) (x2 : Vec F S2048x1 .f32) (x3 : Vec F S512x1 .f32)
    (x4 : Vec F S1x64 .f32) (x5 : Vec F S1x64 .f32) (x6 : Vec F S64x1 .f32) (x7 : Vec F S1x1 .f32) (y : S2048x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1 S2048x1.size (by sl_kernel_rfl) y

/-- What the body leaves in the accumulator at a first column tile: its pieces read back over junk. -/
def sout1_A_0 (c : Dev nD) (i : grid1.Coords)
    (arg2 : Memref sig .tc .vmem S2048x256 .bf16) (harg2 : arg2.IsWhole) (arg3 : Memref sig .tc .vmem S512x256 .bf16) (harg3 : arg3.IsWhole)
    (arg4 : Memref sig .tc .vmem S2048x1 .f32) (harg4 : arg4.IsWhole) (arg5 : Memref sig .tc .vmem S512x1 .f32) (harg5 : arg5.IsWhole)
    (arg6 : Memref sig .tc .vmem S1x64 .f32) (harg6 : arg6.IsWhole) (arg7 : Memref sig .tc .vmem S1x64 .f32) (harg7 : arg7.IsWhole)
    (arg8 : Memref sig .tc .vmem S64x1 .f32) (harg8 : arg8.IsWhole) (arg9 : Memref sig .tc .vmem S1x1 .f32) (harg9 : arg9.IsWhole)
    (arg10 : Memref sig .tc .vmem S2048x1 .f32) (harg10 : arg10.IsWhole) (arg11 : Memref sig .tc .vmem S2048x1 .f32) (harg11 : arg11.IsWhole)
    (hc0 : cond1_0 i) (hc1 : ¬cond1_1 i)
    (x0 : Vec F S2048x256 .bf16) (x1 : Vec F S512x256 .bf16) (x2 : Vec F S2048x1 .f32) (x3 : Vec F S512x1 .f32)
    (x4 : Vec F S1x64 .f32) (x5 : Vec F S1x64 .f32) (x6 : Vec F S64x1 .f32) (x7 : Vec F S1x1 .f32) : Vec F S2048x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1)

/-- At an inner column tile the body stores nothing into the output (the window is idle there and not written back): no
    pieces, a placeholder (junk read back) that nothing consults. -/
def out1_B_8 (c : Dev nD) (i : grid1.Coords)
    (arg2 : Memref sig .tc .vmem S2048x256 .bf16) (harg2 : arg2.IsWhole) (arg3 : Memref sig .tc .vmem S512x256 .bf16) (harg3 : arg3.IsWhole)
    (arg4 : Memref sig .tc .vmem S2048x1 .f32) (harg4 : arg4.IsWhole) (arg5 : Memref sig .tc .vmem S512x1 .f32) (harg5 : arg5.IsWhole)
    (arg6 : Memref sig .tc .vmem S1x64 .f32) (harg6 : arg6.IsWhole) (arg7 : Memref sig .tc .vmem S1x64 .f32) (harg7 : arg7.IsWhole)
    (arg8 : Memref sig .tc .vmem S64x1 .f32) (harg8 : arg8.IsWhole) (arg9 : Memref sig .tc .vmem S1x1 .f32) (harg9 : arg9.IsWhole)
    (arg10 : Memref sig .tc .vmem S2048x1 .f32) (harg10 : arg10.IsWhole) (arg11 : Memref sig .tc .vmem S2048x1 .f32) (harg11 : arg11.IsWhole)
    (hc0 : ¬cond1_0 i) (hc1 : ¬cond1_1 i)
    (x0 : Vec F S2048x256 .bf16) (x1 : Vec F S512x256 .bf16) (x2 : Vec F S2048x1 .f32) (x3 : Vec F S512x1 .f32)
    (x4 : Vec F S1x64 .f32) (x5 : Vec F S1x64 .f32) (x6 : Vec F S64x1 .f32) (x7 : Vec F S1x1 .f32) (xs0 : Vec F S2048x1 .f32) : Vec F S2048x1 .f32 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs0).1)

/-- At an inner column tile the pieces stored into the accumulator cover it (one piece, the whole buffer). -/
theorem scover1_B_0 (c : Dev nD) (i : grid1.Coords)
    (arg2 : Memref sig .tc .vmem S2048x256 .bf16) (harg2 : arg2.IsWhole) (arg3 : Memref sig .tc .vmem S512x256 .bf16) (harg3 : arg3.IsWhole)
    (arg4 : Memref sig .tc .vmem S2048x1 .f32) (harg4 : arg4.IsWhole) (arg5 : Memref sig .tc .vmem S512x1 .f32) (harg5 : arg5.IsWhole)
    (arg6 : Memref sig .tc .vmem S1x64 .f32) (harg6 : arg6.IsWhole) (arg7 : Memref sig .tc .vmem S1x64 .f32) (harg7 : arg7.IsWhole)
    (arg8 : Memref sig .tc .vmem S64x1 .f32) (harg8 : arg8.IsWhole) (arg9 : Memref sig .tc .vmem S1x1 .f32) (harg9 : arg9.IsWhole)
    (arg10 : Memref sig .tc .vmem S2048x1 .f32) (harg10 : arg10.IsWhole) (arg11 : Memref sig .tc .vmem S2048x1 .f32) (harg11 : arg11.IsWhole)
    (hc0 : ¬cond1_0 i) (hc1 : ¬cond1_1 i)
    (x0 : Vec F S2048x256 .bf16) (x1 : Vec F S512x256 .bf16) (x2 : Vec F S2048x1 .f32) (x3 : Vec F S512x1 .f32)
    (x4 : Vec F S1x64 .f32) (x5 : Vec F S1x64 .f32) (x6 : Vec F S64x1 .f32) (x7 : Vec F S1x1 .f32) (xs0 : Vec F S2048x1 .f32) (y : S2048x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs0).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs0).2.1 S2048x1.size (by sl_kernel_rfl) y

/-- What the body leaves in the accumulator at an inner column tile: its pieces read back over junk. -/
def sout1_B_0 (c : Dev nD) (i : grid1.Coords)
    (arg2 : Memref sig .tc .vmem S2048x256 .bf16) (harg2 : arg2.IsWhole) (arg3 : Memref sig .tc .vmem S512x256 .bf16) (harg3 : arg3.IsWhole)
    (arg4 : Memref sig .tc .vmem S2048x1 .f32) (harg4 : arg4.IsWhole) (arg5 : Memref sig .tc .vmem S512x1 .f32) (harg5 : arg5.IsWhole)
    (arg6 : Memref sig .tc .vmem S1x64 .f32) (harg6 : arg6.IsWhole) (arg7 : Memref sig .tc .vmem S1x64 .f32) (harg7 : arg7.IsWhole)
    (arg8 : Memref sig .tc .vmem S64x1 .f32) (harg8 : arg8.IsWhole) (arg9 : Memref sig .tc .vmem S1x1 .f32) (harg9 : arg9.IsWhole)
    (arg10 : Memref sig .tc .vmem S2048x1 .f32) (harg10 : arg10.IsWhole) (arg11 : Memref sig .tc .vmem S2048x1 .f32) (harg11 : arg11.IsWhole)
    (hc0 : ¬cond1_0 i) (hc1 : ¬cond1_1 i)
    (x0 : Vec F S2048x256 .bf16) (x1 : Vec F S512x256 .bf16) (x2 : Vec F S2048x1 .f32) (x3 : Vec F S512x1 .f32)
    (x4 : Vec F S1x64 .f32) (x5 : Vec F S1x64 .f32) (x6 : Vec F S64x1 .f32) (x7 : Vec F S1x1 .f32) (xs0 : Vec F S2048x1 .f32) : Vec F S2048x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs0).2.1)

/-- At a last column tile the closing store covers the output block: one piece, the whole block. -/
theorem cover1_C_8 (c : Dev nD) (i : grid1.Coords)
    (arg2 : Memref sig .tc .vmem S2048x256 .bf16) (harg2 : arg2.IsWhole) (arg3 : Memref sig .tc .vmem S512x256 .bf16) (harg3 : arg3.IsWhole)
    (arg4 : Memref sig .tc .vmem S2048x1 .f32) (harg4 : arg4.IsWhole) (arg5 : Memref sig .tc .vmem S512x1 .f32) (harg5 : arg5.IsWhole)
    (arg6 : Memref sig .tc .vmem S1x64 .f32) (harg6 : arg6.IsWhole) (arg7 : Memref sig .tc .vmem S1x64 .f32) (harg7 : arg7.IsWhole)
    (arg8 : Memref sig .tc .vmem S64x1 .f32) (harg8 : arg8.IsWhole) (arg9 : Memref sig .tc .vmem S1x1 .f32) (harg9 : arg9.IsWhole)
    (arg10 : Memref sig .tc .vmem S2048x1 .f32) (harg10 : arg10.IsWhole) (arg11 : Memref sig .tc .vmem S2048x1 .f32) (harg11 : arg11.IsWhole)
    (hc0 : ¬cond1_0 i) (hc1 : cond1_1 i)
    (x0 : Vec F S2048x256 .bf16) (x1 : Vec F S512x256 .bf16) (x2 : Vec F S2048x1 .f32) (x3 : Vec F S512x1 .f32)
    (x4 : Vec F S1x64 .f32) (x5 : Vec F S1x64 .f32) (x6 : Vec F S64x1 .f32) (x7 : Vec F S1x1 .f32) (xs0 : Vec F S2048x1 .f32) (y : S2048x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).1 S2048x1.size (by sl_kernel_rfl) y

/-- What the body leaves in the output's staging buffer at a last column tile: its piece read back over junk. -/
def out1_C_8 (c : Dev nD) (i : grid1.Coords)
    (arg2 : Memref sig .tc .vmem S2048x256 .bf16) (harg2 : arg2.IsWhole) (arg3 : Memref sig .tc .vmem S512x256 .bf16) (harg3 : arg3.IsWhole)
    (arg4 : Memref sig .tc .vmem S2048x1 .f32) (harg4 : arg4.IsWhole) (arg5 : Memref sig .tc .vmem S512x1 .f32) (harg5 : arg5.IsWhole)
    (arg6 : Memref sig .tc .vmem S1x64 .f32) (harg6 : arg6.IsWhole) (arg7 : Memref sig .tc .vmem S1x64 .f32) (harg7 : arg7.IsWhole)
    (arg8 : Memref sig .tc .vmem S64x1 .f32) (harg8 : arg8.IsWhole) (arg9 : Memref sig .tc .vmem S1x1 .f32) (harg9 : arg9.IsWhole)
    (arg10 : Memref sig .tc .vmem S2048x1 .f32) (harg10 : arg10.IsWhole) (arg11 : Memref sig .tc .vmem S2048x1 .f32) (harg11 : arg11.IsWhole)
    (hc0 : ¬cond1_0 i) (hc1 : cond1_1 i)
    (x0 : Vec F S2048x256 .bf16) (x1 : Vec F S512x256 .bf16) (x2 : Vec F S2048x1 .f32) (x3 : Vec F S512x1 .f32)
    (x4 : Vec F S1x64 .f32) (x5 : Vec F S1x64 .f32) (x6 : Vec F S64x1 .f32) (x7 : Vec F S1x1 .f32) (xs0 : Vec F S2048x1 .f32) : Vec F S2048x1 .f32 :=
  VO1_8.read (Elt F) (VO1_8.writes (Elt F) VO1_8.junk (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).1)

/-- At a last column tile the pieces stored into the accumulator cover it (one piece, the whole buffer). -/
theorem scover1_C_0 (c : Dev nD) (i : grid1.Coords)
    (arg2 : Memref sig .tc .vmem S2048x256 .bf16) (harg2 : arg2.IsWhole) (arg3 : Memref sig .tc .vmem S512x256 .bf16) (harg3 : arg3.IsWhole)
    (arg4 : Memref sig .tc .vmem S2048x1 .f32) (harg4 : arg4.IsWhole) (arg5 : Memref sig .tc .vmem S512x1 .f32) (harg5 : arg5.IsWhole)
    (arg6 : Memref sig .tc .vmem S1x64 .f32) (harg6 : arg6.IsWhole) (arg7 : Memref sig .tc .vmem S1x64 .f32) (harg7 : arg7.IsWhole)
    (arg8 : Memref sig .tc .vmem S64x1 .f32) (harg8 : arg8.IsWhole) (arg9 : Memref sig .tc .vmem S1x1 .f32) (harg9 : arg9.IsWhole)
    (arg10 : Memref sig .tc .vmem S2048x1 .f32) (harg10 : arg10.IsWhole) (arg11 : Memref sig .tc .vmem S2048x1 .f32) (harg11 : arg11.IsWhole)
    (hc0 : ¬cond1_0 i) (hc1 : cond1_1 i)
    (x0 : Vec F S2048x256 .bf16) (x1 : Vec F S512x256 .bf16) (x2 : Vec F S2048x1 .f32) (x3 : Vec F S512x1 .f32)
    (x4 : Vec F S1x64 .f32) (x5 : Vec F S1x64 .f32) (x6 : Vec F S64x1 .f32) (x7 : Vec F S1x1 .f32) (xs0 : Vec F S2048x1 .f32) (y : S2048x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).2.1 S2048x1.size (by sl_kernel_rfl) y

/-- What the body leaves in the accumulator at a last column tile: its pieces read back over junk. -/
def sout1_C_0 (c : Dev nD) (i : grid1.Coords)
    (arg2 : Memref sig .tc .vmem S2048x256 .bf16) (harg2 : arg2.IsWhole) (arg3 : Memref sig .tc .vmem S512x256 .bf16) (harg3 : arg3.IsWhole)
    (arg4 : Memref sig .tc .vmem S2048x1 .f32) (harg4 : arg4.IsWhole) (arg5 : Memref sig .tc .vmem S512x1 .f32) (harg5 : arg5.IsWhole)
    (arg6 : Memref sig .tc .vmem S1x64 .f32) (harg6 : arg6.IsWhole) (arg7 : Memref sig .tc .vmem S1x64 .f32) (harg7 : arg7.IsWhole)
    (arg8 : Memref sig .tc .vmem S64x1 .f32) (harg8 : arg8.IsWhole) (arg9 : Memref sig .tc .vmem S1x1 .f32) (harg9 : arg9.IsWhole)
    (arg10 : Memref sig .tc .vmem S2048x1 .f32) (harg10 : arg10.IsWhole) (arg11 : Memref sig .tc .vmem S2048x1 .f32) (harg11 : arg11.IsWhole)
    (hc0 : ¬cond1_0 i) (hc1 : cond1_1 i)
    (x0 : Vec F S2048x256 .bf16) (x1 : Vec F S512x256 .bf16) (x2 : Vec F S2048x1 .f32) (x3 : Vec F S512x1 .f32)
    (x4 : Vec F S1x64 .f32) (x5 : Vec F S1x64 .f32) (x6 : Vec F S64x1 .f32) (x7 : Vec F S1x1 .f32) (xs0 : Vec F S2048x1 .f32) : Vec F S2048x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).2.1)

/-! ## What the output's buffer and the accumulator hold after each point -/

/-- THE ACCUMULATION. What the output's staging buffer and the accumulator hold after the body at position `n`
    (the output's buffer, then the accumulator): the case the closed forms select at `n`, run at the point's
    memrefs and input blocks, the accumulator read at what this leaves at `n - 1`. A first column tile that is
    also a last one meets no point. -/
def outsAt1 (c : Dev nD) : (n : ℕ) → n < cfg1.N → Vec F S2048x1 .f32 × Vec F S2048x1 .f32
  | 0, hn =>
      (out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩),
       sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩))
  | n + 1, hn =>
    if h0 : (n + 1) % 16 = 0 then
      if h1 : (n + 1) % 16 = 15 then
        False.elim (by omega)
      else
        (out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩),
       sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩))
    else
      if h1 : (n + 1) % 16 = 15 then
        (out1_C_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2,
       sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)
      else
        (out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)

/-- `outsAt1` at a first column tile: that case's contents. -/
theorem outsAt1_A (c : Dev nD) (t : Fin cfg1.N) (h0 : t.val % 16 = 0) (h1 : ¬t.val % 16 = 15) :
    outsAt1 V c t.val t.isLt =
      (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t),
       sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)) := by
  obtain ⟨n, hn⟩ := t
  cases n with
  | zero => exact rfl
  | succ n => exact (dif_pos h0).trans ((dif_neg h1).trans rfl)

/-- `outsAt1` at an inner column tile: that case's contents, over what the point before left. -/
theorem outsAt1_B (c : Dev nD) (t : Fin cfg1.N) (h0 : ¬t.val % 16 = 0) (h1 : ¬t.val % 16 = 15) :
    outsAt1 V c t.val t.isLt =
      (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2,
       sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last column tile: that case's contents, over what the point before left. -/
theorem outsAt1_C (c : Dev nD) (t : Fin cfg1.N) (h0 : ¬t.val % 16 = 0) (h1 : t.val % 16 = 15) :
    outsAt1 V c t.val t.isLt =
      (out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2,
       sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- The region invariant before position `n`: before the first point the class's (every scoped buffer that is
    no staging buffer of this kernel at anything); afterwards the other kernel's buffers at anything, the
    accumulator at what the point before left in it, and the generator register at some state. -/
def PhiS1 (c : Dev nD) : (n : ℕ) → n ≤ cfg1.N → sProp 𝕄
  | 0, _ => Pipeline.ΦA spec1 c
  | n + 1, hn => iprop(rest1 (F := F) c ∗ owns (c : Thread nD τ) scM1_0 fullShare ((outsAt1 V c n hn).2) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(rest1 (F := F) c ∗ owns (c : Thread nD τ) scM1_0 fullShare ((outsAt1 V c n hn).2) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(rest1 (F := F) c ∗ owns (c : Thread nD τ) scM1_0 fullShare ((outsAt1 V c (n - 1) (by omega)).2) ∗ (∃ r, prngReg c r)) := by
  cases n with
  | zero => exact absurd rfl hz
  | succ n => rfl

/-! ## The pipeline's proof data -/

/-- The proof data of the second kernel's pipeline on core `c`: the arrays at the contents `V` the region is
    entered with; after the body at point `t` each input's buffer at its block and the output's at `outsAt1`'s
    first component; the invariant `PhiS1`; nothing owed. The two arrays that two windows each read are held
    at complementary halves, one per window; every other array at the full share. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`: the invariant, what the core owes, every window's current
    staging buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4800000 in
/-- The body at any point. The inputs' memrefs hold their blocks; the closed forms say which case the point is
    in; so that case's run applies. The invariant hands the body the accumulator at what the point before left
    (at anything at the first point) and takes it back at this point's contents, the other kernel's buffers and
    the generator register untouched; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 16 = 0
  · by_cases h1 : t.val % 16 = 15
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [Dat.leavesExact_idle (dat1 V c) 8 t (idleAt1_8_A t ((hcond1_0 t).mpr h0) (fun h => h1 ((hcond1_1 t).mp h))) (noFlush1_8_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨HR, HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · rw [PhiS1_castSucc V c t, PhiS1_pos V c _ _ hz]
        iintro ⟨⟨HR, HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        iintro ⟨H0, H1, H2, H3, H4, H5, H6, H7, H8, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
  · by_cases h1 : t.val % 16 = 15
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8_C t (fun h => h0 ((hcond1_0 t).mp h)) ((hcond1_1 t).mpr h1)], after1_8]
      rw [outsAt1_C V c t h0 h1]
      unfold out1_C_8 sout1_C_0; (try dsimp only)
      by_cases hz : t.val = 0
      · exfalso; omega
      · rw [PhiS1_castSucc V c t, PhiS1_pos V c _ _ hz]
        iintro ⟨⟨HR, HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [HS0]; · iexact HS0
        iintro ⟨H0, H1, H2, H3, H4, H5, H6, H7, ⟨%e8, H8⟩, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (cover1_C_8 c _ _ _ _ _ _ _ _ _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [Dat.leavesExact_idle (dat1 V c) 8 t (idleAt1_8_B t (fun h => h0 ((hcond1_0 t).mp h)) (fun h => h1 ((hcond1_1 t).mp h))) (noFlush1_8_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨HR, HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HR, HS0, Hg⟩
  isplitl [HR]; · iexact HR
  isplitl [HS0]
  · iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.KI.R1Share.lean ====
/-
  The second kernel region's arrays when two windows read one array.

  The region has nine windows over seven arrays: windows 0 and 1 read the same array, windows 2 and 3 read the
  same array, windows 4 to 7 read one array each, and window 8 writes the output array. The core holds every one
  of its arrays whole at the full share. The region's invariant instead holds one points-to per window: the output's
  at the full share, an input's at the share the proof data gives that window. When the two windows on a shared
  array hold the left and the right half of the full share, and every other input window holds the full share,
  the two descriptions are the same assertion: a points-to at the full share is the separating conjunction of the
  same points-to at the left half and at the right half.

  So, at the region's entry, the core's arrays at a valuation split into the nine windows' points-tos and the
  arrays no window names; and at its exit the nine points-tos, the two halves of a shared array holding the same
  contents, join back into the core's arrays at the updated valuation.
-/
import proofs.«178816_j65481071400898_2_alg».proof.Proof.Gen.KernelIdeal.Launch
import Idealize.ShloMosaic.Lib.Pipeline.Regions
import Idealize.ShloMosaic.Lib.Pipeline.RegionsLoop
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (Pipeline.UD sig nD τ) ℕ

/-- Separating conjunction is associative, as an equation between assertions. -/
theorem sep_assoc1 (P Q R : sProp 𝕄) : iprop((P ∗ Q) ∗ R) = iprop(P ∗ Q ∗ R) :=
  Entails.antisymm Idealize.SL.BI.sep_assoc Idealize.SL.BI.sep_assoc'

/-- A whole buffer held at the full share is the same buffer held at the left half and at the right half of the
    full share, at the same contents. -/
theorem pointsTo_halves1 (c : Dev nD) (V : (b : Ref sig .tc) → Buf (Elt F) ((c : Thread nD τ).loc b)) (b : Ref sig .tc) :
    ((((c : Thread nD τ).loc b) ↦{fullShare} V b) : sProp 𝕄)
      = iprop((((c : Thread nD τ).loc b) ↦{fullShare.left} V b) ∗ (((c : Thread nD τ).loc b) ↦{fullShare.right} V b)) :=
  have h := pointsTo_share (Ix := Unit) (Name := ℕ) (U := Pipeline.UD sig nD τ) (Lvl := ℕ) (ℓ := (c : Thread nD τ).loc b)
    (I := Finset.univ) (f := V b) (PosShare.mem_left_op_right fullShare)
  BI.equiv_iff.mp ⟨h.1, h.2⟩

/-- The shares the nine windows hold their arrays at: the two windows on a shared array the left and the right
    half of the full share, every other window the full share. -/
abbrev shares1 : Fin 9 → PosShare TreeShare :=
  fun | 0 => fullShare.left | 1 => fullShare.right | 2 => fullShare.left | 3 => fullShare.right
      | 4 => fullShare | 5 => fullShare | 6 => fullShare | 7 => fullShare | 8 => fullShare
      | ⟨_ + 9, h⟩ => absurd h (Nat.not_lt.2 (Nat.le_add_left _ _))

section Arrays

variable {c : Dev nD} (dat : Dat τ (Elt F) Unit ℕ (Pipeline.UD sig nD τ) ℕ cfg1 c)

/-- With the proof data's input shares as stated, each window holds its array at the share listed above (the output
    window, window 8, at the full share whatever the proof data says). -/
theorem share1_eq (hq0 : dat.q 0 = fullShare.left) (hq1 : dat.q 1 = fullShare.right)
    (hq2 : dat.q 2 = fullShare.left) (hq3 : dat.q 3 = fullShare.right) (hq4 : dat.q 4 = fullShare)
    (hq5 : dat.q 5 = fullShare) (hq6 : dat.q 6 = fullShare) (hq7 : dat.q 7 = fullShare) :
    ∀ w : Fin 9, dat.share w = shares1 w :=
  fun | 0 => hq0 | 1 => hq1 | 2 => hq2 | 3 => hq3 | 4 => hq4 | 5 => hq5 | 6 => hq6 | 7 => hq7 | 8 => rfl
      | ⟨_ + 9, h⟩ => absurd h (Nat.not_lt.2 (Nat.le_add_left _ _))

/-- The region's arrays at contents G are, window by window, the window's array held whole at the window's
    share. -/
theorem arrays1_eq (s : Fin 9 → PosShare TreeShare) (hs : ∀ w, dat.share w = s w)
    (G : (w : Fin cfg1.W) → Buf (Elt F) ((cfg1.win w).arr.view.loc (c : Thread nD τ))) :
    (dat.arrays G : sProp 𝕄)
      = bigSep Finset.univ fun w : Fin 9 => (((c : Thread nD τ).loc (Pipeline.arrRef spec1 w)) ↦{s w} G w : sProp 𝕄) := by
  unfold Dat.arrays
  exact bigSep_congr fun w _ => by rw [(arr_whole1 w).set_eq_univ, hs]

end Arrays

/-- The seven distinct arrays behind the nine windows, each held whole at the full share, one by one. -/
theorem arrBufs1_eq (c : Dev nD) (V : (b : Ref sig .tc) → Buf (Elt F) ((c : Thread nD τ).loc b)) :
    (Pipeline.arrBufs spec1 c V : sProp 𝕄)
      = iprop((((c : Thread nD τ).loc main_v9_0) ↦{fullShare} V main_v9_0) ∗ (((c : Thread nD τ).loc main_v9_1) ↦{fullShare} V main_v9_1) ∗ (((c : Thread nD τ).loc main_arg3) ↦{fullShare} V main_arg3) ∗ (((c : Thread nD τ).loc main_v10) ↦{fullShare} V main_v10) ∗ (((c : Thread nD τ).loc main_arg5) ↦{fullShare} V main_arg5) ∗ (((c : Thread nD τ).loc main_v11) ↦{fullShare} V main_v11) ∗ (((c : Thread nD τ).loc main_v12) ↦{fullShare} V main_v12)) := by
  unfold Pipeline.arrBufs
  exact bigSep_eq_bigSepL_of_eq [main_v9_0, main_v9_1, main_arg3, main_v10, main_arg5, main_v11, main_v12] (by decide) (by decide) _

/-- The core's unscoped buffers at a valuation are the seven arrays behind the region's windows and the unscoped
    buffers no window names, all at that valuation. -/
theorem unscopedBufs_split1 (c : Dev nD) (V : (b : Ref sig .tc) → Buf (Elt F) ((c : Thread nD τ).loc b)) :
    (unscopedBufs c V : sProp 𝕄) = iprop((Pipeline.arrBufs spec1 c V : sProp 𝕄) ∗ Pipeline.unscopedRest spec1 c V) := by
  classical
  have hA : Finset.univ.image (Pipeline.arrRef spec1) ⊆ Finset.univ.filter fun b : Ref sig .tc => ¬ b.isScoped := fun b hb => by
    obtain ⟨w, -, rfl⟩ := Finset.mem_image.mp hb
    exact Finset.mem_filter.mpr ⟨Finset.mem_univ _, by simp [winFacts₀1.arr_unscoped w]⟩
  unfold unscopedBufs Pipeline.unscopedRest Pipeline.arrBufs
  rw [bigSep_sdiff_split hA]
  rfl

section Arrays

variable {c : Dev nD} (dat : Dat τ (Elt F) Unit ℕ (Pipeline.UD sig nD τ) ℕ cfg1 c)

/-- The region's arrays at the contents a valuation V gives them, window by window: the two windows on each shared
    array hold it at the left and the right half of the full share, the other windows at the full share. -/
theorem arrays1_chain (hq0 : dat.q 0 = fullShare.left) (hq1 : dat.q 1 = fullShare.right)
    (hq2 : dat.q 2 = fullShare.left) (hq3 : dat.q 3 = fullShare.right) (hq4 : dat.q 4 = fullShare)
    (hq5 : dat.q 5 = fullShare) (hq6 : dat.q 6 = fullShare) (hq7 : dat.q 7 = fullShare)
    (V : (b : Ref sig .tc) → Buf (Elt F) ((c : Thread nD τ).loc b)) :
    (dat.arrays (fun w => V (Pipeline.arrRef spec1 w)) : sProp 𝕄)
      = iprop((((c : Thread nD τ).loc main_v9_0) ↦{fullShare.left} V main_v9_0)
          ∗ (((c : Thread nD τ).loc main_v9_0) ↦{fullShare.right} V main_v9_0)
          ∗ (((c : Thread nD τ).loc main_v9_1) ↦{fullShare.left} V main_v9_1)
          ∗ (((c : Thread nD τ).loc main_v9_1) ↦{fullShare.right} V main_v9_1)
          ∗ (((c : Thread nD τ).loc main_arg3) ↦{fullShare} V main_arg3)
          ∗ (((c : Thread nD τ).loc main_v10) ↦{fullShare} V main_v10)
          ∗ (((c : Thread nD τ).loc main_arg5) ↦{fullShare} V main_arg5)
          ∗ (((c : Thread nD τ).loc main_v11) ↦{fullShare} V main_v11)
          ∗ (((c : Thread nD τ).loc main_v12) ↦{fullShare} V main_v12)) := by
  rw [arrays1_eq dat shares1 (share1_eq dat hq0 hq1 hq2 hq3 hq4 hq5 hq6 hq7), bigSep_W1]

/-- The region's arrays at the contents a valuation V gives them are the seven distinct arrays, each whole at the
    full share at V: on a shared array the two windows' halves make up the full share. -/
theorem arrays1_eq_arrBufs (hq0 : dat.q 0 = fullShare.left) (hq1 : dat.q 1 = fullShare.right)
    (hq2 : dat.q 2 = fullShare.left) (hq3 : dat.q 3 = fullShare.right) (hq4 : dat.q 4 = fullShare)
    (hq5 : dat.q 5 = fullShare) (hq6 : dat.q 6 = fullShare) (hq7 : dat.q 7 = fullShare)
    (V : (b : Ref sig .tc) → Buf (Elt F) ((c : Thread nD τ).loc b)) :
    (dat.arrays (fun w => V (Pipeline.arrRef spec1 w)) : sProp 𝕄) = Pipeline.arrBufs spec1 c V := by
  rw [arrays1_chain dat hq0 hq1 hq2 hq3 hq4 hq5 hq6 hq7 V, arrBufs1_eq c V, pointsTo_halves1 c V main_v9_0, pointsTo_halves1 c V main_v9_1,
    sep_assoc1, sep_assoc1]

/-- ENTRY. The core's unscoped buffers at a valuation V are the region's arrays, window by window at the contents V
    gives them (a shared array's two windows at the two halves of the full share), and the unscoped buffers no
    window names. -/
theorem arrays1_of_unscopedBufs (hq0 : dat.q 0 = fullShare.left) (hq1 : dat.q 1 = fullShare.right)
    (hq2 : dat.q 2 = fullShare.left) (hq3 : dat.q 3 = fullShare.right) (hq4 : dat.q 4 = fullShare)
    (hq5 : dat.q 5 = fullShare) (hq6 : dat.q 6 = fullShare) (hq7 : dat.q 7 = fullShare)
    (V : (b : Ref sig .tc) → Buf (Elt F) ((c : Thread nD τ).loc b)) :
    (unscopedBufs c V : sProp 𝕄)
      ⊢ iprop(dat.arrays (fun w => V (Pipeline.arrRef spec1 w)) ∗ Pipeline.unscopedRest spec1 c V) := by
  rw [unscopedBufs_split1 c V, arrays1_eq_arrBufs dat hq0 hq1 hq2 hq3 hq4 hq5 hq6 hq7 V]

/-- EXIT. The region's arrays at contents G and the unscoped buffers no window names at V are the core's unscoped
    buffers at any valuation V' that gives every window's array the contents G has for that window (so the two
    windows on a shared array hold the same contents, and their halves join) and agrees with V off the windows'
    arrays. -/
theorem unscopedBufs_of_arrays1 (hq0 : dat.q 0 = fullShare.left) (hq1 : dat.q 1 = fullShare.right)
    (hq2 : dat.q 2 = fullShare.left) (hq3 : dat.q 3 = fullShare.right) (hq4 : dat.q 4 = fullShare)
    (hq5 : dat.q 5 = fullShare) (hq6 : dat.q 6 = fullShare) (hq7 : dat.q 7 = fullShare)
    (V V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w))
    (hrest : ∀ b, b ∉ Finset.univ.image (Pipeline.arrRef spec1) → V' b = V b) :
    iprop(dat.arrays G ∗ Pipeline.unscopedRest spec1 c V) ⊢ (unscopedBufs c V' : sProp 𝕄) := by
  have hGe : G = fun w => V' (Pipeline.arrRef spec1 w) := funext hG
  have hR : (Pipeline.unscopedRest spec1 c V : sProp 𝕄) = Pipeline.unscopedRest spec1 c V' := by
    unfold Pipeline.unscopedRest
    exact bigSep_congr fun b hb => by rw [hrest b (Finset.mem_sdiff.mp hb).2]
  rw [hGe, hR, arrays1_eq_arrBufs dat hq0 hq1 hq2 hq3 hq4 hq5 hq6 hq7 V', ← unscopedBufs_split1 c V']

end Arrays

end Cert.KernelIdeal.Hand
-- ==== Proof.KI.Launch.lean ====
/-
  The whole program as five segments — the projections on the host, the attention kernel, two reshapes on the host,
  the kernel-mean-and-head kernel, a last reshape — run from the launch to the return: what every buffer that
  outlives a kernel holds at each boundary, each kernel region entered from and left at those contents, and from
  the one run both what the program's result buffer holds at the end and that no argument array changes.
-/
import proofs.«178816_j65481071400898_2_alg».proof.Proof.KI.R0Dat
import proofs.«178816_j65481071400898_2_alg».proof.Proof.KI.R1Dat
import proofs.«178816_j65481071400898_2_alg».proof.Proof.KI.R1Share
import proofs.«178816_j65481071400898_2_alg».proof.Proof.Gen.KernelIdeal.Regions
import Idealize.ShloMosaic.Lib.Pipeline.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the buffers hold at each boundary -/

/-- At launch. -/
abbrev W0 : Dev nD → Valuation τ sig (Elt F) := fun c b => m (c, b)
/-- After the projections: the attention kernel's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the attention kernel: its two output arrays at what the write-backs leave, everything else as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the two reshapes: the second kernel's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second kernel: its one output array at what the write-backs leave, everything else as entered. -/
def W4 (c : Dev nD) : Valuation τ sig (Elt F) :=
  Function.update (W3 m c) (Proc.devRef .tc main_v12) ((dat1 (V3 m) c).arrAt 8 cfg1.N)
abbrev V4 : (c : Dev nD) → (b : Ref sig .tc) → Buf (Elt F) ((c : Thread nD τ).loc b) := fun c b => W4 m c b
theorem W4_out (c : Dev nD) : W4 m c (Proc.devRef .tc main_v12) = (dat1 (V3 m) c).arrAt 8 cfg1.N := by
  unfold W4; exact Function.update_self _ _ _
theorem W4_of_ne (c : Dev nD) (b : Ref sig .tc) (hb : b ≠ main_v12) :
    W4 m c (Proc.devRef .tc b) = W3 m c (Proc.devRef .tc b) := by
  unfold W4; exact Function.update_of_ne (StableHlo.devRef_ne_of_ne hb) _ _
/-- After the last reshape: the return. -/
abbrev W5 : Dev nD → Valuation τ sig (Elt F) := fun c => StableHlo.after hostOps2 (W4 m c)

/-- Each array of the second kernel holds at its exit what the pipeline leaves: an input what it held at entry, the
    output its write-backs. -/
theorem hF1 (c : Dev nD) (w : Fin cfg1.W) : (dat1 (V3 m) c).arrAt w cfg1.N = V4 m c (Pipeline.arrRef spec1 w) := by
  have hin : ∀ w : Fin cfg1.W, (cfg1.win w).isOut = false → Pipeline.arrRef spec1 w ≠ main_v12 →
      (dat1 (V3 m) c).arrAt w cfg1.N = V4 m c (Pipeline.arrRef spec1 w) := fun w ho hne =>
    (((dat1 (V3 m) c).arrAt_in w ho _).trans (A_eq1 (V3 m) c w)).trans (W4_of_ne m c _ hne).symm
  fin_cases w
  · exact hin 0 rfl (by decide)
  · exact hin 1 rfl (by decide)
  · exact hin 2 rfl (by decide)
  · exact hin 3 rfl (by decide)
  · exact hin 4 rfl (by decide)
  · exact hin 5 rfl (by decide)
  · exact hin 6 rfl (by decide)
  · exact hin 7 rfl (by decide)
  · exact (W4_out m c).symm
theorem hrest1 (c : Dev nD) : ∀ b, b ∉ Finset.univ.image (Pipeline.arrRef spec1) → V4 m c b = V3 m c b :=
  fun b hb => W4_of_ne m c b fun e => hb (Finset.mem_image.mpr ⟨8, Finset.mem_univ _, e.symm⟩)

/-! ## The proof data family and what rides along -/

abbrev adm : (p : Fin 2) → (pcfgs (F := F) p).Adm := fun p => (cfgs p).toPCfg_adm
/-- Both kernels' proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The two kernels as segments -/

set_option backward.isDefEq.respectTransparency.types false in
/-- The attention kernel: entered with every buffer at `W1`, left with them at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel: entered with every buffer at `W3`, left with them at `W4`. Two of its input arrays are each
    handed to two windows, so each is held as two half shares while the region runs. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m c)
  hentry c := by
    rw [Pipeline.ownSems0_none]
    have hsplit := arrays1_of_unscopedBufs (pdats m 1 c) (by rfl) (by rfl) (by rfl) (by rfl) (by rfl) (by rfl) (by rfl) (by rfl) (V3 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    rw [Pipeline.ownSems0_none]
    refine (hout1 (V3 m) c).trans ?_
    unfold Pipeline.ΦA
    iintro ⟨Hr, Hp⟩
    isplitl [Hp]; · iexact Hp
    isplitr; · iempintro
    iexact Hr
  hexit c := by
    have hjoin := unscopedBufs_of_arrays1 (pdats m 1 c) (by rfl) (by rfl) (by rfl) (by rfl) (by rfl) (by rfl) (by rfl) (by rfl) (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor

abbrev segs : List (Pipeline.Seg (pcfgs (F := F)) adm (pdats m) () defs₀ 𝒱₀ L lv) :=
  [ .host (hseg hostOps0 hostOps0_sub hostOps0_fresh' (W0 m)),
    .region (reg0 m),
    .host (hseg hostOps1 hostOps1_sub hostOps1_fresh' (W2 m)),
    .region (reg1 m),
    .host (hseg hostOps2 hostOps2_sub hostOps2_fresh' (W4 m)) ]

set_option backward.isDefEq.respectTransparency.types false in
/-- THE RUN. From any memory with zero counters every weakly fair execution of the program terminates, nothing
    faulting, and in every final state every buffer that outlives the kernels holds what the last boundary says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj embL defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- info: 'Cert.KernelIdeal.Hand.run_all' depends on axioms: [propext, Classical.choice, Quot.sound] -/
#guard_msgs in #print axioms run_all

/-! ## What the run says of the arguments and of the result -/

/-- No host operation and no kernel writes an argument: at the last boundary it holds what it held at launch. -/
theorem W5_arg (c : Dev nD) (b : Ref sig .tc) (h0 : b ∉ hostOps0_W) (h1 : b ∉ hostOps1_W) (h2 : b ∉ hostOps2_W)
    (hk0 : ∀ w, (cfg0.win w).isOut = true → Pipeline.arrRef spec0 w ≠ b) (hk1 : b ≠ main_v12) :
    W5 m c (Proc.devRef .tc b) = m ((c : Thread nD τ).loc b) := by
  have e5 : W5 m c (Proc.devRef .tc b) = W4 m c (Proc.devRef .tc b) := StableHlo.after_of_writes_sub hostOps2 _ hostOps2_writes h2
  have e4 : W4 m c (Proc.devRef .tc b) = W3 m c (Proc.devRef .tc b) := W4_of_ne m c b hk1
  have e3 : W3 m c (Proc.devRef .tc b) = W2 m c (Proc.devRef .tc b) := StableHlo.after_of_writes_sub hostOps1 _ hostOps1_writes h1
  have e1 : W1 m c (Proc.devRef .tc b) = W0 m c (Proc.devRef .tc b) := StableHlo.after_of_writes_sub hostOps0 _ hostOps0_writes h0
  have e2 : W2 m c (Proc.devRef .tc b) = W1 m c (Proc.devRef .tc b) := by
    by_cases hb : ∃ w, Pipeline.arrRef spec0 w = b
    · obtain ⟨w, rfl⟩ := hb
      have hin : (cfg0.win w).isOut = false := by
        cases hw : (cfg0.win w).isOut
        · rfl
        · exact absurd rfl (hk0 w hw)
      exact (W2_arr m c w).trans (((dat0 (V1 m) c).arrAt_in w hin _).trans (A_eq0 (V1 m) c w))
    · exact W2_of_ne m c b fun w e => hb ⟨w, e⟩
  exact e5.trans (e4.trans (e3.trans (e2.trans (e1.trans rfl))))

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
    (h c _ (mem_uc main_arg0 (by decide))).trans (W5_arg m c main_arg0 (by decide) (by decide) (by decide) (by decide) (by decide)),
    (h c _ (mem_uc main_arg1 (by decide))).trans (W5_arg m c main_arg1 (by decide) (by decide) (by decide) (by decide) (by decide)),
    (h c _ (mem_uc main_arg2 (by decide))).trans (W5_arg m c main_arg2 (by decide) (by decide) (by decide) (by decide) (by decide)),
    (h c _ (mem_uc main_arg3 (by decide))).trans (W5_arg m c main_arg3 (by decide) (by decide) (by decide) (by decide) (by decide)),
    (h c _ (mem_uc main_arg4 (by decide))).trans (W5_arg m c main_arg4 (by decide) (by decide) (by decide) (by decide) (by decide)),
    (h c _ (mem_uc main_arg5 (by decide))).trans (W5_arg m c main_arg5 (by decide) (by decide) (by decide) (by decide) (by decide)),
    (h c _ (mem_uc main_arg6 (by decide))).trans (W5_arg m c main_arg6 (by decide) (by decide) (by decide) (by decide) (by decide))⟩) (run_all m ρ)

/-- THE RESULT: the program's result buffer ends holding the last reshape of what the second kernel's output array
    holds at its exit; and every argument array ends as launched. -/
theorem run_value : θ_run defs (onTc (τ := τ) (main (F := F))) ⟨m, fun _ => 0, ρ⟩ (fun r => ∀ c : Dev nD,
      r.2.mem ((c.tc : Thread nD τ).loc main_v13) = W5 m c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨h c _ (mem_uc main_v13 (by decide)),
    (h c _ (mem_uc main_arg0 (by decide))).trans (W5_arg m c main_arg0 (by decide) (by decide) (by decide) (by decide) (by decide)),
    (h c _ (mem_uc main_arg1 (by decide))).trans (W5_arg m c main_arg1 (by decide) (by decide) (by decide) (by decide) (by decide)),
    (h c _ (mem_uc main_arg2 (by decide))).trans (W5_arg m c main_arg2 (by decide) (by decide) (by decide) (by decide) (by decide)),
    (h c _ (mem_uc main_arg3 (by decide))).trans (W5_arg m c main_arg3 (by decide) (by decide) (by decide) (by decide) (by decide)),
    (h c _ (mem_uc main_arg4 (by decide))).trans (W5_arg m c main_arg4 (by decide) (by decide) (by decide) (by decide) (by decide)),
    (h c _ (mem_uc main_arg5 (by decide))).trans (W5_arg m c main_arg5 (by decide) (by decide) (by decide) (by decide) (by decide)),
    (h c _ (mem_uc main_arg6 (by decide))).trans (W5_arg m c main_arg6 (by decide) (by decide) (by decide) (by decide) (by decide))⟩) (run_all m ρ)

end Cert.KernelIdeal.Hand

end
-- ==== Proof.KI.R0Pieces.lean ====
/-
  What each case of the attention kernel's body leaves, as the body's own arithmetic. One column tile's update of
  the running maximum, denominator and numerator is a function of the tile's query, key and value blocks and of the
  three quantities handed in; the reset case applies it to minus infinity, zero and zero; the last case also leaves
  the quotient of the updated numerator by the updated denominator, and that quotient's row sums of squares.
-/
import proofs.«178816_j65481071400898_2_alg».proof.Proof.KI.R0Dat
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem hz2 : (![0, 0] : Fin 2 → Nat) = fun _ => 0 := funext fun a => by fin_cases a <;> rfl

/-! ## One column tile's update -/

/-- The running maximum after the tile: the larger of the old one and the tile's row maxima of the scaled scores. -/
def stepM (x0 : Vec F S2048x256 .bf16) (x1 : Vec F S512x256 .bf16) (s0 : Vec F S2048x1 .f32) : Vec F S2048x1 .f32 :=
  k0_pay2 (k0_pay10 x0 x1 s0)
/-- The running denominator: the old one rescaled to the new maximum, plus the tile's row sums of exponentials. -/
def stepL (x0 : Vec F S2048x256 .bf16) (x1 : Vec F S512x256 .bf16) (s0 s1 : Vec F S2048x1 .f32) : Vec F S2048x1 .f32 :=
  k0_pay13 x0 x1 s0 s0 s1
/-- The running numerator: the old one rescaled, plus the tile's exponentials times the value block. -/
def stepA (x0 : Vec F S2048x256 .bf16) (x1 x2 : Vec F S512x256 .bf16) (s0 : Vec F S2048x1 .f32) (s2 : Vec F S2048x256 .f32) : Vec F S2048x256 .f32 :=
  k0_pay1 (k0_pay12 x0 x1 s0) (k0_pay14 x2) (k0_pay15 x0 x1 s0 s0 s2)

/-! ## The first column tile of a row tile: the update of (minus infinity, zero, zero) -/

theorem sout0_A_0_eq (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : cond0_0 i) (hc1 : ¬cond0_1 i)
    (x0 : Vec F S2048x256 .bf16) (x1 : Vec F S512x256 .bf16) (x2 : Vec F S512x256 .bf16) :
    sout0_A_0 c i arg2 harg2 arg3 harg3 arg4 harg4 arg5 harg5 arg6 harg6 arg7 harg7 arg8 harg8 arg9 harg9 hc0 hc1 x0 x1 x2 = stepM x0 x1 (k0_pay6 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S2048x1) hz2]
  simp only [View.readCov_unit_zero (S := S2048x1) _ hz2, View.readCov_unit_zero (S := S2048x256) _ hz2, View.readAt_eq_ld, harg2.read_unread, harg3.read_unread, harg4.read_unread, harg5.read_unread, harg6.read_unread, harg7.read_unread, harg8.read_unread, harg9.read_unread, View.ld_unit_zero (S := S2048x256) hz2, View.ld_unit_zero (S := S512x256) hz2, View.ld_unit_zero (S := S2048x1) hz2]
  try rfl

theorem sout0_A_1_eq (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : cond0_0 i) (hc1 : ¬cond0_1 i)
    (x0 : Vec F S2048x256 .bf16) (x1 : Vec F S512x256 .bf16) (x2 : Vec F S512x256 .bf16) :
    sout0_A_1 c i arg2 harg2 arg3 harg3 arg4 harg4 arg5 harg5 arg6 harg6 arg7 harg7 arg8 harg8 arg9 harg9 hc0 hc1 x0 x1 x2 = stepL x0 x1 (k0_pay6 (F := F)) (k0_pay7 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S2048x1) hz2]
  simp only [View.readCov_unit_zero (S := S2048x1) _ hz2, View.readCov_unit_zero (S := S2048x256) _ hz2, View.readAt_eq_ld, harg2.read_unread, harg3.read_unread, harg4.read_unread, harg5.read_unread, harg6.read_unread, harg7.read_unread, harg8.read_unread, harg9.read_unread, View.ld_unit_zero (S := S2048x256) hz2, View.ld_unit_zero (S := S512x256) hz2, View.ld_unit_zero (S := S2048x1) hz2]
  try rfl

theorem sout0_A_2_eq (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : cond0_0 i) (hc1 : ¬cond0_1 i)
    (x0 : Vec F S2048x256 .bf16) (x1 : Vec F S512x256 .bf16) (x2 : Vec F S512x256 .bf16) :
    sout0_A_2 c i arg2 harg2 arg3 harg3 arg4 harg4 arg5 harg5 arg6 harg6 arg7 harg7 arg8 harg8 arg9 harg9 hc0 hc1 x0 x1 x2 = stepA x0 x1 x2 (k0_pay6 (F := F)) (k0_pay8 (F := F)) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S2048x256) hz2]
  simp only [View.readCov_unit_zero (S := S2048x1) _ hz2, View.readCov_unit_zero (S := S2048x256) _ hz2, View.readAt_eq_ld, harg2.read_unread, harg3.read_unread, harg4.read_unread, harg5.read_unread, harg6.read_unread, harg7.read_unread, harg8.read_unread, harg9.read_unread, View.ld_unit_zero (S := S2048x256) hz2, View.ld_unit_zero (S := S512x256) hz2, View.ld_unit_zero (S := S2048x1) hz2]
  try rfl

/-! ## A middle column tile -/

theorem sout0_B_0_eq (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : ¬cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) :
    sout0_B_0 c i arg2 harg2 arg3 harg3 arg4 harg4 arg5 harg5 arg6 harg6 arg7 harg7 arg8 harg8 arg9 harg9 hc0 hc1 x0 x1 x2 xs0 xs1 xs2 = stepM x0 x1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_cons_unit_zero (S := S2048x1) hz2]
  simp only [View.readCov_unit_zero (S := S2048x1) _ hz2, View.readCov_unit_zero (S := S2048x256) _ hz2, View.readAt_eq_ld, harg2.read_unread, harg3.read_unread, harg4.read_unread, harg5.read_unread, harg6.read_unread, harg7.read_unread, harg8.read_unread, harg9.read_unread, View.ld_unit_zero (S := S2048x256) hz2, View.ld_unit_zero (S := S512x256) hz2, View.ld_unit_zero (S := S2048x1) hz2]
  try rfl

theorem sout0_B_1_eq (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : ¬cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) :
    sout0_B_1 c i arg2 harg2 arg3 harg3 arg4 harg4 arg5 harg5 arg6 harg6 arg7 harg7 arg8 harg8 arg9 harg9 hc0 hc1 x0 x1 x2 xs0 xs1 xs2 = stepL x0 x1 xs0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_cons_unit_zero (S := S2048x1) hz2]
  simp only [View.readCov_unit_zero (S := S2048x1) _ hz2, View.readCov_unit_zero (S := S2048x256) _ hz2, View.readAt_eq_ld, harg2.read_unread, harg3.read_unread, harg4.read_unread, harg5.read_unread, harg6.read_unread, harg7.read_unread, harg8.read_unread, harg9.read_unread, View.ld_unit_zero (S := S2048x256) hz2, View.ld_unit_zero (S := S512x256) hz2, View.ld_unit_zero (S := S2048x1) hz2]
  try rfl

theorem sout0_B_2_eq (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : ¬cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) :
    sout0_B_2 c i arg2 harg2 arg3 harg3 arg4 harg4 arg5 harg5 arg6 harg6 arg7 harg7 arg8 harg8 arg9 harg9 hc0 hc1 x0 x1 x2 xs0 xs1 xs2 = stepA x0 x1 x2 xs0 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_cons_unit_zero (S := S2048x256) hz2]
  simp only [View.readCov_unit_zero (S := S2048x1) _ hz2, View.readCov_unit_zero (S := S2048x256) _ hz2, View.readAt_eq_ld, harg2.read_unread, harg3.read_unread, harg4.read_unread, harg5.read_unread, harg6.read_unread, harg7.read_unread, harg8.read_unread, harg9.read_unread, View.ld_unit_zero (S := S2048x256) hz2, View.ld_unit_zero (S := S512x256) hz2, View.ld_unit_zero (S := S2048x1) hz2]
  try rfl

/-! ## The last column tile -/

theorem sout0_C_0_eq (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) :
    sout0_C_0 c i arg2 harg2 arg3 harg3 arg4 harg4 arg5 harg5 arg6 harg6 arg7 harg7 arg8 harg8 arg9 harg9 hc0 hc1 x0 x1 x2 xs0 xs1 xs2 = stepM x0 x1 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_cons_unit_zero (S := S2048x1) hz2]
  simp only [View.readCov_unit_zero (S := S2048x1) _ hz2, View.readCov_unit_zero (S := S2048x256) _ hz2, View.readAt_eq_ld, harg2.read_unread, harg3.read_unread, harg4.read_unread, harg5.read_unread, harg6.read_unread, harg7.read_unread, harg8.read_unread, harg9.read_unread, View.ld_unit_zero (S := S2048x256) hz2, View.ld_unit_zero (S := S512x256) hz2, View.ld_unit_zero (S := S2048x1) hz2]
  try rfl

theorem sout0_C_1_eq (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) :
    sout0_C_1 c i arg2 harg2 arg3 harg3 arg4 harg4 arg5 harg5 arg6 harg6 arg7 harg7 arg8 harg8 arg9 harg9 hc0 hc1 x0 x1 x2 xs0 xs1 xs2 = stepL x0 x1 xs0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_cons_unit_zero (S := S2048x1) hz2]
  simp only [View.readCov_unit_zero (S := S2048x1) _ hz2, View.readCov_unit_zero (S := S2048x256) _ hz2, View.readAt_eq_ld, harg2.read_unread, harg3.read_unread, harg4.read_unread, harg5.read_unread, harg6.read_unread, harg7.read_unread, harg8.read_unread, harg9.read_unread, View.ld_unit_zero (S := S2048x256) hz2, View.ld_unit_zero (S := S512x256) hz2, View.ld_unit_zero (S := S2048x1) hz2]
  try rfl

theorem sout0_C_2_eq (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) :
    sout0_C_2 c i arg2 harg2 arg3 harg3 arg4 harg4 arg5 harg5 arg6 harg6 arg7 harg7 arg8 harg8 arg9 harg9 hc0 hc1 x0 x1 x2 xs0 xs1 xs2 = stepA x0 x1 x2 xs0 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_cons_unit_zero (S := S2048x256) hz2]
  simp only [View.readCov_unit_zero (S := S2048x1) _ hz2, View.readCov_unit_zero (S := S2048x256) _ hz2, View.readAt_eq_ld, harg2.read_unread, harg3.read_unread, harg4.read_unread, harg5.read_unread, harg6.read_unread, harg7.read_unread, harg8.read_unread, harg9.read_unread, View.ld_unit_zero (S := S2048x256) hz2, View.ld_unit_zero (S := S512x256) hz2, View.ld_unit_zero (S := S2048x1) hz2]
  try rfl

/-- The attention output block: the updated numerator over the updated denominator. -/
theorem out0_C_3_eq (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) :
    out0_C_3 c i arg2 harg2 arg3 harg3 arg4 harg4 arg5 harg5 arg6 harg6 arg7 harg7 arg8 harg8 arg9 harg9 hc0 hc1 x0 x1 x2 xs0 xs1 xs2 = k0_pay5 (stepA x0 x1 x2 xs0 xs2) (stepL x0 x1 xs0 xs1) := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_cons_unit_zero (S := S2048x256) hz2]
  simp only [View.readCov_unit_zero (S := S2048x1) _ hz2, View.readCov_unit_zero (S := S2048x256) _ hz2, View.readAt_eq_ld, harg2.read_unread, harg3.read_unread, harg4.read_unread, harg5.read_unread, harg6.read_unread, harg7.read_unread, harg8.read_unread, harg9.read_unread, View.ld_unit_zero (S := S2048x256) hz2, View.ld_unit_zero (S := S512x256) hz2, View.ld_unit_zero (S := S2048x1) hz2]
  try rfl

/-- The sum-of-squares output block: that quotient's row sums of squares. -/
theorem out0_C_4_eq (c : Dev nD) (i : grid0.Coords)
    (arg2 : Memref sig .tc .vmem S2048x256 .bf16) (harg2 : arg2.IsWhole) (arg3 : Memref sig .tc .vmem S512x256 .bf16) (harg3 : arg3.IsWhole)
    (arg4 : Memref sig .tc .vmem S512x256 .bf16) (harg4 : arg4.IsWhole) (arg5 : Memref sig .tc .vmem S2048x256 .bf16) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x256 .f32) (harg9 : arg9.IsWhole) (hc0 : ¬cond0_0 i) (hc1 : cond0_1 i)
    (x0 : Vec F S2048x256 .bf16) (x1 : Vec F S512x256 .bf16) (x2 : Vec F S512x256 .bf16) (xs0 : Vec F S2048x1 .f32) (xs1 : Vec F S2048x1 .f32) (xs2 : Vec F S2048x256 .f32) :
    out0_C_4 c i arg2 harg2 arg3 harg3 arg4 harg4 arg5 harg5 arg6 harg6 arg7 harg7 arg8 harg8 arg9 harg9 hc0 hc1 x0 x1 x2 xs0 xs1 xs2 = k0_pay4 (stepA x0 x1 x2 xs0 xs2) (stepL x0 x1 xs0 xs1) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_cons_unit_zero (S := S2048x1) hz2]
  simp only [View.readCov_unit_zero (S := S2048x1) _ hz2, View.readCov_unit_zero (S := S2048x256) _ hz2, View.readAt_eq_ld, harg2.read_unread, harg3.read_unread, harg4.read_unread, harg5.read_unread, harg6.read_unread, harg7.read_unread, harg8.read_unread, harg9.read_unread, View.ld_unit_zero (S := S2048x256) hz2, View.ld_unit_zero (S := S512x256) hz2, View.ld_unit_zero (S := S2048x1) hz2]
  try rfl

end Cert.KernelIdeal.Hand

end
-- ==== Proof.KI.R0Val.lean ====
/-
  The attention kernel's running quantities in closed form, point by point: each point applies one column tile's
  update to what it is handed — minus infinity, zero, zero at the first column tile of a row tile, what the point
  before left otherwise — and at the last column tile the two output blocks are the updated numerator over the updated
  denominator and that quotient's row sums of squares.
-/
import proofs.«178816_j65481071400898_2_alg».proof.Proof.KI.R0Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- What point `t` is handed: the reset values at the first column tile of a row tile, else what the point before left. -/
def prev0 (c : Dev nD) (t : Fin cfg0.N) : Vec F S2048x1 .f32 × Vec F S2048x1 .f32 × Vec F S2048x256 .f32 :=
  if t.val % 16 = 0 then (k0_pay6 (F := F), k0_pay7 (F := F), k0_pay8 (F := F))
  else scrAt0 V c (t.val - 1) (Nat.lt_of_le_of_lt (Nat.sub_le _ _) t.isLt)

/-- ONE STEP OF THE RECURRENCE, at every point. -/
theorem scrAt0_step (c : Dev nD) (t : Fin cfg0.N) :
    scrAt0 V c t.val t.isLt
      = (stepM (iblk0 (V c) 0 t) (iblk0 (V c) 1 t) (prev0 V c t).1,
         stepL (iblk0 (V c) 0 t) (iblk0 (V c) 1 t) (prev0 V c t).1 (prev0 V c t).2.1,
         stepA (iblk0 (V c) 0 t) (iblk0 (V c) 1 t) (iblk0 (V c) 2 t) (prev0 V c t).1 (prev0 V c t).2.2) := by
  have hN : t.val < 64 := lt_of_lt_of_eq t.isLt (show cfg0.N = 64 from N_0)
  unfold prev0
  by_cases h0 : t.val % 16 = 0
  · have h1 : ¬t.val % 16 = 15 := by omega
    rw [scrAt0_A V c t h0 h1, if_pos h0, sout0_A_0_eq, sout0_A_1_eq, sout0_A_2_eq]
  · rw [if_neg h0]
    by_cases h1 : t.val % 16 = 15
    · rw [scrAt0_C V c t h0 h1, sout0_C_0_eq, sout0_C_1_eq, sout0_C_2_eq]
    · rw [scrAt0_B V c t h0 h1, sout0_B_0_eq, sout0_B_1_eq, sout0_B_2_eq]

/-- At the last column tile the attention output block is the updated numerator over the updated denominator, -/
theorem outAt0_3_last (c : Dev nD) (t : Fin cfg0.N) (h1 : t.val % 16 = 15) :
    outAt0_3 V c t = k0_pay5 (scrAt0 V c t.val t.isLt).2.2 (scrAt0 V c t.val t.isLt).2.1 := by
  have h0 : ¬t.val % 16 = 0 := by omega
  unfold outAt0_3
  rw [dif_pos h1, out0_C_3_eq, scrAt0_step V c t]
  unfold prev0
  rw [if_neg h0]

/-- and the other output block that quotient's row sums of squares. -/
theorem outAt0_4_last (c : Dev nD) (t : Fin cfg0.N) (h1 : t.val % 16 = 15) :
    outAt0_4 V c t = k0_pay4 (scrAt0 V c t.val t.isLt).2.2 (scrAt0 V c t.val t.isLt).2.1 := by
  have h0 : ¬t.val % 16 = 0 := by omega
  unfold outAt0_4
  rw [dif_pos h1, out0_C_4_eq, scrAt0_step V c t]
  unfold prev0
  rw [if_neg h0]

end Cert.KernelIdeal.Hand

end
-- ==== Proof.KI.R0Blocks.lean ====
/-
  The attention kernel's blocks and outputs, by global row and column.

  The grid has 4 row tiles and 16 column tiles; point t is row tile t / 16, column tile t % 16. The queries' window
  reads rows 2048·(t/16) … of its array, the keys' and the values' windows rows 512·(t%16) …, all 256 columns wide;
  the two outputs are written back at the last column tile of each row tile, into rows 2048·(t/16) … of their
  arrays. So an input block's entry (r, d) is the array's entry at the block's first row plus r, and after the run
  the output arrays hold, at global row R, row R % 2048 of what the point 16·(R / 2048) + 15 wrote.
-/
import proofs.«178816_j65481071400898_2_alg».proof.Proof.KI.R0Dat
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

/-! ## The index maps over the grid -/

/-- The grid has 64 points, as a bound on a point's number. -/
theorem lt64_0 (t : Fin cfg0.N) : t.val < 64 := lt_of_lt_of_eq t.isLt N_0

/-- The windows' block indices at point t: the queries' and the outputs' row block is t / 16, the keys' and the
    values' is t % 16, and every column block is 0. -/
theorem idx0_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val % 16 ∧ win0_2.index t (1 : Fin 2) = 0
    ∧ win0_3.index t (0 : Fin 2) = t.val / 16 ∧ win0_3.index t (1 : Fin 2) = 0
    ∧ win0_4.index t (0 : Fin 2) = t.val / 16 ∧ win0_4.index t (1 : Fin 2) = 0 :=
  (by decide +kernel : ∀ t : Fin grid0.N, _)

/-- A function of a grid point and an index takes equal values at points of equal number and indices of equal
    coordinates. -/
theorem apply_congr0 {s : Shape} {α : Type} (f : Fin cfg0.N → s.Idx → α) {t t' : Fin cfg0.N} (ht : t'.val = t.val)
    {j j' : s.Idx} (hj : ∀ a, (j' a).val = (j a).val) : f t' j' = f t j := by
  have h1 : t' = t := Fin.ext ht
  have h2 : j' = j := funext fun a => Fin.ext (hj a)
  rw [h1, h2]

variable (V : (c : Dev nD) → (b : Ref sig .tc) → Buf (Elt F) ((c : Thread nD τ).loc b))

/-! ## The input blocks at an entry -/

/-- Entry (r, d) of the queries' block at point t is the queries' array at row 2048·(t/16) + r, column d. -/
theorem iblk0_0_apply (c : Dev nD) (t : Fin cfg0.N) (r : Fin 2048) (d : Fin 256) :
    iblk0 (V c) 0 t (ix2 r d)
      = V c main_v3 (ix2 (⟨2048 * (t.val / 16) + r.val, by have := lt64_0 t; omega⟩ : Fin 8192) d) := by
  obtain ⟨e00, e01, e10, e11, e20, e21, -⟩ := idx0_facts t
  unfold iblk0
  rw [View.read_apply]
  show V c main_v3 (((cfg0.win 0).blk t).view.emb (ix2 r d)) = _
  refine congrArg (V c main_v3) (funext fun a => Fin.ext ?_)
  match a with
  | ⟨0, _⟩ => show win0_0.index t (0 : Fin 2) * 2048 + 1 * r.val = 2048 * (t.val / 16) + r.val; omega
  | ⟨1, _⟩ => show win0_0.index t (1 : Fin 2) * 256 + 1 * d.val = d.val; omega

/-- Entry (k, d) of the keys' block at point t is the keys' array at row 512·(t%16) + k, column d. -/
theorem iblk0_1_apply (c : Dev nD) (t : Fin cfg0.N) (k : Fin 512) (d : Fin 256) :
    iblk0 (V c) 1 t (ix2 k d)
      = V c main_v7 (ix2 (⟨512 * (t.val % 16) + k.val, by have := lt64_0 t; omega⟩ : Fin 8192) d) := by
  obtain ⟨e00, e01, e10, e11, e20, e21, -⟩ := idx0_facts t
  unfold iblk0
  rw [View.read_apply]
  show V c main_v7 (((cfg0.win 1).blk t).view.emb (ix2 k d)) = _
  refine congrArg (V c main_v7) (funext fun a => Fin.ext ?_)
  match a with
  | ⟨0, _⟩ => show win0_1.index t (0 : Fin 2) * 512 + 1 * k.val = 512 * (t.val % 16) + k.val; omega
  | ⟨1, _⟩ => show win0_1.index t (1 : Fin 2) * 256 + 1 * d.val = d.val; omega

/-- Entry (k, d) of the values' block at point t is the values' array at row 512·(t%16) + k, column d. -/
theorem iblk0_2_apply (c : Dev nD) (t : Fin cfg0.N) (k : Fin 512) (d : Fin 256) :
    iblk0 (V c) 2 t (ix2 k d)
      = V c main_v8 (ix2 (⟨512 * (t.val % 16) + k.val, by have := lt64_0 t; omega⟩ : Fin 8192) d) := by
  obtain ⟨e00, e01, e10, e11, e20, e21, -⟩ := idx0_facts t
  unfold iblk0
  rw [View.read_apply]
  show V c main_v8 (((cfg0.win 2).blk t).view.emb (ix2 k d)) = _
  refine congrArg (V c main_v8) (funext fun a => Fin.ext ?_)
  match a with
  | ⟨0, _⟩ => show win0_2.index t (0 : Fin 2) * 512 + 1 * k.val = 512 * (t.val % 16) + k.val; omega
  | ⟨1, _⟩ => show win0_2.index t (1 : Fin 2) * 256 + 1 * d.val = d.val; omega

/-! ## Output window 3: attention -/

/-- What the attention array ends holding, as one function of the global index: at row R, row R % 2048 of what the
    last column tile of row tile R / 2048 wrote. -/
def G0_3 (c : Dev nD) : S8192x256.Idx → Elt F .bf16 := fun i =>
  outAt0_3 V c ⟨16 * ((i 0).val / 2048) + 15, lt_of_lt_of_eq (by have h : (i 0).val < 8192 := (i 0).isLt; omega) N_0.symm⟩
    (ix2 (⟨(i 0).val % 2048, Nat.mod_lt _ (by norm_num)⟩ : Fin 2048) (⟨(i 1).val, (i 1).isLt⟩ : Fin 256))

/-- What a flushing point (the last column tile of a row tile) writes back is its block of that function. -/
theorem flushed0_3_eq (c : Dev nD) (t : Fin cfg0.N) (hf : (cfg0.win 3).flush t = true) :
    (dat0 V c).flushed 3 t = ((cfg0.win 3).blk t).view.read (Elt F) (G0_3 V c) := by
  have h15 : t.val % 16 = 15 := (flush0_3 t).mp hf
  have h64 := lt64_0 t
  obtain ⟨-, -, -, -, -, -, e30, e31, e40, e41⟩ := idx0_facts t
  show (cfg0.win 3).cut (grid0.coords t) ((dat0 V c).after 3 t) = _
  rw [after0_3]
  funext j
  rw [View.read_apply]
  have hj0 : (j 0).val < 2048 := (j 0).isLt
  have hj1 : (j 1).val < 256 := (j 1).isLt
  have e0 : ((((cfg0.win 3).blk t).view.emb j) 0).val = t.val / 16 * 2048 + (j 0).val := by
    show win0_3.index t (0 : Fin 2) * 2048 + 1 * (j 0).val = _; omega
  have e1 : ((((cfg0.win 3).blk t).view.emb j) 1).val = (j 1).val := by
    show win0_3.index t (1 : Fin 2) * 256 + 1 * (j 1).val = _; omega
  show outAt0_3 V c t ((cfg0.win 3).xinj (grid0.coords t) j) = _
  unfold G0_3
  refine (apply_congr0 (outAt0_3 V c) ?_ ?_).symm
  · show 16 * (((((cfg0.win 3).blk t).view.emb j) 0).val / 2048) + 15 = t.val
    rw [e0]; omega
  · intro a
    match a with
    | ⟨0, _⟩ => show ((((cfg0.win 3).blk t).view.emb j) 0).val % 2048 = (j 0).val; rw [e0]; omega
    | ⟨1, _⟩ => exact e1

/-- An index of the array is in point t's block iff each coordinate is in the block's range on its axis. -/
theorem mem_blk0_3 (t : Fin cfg0.N) (i : S8192x256.Idx) :
    i ∈ ((cfg0.win 3).blk t).view.set ↔ ∀ a : Fin 2, win0_3.index t a * S2048x256.size a ≤ (i a).val ∧ (i a).val < win0_3.index t a * S2048x256.size a + S2048x256.size a := by
  show i ∈ ((View.whole main_v9_0).slice (win0_3.rect t)).set ↔ _
  rw [View.set_slice_whole, Rect.mem_set_unit]
  exact Iff.rfl

/-- Every index of the array is in the block of a flushing point: the last column tile of its row tile. -/
theorem cover0_3 (i : S8192x256.Idx) :
    ∃ t : Fin cfg0.N, (cfg0.win 3).flush t = true ∧ i ∈ ((cfg0.win 3).blk t).view.set := by
  have hi0 : (i 0).val < 8192 := (i 0).isLt
  have hi1 : (i 1).val < 256 := (i 1).isLt
  let t : Fin cfg0.N := ⟨16 * ((i 0).val / 2048) + 15, lt_of_lt_of_eq (by omega) N_0.symm⟩
  have htv : t.val = 16 * ((i 0).val / 2048) + 15 := rfl
  obtain ⟨-, -, -, -, -, -, e30, e31, e40, e41⟩ := idx0_facts t
  refine ⟨t, (flush0_3 t).mpr (by omega), ?_⟩
  rw [mem_blk0_3]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 256 ≤ (i 1).val ∧ (i 1).val < win0_3.index t (1 : Fin 2) * 256 + 256; omega

/-- After the run the attention array is that function. -/
theorem final0_3 (c : Dev nD) : (dat0 V c).arrAt 3 cfg0.N = G0_3 V c :=
  (dat0 V c).arrAt_eq_of_cover 3 (G0_3 V c) (fun t hf => flushed0_3_eq V c t hf) (cover0_3)

/-! ## Output window 4: sums of squares -/

/-- What the sums of squares array ends holding, as one function of the global index: at row R, row R % 2048 of what the
    last column tile of row tile R / 2048 wrote. -/
def G0_4 (c : Dev nD) : S8192x1.Idx → Elt F .f32 := fun i =>
  outAt0_4 V c ⟨16 * ((i 0).val / 2048) + 15, lt_of_lt_of_eq (by have h : (i 0).val < 8192 := (i 0).isLt; omega) N_0.symm⟩
    (ix2 (⟨(i 0).val % 2048, Nat.mod_lt _ (by norm_num)⟩ : Fin 2048) (⟨(i 1).val, (i 1).isLt⟩ : Fin 1))

/-- What a flushing point (the last column tile of a row tile) writes back is its block of that function. -/
theorem flushed0_4_eq (c : Dev nD) (t : Fin cfg0.N) (hf : (cfg0.win 4).flush t = true) :
    (dat0 V c).flushed 4 t = ((cfg0.win 4).blk t).view.read (Elt F) (G0_4 V c) := by
  have h15 : t.val % 16 = 15 := (flush0_4 t).mp hf
  have h64 := lt64_0 t
  obtain ⟨-, -, -, -, -, -, e30, e31, e40, e41⟩ := idx0_facts t
  show (cfg0.win 4).cut (grid0.coords t) ((dat0 V c).after 4 t) = _
  rw [after0_4]
  funext j
  rw [View.read_apply]
  have hj0 : (j 0).val < 2048 := (j 0).isLt
  have hj1 : (j 1).val < 1 := (j 1).isLt
  have e0 : ((((cfg0.win 4).blk t).view.emb j) 0).val = t.val / 16 * 2048 + (j 0).val := by
    show win0_4.index t (0 : Fin 2) * 2048 + 1 * (j 0).val = _; omega
  have e1 : ((((cfg0.win 4).blk t).view.emb j) 1).val = (j 1).val := by
    show win0_4.index t (1 : Fin 2) * 1 + 1 * (j 1).val = _; omega
  show outAt0_4 V c t ((cfg0.win 4).xinj (grid0.coords t) j) = _
  unfold G0_4
  refine (apply_congr0 (outAt0_4 V c) ?_ ?_).symm
  · show 16 * (((((cfg0.win 4).blk t).view.emb j) 0).val / 2048) + 15 = t.val
    rw [e0]; omega
  · intro a
    match a with
    | ⟨0, _⟩ => show ((((cfg0.win 4).blk t).view.emb j) 0).val % 2048 = (j 0).val; rw [e0]; omega
    | ⟨1, _⟩ => exact e1

/-- An index of the array is in point t's block iff each coordinate is in the block's range on its axis. -/
theorem mem_blk0_4 (t : Fin cfg0.N) (i : S8192x1.Idx) :
    i ∈ ((cfg0.win 4).blk t).view.set ↔ ∀ a : Fin 2, win0_4.index t a * S2048x1.size a ≤ (i a).val ∧ (i a).val < win0_4.index t a * S2048x1.size a + S2048x1.size a := by
  show i ∈ ((View.whole main_v9_1).slice (win0_4.rect t)).set ↔ _
  rw [View.set_slice_whole, Rect.mem_set_unit]
  exact Iff.rfl

/-- Every index of the array is in the block of a flushing point: the last column tile of its row tile. -/
theorem cover0_4 (i : S8192x1.Idx) :
    ∃ t : Fin cfg0.N, (cfg0.win 4).flush t = true ∧ i ∈ ((cfg0.win 4).blk t).view.set := by
  have hi0 : (i 0).val < 8192 := (i 0).isLt
  have hi1 : (i 1).val < 1 := (i 1).isLt
  let t : Fin cfg0.N := ⟨16 * ((i 0).val / 2048) + 15, lt_of_lt_of_eq (by omega) N_0.symm⟩
  have htv : t.val = 16 * ((i 0).val / 2048) + 15 := rfl
  obtain ⟨-, -, -, -, -, -, e30, e31, e40, e41⟩ := idx0_facts t
  refine ⟨t, (flush0_4 t).mpr (by omega), ?_⟩
  rw [mem_blk0_4]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 1 ≤ (i 1).val ∧ (i 1).val < win0_4.index t (1 : Fin 2) * 1 + 1; omega

/-- After the run the sums of squares array is that function. -/
theorem final0_4 (c : Dev nD) : (dat0 V c).arrAt 4 cfg0.N = G0_4 V c :=
  (dat0 V c).arrAt_eq_of_cover 4 (G0_4 V c) (fun t hf => flushed0_4_eq V c t hf) (cover0_4)

/-! ## The two outputs at a global row -/

/-- After the run the attention array holds, at row R and column d, row R % 2048, column d of what the point
    16·(R / 2048) + 15 wrote. -/
theorem attn0_apply (c : Dev nD) (R : Fin 8192) (d : Fin 256) :
    (dat0 V c).arrAt 3 cfg0.N (ix2 R d)
      = outAt0_3 V c ⟨16 * (R.val / 2048) + 15, lt_of_lt_of_eq (by have := R.isLt; omega) N_0.symm⟩
          (ix2 (⟨R.val % 2048, Nat.mod_lt _ (by norm_num)⟩ : Fin 2048) d) := by
  rw [final0_3]
  unfold G0_3
  exact apply_congr0 (outAt0_3 V c) rfl (fun a => by match a with | ⟨0, _⟩ => rfl | ⟨1, _⟩ => rfl)

/-- After the run the sums-of-squares array holds, at row R, row R % 2048 of what the point 16·(R / 2048) + 15
    wrote. -/
theorem sq0_apply (c : Dev nD) (R : Fin 8192) :
    (dat0 V c).arrAt 4 cfg0.N (ix2 R 0)
      = outAt0_4 V c ⟨16 * (R.val / 2048) + 15, lt_of_lt_of_eq (by have := R.isLt; omega) N_0.symm⟩
          (ix2 (⟨R.val % 2048, Nat.mod_lt _ (by norm_num)⟩ : Fin 2048) 0) := by
  rw [final0_4]
  unfold G0_4
  exact apply_congr0 (outAt0_4 V c) rfl (fun a => by match a with | ⟨0, _⟩ => rfl | ⟨1, _⟩ => rfl)

end Cert.KernelIdeal.Hand
-- ==== Proof.KI.PayIdx0.lean ====
/-
  The attention kernel's pure values read at one index, at the ideal instance (every float an extended real, every
  operation exact, a change of format the identity). Each lemma reads one of the kernel body's values at literal
  coordinates `(r, c)`, `(r, d)` or `(r, 0)` as a formula on extended reals — a sum over the contracted or reduced
  coordinate, a fold of `max` over a row, an exponential, a product, a quotient — over the block's operands at
  coordinates and over the other values read at an index, so that the lemmas chain: the scaled scores
  `s(r, c) = (∑ d, q(r, d) · k(c, d)) · scale`; the new running maximum `m'(r) = max (m(r)) (max_c s(r, c))`; the
  rescaling factor `exp (m(r) − m'(r))`; the weights `p(r, c) = exp (s(r, c) − m'(r))`; the new denominator
  `factor(r) · l(r) + ∑ c, p(r, c)`; the rescaled numerator `factor(r) · a(r, d)` and the new one
  `a(r, d) + ∑ c, p(r, c) · v(c, d)`; the initial values; and the epilogue's quotient `a(r, d) / l(r)` with its rows'
  sums of squares. Two layout readings come first: a vector cast to a column, and a column broadcast along rows.
-/
import proofs.«178816_j65481071400898_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.PayIdx0

open Cert.KernelIdeal Cert.KernelIdeal.Gen Idealize.ShloMosaic Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two matrix products read at an index -/

theorem qk_lhs0 (i : S2048x512.Idx) (q : dot_S2048x256_S256x512_S2048x512_1_0_0_1_n_n.contr.Idx) : (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide),
    dif_pos (show (0 : Fin S2048x256.rank) ∈ dot_S2048x256_S256x512_S2048x512_1_0_0_1_n_n.lhsNonContracting by decide)]
  rfl
theorem qk_lhs1 (i : S2048x512.Idx) (q : dot_S2048x256_S256x512_S2048x512_1_0_0_1_n_n.contr.Idx) : (dot_S2048x256_S256x512_S2048x512_1_0_0_1_n_n.lhsIdx i q 1).val = (q ⟨0, by decide⟩).val :=
  dot_S2048x256_S256x512_S2048x512_1_0_0_1_n_n.lhsIdx_val_of_single rfl i q
theorem qk_rhs0 (i : S2048x512.Idx) (q : dot_S2048x256_S256x512_S2048x512_1_0_0_1_n_n.contr.Idx) : (dot_S2048x256_S256x512_S2048x512_1_0_0_1_n_n.rhsIdx i q 0).val = (q ⟨0, by decide⟩).val :=
  dot_S2048x256_S256x512_S2048x512_1_0_0_1_n_n.rhsIdx_val_of_single rfl i q
theorem qk_rhs1 (i : S2048x512.Idx) (q : dot_S2048x256_S256x512_S2048x512_1_0_0_1_n_n.contr.Idx) : (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide),
    dif_pos (show (1 : Fin S256x512.rank) ∈ dot_S2048x256_S256x512_S2048x512_1_0_0_1_n_n.rhsNonContracting by decide)]
  rfl

/-- The scores' product: a `[2048, 256]` block times a `[256, 512]` block into the zero splat is, at `(r, c)`, the
    sum over the shared coordinate of the products. -/
theorem matmul_qk_apply (a : FVec Ideal S2048x256 .bf16) (b : FVec Ideal S256x512 .bf16) (r : Fin 2048) (c : Fin 512) :
    matmul dot_S2048x256_S256x512_S2048x512_1_0_0_1_n_n none a b (constant (F := Ideal) S2048x512 .f32 0x00000000#32) (ix2 r c)
      = ∑ d : Fin 256, a (ix2 r d) * b (ix2 d c) := by
  refine (Ideal.matmul_constant_zero_apply dot_S2048x256_S256x512_S2048x512_1_0_0_1_n_n none a b (ix2 r c)).trans ?_
  rw [← Equiv.sum_comp (contrEquiv1 dot_S2048x256_S256x512_S2048x512_1_0_0_1_n_n 256 rfl rfl).symm]
  refine Finset.sum_congr rfl fun k _ => ?_
  have hk := contrEquiv1_symm_val dot_S2048x256_S256x512_S2048x512_1_0_0_1_n_n 256 rfl rfl k
  have el : dot_S2048x256_S256x512_S2048x512_1_0_0_1_n_n.lhsIdx (ix2 r c) ((contrEquiv1 dot_S2048x256_S256x512_S2048x512_1_0_0_1_n_n 256 rfl rfl).symm k) = ix2 r k :=
    funext fun ax => Fin.ext (by
      match ax with
      | ⟨0, _⟩ => exact qk_lhs0 _ _
      | ⟨1, _⟩ => exact (qk_lhs1 _ _).trans hk)
  have er : dot_S2048x256_S256x512_S2048x512_1_0_0_1_n_n.rhsIdx (ix2 r c) ((contrEquiv1 dot_S2048x256_S256x512_S2048x512_1_0_0_1_n_n 256 rfl rfl).symm k) = ix2 k c :=
    funext fun ax => Fin.ext (by
      match ax with
      | ⟨0, _⟩ => exact (qk_rhs0 _ _).trans hk
      | ⟨1, _⟩ => exact qk_rhs1 _ _)
  rw [el, er]

theorem pv_lhs0 (i : S2048x256.Idx) (q : dot_S2048x512_S512x256_S2048x256_1_0_0_1_n_n.contr.Idx) : (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide),
    dif_pos (show (0 : Fin S2048x512.rank) ∈ dot_S2048x512_S512x256_S2048x256_1_0_0_1_n_n.lhsNonContracting by decide)]
  rfl
theorem pv_lhs1 (i : S2048x256.Idx) (q : dot_S2048x512_S512x256_S2048x256_1_0_0_1_n_n.contr.Idx) : (dot_S2048x512_S512x256_S2048x256_1_0_0_1_n_n.lhsIdx i q 1).val = (q ⟨0, by decide⟩).val :=
  dot_S2048x512_S512x256_S2048x256_1_0_0_1_n_n.lhsIdx_val_of_single rfl i q
theorem pv_rhs0 (i : S2048x256.Idx) (q : dot_S2048x512_S512x256_S2048x256_1_0_0_1_n_n.contr.Idx) : (dot_S2048x512_S512x256_S2048x256_1_0_0_1_n_n.rhsIdx i q 0).val = (q ⟨0, by decide⟩).val :=
  dot_S2048x512_S512x256_S2048x256_1_0_0_1_n_n.rhsIdx_val_of_single rfl i q
theorem pv_rhs1 (i : S2048x256.Idx) (q : dot_S2048x512_S512x256_S2048x256_1_0_0_1_n_n.contr.Idx) : (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide),
    dif_pos (show (1 : Fin S512x256.rank) ∈ dot_S2048x512_S512x256_S2048x256_1_0_0_1_n_n.rhsNonContracting by decide)]
  rfl

/-- The weighted values' product: a `[2048, 512]` block times a `[512, 256]` block into the zero splat is, at
    `(r, d)`, the sum over the shared coordinate of the products. -/
theorem matmul_pv_apply (a : FVec Ideal S2048x512 .bf16) (b : FVec Ideal S512x256 .bf16) (r : Fin 2048) (d : Fin 256) :
    matmul dot_S2048x512_S512x256_S2048x256_1_0_0_1_n_n none a b (constant (F := Ideal) S2048x256 .f32 0x00000000#32) (ix2 r d)
      = ∑ c : Fin 512, a (ix2 r c) * b (ix2 c d) := by
  refine (Ideal.matmul_constant_zero_apply dot_S2048x512_S512x256_S2048x256_1_0_0_1_n_n none a b (ix2 r d)).trans ?_
  rw [← Equiv.sum_comp (contrEquiv1 dot_S2048x512_S512x256_S2048x256_1_0_0_1_n_n 512 rfl rfl).symm]
  refine Finset.sum_congr rfl fun k _ => ?_
  have hk := contrEquiv1_symm_val dot_S2048x512_S512x256_S2048x256_1_0_0_1_n_n 512 rfl rfl k
  have el : dot_S2048x512_S512x256_S2048x256_1_0_0_1_n_n.lhsIdx (ix2 r d) ((contrEquiv1 dot_S2048x512_S512x256_S2048x256_1_0_0_1_n_n 512 rfl rfl).symm k) = ix2 r k :=
    funext fun ax => Fin.ext (by
      match ax with
      | ⟨0, _⟩ => exact pv_lhs0 _ _
      | ⟨1, _⟩ => exact (pv_lhs1 _ _).trans hk)
  have er : dot_S2048x512_S512x256_S2048x256_1_0_0_1_n_n.rhsIdx (ix2 r d) ((contrEquiv1 dot_S2048x512_S512x256_S2048x256_1_0_0_1_n_n 512 rfl rfl).symm k) = ix2 k d :=
    funext fun ax => Fin.ext (by
      match ax with
      | ⟨0, _⟩ => exact (pv_rhs0 _ _).trans hk
      | ⟨1, _⟩ => exact pv_rhs1 _ _)
  rw [el, er]

/-! ## The payloads at an index -/

/-- The scaled scores: at `(r, c)` the inner product of query row `r` and key row `c` (the key block is transposed
    inside the payload), times the scale. -/
theorem pay9_apply (x0 : FVec Ideal S2048x256 .bf16) (x1 : FVec Ideal S512x256 .bf16) (r : Fin 2048) (c : Fin 512) :
    k0_pay9 (F := Ideal) x0 x1 (ix2 r c) = (∑ d : Fin 256, x0 (ix2 r d) * x1 (ix2 c d)) * Ideal.ofBits .f32 0x3D800000#32 := by
  unfold k0_pay9
  refine congrArg (· * Ideal.ofBits .f32 0x3D800000#32) ?_
  refine (matmul_qk_apply _ _ r c).trans ?_
  refine Finset.sum_congr rfl fun d _ => ?_
  refine congrArg₂ (· * ·) (congrFun (shapeCast_self x0 _) (ix2 r d)) ?_
  refine (transpose_ix2_apply _ _ d c).trans ?_
  exact congrFun (shapeCast_self x1 _) (ix2 c d)

/-- The new numerator: at `(r, d)` the carried one plus the weights' row `r` against the value block's column `d`
    (the change of format of the weights is the identity on extended reals). -/
theorem pay1_apply (p : FVec Ideal S2048x512 .f32) (x2' : FVec Ideal S512x256 .bf16) (a33 : FVec Ideal S2048x256 .f32)
    (r : Fin 2048) (d : Fin 256) :
    k0_pay1 (F := Ideal) p x2' a33 (ix2 r d) = a33 (ix2 r d) + ∑ c : Fin 512, p (ix2 r c) * x2' (ix2 c d) := by
  unfold k0_pay1
  refine (congrFun (shapeCast_self _ _) (ix2 r d)).trans ?_
  refine congrArg (a33 (ix2 r d) + ·) ?_
  exact matmul_pv_apply _ x2' r d

/-! ## Pointwise exponential, and the row reductions, read at an index -/

/-- An exponential at an index is the exponential of the element. -/
theorem exp_apply {s : Shape} {φ : FTy} (a : FVec Ideal s φ) (i : s.Idx) : exp a i = Ideal.exp (a i) := rfl

/-- Row `r` of a `[2048, 512]` block with coordinate `c` inserted on the reduced axis is `(r, c)`. -/
theorem lift512 (r : Fin 2048) (c : Fin 512) : reduces_S2048x512_S2048.lift (ix1 r) c = ix2 r c :=
  funext fun ax => Fin.ext (by
    match ax with
    | ⟨0, _⟩ => rfl
    | ⟨1, _⟩ => rfl)

/-- Row `r` of a `[2048, 256]` block with coordinate `d` inserted on the reduced axis is `(r, d)`. -/
theorem lift256 (r : Fin 2048) (d : Fin 256) : reduces_S2048x256_S2048.lift (ix1 r) d = ix2 r d :=
  funext fun ax => Fin.ext (by
    match ax with
    | ⟨0, _⟩ => rfl
    | ⟨1, _⟩ => rfl)

/-- A row's maximum of a `[2048, 512]` block: the fold of `max` from `-∞`'s word over the row. -/
theorem rowMax512_apply (src : FVec Ideal S2048x512 .f32) (hφ : FKind.Formats .f32)
    (hacc : (0xFF800000#32 : BitVec 32) = FKind.maximumf.neutral .f32 hφ) (r : Fin 2048) :
    multiReduction (F := Ideal) .maximumf [1] S2048 src 0xFF800000#32 reduces_S2048x512_S2048 hφ hacc (ix1 r)
      = (Finset.univ : Finset (Fin 512)).fold max (Ideal.ofBits .f32 0xFF800000#32) fun c => src (ix2 r c) := by
  refine (Ideal.multiReduction_maximumf_single src 0xFF800000#32 reduces_S2048x512_S2048 hφ hacc (ix1 r)).trans ?_
  exact congrArg (fun f => Finset.fold max (Ideal.ofBits .f32 0xFF800000#32) f (Finset.univ : Finset (Fin 512)))
    (funext fun c => congrArg src (lift512 r c))

/-- A row's sum of a `[2048, 512]` block. -/
theorem rowSum512_apply (src : FVec Ideal S2048x512 .f32) (hφ : FKind.Formats .f32)
    (hacc : (0x00000000#32 : BitVec 32) = FKind.add.neutral .f32 hφ) (r : Fin 2048) :
    multiReduction (F := Ideal) .add [1] S2048 src 0x00000000#32 reduces_S2048x512_S2048 hφ hacc (ix1 r)
      = ∑ c : Fin 512, src (ix2 r c) := by
  refine (Ideal.multiReduction_add_single src 0x00000000#32 reduces_S2048x512_S2048 hφ hacc (ix1 r)).trans ?_
  exact Finset.sum_congr rfl fun c _ => congrArg src (lift512 r c)

/-- A row's sum of a `[2048, 256]` block. -/
theorem rowSum256_apply (src : FVec Ideal S2048x256 .f32) (hφ : FKind.Formats .f32)
    (hacc : (0x00000000#32 : BitVec 32) = FKind.add.neutral .f32 hφ) (r : Fin 2048) :
    multiReduction (F := Ideal) .add [1] S2048 src 0x00000000#32 reduces_S2048x256_S2048 hφ hacc (ix1 r)
      = ∑ d : Fin 256, src (ix2 r d) := by
  refine (Ideal.multiReduction_add_single src 0x00000000#32 reduces_S2048x256_S2048 hφ hacc (ix1 r)).trans ?_
  exact Finset.sum_congr rfl fun d _ => congrArg src (lift256 r d)

/-! ## The running maximum, the rescaling factor, the weights, the denominator -/

/-- The new running maximum of row `r`: the carried one against the row's maximum of the scaled scores. -/
theorem pay10_apply (x0 : FVec Ideal S2048x256 .bf16) (x1 : FVec Ideal S512x256 .bf16) (mv : FVec Ideal S2048x1 .f32)
    (r : Fin 2048) :
    k0_pay10 (F := Ideal) x0 x1 mv (ix2 r (0 : Fin 1))
      = max (mv (ix2 r (0 : Fin 1))) ((Finset.univ : Finset (Fin 512)).fold max (Ideal.ofBits .f32 0xFF800000#32)
          fun c => k0_pay9 (F := Ideal) x0 x1 (ix2 r c)) := by
  unfold k0_pay10
  refine (maximumf_apply _ _ _).trans ?_
  refine congrArg (max (mv (ix2 r (0 : Fin 1)))) ?_
  refine (shapeCast_a_a1_apply _ _ r 0).trans ?_
  exact rowMax512_apply _ _ _ r

/-- The rescaling factor of row `r`: the exponential of the old maximum minus the new one. -/
theorem pay11_apply (x0 : FVec Ideal S2048x256 .bf16) (x1 : FVec Ideal S512x256 .bf16) (mv mv' : FVec Ideal S2048x1 .f32)
    (r : Fin 2048) :
    k0_pay11 (F := Ideal) x0 x1 mv mv' (ix2 r (0 : Fin 1))
      = Ideal.exp (mv' (ix2 r (0 : Fin 1)) - k0_pay10 (F := Ideal) x0 x1 mv (ix2 r (0 : Fin 1))) := by
  unfold k0_pay11
  rfl

/-- The weights: at `(r, c)` the exponential of the scaled score minus row `r`'s new maximum. -/
theorem pay12_apply (x0 : FVec Ideal S2048x256 .bf16) (x1 : FVec Ideal S512x256 .bf16) (mv : FVec Ideal S2048x1 .f32)
    (r : Fin 2048) (c : Fin 512) :
    k0_pay12 (F := Ideal) x0 x1 mv (ix2 r c)
      = Ideal.exp (k0_pay9 (F := Ideal) x0 x1 (ix2 r c) - k0_pay10 (F := Ideal) x0 x1 mv (ix2 r (0 : Fin 1))) := by
  unfold k0_pay12
  refine (exp_apply _ _).trans ?_
  refine congrArg Ideal.exp ?_
  refine (subf_apply _ _ _).trans ?_
  refine congrArg (k0_pay9 (F := Ideal) x0 x1 (ix2 r c) - ·) ?_
  exact broadcastTo_a1_ab_apply _ _ r c

/-- The new denominator of row `r`: the carried one rescaled, plus the row's sum of the weights. -/
theorem pay13_apply (x0 : FVec Ideal S2048x256 .bf16) (x1 : FVec Ideal S512x256 .bf16) (mv mv' lv : FVec Ideal S2048x1 .f32)
    (r : Fin 2048) :
    k0_pay13 (F := Ideal) x0 x1 mv mv' lv (ix2 r (0 : Fin 1))
      = k0_pay11 (F := Ideal) x0 x1 mv mv' (ix2 r (0 : Fin 1)) * lv (ix2 r (0 : Fin 1))
        + ∑ c : Fin 512, k0_pay12 (F := Ideal) x0 x1 mv (ix2 r c) := by
  unfold k0_pay13
  refine (congrFun (shapeCast_self _ _) (ix2 r (0 : Fin 1))).trans ?_
  refine (addf_apply _ _ _).trans ?_
  refine congrArg₂ (· + ·) (mulf_apply _ _ _) ?_
  refine (shapeCast_a_a1_apply _ _ r 0).trans ?_
  exact rowSum512_apply _ _ _ r

/-- The value block passes through its shape cast unchanged. -/
theorem pay14_apply (x2 : FVec Ideal S512x256 .bf16) (j : S512x256.Idx) : k0_pay14 (F := Ideal) x2 j = x2 j := by
  unfold k0_pay14
  exact congrFun (shapeCast_self x2 _) j

/-- The stored running maximum passes through its shape cast unchanged. -/
theorem pay2_apply (v : FVec Ideal S2048x1 .f32) (j : S2048x1.Idx) : k0_pay2 (F := Ideal) v j = v j := by
  unfold k0_pay2
  exact congrFun (shapeCast_self v _) j

/-- The carried numerator rescaled: at `(r, d)` row `r`'s factor times the carried element. -/
theorem pay15_apply (x0 : FVec Ideal S2048x256 .bf16) (x1 : FVec Ideal S512x256 .bf16) (mv mv' : FVec Ideal S2048x1 .f32)
    (av : FVec Ideal S2048x256 .f32) (r : Fin 2048) (d : Fin 256) :
    k0_pay15 (F := Ideal) x0 x1 mv mv' av (ix2 r d)
      = k0_pay11 (F := Ideal) x0 x1 mv mv' (ix2 r (0 : Fin 1)) * av (ix2 r d) := by
  unfold k0_pay15
  refine (mulf_apply _ _ _).trans ?_
  refine congrArg (· * av (ix2 r d)) ?_
  exact broadcastTo_a1_ab_apply _ _ r d

/-! ## The initial values -/

/-- The initial running maximum is `-∞`'s word everywhere. -/
theorem pay6_apply (j : S2048x1.Idx) : k0_pay6 (F := Ideal) j = Ideal.ofBits .f32 0xFF800000#32 := by
  unfold k0_pay6
  exact congrFun (shapeCast_self _ _) j

/-- The initial denominator is the zero word everywhere. -/
theorem pay7_apply (j : S2048x1.Idx) : k0_pay7 (F := Ideal) j = Ideal.ofBits .f32 0x00000000#32 := by
  unfold k0_pay7
  exact congrFun (shapeCast_self _ _) j

/-- The initial numerator is the zero word everywhere. -/
theorem pay8_apply (j : S2048x256.Idx) : k0_pay8 (F := Ideal) j = Ideal.ofBits .f32 0x00000000#32 := by
  unfold k0_pay8
  exact congrFun (shapeCast_self _ _) j

/-! ## The epilogue: the quotient, its stored copy, and the rows' sums of squares -/

/-- The output: at `(r, d)` the numerator over row `r`'s denominator. -/
theorem pay3_apply (av : FVec Ideal S2048x256 .f32) (lv : FVec Ideal S2048x1 .f32) (r : Fin 2048) (d : Fin 256) :
    k0_pay3 (F := Ideal) av lv (ix2 r d) = Ideal.div (av (ix2 r d)) (lv (ix2 r (0 : Fin 1))) := by
  unfold k0_pay3
  refine (divf_apply _ _ _).trans ?_
  refine congrArg (Ideal.div (av (ix2 r d))) ?_
  exact broadcastTo_a1_ab_apply _ _ r d

/-- The stored copy of the output: the change of format is the identity on extended reals. -/
theorem pay5_apply (av : FVec Ideal S2048x256 .f32) (lv : FVec Ideal S2048x1 .f32) (j : S2048x256.Idx) :
    k0_pay5 (F := Ideal) av lv j = k0_pay3 (F := Ideal) av lv j := by
  unfold k0_pay5
  rfl

/-- Row `r`'s sum of the squared outputs. -/
theorem pay4_apply (av : FVec Ideal S2048x256 .f32) (lv : FVec Ideal S2048x1 .f32) (r : Fin 2048) :
    k0_pay4 (F := Ideal) av lv (ix2 r (0 : Fin 1))
      = ∑ d : Fin 256, k0_pay3 (F := Ideal) av lv (ix2 r d) * k0_pay3 (F := Ideal) av lv (ix2 r d) := by
  unfold k0_pay4
  refine (shapeCast_a_a1_apply _ _ r 0).trans ?_
  refine (rowSum256_apply _ _ _ r).trans ?_
  exact Finset.sum_congr rfl fun d _ => mulf_apply _ _ _

end Cert.KernelIdeal.PayIdx0
-- ==== Proof.KI.Step0.lean ====
/-
  One column tile's update of the attention kernel's running maximum, denominator and numerator, read at one index at
  the ideal instance, with the tile's scaled scores `s(r, c) = (∑ d, q(r, d) · k(c, d)) · scale` written out: the new
  maximum `m'(r) = max (m(r)) (max_c s(r, c))`; the new denominator `exp (m(r) − m'(r)) · l(r) + ∑ c, exp (s(r, c) − m'(r))`;
  the new numerator `exp (m(r) − m'(r)) · a(r, d) + ∑ c, exp (s(r, c) − m'(r)) · v(c, d)`. Each is the chain of the
  body's values read at an index.
-/
import proofs.«178816_j65481071400898_2_alg».proof.Proof.KI.PayIdx0
import proofs.«178816_j65481071400898_2_alg».proof.Proof.KI.R0Pieces

noncomputable section

namespace Cert.KernelIdeal.Step0

open Cert.KernelIdeal Cert.KernelIdeal.Gen Cert.KernelIdeal.Hand Cert.KernelIdeal.PayIdx0
open Idealize.ShloMosaic Idealize.ShloMosaic.ValueIdx

/-- The new running maximum at row `r` is the body's maximum value there: the stored copy is a shape cast to the same
    shape. -/
theorem stepM_eq_pay10 (x0 : FVec Ideal S2048x256 .bf16) (x1 : FVec Ideal S512x256 .bf16) (s0 : FVec Ideal S2048x1 .f32)
    (r : Fin 2048) :
    stepM (F := Ideal) x0 x1 s0 (ix2 r (0 : Fin 1)) = k0_pay10 (F := Ideal) x0 x1 s0 (ix2 r (0 : Fin 1)) := by
  unfold stepM
  exact pay2_apply _ _

/-- The new running maximum of row `r`: the old one against the row's maximum of the tile's scaled scores. -/
theorem stepM_apply (x0 : FVec Ideal S2048x256 .bf16) (x1 : FVec Ideal S512x256 .bf16) (s0 : FVec Ideal S2048x1 .f32)
    (r : Fin 2048) :
    stepM (F := Ideal) x0 x1 s0 (ix2 r (0 : Fin 1))
      = max (s0 (ix2 r (0 : Fin 1))) ((Finset.univ : Finset (Fin 512)).fold max (Ideal.ofBits .f32 0xFF800000#32)
          fun c => (∑ d : Fin 256, x0 (ix2 r d) * x1 (ix2 c d)) * Ideal.ofBits .f32 0x3D800000#32) := by
  refine (stepM_eq_pay10 x0 x1 s0 r).trans ?_
  refine (pay10_apply x0 x1 s0 r).trans ?_
  refine congrArg (max (s0 (ix2 r (0 : Fin 1)))) ?_
  exact congrArg (fun f => Finset.fold max (Ideal.ofBits .f32 0xFF800000#32) f (Finset.univ : Finset (Fin 512)))
    (funext fun c => pay9_apply x0 x1 r c)

/-- The new denominator of row `r`: the old one rescaled from the old maximum to the new, plus the row's sum of the
    exponentials of the scaled scores minus the new maximum. -/
theorem stepL_apply (x0 : FVec Ideal S2048x256 .bf16) (x1 : FVec Ideal S512x256 .bf16) (s0 s1 : FVec Ideal S2048x1 .f32)
    (r : Fin 2048) :
    stepL (F := Ideal) x0 x1 s0 s1 (ix2 r (0 : Fin 1))
      = Ideal.exp (s0 (ix2 r (0 : Fin 1)) - stepM (F := Ideal) x0 x1 s0 (ix2 r (0 : Fin 1))) * s1 (ix2 r (0 : Fin 1))
        + ∑ c : Fin 512, Ideal.exp ((∑ d : Fin 256, x0 (ix2 r d) * x1 (ix2 c d)) * Ideal.ofBits .f32 0x3D800000#32
            - stepM (F := Ideal) x0 x1 s0 (ix2 r (0 : Fin 1))) := by
  have hM := (stepM_eq_pay10 x0 x1 s0 r).symm
  unfold stepL
  refine (pay13_apply x0 x1 s0 s0 s1 r).trans ?_
  refine congrArg₂ (· + ·) ?_ ?_
  · refine congrArg (· * s1 (ix2 r (0 : Fin 1))) ?_
    refine (pay11_apply x0 x1 s0 s0 r).trans ?_
    exact congrArg (fun m => Ideal.exp (s0 (ix2 r (0 : Fin 1)) - m)) hM
  · refine Finset.sum_congr rfl fun c _ => ?_
    refine (pay12_apply x0 x1 s0 r c).trans ?_
    exact congrArg₂ (fun a m => Ideal.exp (a - m)) (pay9_apply x0 x1 r c) hM

/-- The new numerator at `(r, d)`: the old one rescaled from the old maximum to the new, plus the row's exponentials
    against the value block's column `d`. -/
theorem stepA_apply (x0 : FVec Ideal S2048x256 .bf16) (x1 x2 : FVec Ideal S512x256 .bf16) (s0 : FVec Ideal S2048x1 .f32)
    (s2 : FVec Ideal S2048x256 .f32) (r : Fin 2048) (d : Fin 256) :
    stepA (F := Ideal) x0 x1 x2 s0 s2 (ix2 r d)
      = Ideal.exp (s0 (ix2 r (0 : Fin 1)) - stepM (F := Ideal) x0 x1 s0 (ix2 r (0 : Fin 1))) * s2 (ix2 r d)
        + ∑ c : Fin 512, Ideal.exp ((∑ d' : Fin 256, x0 (ix2 r d') * x1 (ix2 c d')) * Ideal.ofBits .f32 0x3D800000#32
            - stepM (F := Ideal) x0 x1 s0 (ix2 r (0 : Fin 1))) * x2 (ix2 c d) := by
  have hM := (stepM_eq_pay10 x0 x1 s0 r).symm
  unfold stepA
  refine (pay1_apply _ _ _ r d).trans ?_
  refine congrArg₂ (· + ·) ?_ ?_
  · refine (pay15_apply x0 x1 s0 s0 s2 r d).trans ?_
    refine congrArg (· * s2 (ix2 r d)) ?_
    refine (pay11_apply x0 x1 s0 s0 r).trans ?_
    exact congrArg (fun m => Ideal.exp (s0 (ix2 r (0 : Fin 1)) - m)) hM
  · refine Finset.sum_congr rfl fun c _ => ?_
    refine congrArg₂ (· * ·) ?_ (pay14_apply x2 (ix2 c d))
    refine (pay12_apply x0 x1 s0 r c).trans ?_
    exact congrArg₂ (fun a m => Ideal.exp (a - m)) (pay9_apply x0 x1 r c) hM

end Cert.KernelIdeal.Step0
-- ==== Proof.Spec.lean ====
/-
  The specification. Single-head softmax attention of the state rows over themselves, the Gaussian (radial basis)
  kernel of the attended rows averaged along each row, and a two-layer perceptron applied to each average, stated
  index by index on the extended reals.

  With x : [8192, 256] the states, Wq, Wk : [256, 256] the two projections, W1 : [1, 64], b1 : [64], W2 : [64, 1],
  b2 : [1] the perceptron's weights, and r, c over the 8192 rows, d, e over the 256 features, u over the 64 hidden units:

    q[r,d] = Σ_e x[r,e] · Wq[e,d]                      k[r,d] = Σ_e x[r,e] · Wk[e,d]
    s[r,c] = (Σ_d q[r,d] · k[c,d]) · 2⁻⁴               M[r]   = max (-∞) (max_c s[r,c]), the inner maximum started from -∞
    p[r,c] = exp (s[r,c] - M[r])                        Z[r]   = 0 + Σ_c p[r,c]
    a[r,d] = Σ_c (p[r,c] / Z[r]) · x[c,d]
    n[r]   = 0 + Σ_d a[r,d] · a[r,d]                    D[r,c] = max ((n[r] + n[c]) - 2 · Σ_d a[r,d] · a[c,d]) 0
    κ[r,c] = exp (-1 · D[r,c])                          f[r]   = (0 + Σ_c κ[r,c]) / 8192
    h[r,u] = max ((Σ_{j<1} f[r] · W1[j,u]) + b1[u]) 0   out[r] = (Σ_u h[r,u] · W2[u,0]) + b2[0]

  Every operation is the extended reals' own (the quotient is `Ideal.div`, the exponential `Ideal.exp`), and every
  constant is kept as the 32-bit pattern that denotes it: 0x3D800000 is 2⁻⁴, 0xFF800000 is -∞, 0x00000000 is 0,
  0x40000000 is 2, 0xBF800000 is -1, 0x46000000 is 8192. The sums and their association are written in the order above,
  a sum that starts from a zero as `0 + Σ`, so that a program computing the same expression in the same order meets
  this text term by term.
-/
import Idealize.ShloMosaic.PureOps.Ideal
import Idealize.ShloMosaic.Lib.ValueIdx

noncomputable section

open scoped BigOperators

namespace Cert.Spec

open Idealize.ShloMosaic Idealize.ShloMosaic.ValueIdx

/-! ## The shapes, with literal extents -/

abbrev S8192x256 : Shape := ⟨2, ![8192, 256]⟩
abbrev S256x256 : Shape := ⟨2, ![256, 256]⟩
abbrev S1x64 : Shape := ⟨2, ![1, 64]⟩
abbrev S64 : Shape := ⟨1, ![64]⟩
abbrev S64x1 : Shape := ⟨2, ![64, 1]⟩
abbrev S1 : Shape := ⟨1, ![1]⟩
abbrev S8192 : Shape := ⟨1, ![8192]⟩

variable (x : (⟨S8192x256, .f32⟩ : BufTy).Contents (Elt Ideal))
variable (Wq Wk : (⟨S256x256, .f32⟩ : BufTy).Contents (Elt Ideal))
variable (W1 : (⟨S1x64, .f32⟩ : BufTy).Contents (Elt Ideal))
variable (b1 : (⟨S64, .f32⟩ : BufTy).Contents (Elt Ideal))
variable (W2 : (⟨S64x1, .f32⟩ : BufTy).Contents (Elt Ideal))
variable (b2 : (⟨S1, .f32⟩ : BufTy).Contents (Elt Ideal))

/-! ## Attention -/

/-- The queries: q[r,d] = Σ_e x[r,e] · Wq[e,d]. -/
def projQ (r : Fin 8192) (d : Fin 256) : EReal :=
  ∑ e : Fin 256, x (ix2 r e) * Wq (ix2 e d)

/-- The keys: k[r,d] = Σ_e x[r,e] · Wk[e,d]. -/
def projK (r : Fin 8192) (d : Fin 256) : EReal :=
  ∑ e : Fin 256, x (ix2 r e) * Wk (ix2 e d)

/-- The scaled scores: s[r,c] = (Σ_d q[r,d] · k[c,d]) · 2⁻⁴. -/
def score (r c : Fin 8192) : EReal :=
  (∑ d : Fin 256, projQ x Wq r d * projK x Wk c d) * Ideal.ofBits .f32 0x3D800000#32

/-- A row's largest score: the maximum over the row started from -∞, and once more against -∞. -/
def rowMax (r : Fin 8192) : EReal :=
  max (Ideal.ofBits .f32 0xFF800000#32)
    ((Finset.univ : Finset (Fin 8192)).fold max (Ideal.ofBits .f32 0xFF800000#32) fun c => score x Wq Wk r c)

/-- The shifted exponentials: p[r,c] = exp (s[r,c] - M[r]). -/
def pexp (r c : Fin 8192) : EReal :=
  Ideal.exp (score x Wq Wk r c - rowMax x Wq Wk r)

/-- A row's normalizer: Z[r] = 0 + Σ_c p[r,c]. -/
def denom (r : Fin 8192) : EReal :=
  Ideal.ofBits .f32 0x00000000#32 + ∑ c : Fin 8192, pexp x Wq Wk r c

/-- The attended states: a[r,d] = Σ_c (p[r,c] / Z[r]) · x[c,d]. -/
def attn (r : Fin 8192) (d : Fin 256) : EReal :=
  ∑ c : Fin 8192, Ideal.div (pexp x Wq Wk r c) (denom x Wq Wk r) * x (ix2 c d)

/-! ## The Gaussian kernel of the attended rows -/

/-- A row's squared norm: n[r] = 0 + Σ_d a[r,d] · a[r,d]. -/
def sqn (r : Fin 8192) : EReal :=
  Ideal.ofBits .f32 0x00000000#32 + ∑ d : Fin 256, attn x Wq Wk r d * attn x Wq Wk r d

/-- The squared distances, cut off below at zero: D[r,c] = max ((n[r] + n[c]) - 2 · Σ_d a[r,d] · a[c,d]) 0. -/
def dist2 (r c : Fin 8192) : EReal :=
  max ((sqn x Wq Wk r + sqn x Wq Wk c)
      - Ideal.ofBits .f32 0x40000000#32 * ∑ d : Fin 256, attn x Wq Wk r d * attn x Wq Wk c d)
    (Ideal.ofBits .f32 0x00000000#32)

/-- The kernel: κ[r,c] = exp (-1 · D[r,c]). -/
def rbf (r c : Fin 8192) : EReal :=
  Ideal.exp (Ideal.ofBits .f32 0xBF800000#32 * dist2 x Wq Wk r c)

/-- The kernel's row mean: f[r] = (0 + Σ_c κ[r,c]) / 8192. -/
def feat (r : Fin 8192) : EReal :=
  Ideal.div (Ideal.ofBits .f32 0x00000000#32 + ∑ c : Fin 8192, rbf x Wq Wk r c) (Ideal.ofBits .f32 0x46000000#32)

/-! ## The perceptron -/

/-- The hidden layer: h[r,u] = max ((Σ_{j<1} f[r] · W1[j,u]) + b1[u]) 0, the product with the one-row matrix W1
    a sum over its single row. -/
def hidden (r : Fin 8192) (u : Fin 64) : EReal :=
  max ((∑ j : Fin 1, feat x Wq Wk r * W1 (ix2 j u)) + b1 (ix1 u)) (Ideal.ofBits .f32 0x00000000#32)

/-- The output: out[r] = (Σ_u h[r,u] · W2[u,0]) + b2[0]. -/
def out (r : Fin 8192) : EReal :=
  (∑ u : Fin 64, hidden x Wq Wk W1 b1 r u * W2 (ix2 u (0 : Fin 1))) + b2 (ix1 (0 : Fin 1))

/-- The result array, one entry per state row. -/
def G : (⟨S8192, .f32⟩ : BufTy).Contents (Elt Ideal) :=
  fun i => out x Wq Wk W1 b1 W2 b2 (i 0)

/-- The result at a row given by its coordinate. -/
theorem G_ix1 (r : Fin 8192) : G x Wq Wk W1 b1 W2 b2 (ix1 r) = out x Wq Wk W1 b1 W2 b2 r := rfl

end Cert.Spec

end
-- ==== Proof.KI.HostVals.lean ====
/-
  What the host operations around the two kernel regions leave in the buffers, read at an index, over the extended
  reals.

  Before the first region nine host operations run: the input x is rounded to the narrow format (the identity over
  the extended reals) three times, the two weight matrices likewise, and two matrix products are taken and rounded
  again. So the queries' buffer holds q[r,d] = Σ_e x[r,e] · Wq[e,d], the keys' buffer holds
  k[r,d] = Σ_e x[r,e] · Wk[e,d], and the values' buffer holds x itself. Between the regions two reshapes put a
  vector of 64 and a vector of 1 into shapes [1,64] and [1,1]; after the second region a reshape reads the
  [8192,1] result as a vector of 8192. A reshape keeps the row-major position, so each is the same entry at the
  matching index. Every buffer a stretch does not write keeps its contents.
-/
import proofs.«178816_j65481071400898_2_alg».proof.Proof.Gen.KernelIdeal.Launch
import proofs.«178816_j65481071400898_2_alg».proof.Proof.Gen.KernelIdeal.Regions
import proofs.«178816_j65481071400898_2_alg».proof.Proof.Spec
import Idealize.ShloMosaic.Lib.StableHlo.Run
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open scoped BigOperators

namespace Cert.KernelIdeal.HostVals

open Cert.KernelIdeal Cert.KernelIdeal.Gen Idealize.ShloMosaic Idealize.ShloMosaic.TcCoe Idealize.SL.Sem Idealize.ShloMosaic.StableHlo
open Idealize.ShloMosaic.ValueIdx

/-! ## A matrix product read at an index -/

/-- The left operand's row coordinate at output index i is i's row. -/
theorem lhs_dot_0 (i : S8192x256.Idx) (q : dot_S8192x256_S256x256_S8192x256_1_0_0_1_n_n.contr.Idx) :
    (dot_S8192x256_S256x256_S8192x256_1_0_0_1_n_n.lhsIdx i q 0).val = (i 0).val := by
  unfold DotDims.lhsIdx
  rw [dif_neg (show ¬(0 : Fin S8192x256.rank) ∈ dot_S8192x256_S256x256_S8192x256_1_0_0_1_n_n.lhsBatch by decide), dif_pos (show (0 : Fin S8192x256.rank) ∈ dot_S8192x256_S256x256_S8192x256_1_0_0_1_n_n.lhsNonContracting by decide)]
  rfl
/-- The left operand's column coordinate is the contraction index. -/
theorem lhs_dot_1 (i : S8192x256.Idx) (q : dot_S8192x256_S256x256_S8192x256_1_0_0_1_n_n.contr.Idx) :
    (dot_S8192x256_S256x256_S8192x256_1_0_0_1_n_n.lhsIdx i q 1).val = (q ⟨0, by decide⟩).val :=
  dot_S8192x256_S256x256_S8192x256_1_0_0_1_n_n.lhsIdx_val_of_single rfl i q
/-- The right operand's row coordinate is the contraction index. -/
theorem rhs_dot_0 (i : S8192x256.Idx) (q : dot_S8192x256_S256x256_S8192x256_1_0_0_1_n_n.contr.Idx) :
    (dot_S8192x256_S256x256_S8192x256_1_0_0_1_n_n.rhsIdx i q 0).val = (q ⟨0, by decide⟩).val :=
  dot_S8192x256_S256x256_S8192x256_1_0_0_1_n_n.rhsIdx_val_of_single rfl i q
/-- The right operand's column coordinate at output index i is i's column. -/
theorem rhs_dot_1 (i : S8192x256.Idx) (q : dot_S8192x256_S256x256_S8192x256_1_0_0_1_n_n.contr.Idx) :
    (dot_S8192x256_S256x256_S8192x256_1_0_0_1_n_n.rhsIdx i q 1).val = (i 1).val := by
  unfold DotDims.rhsIdx
  rw [dif_neg (show ¬(1 : Fin S256x256.rank) ∈ dot_S8192x256_S256x256_S8192x256_1_0_0_1_n_n.rhsBatch by decide), dif_pos (show (1 : Fin S256x256.rank) ∈ dot_S8192x256_S256x256_S8192x256_1_0_0_1_n_n.rhsNonContracting by decide)]
  rfl

/-- The product of an [8192,256] matrix and a [256,256] matrix, read at (R, d) over the extended reals, is
    Σ_e x0[R,e] · x1[e,d]. -/
theorem dot_apply (x0 : S8192x256.Idx → EReal) (x1 : S256x256.Idx → EReal) (R : Fin 8192) (d : Fin 256) :
    Host.dotGeneral (F := Ideal) (φ₁ := .bf16) (φ₂ := .bf16) dot_S8192x256_S256x256_S8192x256_1_0_0_1_n_n none x0 x1 (ix2 R d) = ∑ e : Fin 256, x0 (ix2 R e) * x1 (ix2 e d) := by
  simp only [Host.dotGeneral]
  rw [Ideal.dotGeneral_apply, ← Equiv.sum_comp (ValueIdx.contrEquiv1 dot_S8192x256_S256x256_S8192x256_1_0_0_1_n_n 256 rfl rfl).symm]
  refine Finset.sum_congr rfl fun k _ => ?_
  have hk := ValueIdx.contrEquiv1_symm_val dot_S8192x256_S256x256_S8192x256_1_0_0_1_n_n 256 rfl rfl k
  have el : dot_S8192x256_S256x256_S8192x256_1_0_0_1_n_n.lhsIdx (ix2 R d) ((ValueIdx.contrEquiv1 dot_S8192x256_S256x256_S8192x256_1_0_0_1_n_n 256 rfl rfl).symm k) = ix2 R k := funext fun a => Fin.ext (by
    match a with
    | ⟨0, _⟩ => exact lhs_dot_0 _ _
    | ⟨1, _⟩ => exact (lhs_dot_1 _ _).trans hk)
  have er : dot_S8192x256_S256x256_S8192x256_1_0_0_1_n_n.rhsIdx (ix2 R d) ((ValueIdx.contrEquiv1 dot_S8192x256_S256x256_S8192x256_1_0_0_1_n_n 256 rfl rfl).symm k) = ix2 k d := funext fun a => Fin.ext (by
    match a with
    | ⟨0, _⟩ => exact (rhs_dot_0 _ _).trans hk
    | ⟨1, _⟩ => exact rhs_dot_1 _ _)
  rw [el, er]

/-! ## Before the first region: the queries, the keys, the values -/

/-- After the first stretch the queries' buffer holds, at (R, d), Σ_e x[R,e] · Wq[e,d]: the roundings are the
    identity over the extended reals and the product is the sum. -/
theorem after0_q (W : Valuation τ sig (Elt Ideal)) (R : Fin 8192) (d : Fin 256) :
    (StableHlo.after (hostOps0 (F := Ideal)) W (Proc.devRef .tc main_v3) : S8192x256.Idx → EReal) (ix2 R d)
      = Cert.Spec.projQ (W (Proc.devRef .tc main_arg0)) (W (Proc.devRef .tc main_arg1)) R d := by
  dsimp only [hostOps0]
  after_results
  show Host.dotGeneral (F := Ideal) (φ₁ := .bf16) (φ₂ := .bf16) dot_S8192x256_S256x256_S8192x256_1_0_0_1_n_n none
      (W (Proc.devRef .tc main_arg0) : S8192x256.Idx → EReal) (W (Proc.devRef .tc main_arg1) : S256x256.Idx → EReal) (ix2 R d) = _
  rw [dot_apply]
  rfl

/-- After the first stretch the keys' buffer holds, at (R, d), Σ_e x[R,e] · Wk[e,d]. -/
theorem after0_k (W : Valuation τ sig (Elt Ideal)) (R : Fin 8192) (d : Fin 256) :
    (StableHlo.after (hostOps0 (F := Ideal)) W (Proc.devRef .tc main_v7) : S8192x256.Idx → EReal) (ix2 R d)
      = Cert.Spec.projK (W (Proc.devRef .tc main_arg0)) (W (Proc.devRef .tc main_arg2)) R d := by
  dsimp only [hostOps0]
  after_results
  show Host.dotGeneral (F := Ideal) (φ₁ := .bf16) (φ₂ := .bf16) dot_S8192x256_S256x256_S8192x256_1_0_0_1_n_n none
      (W (Proc.devRef .tc main_arg0) : S8192x256.Idx → EReal) (W (Proc.devRef .tc main_arg2) : S256x256.Idx → EReal) (ix2 R d) = _
  rw [dot_apply]
  rfl

/-- After the first stretch the values' buffer holds x itself: the rounding is the identity over the extended
    reals. -/
theorem after0_v (W : Valuation τ sig (Elt Ideal)) (i : S8192x256.Idx) :
    (StableHlo.after (hostOps0 (F := Ideal)) W (Proc.devRef .tc main_v8) : S8192x256.Idx → EReal) i
      = (W (Proc.devRef .tc main_arg0) : S8192x256.Idx → EReal) i := by
  dsimp only [hostOps0]
  after_results
  rfl

/-- A buffer the first stretch does not write keeps its contents. -/
theorem after0_keeps (W : Valuation τ sig (Elt Ideal)) (b : Ref sig .tc) (hb : b ∉ hostOps0_W) :
    StableHlo.after (hostOps0 (F := Ideal)) W (Proc.devRef .tc b) = W (Proc.devRef .tc b) :=
  StableHlo.after_of_writes_sub hostOps0 _ hostOps0_writes hb

/-! ## Between the regions: the two reshapes -/

/-- After the second stretch the [1,64] buffer holds, at (0, u), entry u of the vector of 64 it reshapes. -/
theorem after1_b1 (W : Valuation τ sig (Elt Ideal)) (u : Fin 64) :
    (StableHlo.after (hostOps1 (F := Ideal)) W (Proc.devRef .tc main_v10) : S1x64.Idx → EReal) (ix2 0 u)
      = (W (Proc.devRef .tc main_arg4) : S64.Idx → EReal) (ix1 u) := by
  dsimp only [hostOps1]
  after_results
  exact shapeCast_apply (W (Proc.devRef .tc main_arg4) : S64.Idx → EReal) shapeCasts_S64_S1x64 (ix2 0 u) (ix1 u)
    (by show (S64.rowMajor (ix1 u)).val = (S1x64.rowMajor (ix2 0 u)).val
        rewrite [Shape.rowMajor_val_two, Shape.rowMajor_val_one]; show u.val = 0 * 64 + u.val; omega)

/-- After the second stretch the [1,1] buffer holds, at (0, 0), the one entry of the vector of 1 it reshapes. -/
theorem after1_b2 (W : Valuation τ sig (Elt Ideal)) :
    (StableHlo.after (hostOps1 (F := Ideal)) W (Proc.devRef .tc main_v11) : S1x1.Idx → EReal) (ix2 0 0)
      = (W (Proc.devRef .tc main_arg6) : S1.Idx → EReal) (ix1 0) := by
  dsimp only [hostOps1]
  after_results
  exact shapeCast_apply (W (Proc.devRef .tc main_arg6) : S1.Idx → EReal) shapeCasts_S1_S1x1 (ix2 0 0) (ix1 0)
    (by show (S1.rowMajor (ix1 0)).val = (S1x1.rowMajor (ix2 0 0)).val
        rewrite [Shape.rowMajor_val_two, Shape.rowMajor_val_one]; rfl)

/-- A buffer the second stretch does not write keeps its contents. -/
theorem after1_keeps (W : Valuation τ sig (Elt Ideal)) (b : Ref sig .tc) (hb : b ∉ hostOps1_W) :
    StableHlo.after (hostOps1 (F := Ideal)) W (Proc.devRef .tc b) = W (Proc.devRef .tc b) :=
  StableHlo.after_of_writes_sub hostOps1 _ hostOps1_writes hb

/-! ## After the second region: the result as a vector -/

/-- After the third stretch the vector of 8192 holds, at R, entry (R, 0) of the [8192,1] buffer it reshapes. -/
theorem after2_out (W : Valuation τ sig (Elt Ideal)) (R : Fin 8192) :
    (StableHlo.after (hostOps2 (F := Ideal)) W (Proc.devRef .tc main_v13) : S8192.Idx → EReal) (ix1 R)
      = (W (Proc.devRef .tc main_v12) : S8192x1.Idx → EReal) (ix2 R 0) := by
  dsimp only [hostOps2]
  after_results
  exact shapeCast_apply (W (Proc.devRef .tc main_v12) : S8192x1.Idx → EReal) shapeCasts_S8192x1_S8192 (ix1 R) (ix2 R 0)
    (by show (S8192x1.rowMajor (ix2 R 0)).val = (S8192.rowMajor (ix1 R)).val
        rewrite [Shape.rowMajor_val_two, Shape.rowMajor_val_one]; show R.val * 1 + 0 = R.val; omega)

/-- A buffer the third stretch does not write keeps its contents. -/
theorem after2_keeps (W : Valuation τ sig (Elt Ideal)) (b : Ref sig .tc) (hb : b ∉ hostOps2_W) :
    StableHlo.after (hostOps2 (F := Ideal)) W (Proc.devRef .tc b) = W (Proc.devRef .tc b) :=
  StableHlo.after_of_writes_sub hostOps2 _ hostOps2_writes hb

end Cert.KernelIdeal.HostVals
-- ==== Proof.LibOnlineSoftmax.lean ====
/-
  The tile-by-tile ("online") softmax-weighted sum equals the plain softmax-weighted sum,
  over the extended reals, for finite (real) inputs.

  A row of scores is cut into T tiles of columns; tile j holds the scores s j c and
  the values v j c (c ranges over a finite nonempty type of columns). The online computation carries a
  running maximum m, a running denominator l and a running numerator a, starting from
  m = ⊥ (minus infinity), l = 0, a = 0, and at tile j replaces them by

      m' = max m (max over c of s j c),
      l' = exp (m - m') * l + ∑ c, exp (s j c - m'),
      a' = exp (m - m') * a + ∑ c, exp (s j c - m') * v j c,

  where exp is the extended exponential (exp ⊥ = 0, exp ⊤ = ⊤, and the real exponential on a
  real). The plain computation takes the maximum M of all the scores, the weights
  exp (s j c - M) / Z with Z = ∑ j c, exp (s j c - M), and the sum of weight times value.

  The results: after all T tiles (T ≥ 1) the running maximum is M, the running denominator is
  Z (the coercion of a positive real), the running numerator is ∑ j c, exp (s j c - M) * v j c,
  and the quotient numerator / denominator equals the plain softmax-weighted sum.

  The first tile is the only place an infinity appears (exp (⊥ - m') = exp ⊥ = 0 kills the
  initial denominator and numerator); from then on every quantity is the coercion of a real, and
  the step is exp (M - M') * exp (x - M) = exp (x - M') under a finite sum.
-/
import Mathlib
import Idealize.ShloMosaic.PureOps.Ideal

open scoped BigOperators
open Idealize.ShloMosaic

noncomputable section

namespace OnlineSoftmax

/-! ### Coercions of reals into the extended reals -/

/-- The coercion of a finite sum of reals is the sum of the coercions. -/
theorem coe_sum {κ : Type*} (t : Finset κ) (f : κ → ℝ) :
    ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- The coercion of the larger of two reals is the larger of the coercions. -/
theorem coe_max (x y : ℝ) : ((max x y : ℝ) : EReal) = max (x : EReal) (y : EReal) :=
  EReal.coe_strictMono.monotone.map_max

/-- The extended exponential of a difference of two reals is the real exponential of the
    difference. -/
theorem exp_coe_sub (x y : ℝ) :
    Ideal.exp ((x : EReal) - (y : EReal)) = ((Real.exp (x - y) : ℝ) : EReal) := by
  rw [← EReal.coe_sub, Ideal.exp_coe]

/-- The extended quotient of two reals with a nonzero denominator is the real quotient. -/
theorem div_coe (x y : ℝ) (hy : y ≠ 0) :
    Ideal.div (x : EReal) (y : EReal) = ((x / y : ℝ) : EReal) := by
  rw [Ideal.div, if_neg (EReal.coe_ne_zero.mpr hy), ← EReal.coe_inv, ← EReal.coe_mul,
    div_eq_mul_inv]

/-- A fold of max from ⊥ over a finite set is the supremum over that set. -/
theorem fold_max_bot {κ : Type*} (t : Finset κ) (f : κ → EReal) :
    t.fold max ⊥ f = t.sup f := rfl

variable {ι : Type*} [Fintype ι]

/-! ### One tile -/

/-- The maximum of one tile of scores in the extended reals: the supremum over the columns,
    which is ⊥ folded with max over the columns. -/
def tileMax (s : ι → ℝ) : EReal := Finset.univ.sup fun c => (s c : EReal)

/-- The maximum of a nonempty tile of real scores is (the coercion of) a real: one of the
    scores. -/
theorem tileMax_eq_coe [Nonempty ι] (s : ι → ℝ) : ∃ r : ℝ, tileMax s = (r : EReal) := by
  obtain ⟨c, -, hc⟩ :=
    Finset.exists_mem_eq_sup Finset.univ Finset.univ_nonempty (fun c => (s c : EReal))
  exact ⟨s c, hc⟩

/-- One step of the online computation: from the state (m, l, a) and a tile of scores s and
    values v, the new maximum m' = max m (tile maximum), the rescaled denominator
    exp (m - m') * l + ∑ c, exp (s c - m') and the rescaled numerator
    exp (m - m') * a + ∑ c, exp (s c - m') * v c. -/
def step (st : EReal × EReal × EReal) (s v : ι → ℝ) : EReal × EReal × EReal :=
  (max st.1 (tileMax s),
   Ideal.exp (st.1 - max st.1 (tileMax s)) * st.2.1
     + ∑ c, Ideal.exp ((s c : EReal) - max st.1 (tileMax s)),
   Ideal.exp (st.1 - max st.1 (tileMax s)) * st.2.2
     + ∑ c, Ideal.exp ((s c : EReal) - max st.1 (tileMax s)) * (v c : EReal))

/-- The first step, from (⊥, 0, 0): exp (⊥ - r) = exp ⊥ = 0 removes the initial denominator and
    numerator, and the state becomes real: the tile maximum r, ∑ c, exp (s c - r) and
    ∑ c, exp (s c - r) * v c. -/
theorem step_bot (s v : ι → ℝ) (r : ℝ) (hr : tileMax s = (r : EReal)) :
    step (⊥, 0, 0) s v
      = ((r : EReal), ((∑ c, Real.exp (s c - r) : ℝ) : EReal),
          ((∑ c, Real.exp (s c - r) * v c : ℝ) : EReal)) := by
  simp only [step, hr, bot_sup_eq, max_bot_left, EReal.bot_sub, Ideal.exp_bot, zero_mul, zero_add,
    exp_coe_sub, ← EReal.coe_mul, ← coe_sum]

/-- A later step, from a real state (M, L, A) and a tile whose maximum is the real r: the state
    stays real, with maximum max M r, denominator exp (M - max M r) * L + ∑ c, exp (s c - max M r)
    and numerator exp (M - max M r) * A + ∑ c, exp (s c - max M r) * v c. -/
theorem step_coe (M L A : ℝ) (s v : ι → ℝ) (r : ℝ) (hr : tileMax s = (r : EReal)) :
    step ((M : EReal), (L : EReal), (A : EReal)) s v
      = (((max M r : ℝ) : EReal),
          ((Real.exp (M - max M r) * L + ∑ c, Real.exp (s c - max M r) : ℝ) : EReal),
          ((Real.exp (M - max M r) * A + ∑ c, Real.exp (s c - max M r) * v c : ℝ) : EReal)) := by
  simp only [step, hr, ← coe_max, exp_coe_sub, ← EReal.coe_mul, ← coe_sum, ← EReal.coe_add]

/-! ### The tiles before a given one -/

variable {T : ℕ}

/-- The tiles of index below j. -/
def before (T j : ℕ) : Finset (Fin T) := Finset.univ.filter fun i => i.val < j

/-- No tile has index below 0. -/
theorem before_zero : before T 0 = ∅ := by simp [before]

/-- The tiles of index below j + 1 are tile j together with the tiles of index below j. -/
theorem before_succ (j : ℕ) (h : j < T) : before T (j + 1) = insert ⟨j, h⟩ (before T j) := by
  ext i
  simp only [before, Finset.mem_filter, Finset.mem_univ, true_and, Finset.mem_insert, Fin.ext_iff]
  omega

/-- Tile j is not among the tiles of index below j. -/
theorem not_mem_before (j : ℕ) (h : j < T) : (⟨j, h⟩ : Fin T) ∉ before T j := by
  simp [before]

/-- Every one of the T tiles has index below T. -/
theorem before_self : before T T = Finset.univ := by
  ext i; simp [before]

/-! ### The online computation -/

/-- The state (maximum, denominator, numerator) of the online computation after the first j
    tiles: (⊥, 0, 0) before any tile, then one step per tile. -/
def run (s v : Fin T → ι → ℝ) : (j : ℕ) → j ≤ T → EReal × EReal × EReal
  | 0, _ => (⊥, 0, 0)
  | j + 1, h => step (run s v j (Nat.le_of_succ_le h)) (s ⟨j, h⟩) (v ⟨j, h⟩)

/-- Before any tile the state is (⊥, 0, 0). -/
theorem run_zero (s v : Fin T → ι → ℝ) (h : 0 ≤ T) : run s v 0 h = (⊥, 0, 0) := rfl

/-- The state after j + 1 tiles is one step, on tile j, from the state after j tiles. -/
theorem run_succ (s v : Fin T → ι → ℝ) (j : ℕ) (h : j + 1 ≤ T) :
    run s v (j + 1) h = step (run s v j (Nat.le_of_succ_le h)) (s ⟨j, h⟩) (v ⟨j, h⟩) := rfl

/-- The running maximum after j tiles is the supremum of the maxima of those tiles. -/
theorem run_fst (s v : Fin T → ι → ℝ) (j : ℕ) (h : j ≤ T) :
    (run s v j h).1 = (before T j).sup fun i => tileMax (s i) := by
  classical
  induction j with
  | zero => rw [before_zero, Finset.sup_empty]; rfl
  | succ j ih =>
    rw [before_succ j h, Finset.sup_insert, ← ih (Nat.le_of_succ_le h), sup_comm]
    rfl

/-- The invariant. After j + 1 tiles the state is real: the maximum is a real M, the denominator
    is the sum over the tiles so far of exp (s i c - M), and the numerator is the sum over the tiles
    so far of exp (s i c - M) * v i c. -/
theorem run_closed [Nonempty ι] (s v : Fin T → ι → ℝ) (j : ℕ) (h : j + 1 ≤ T) :
    ∃ M : ℝ, run s v (j + 1) h
      = ((M : EReal),
          ((∑ i ∈ before T (j + 1), ∑ c, Real.exp (s i c - M) : ℝ) : EReal),
          ((∑ i ∈ before T (j + 1), ∑ c, Real.exp (s i c - M) * v i c : ℝ) : EReal)) := by
  classical
  induction j with
  | zero =>
    obtain ⟨r, hr⟩ := tileMax_eq_coe (s ⟨0, h⟩)
    refine ⟨r, ?_⟩
    rw [run_succ, run_zero, step_bot _ _ r hr, before_succ 0 h, before_zero]
    simp
  | succ j ih =>
    obtain ⟨M, hM⟩ := ih (Nat.le_of_succ_le h)
    obtain ⟨r, hr⟩ := tileMax_eq_coe (s ⟨j + 1, h⟩)
    refine ⟨max M r, ?_⟩
    have hx : ∀ x : ℝ, M - max M r + (x - M) = x - max M r := fun x => by ring
    rw [run_succ, hM, step_coe _ _ _ _ _ r hr, before_succ (j + 1) h,
      Finset.sum_insert (not_mem_before _ _), Finset.sum_insert (not_mem_before _ _)]
    congr 3
    · rw [Finset.mul_sum, add_comm]
      congr 1
      refine Finset.sum_congr rfl fun i _ => ?_
      rw [Finset.mul_sum]
      refine Finset.sum_congr rfl fun c _ => ?_
      rw [← Real.exp_add, hx]
    · rw [Finset.mul_sum, add_comm]
      congr 1
      refine Finset.sum_congr rfl fun i _ => ?_
      rw [Finset.mul_sum]
      refine Finset.sum_congr rfl fun c _ => ?_
      rw [← mul_assoc, ← Real.exp_add, hx]

/-! ### The plain computation, and the equality -/

/-- The maximum of all the scores in the extended reals: the supremum over all tiles and
    columns. -/
def globalMax (s : Fin T → ι → ℝ) : EReal :=
  Finset.univ.sup fun p : Fin T × ι => (s p.1 p.2 : EReal)

/-- The maximum of all the scores is the supremum over the tiles of the tile maxima. -/
theorem globalMax_eq_sup_tileMax (s : Fin T → ι → ℝ) :
    globalMax s = Finset.univ.sup fun j => tileMax (s j) := by
  unfold globalMax tileMax
  rw [← Finset.univ_product_univ, Finset.sup_product_left]

/-- After all the tiles the running maximum is the maximum of all the scores. -/
theorem run_final_fst (s v : Fin T → ι → ℝ) :
    (run s v T le_rfl).1 = globalMax s := by
  rw [run_fst, before_self, globalMax_eq_sup_tileMax]

/-- After all T ≥ 1 tiles the state is real and in closed form: there are reals M and L with
    0 < L such that the maximum of all the scores is M, the running maximum is M, the running
    denominator is L = ∑ j c, exp (s j c - M), and the running numerator is
    ∑ j c, exp (s j c - M) * v j c. -/
theorem run_final_real [NeZero T] [Nonempty ι] (s v : Fin T → ι → ℝ) :
    ∃ M L : ℝ, globalMax s = (M : EReal) ∧ 0 < L ∧ L = ∑ j, ∑ c, Real.exp (s j c - M) ∧
      run s v T le_rfl
        = ((M : EReal), (L : EReal), ((∑ j, ∑ c, Real.exp (s j c - M) * v j c : ℝ) : EReal)) := by
  obtain ⟨n, rfl⟩ := Nat.exists_eq_succ_of_ne_zero (NeZero.ne T)
  obtain ⟨M, hM⟩ := run_closed s v n le_rfl
  rw [before_self] at hM
  refine ⟨M, _, ?_, ?_, rfl, hM⟩
  · rw [← run_final_fst s v, hM]
  · exact Finset.sum_pos (fun j _ => Finset.sum_pos (fun c _ => Real.exp_pos _)
      Finset.univ_nonempty) Finset.univ_nonempty

/-- After all T ≥ 1 tiles the running denominator is the coercion of a positive real; in
    particular it is neither zero nor infinite. -/
theorem run_final_denominator_pos [NeZero T] [Nonempty ι] (s v : Fin T → ι → ℝ) :
    ∃ L : ℝ, 0 < L ∧ (run s v T le_rfl).2.1 = (L : EReal) := by
  obtain ⟨M, L, -, hL, -, hrun⟩ := run_final_real s v
  exact ⟨L, hL, by rw [hrun]⟩

/-- After all T ≥ 1 tiles the running denominator is the plain denominator
    ∑ j c, exp (s j c - M), with M the maximum of all the scores. -/
theorem run_final_denominator [NeZero T] [Nonempty ι] (s v : Fin T → ι → ℝ) :
    (run s v T le_rfl).2.1 = ∑ j, ∑ c, Ideal.exp ((s j c : EReal) - globalMax s) := by
  obtain ⟨M, L, hM, -, hL, hrun⟩ := run_final_real s v
  rw [hrun, hM, hL]
  simp only [exp_coe_sub, ← coe_sum]

/-- After all T ≥ 1 tiles the running numerator is the plain numerator
    ∑ j c, exp (s j c - M) * v j c, with M the maximum of all the scores. -/
theorem run_final_numerator [NeZero T] [Nonempty ι] (s v : Fin T → ι → ℝ) :
    (run s v T le_rfl).2.2
      = ∑ j, ∑ c, Ideal.exp ((s j c : EReal) - globalMax s) * (v j c : EReal) := by
  obtain ⟨M, L, hM, -, -, hrun⟩ := run_final_real s v
  rw [hrun, hM]
  simp only [exp_coe_sub, ← EReal.coe_mul, ← coe_sum]

/-- The online softmax-weighted sum equals the plain one. After all T ≥ 1 tiles, the running
    numerator divided by the running denominator is ∑ j c, (exp (s j c - M) / Z) * v j c, where M
    is the maximum of all the scores and Z = ∑ j c, exp (s j c - M). -/
theorem online_softmax [NeZero T] [Nonempty ι] (s v : Fin T → ι → ℝ) :
    Ideal.div (run s v T le_rfl).2.2 (run s v T le_rfl).2.1
      = ∑ j, ∑ c,
          Ideal.div (Ideal.exp ((s j c : EReal) - globalMax s))
              (∑ j', ∑ c', Ideal.exp ((s j' c' : EReal) - globalMax s))
            * (v j c : EReal) := by
  obtain ⟨M, L, hM, hLpos, hL, hrun⟩ := run_final_real s v
  have hZ : (∑ j', ∑ c', Ideal.exp ((s j' c' : EReal) - globalMax s)) = (L : EReal) := by
    rw [← run_final_denominator s v, hrun]
  rw [hZ, hrun, hM]
  simp only [exp_coe_sub, div_coe _ _ hLpos.ne', ← EReal.coe_mul, ← coe_sum]
  congr 1
  rw [Finset.sum_div]
  refine Finset.sum_congr rfl fun j _ => ?_
  rw [Finset.sum_div]
  refine Finset.sum_congr rfl fun c _ => ?_
  ring

end OnlineSoftmax
-- ==== Proof.LibTileSums.lean ====
/-
  Sums and maxima over 8192 indices taken block by block, an accumulation from zero, and a few
  float constants as extended reals.

  An index r < T * B is written uniquely as r = B * j + c with j < T and c < B (j = r / B,
  c = r % B). So a sum over all r of f r is the double sum over j and c of f (B * j + c), in any
  commutative monoid (no finiteness of the terms is used), and the supremum over all r is the
  supremum over j of the supremum over c. The two instances wanted are 8192 = 16 * 512
  (column tiles) and 8192 = 4 * 2048 (row blocks).

  An accumulator that starts at 0 and adds the term of block j at step j ends at the sum of all
  the terms.

  The 32-bit patterns 0x39000000, 0x46000000, 0x3D800000, 0x40000000, 0xBF800000, 0x00000000 and
  0xFF800000 denote 1/8192, 8192, 1/16, 2, -1, 0 and ⊥; multiplying by the first is dividing by
  the second.
-/
import Mathlib
import Idealize.ShloMosaic.PureOps.Ideal
import Idealize.ShloMosaic.PureOps.Ideal.Laws

open scoped BigOperators
open Idealize.ShloMosaic

noncomputable section

namespace TileSums

/-! ### An index as (block, offset) -/

/-- The index B * j + c of offset c < B in block j < T, among N = T * B indices. -/
def blockIdx {T B N : ℕ} (h : T * B = N) (j : Fin T) (c : Fin B) : Fin N :=
  ⟨B * j.val + c.val, by
    have hj : j.val + 1 ≤ T := j.isLt
    have hc : c.val < B := c.isLt
    calc B * j.val + c.val < B * j.val + B := by omega
      _ = B * (j.val + 1) := by ring
      _ ≤ B * T := Nat.mul_le_mul_left B hj
      _ = N := by rw [Nat.mul_comm, h]⟩

/-- The value of the block index is B * j + c. -/
@[simp] theorem blockIdx_val {T B N : ℕ} (h : T * B = N) (j : Fin T) (c : Fin B) :
    (blockIdx h j c).val = B * j.val + c.val := rfl

/-- The bijection between pairs (block j < T, offset c < B) and indices below N = T * B:
    (j, c) ↦ B * j + c, with inverse r ↦ (r / B, r % B). -/
def blockEquiv {T B N : ℕ} (h : T * B = N) : Fin T × Fin B ≃ Fin N where
  toFun p := blockIdx h p.1 p.2
  invFun r :=
    (⟨r.val / B, Nat.div_lt_of_lt_mul (by
        calc r.val < N := r.isLt
          _ = B * T := by rw [← h, Nat.mul_comm])⟩,
     ⟨r.val % B, Nat.mod_lt _ (Nat.pos_of_ne_zero fun hB => by
        subst hB; rw [Nat.mul_zero] at h; subst h; exact r.elim0)⟩)
  left_inv p := by
    obtain ⟨j, c⟩ := p
    have hc : c.val < B := c.isLt
    have hB : 0 < B := by omega
    refine Prod.ext (Fin.ext ?_) (Fin.ext ?_)
    · show (B * j.val + c.val) / B = j.val
      rw [Nat.mul_add_div hB, Nat.div_eq_of_lt hc, Nat.add_zero]
    · show (B * j.val + c.val) % B = c.val
      rw [Nat.mul_add_mod, Nat.mod_eq_of_lt hc]
  right_inv r := by
    refine Fin.ext ?_
    show B * (r.val / B) + r.val % B = r.val
    exact Nat.div_add_mod _ _

/-- The bijection sends (j, c) to the block index of j and c. -/
theorem blockEquiv_apply {T B N : ℕ} (h : T * B = N) (p : Fin T × Fin B) :
    blockEquiv h p = blockIdx h p.1 p.2 := rfl

/-- The block of an index r is r / B. -/
theorem blockEquiv_symm_fst_val {T B N : ℕ} (h : T * B = N) (r : Fin N) :
    ((blockEquiv h).symm r).1.val = r.val / B := rfl

/-- The offset of an index r in its block is r % B. -/
theorem blockEquiv_symm_snd_val {T B N : ℕ} (h : T * B = N) (r : Fin N) :
    ((blockEquiv h).symm r).2.val = r.val % B := rfl

/-- A sum over N = T * B indices is the sum over the T blocks of the sums over the B offsets, in
    any commutative monoid. -/
theorem sum_blocks {M : Type*} [AddCommMonoid M] {T B N : ℕ} (h : T * B = N) (f : Fin N → M) :
    ∑ r, f r = ∑ j : Fin T, ∑ c : Fin B, f (blockIdx h j c) := by
  rw [← Fintype.sum_prod_type' (fun j c => f (blockIdx h j c))]
  exact (Fintype.sum_equiv (blockEquiv h) _ _ fun _ => rfl).symm

/-- A supremum over N = T * B indices is the supremum over all pairs (block, offset). -/
theorem sup_blocks_prod {α : Type*} [SemilatticeSup α] [OrderBot α] {T B N : ℕ} (h : T * B = N)
    (s : Fin N → α) :
    Finset.univ.sup s = Finset.univ.sup fun p : Fin T × Fin B => s (blockIdx h p.1 p.2) := by
  rw [← Finset.map_univ_equiv (blockEquiv h), Finset.sup_map]
  rfl

/-- A supremum over N = T * B indices is the supremum over the T blocks of the suprema over the
    B offsets. -/
theorem sup_blocks {α : Type*} [SemilatticeSup α] [OrderBot α] {T B N : ℕ} (h : T * B = N)
    (s : Fin N → α) :
    Finset.univ.sup s
      = Finset.univ.sup fun j : Fin T => Finset.univ.sup fun c : Fin B => s (blockIdx h j c) := by
  rw [sup_blocks_prod h, ← Finset.univ_product_univ, Finset.sup_product_left]

/-! ### 8192 columns as 16 tiles of 512 -/

/-- Column 512 * j + c: column c of tile j. -/
def tileIdx (j : Fin 16) (c : Fin 512) : Fin 8192 := blockIdx (by norm_num) j c

/-- The value of the tile index is 512 * j + c. -/
@[simp] theorem tileIdx_val (j : Fin 16) (c : Fin 512) :
    (tileIdx j c).val = 512 * j.val + c.val := rfl

/-- The bijection (j, c) ↦ 512 * j + c between 16 tiles of 512 columns and 8192 columns, with
    inverse r ↦ (r / 512, r % 512). -/
def tileEquiv : Fin 16 × Fin 512 ≃ Fin 8192 := blockEquiv (by norm_num)

/-- The bijection sends (j, c) to the tile index of j and c. -/
@[simp] theorem tileEquiv_apply (p : Fin 16 × Fin 512) : tileEquiv p = tileIdx p.1 p.2 := rfl

/-- The tile of column r is r / 512. -/
@[simp] theorem tileEquiv_symm_fst_val (r : Fin 8192) : (tileEquiv.symm r).1.val = r.val / 512 := rfl

/-- The column of r within its tile is r % 512. -/
@[simp] theorem tileEquiv_symm_snd_val (r : Fin 8192) : (tileEquiv.symm r).2.val = r.val % 512 := rfl

/-- A sum over the 8192 columns is the sum over the 16 tiles of the sums over their 512 columns. -/
theorem sum_tiles {M : Type*} [AddCommMonoid M] (f : Fin 8192 → M) :
    ∑ r, f r = ∑ j : Fin 16, ∑ c : Fin 512, f (tileIdx j c) :=
  sum_blocks _ f

/-- A supremum over the 8192 columns is the supremum over the 16 tiles of the suprema over their
    512 columns. -/
theorem sup_tiles {α : Type*} [SemilatticeSup α] [OrderBot α] (s : Fin 8192 → α) :
    Finset.univ.sup s
      = Finset.univ.sup fun j : Fin 16 => Finset.univ.sup fun c : Fin 512 => s (tileIdx j c) :=
  sup_blocks _ s

/-- A supremum over the 8192 columns is the supremum over all pairs (tile, column in the tile). -/
theorem sup_tiles_prod {α : Type*} [SemilatticeSup α] [OrderBot α] (s : Fin 8192 → α) :
    Finset.univ.sup s = Finset.univ.sup fun p : Fin 16 × Fin 512 => s (tileIdx p.1 p.2) :=
  sup_blocks_prod _ s

/-! ### 8192 rows as 4 blocks of 2048 -/

/-- Row 2048 * i + r: row r of block i. -/
def rowIdx (i : Fin 4) (r : Fin 2048) : Fin 8192 := blockIdx (by norm_num) i r

/-- The value of the row index is 2048 * i + r. -/
@[simp] theorem rowIdx_val (i : Fin 4) (r : Fin 2048) :
    (rowIdx i r).val = 2048 * i.val + r.val := rfl

/-- The bijection (i, r) ↦ 2048 * i + r between 4 blocks of 2048 rows and 8192 rows, with inverse
    n ↦ (n / 2048, n % 2048). -/
def rowEquiv : Fin 4 × Fin 2048 ≃ Fin 8192 := blockEquiv (by norm_num)

/-- The bijection sends (i, r) to the row index of i and r. -/
@[simp] theorem rowEquiv_apply (p : Fin 4 × Fin 2048) : rowEquiv p = rowIdx p.1 p.2 := rfl

/-- The block of row n is n / 2048. -/
@[simp] theorem rowEquiv_symm_fst_val (n : Fin 8192) : (rowEquiv.symm n).1.val = n.val / 2048 := rfl

/-- The row of n within its block is n % 2048. -/
@[simp] theorem rowEquiv_symm_snd_val (n : Fin 8192) : (rowEquiv.symm n).2.val = n.val % 2048 := rfl

/-- A sum over the 8192 rows is the sum over the 4 blocks of the sums over their 2048 rows. -/
theorem sum_rows {M : Type*} [AddCommMonoid M] (f : Fin 8192 → M) :
    ∑ n, f n = ∑ i : Fin 4, ∑ r : Fin 2048, f (rowIdx i r) :=
  sum_blocks _ f

/-- A supremum over the 8192 rows is the supremum over the 4 blocks of the suprema over their
    2048 rows. -/
theorem sup_rows {α : Type*} [SemilatticeSup α] [OrderBot α] (s : Fin 8192 → α) :
    Finset.univ.sup s
      = Finset.univ.sup fun i : Fin 4 => Finset.univ.sup fun r : Fin 2048 => s (rowIdx i r) :=
  sup_blocks _ s

/-! ### Maximum against ⊥, and a fold of max -/

/-- The larger of ⊥ and x is x. -/
theorem max_bot (x : EReal) : max ⊥ x = x := max_bot_left x

/-- A fold of max from ⊥ over a finite set is the supremum over that set. -/
theorem fold_max_bot {κ : Type*} (t : Finset κ) (f : κ → EReal) :
    t.fold max ⊥ f = t.sup f := rfl

/-! ### Accumulation from zero -/

variable {T : ℕ}

/-- The blocks of index below j. -/
def before (T j : ℕ) : Finset (Fin T) := Finset.univ.filter fun i => i.val < j

/-- No block has index below 0. -/
theorem before_zero : before T 0 = ∅ := by simp [before]

/-- The blocks of index below j + 1 are block j together with the blocks of index below j. -/
theorem before_succ (j : ℕ) (h : j < T) : before T (j + 1) = insert ⟨j, h⟩ (before T j) := by
  ext i
  simp only [before, Finset.mem_filter, Finset.mem_univ, true_and, Finset.mem_insert, Fin.ext_iff]
  omega

/-- Block j is not among the blocks of index below j. -/
theorem not_mem_before (j : ℕ) (h : j < T) : (⟨j, h⟩ : Fin T) ∉ before T j := by
  simp [before]

/-- Every one of the T blocks has index below T. -/
theorem before_self : before T T = Finset.univ := by
  ext i; simp [before]

/-- The accumulator after j blocks: 0 before any block, and each block adds its term g j. -/
def acc (g : Fin T → EReal) : (j : ℕ) → j ≤ T → EReal
  | 0, _ => 0
  | j + 1, h => acc g j (Nat.le_of_succ_le h) + g ⟨j, h⟩

/-- Before any block the accumulator is 0. -/
theorem acc_zero (g : Fin T → EReal) (h : 0 ≤ T) : acc g 0 h = 0 := rfl

/-- After j + 1 blocks the accumulator is its value after j blocks plus the term of block j. -/
theorem acc_succ (g : Fin T → EReal) (j : ℕ) (h : j + 1 ≤ T) :
    acc g (j + 1) h = acc g j (Nat.le_of_succ_le h) + g ⟨j, h⟩ := rfl

/-- After j blocks the accumulator is the sum of the terms of the blocks of index below j. -/
theorem acc_eq_sum_before (g : Fin T → EReal) (j : ℕ) (h : j ≤ T) :
    acc g j h = ∑ i ∈ before T j, g i := by
  classical
  induction j with
  | zero => rw [before_zero, Finset.sum_empty]; rfl
  | succ j ih =>
    rw [acc_succ, ih, before_succ j h, Finset.sum_insert (not_mem_before j h), add_comm]

/-- After all T blocks the accumulator is the sum of all the terms. -/
theorem acc_final (g : Fin T → EReal) : acc g T le_rfl = ∑ j, g j := by
  rw [acc_eq_sum_before, before_self]

/-- The accumulator whose step adds 0 + g j (a block's own sum started from 0) rather than g j:
    0 before any block, then acc + (0 + g j). -/
def accZ (g : Fin T → EReal) : (j : ℕ) → j ≤ T → EReal
  | 0, _ => 0
  | j + 1, h => accZ g j (Nat.le_of_succ_le h) + (0 + g ⟨j, h⟩)

/-- Before any block this accumulator is 0. -/
theorem accZ_zero (g : Fin T → EReal) (h : 0 ≤ T) : accZ g 0 h = 0 := rfl

/-- After j + 1 blocks this accumulator is its value after j blocks plus 0 + g j. -/
theorem accZ_succ (g : Fin T → EReal) (j : ℕ) (h : j + 1 ≤ T) :
    accZ g (j + 1) h = accZ g j (Nat.le_of_succ_le h) + (0 + g ⟨j, h⟩) := rfl

/-- Adding 0 + g j is adding g j: the two accumulators agree after every number of blocks. -/
theorem accZ_eq_acc (g : Fin T → EReal) (j : ℕ) (h : j ≤ T) : accZ g j h = acc g j h := by
  induction j with
  | zero => rfl
  | succ j ih => rw [accZ_succ, acc_succ, ih, zero_add]

/-- After all T blocks the accumulator with steps 0 + g j is the sum of all the terms. -/
theorem accZ_final (g : Fin T → EReal) : accZ g T le_rfl = ∑ j, g j := by
  rw [accZ_eq_acc, acc_final]

/-! ### Float constants as extended reals -/

/-- The 32-bit pattern 0x39000000 denotes 2⁻¹³ = 1/8192. -/
theorem ofBits_inv_8192 : Ideal.ofBits .f32 0x39000000#32 = ((1 / 8192 : ℝ) : EReal) := by
  simp [Ideal.ofBits, Ideal.ieee, -EReal.coe_mul]; norm_num

/-- The 32-bit pattern 0x46000000 denotes 2¹³ = 8192. -/
theorem ofBits_8192 : Ideal.ofBits .f32 0x46000000#32 = ((8192 : ℝ) : EReal) := by
  simp [Ideal.ofBits, Ideal.ieee, -EReal.coe_mul]; norm_num

/-- The 32-bit pattern 0x3D800000 denotes 2⁻⁴ = 1/16. -/
theorem ofBits_sixteenth : Ideal.ofBits .f32 0x3D800000#32 = ((1 / 16 : ℝ) : EReal) := by
  simp [Ideal.ofBits, Ideal.ieee, -EReal.coe_mul]; norm_num

/-- The 32-bit pattern 0x40000000 denotes 2. -/
theorem ofBits_two : Ideal.ofBits .f32 0x40000000#32 = ((2 : ℝ) : EReal) := by
  simp [Ideal.ofBits, Ideal.ieee, -EReal.coe_mul]; norm_num

/-- The 32-bit pattern 0xBF800000 denotes -1. -/
theorem ofBits_neg_one : Ideal.ofBits .f32 0xBF800000#32 = ((-1 : ℝ) : EReal) := by
  simp [Ideal.ofBits, Ideal.ieee, -EReal.coe_mul, -EReal.coe_neg]; norm_num

/-- The 32-bit pattern 0x00000000 denotes 0. -/
theorem ofBits_zero : Ideal.ofBits .f32 0x00000000#32 = 0 := Ideal.ofBits_zero_f32

/-- The 32-bit pattern 0xFF800000 denotes ⊥ (minus infinity). -/
theorem ofBits_neg_inf : Ideal.ofBits .f32 0xFF800000#32 = ⊥ := by
  simp [Ideal.ofBits, Ideal.ieee]

/-- Multiplying by the constant 1/8192 is dividing by the constant 8192, for every extended
    real x (the infinities included). -/
theorem mul_inv_8192_eq_div (x : EReal) :
    x * Ideal.ofBits .f32 0x39000000#32 = Ideal.div x (Ideal.ofBits .f32 0x46000000#32) := by
  rw [ofBits_inv_8192, ofBits_8192, Ideal.div_coe (by norm_num : (8192 : ℝ) ≠ 0)]

end TileSums
-- ==== Proof.Bridge.lean ====
/-
  From the tile-by-tile recurrences to the specification.

  The columns 0 … 8191 are cut into 16 tiles of 512 (column 512 · j + c is column c of tile j).

  Attention. For real (finite) states and projections every score is a real, so for each row R the running
  maximum, denominator and numerator

      M 0 = -∞, L 0 = 0, A 0 = 0,
      M (j+1) = max (M j) (max over tile j of the scores),
      L (j+1) = exp (M j - M (j+1)) · L j + Σ_c exp (s - M (j+1)),
      A (j+1) = exp (M j - M (j+1)) · A j + Σ_c exp (s - M (j+1)) · x

  are the states of the tile-by-tile softmax over that row's scores, and after the 16 tiles the quotient A / L is the
  plain softmax-weighted sum: the specification's attended states. Its maximum over 8192 columns is the maximum over
  all (tile, column) pairs, and its sums over 8192 columns are the double sums over tiles and columns.

  The second stage. An accumulator that starts at 0 and adds, tile by tile, the sum of the Gaussian kernel over the
  tile's columns ends at the kernel's row sum; multiplying it by 2⁻¹³ is dividing it by 8192, the product with the
  one-row weight matrix is a sum over its single row, and a sum started from 0 is the sum. No finiteness is used here.
-/
import proofs.«178816_j65481071400898_2_alg».proof.Proof.Spec
import proofs.«178816_j65481071400898_2_alg».proof.Proof.LibOnlineSoftmax
import proofs.«178816_j65481071400898_2_alg».proof.Proof.LibTileSums

noncomputable section

open scoped BigOperators

namespace Cert.Bridge

open Idealize.ShloMosaic Idealize.ShloMosaic.ValueIdx

/-! ## Reals among the extended reals -/

/-- A product of two reals is a real. -/
theorem real_mul {a b : EReal} (ha : ∃ u : ℝ, a = (u : EReal)) (hb : ∃ v : ℝ, b = (v : EReal)) :
    ∃ w : ℝ, a * b = (w : EReal) := by
  obtain ⟨u, rfl⟩ := ha
  obtain ⟨v, rfl⟩ := hb
  exact ⟨u * v, (EReal.coe_mul u v).symm⟩

/-- A finite sum of reals is a real. -/
theorem real_sum {κ : Type*} (t : Finset κ) (f : κ → EReal) (h : ∀ k ∈ t, ∃ v : ℝ, f k = (v : EReal)) :
    ∃ w : ℝ, ∑ k ∈ t, f k = (w : EReal) := by
  classical
  induction t using Finset.induction_on with
  | empty => exact ⟨0, by simp⟩
  | insert a t ha ih =>
    obtain ⟨u, hu⟩ := h a (Finset.mem_insert_self a t)
    obtain ⟨v, hv⟩ := ih fun k hk => h k (Finset.mem_insert_of_mem hk)
    exact ⟨u + v, by rw [Finset.sum_insert ha, hu, hv, EReal.coe_add]⟩

/-- For real states and projections every score is a real. -/
theorem score_real (x : (⟨Spec.S8192x256, .f32⟩ : BufTy).Contents (Elt Ideal))
    (Wq Wk : (⟨Spec.S256x256, .f32⟩ : BufTy).Contents (Elt Ideal))
    (hx : ∀ i, ∃ v : ℝ, x i = (v : EReal)) (hWq : ∀ i, ∃ v : ℝ, Wq i = (v : EReal))
    (hWk : ∀ i, ∃ v : ℝ, Wk i = (v : EReal)) (R C : Fin 8192) :
    ∃ v : ℝ, Spec.score x Wq Wk R C = (v : EReal) := by
  unfold Spec.score Spec.projQ Spec.projK
  rw [TileSums.ofBits_sixteenth]
  exact real_mul
    (real_sum _ _ fun d _ => real_mul (real_sum _ _ fun e _ => real_mul (hx _) (hWq _))
      (real_sum _ _ fun e _ => real_mul (hx _) (hWk _)))
    ⟨_, rfl⟩

/-! ## The recurrences are the tile-by-tile softmax -/

/-- Running quantities that start at (-∞, 0, 0) and follow the three recurrences over the tiles of a row of real
    scores sr with real values vr are the states of the tile-by-tile softmax. -/
theorem run_eq (sr vr : Fin 8192 → ℝ) (m l a : ℕ → EReal) (h0m : m 0 = ⊥) (h0l : l 0 = 0) (h0a : a 0 = 0)
    (hm : ∀ j (hj : j < 16), m (j + 1)
      = max (m j) ((Finset.univ : Finset (Fin 512)).fold max ⊥ fun c => (sr (TileSums.tileIdx ⟨j, hj⟩ c) : EReal)))
    (hl : ∀ j (hj : j < 16), l (j + 1)
      = Ideal.exp (m j - m (j + 1)) * l j
        + ∑ c : Fin 512, Ideal.exp ((sr (TileSums.tileIdx ⟨j, hj⟩ c) : EReal) - m (j + 1)))
    (ha : ∀ j (hj : j < 16), a (j + 1)
      = Ideal.exp (m j - m (j + 1)) * a j
        + ∑ c : Fin 512, Ideal.exp ((sr (TileSums.tileIdx ⟨j, hj⟩ c) : EReal) - m (j + 1))
            * (vr (TileSums.tileIdx ⟨j, hj⟩ c) : EReal)) :
    ∀ j (h : j ≤ 16), (m j, l j, a j)
      = OnlineSoftmax.run (fun j c => sr (TileSums.tileIdx j c)) (fun j c => vr (TileSums.tileIdx j c)) j h := by
  intro j
  induction j with
  | zero => intro h; rw [OnlineSoftmax.run_zero, h0m, h0l, h0a]
  | succ j ih =>
    intro h
    have hm' : max (m j) (OnlineSoftmax.tileMax fun c : Fin 512 => sr (TileSums.tileIdx ⟨j, h⟩ c)) = m (j + 1) :=
      (hm j h).symm
    rw [OnlineSoftmax.run_succ, ← ih (Nat.le_of_succ_le h)]
    simp only [OnlineSoftmax.step, hm']
    rw [hl j h, ha j h]

/-! ## Attention -/

/-- After the 16 tiles the running numerator over the running denominator is the attended state. -/
theorem attn_of_recurrence (x : (⟨Spec.S8192x256, .f32⟩ : BufTy).Contents (Elt Ideal))
    (Wq Wk : (⟨Spec.S256x256, .f32⟩ : BufTy).Contents (Elt Ideal))
    (hx : ∀ i, ∃ v : ℝ, x i = (v : EReal)) (hWq : ∀ i, ∃ v : ℝ, Wq i = (v : EReal))
    (hWk : ∀ i, ∃ v : ℝ, Wk i = (v : EReal))
    (M L : ℕ → Fin 8192 → EReal) (A : ℕ → Fin 8192 → Fin 256 → EReal)
    (h0M : ∀ R, M 0 R = Ideal.ofBits .f32 0xFF800000#32)
    (h0L : ∀ R, L 0 R = Ideal.ofBits .f32 0x00000000#32)
    (h0A : ∀ R d, A 0 R d = Ideal.ofBits .f32 0x00000000#32)
    (hM : ∀ j (hj : j < 16) R, M (j + 1) R
      = max (M j R) ((Finset.univ : Finset (Fin 512)).fold max (Ideal.ofBits .f32 0xFF800000#32)
          fun c => Cert.Spec.score x Wq Wk R (TileSums.tileIdx ⟨j, hj⟩ c)))
    (hL : ∀ j (hj : j < 16) R, L (j + 1) R
      = Ideal.exp (M j R - M (j + 1) R) * L j R
        + ∑ c : Fin 512, Ideal.exp (Cert.Spec.score x Wq Wk R (TileSums.tileIdx ⟨j, hj⟩ c) - M (j + 1) R))
    (hA : ∀ j (hj : j < 16) R d, A (j + 1) R d
      = Ideal.exp (M j R - M (j + 1) R) * A j R d
        + ∑ c : Fin 512, Ideal.exp (Cert.Spec.score x Wq Wk R (TileSums.tileIdx ⟨j, hj⟩ c) - M (j + 1) R)
            * x (ix2 (TileSums.tileIdx ⟨j, hj⟩ c) d))
    (R : Fin 8192) (d : Fin 256) :
    Ideal.div (A 16 R d) (L 16 R) = Cert.Spec.attn x Wq Wk R d := by
  choose sr hsr using fun C => score_real x Wq Wk hx hWq hWk R C
  choose xr hxr using hx
  have hrun : (M 16 R, L 16 R, A 16 R d)
      = OnlineSoftmax.run (fun j c => sr (TileSums.tileIdx j c))
          (fun j c => xr (ix2 (TileSums.tileIdx j c) d)) 16 le_rfl :=
    run_eq sr (fun C => xr (ix2 C d)) (fun j => M j R) (fun j => L j R) (fun j => A j R d)
      (by show M 0 R = ⊥; rw [h0M, TileSums.ofBits_neg_inf])
      (by show L 0 R = 0; rw [h0L, TileSums.ofBits_zero])
      (by show A 0 R d = 0; rw [h0A, TileSums.ofBits_zero])
      (fun j hj => by
        show M (j + 1) R = max (M j R) _
        rw [hM j hj R, TileSums.ofBits_neg_inf]
        simp only [hsr])
      (fun j hj => by
        show L (j + 1) R = Ideal.exp (M j R - M (j + 1) R) * L j R + _
        rw [hL j hj R]
        simp only [hsr])
      (fun j hj => by
        show A (j + 1) R d = Ideal.exp (M j R - M (j + 1) R) * A j R d + _
        rw [hA j hj R d]
        simp only [hsr, hxr])
      16 le_rfl
  haveI : Nonempty (Fin 512) := ⟨0⟩
  have hdiv := OnlineSoftmax.online_softmax (fun j c => sr (TileSums.tileIdx j c))
    (fun j c => xr (ix2 (TileSums.tileIdx j c) d))
  rw [← hrun] at hdiv
  have hmax : Cert.Spec.rowMax x Wq Wk R
      = OnlineSoftmax.globalMax (fun (j : Fin 16) (c : Fin 512) => sr (TileSums.tileIdx j c)) := by
    unfold Cert.Spec.rowMax OnlineSoftmax.globalMax
    rw [TileSums.ofBits_neg_inf, TileSums.fold_max_bot, TileSums.max_bot]
    simp only [hsr]
    exact TileSums.sup_tiles_prod _
  have hden : Cert.Spec.denom x Wq Wk R
      = ∑ j : Fin 16, ∑ c : Fin 512, Ideal.exp ((sr (TileSums.tileIdx j c) : EReal)
          - OnlineSoftmax.globalMax (fun (j : Fin 16) (c : Fin 512) => sr (TileSums.tileIdx j c))) := by
    unfold Cert.Spec.denom Cert.Spec.pexp
    rw [TileSums.ofBits_zero, zero_add, TileSums.sum_tiles, hmax]
    simp only [hsr]
  unfold Cert.Spec.attn
  rw [TileSums.sum_tiles, hden]
  unfold Cert.Spec.pexp
  rw [hmax]
  simp only [hsr, hxr]
  exact hdiv

/-- The squared norm of an attended row is the sum of the squares of its entries. -/
theorem sqn_of_attn (x : (⟨Spec.S8192x256, .f32⟩ : BufTy).Contents (Elt Ideal))
    (Wq Wk : (⟨Spec.S256x256, .f32⟩ : BufTy).Contents (Elt Ideal)) (R : Fin 8192) :
    (∑ d : Fin 256, Cert.Spec.attn x Wq Wk R d * Cert.Spec.attn x Wq Wk R d) = Cert.Spec.sqn x Wq Wk R := by
  unfold Cert.Spec.sqn
  rw [TileSums.ofBits_zero, zero_add]

/-! ## The kernel's row means and the perceptron -/

/-- An accumulator that starts at 0 and adds the term of tile j at step j is the accumulation from zero. -/
theorem acc_eq (g : Fin 16 → EReal) (acc : ℕ → EReal) (h0 : acc 0 = 0)
    (hs : ∀ j (hj : j < 16), acc (j + 1) = acc j + g ⟨j, hj⟩) :
    ∀ j (h : j ≤ 16), acc j = TileSums.acc g j h := by
  intro j
  induction j with
  | zero => intro h; rw [TileSums.acc_zero, h0]
  | succ j ih => intro h; rw [TileSums.acc_succ, ← ih (Nat.le_of_succ_le h), hs j h]

/-- After the 16 tiles the accumulated kernel, scaled by 2⁻¹³ and passed through the perceptron, is the output. -/
theorem out_of_recurrence (x : (⟨Spec.S8192x256, .f32⟩ : BufTy).Contents (Elt Ideal))
    (Wq Wk : (⟨Spec.S256x256, .f32⟩ : BufTy).Contents (Elt Ideal))
    (W1 : (⟨Spec.S1x64, .f32⟩ : BufTy).Contents (Elt Ideal)) (b1 : (⟨Spec.S64, .f32⟩ : BufTy).Contents (Elt Ideal))
    (W2 : (⟨Spec.S64x1, .f32⟩ : BufTy).Contents (Elt Ideal)) (b2 : (⟨Spec.S1, .f32⟩ : BufTy).Contents (Elt Ideal))
    (Acc : ℕ → Fin 8192 → EReal) (h0 : ∀ R, Acc 0 R = Ideal.ofBits .f32 0x00000000#32)
    (hAcc : ∀ j (hj : j < 16) R, Acc (j + 1) R
      = Acc j R + ∑ c : Fin 512, Ideal.exp (Ideal.ofBits .f32 0xBF800000#32
          * max ((Cert.Spec.sqn x Wq Wk R + Cert.Spec.sqn x Wq Wk (TileSums.tileIdx ⟨j, hj⟩ c))
              - Ideal.ofBits .f32 0x40000000#32
                * (∑ d : Fin 256, Cert.Spec.attn x Wq Wk R d * Cert.Spec.attn x Wq Wk (TileSums.tileIdx ⟨j, hj⟩ c) d))
            (Ideal.ofBits .f32 0x00000000#32)))
    (R : Fin 8192) :
    (∑ u : Fin 64, (max ((Acc 16 R * Ideal.ofBits .f32 0x39000000#32) * W1 (ix2 (0 : Fin 1) u) + b1 (ix1 u))
        (Ideal.ofBits .f32 0x00000000#32)) * W2 (ix2 u (0 : Fin 1))) + b2 (ix1 (0 : Fin 1))
      = Cert.Spec.out x Wq Wk W1 b1 W2 b2 R := by
  have hsum : Acc 16 R = ∑ C : Fin 8192, Cert.Spec.rbf x Wq Wk R C := by
    have h16 := acc_eq (fun j => ∑ c : Fin 512, Cert.Spec.rbf x Wq Wk R (TileSums.tileIdx j c)) (fun j => Acc j R)
      (by show Acc 0 R = 0; rw [h0, TileSums.ofBits_zero])
      (fun j hj => by
        show Acc (j + 1) R = Acc j R + _
        rw [hAcc j hj R]
        rfl)
      16 le_rfl
    rw [show Acc 16 R = _ from h16, TileSums.acc_final, TileSums.sum_tiles]
  have hfeat : Acc 16 R * Ideal.ofBits .f32 0x39000000#32 = Cert.Spec.feat x Wq Wk R := by
    unfold Cert.Spec.feat
    rw [hsum, TileSums.mul_inv_8192_eq_div, TileSums.ofBits_zero, zero_add]
  have hhid : ∀ u : Fin 64,
      max ((Acc 16 R * Ideal.ofBits .f32 0x39000000#32) * W1 (ix2 (0 : Fin 1) u) + b1 (ix1 u))
        (Ideal.ofBits .f32 0x00000000#32) = Cert.Spec.hidden x Wq Wk W1 b1 R u := by
    intro u
    unfold Cert.Spec.hidden
    rw [hfeat, Fin.sum_univ_one]
  unfold Cert.Spec.out
  simp only [hhid]

end Cert.Bridge

end
-- ==== Proof.Finite.lean ====
/-
  Finiteness. The precondition says of each of the seven argument arrays that the absolute value of every entry is
  below +∞ (a comparison against the pattern 0x7F800000, reduced over the whole array by `and`, the seven verdicts joined
  by `and`). On the extended reals |x| < +∞ excludes exactly the two infinities, so every entry is a real number.
-/
import proofs.«178816_j65481071400898_2_alg».proof.Defs
import proofs.«178816_j65481071400898_2_alg».proof.Proof.Gen.Pre_finite_inputs
import Idealize.ShloMosaic.Lib.ReduceAll
import Idealize.ShloMosaic.Lib.ValueIdx

noncomputable section

namespace Cert.Fin

open Idealize.ShloMosaic Idealize.ShloMosaic.TcCoe Idealize.SL.Sem

/-- The pattern 0x7F800000 denotes +∞. -/
theorem ofBits_inf : Ideal.ofBits .f32 0x7F800000#32 = (⊤ : EReal) := by simp [Ideal.ofBits, Ideal.ieee]

/-- An extended real whose absolute value max x (-x) is below +∞ is a real: -∞ and +∞ both have absolute value +∞. -/
theorem real_of_abs_lt_inf (x : EReal)
    (h : Ideal.cmp .olt (max x (-x)) (Ideal.ofBits .f32 0x7F800000#32) = 1#1) : ∃ v : ℝ, x = (v : EReal) := by
  rw [ofBits_inf] at h
  have hlt : max x (-x) < ⊤ := by
    by_contra hn
    unfold Ideal.cmp at h
    simp [hn] at h
  induction x using EReal.rec with
  | bot => simp at hlt
  | coe v => exact ⟨v, rfl⟩
  | top => simp at hlt

/-- The scalar shape has one index. -/
instance : Subsingleton Cert.Pre_finite_inputs.S_.Idx := ⟨fun a b => funext fun d => d.elim0⟩

open Cert.Pre_finite_inputs in
/-- The precondition's function is all ones only if every entry of every argument is a real: the outer conjunction
    splits into the seven whole-array conjunctions, each of which gives the comparison at every index. -/
theorem fn_all [Cert.Pre_finite_inputs.Facts]
    (a0 : FVec Ideal S8192x256 .f32) (a1 a2 : FVec Ideal S256x256 .f32) (a3 : FVec Ideal S1x64 .f32)
    (a4 : FVec Ideal S64 .f32) (a5 : FVec Ideal S64x1 .f32) (a6 : FVec Ideal S1 .f32)
    (h : Cert.Pre_finite_inputs.fn (F := Ideal) a0 a1 a2 a3 a4 a5 a6 = fun _ => 1#1) :
    (∀ i, ∃ v : ℝ, a0 i = (v : EReal)) ∧ (∀ i, ∃ v : ℝ, a1 i = (v : EReal)) ∧ (∀ i, ∃ v : ℝ, a2 i = (v : EReal))
      ∧ (∀ i, ∃ v : ℝ, a3 i = (v : EReal)) ∧ (∀ i, ∃ v : ℝ, a4 i = (v : EReal)) ∧ (∀ i, ∃ v : ℝ, a5 i = (v : EReal))
      ∧ (∀ i, ∃ v : ℝ, a6 i = (v : EReal)) := by
  have h33 := congrFun h ValueIdx.ix0
  dsimp only [fn, fn_part1] at h33
  obtain ⟨h28, h32⟩ := IntOp.andi_eq_one.mp h33
  obtain ⟨h23, h27⟩ := IntOp.andi_eq_one.mp h28
  obtain ⟨h18, h22⟩ := IntOp.andi_eq_one.mp h23
  obtain ⟨h13, h17⟩ := IntOp.andi_eq_one.mp h18
  obtain ⟨h8, h12⟩ := IntOp.andi_eq_one.mp h13
  obtain ⟨h3, h7⟩ := IntOp.andi_eq_one.mp h8
  exact ⟨fun i => real_of_abs_lt_inf (a0 i) (Host.reduce_andi_all _ _ _ _ _ h3 i),
    fun i => real_of_abs_lt_inf (a1 i) (Host.reduce_andi_all _ _ _ _ _ h7 i),
    fun i => real_of_abs_lt_inf (a2 i) (Host.reduce_andi_all _ _ _ _ _ h12 i),
    fun i => real_of_abs_lt_inf (a3 i) (Host.reduce_andi_all _ _ _ _ _ h17 i),
    fun i => real_of_abs_lt_inf (a4 i) (Host.reduce_andi_all _ _ _ _ _ h22 i),
    fun i => real_of_abs_lt_inf (a5 i) (Host.reduce_andi_all _ _ _ _ _ h27 i),
    fun i => real_of_abs_lt_inf (a6 i) (Host.reduce_andi_all _ _ _ _ _ h32 i)⟩

variable {m : (ℓ : Loc Cert.KernelIdeal.nD Cert.KernelIdeal.τ Cert.KernelIdeal.sig) → Buf (Elt Ideal) ℓ}

/-- Every state entry is a real. -/
theorem real_arg0 : Cert.Pre_KernelIdeal m → ∀ (c : Dev Cert.KernelIdeal.nD) i, ∃ v : ℝ,
    m ((c.tc : Thread Cert.KernelIdeal.nD Cert.KernelIdeal.τ).loc Cert.KernelIdeal.main_arg0) i = (v : EReal) :=
  fun h c i => (fn_all _ _ _ _ _ _ _ (h c)).1 i

/-- Every entry of the query projection is a real. -/
theorem real_arg1 : Cert.Pre_KernelIdeal m → ∀ (c : Dev Cert.KernelIdeal.nD) i, ∃ v : ℝ,
    m ((c.tc : Thread Cert.KernelIdeal.nD Cert.KernelIdeal.τ).loc Cert.KernelIdeal.main_arg1) i = (v : EReal) :=
  fun h c i => (fn_all _ _ _ _ _ _ _ (h c)).2.1 i

/-- Every entry of the key projection is a real. -/
theorem real_arg2 : Cert.Pre_KernelIdeal m → ∀ (c : Dev Cert.KernelIdeal.nD) i, ∃ v : ℝ,
    m ((c.tc : Thread Cert.KernelIdeal.nD Cert.KernelIdeal.τ).loc Cert.KernelIdeal.main_arg2) i = (v : EReal) :=
  fun h c i => (fn_all _ _ _ _ _ _ _ (h c)).2.2.1 i

/-- Every entry of the first layer's weights is a real. -/
theorem real_arg3 : Cert.Pre_KernelIdeal m → ∀ (c : Dev Cert.KernelIdeal.nD) i, ∃ v : ℝ,
    m ((c.tc : Thread Cert.KernelIdeal.nD Cert.KernelIdeal.τ).loc Cert.KernelIdeal.main_arg3) i = (v : EReal) :=
  fun h c i => (fn_all _ _ _ _ _ _ _ (h c)).2.2.2.1 i

/-- Every entry of the first layer's bias is a real. -/
theorem real_arg4 : Cert.Pre_KernelIdeal m → ∀ (c : Dev Cert.KernelIdeal.nD) i, ∃ v : ℝ,
    m ((c.tc : Thread Cert.KernelIdeal.nD Cert.KernelIdeal.τ).loc Cert.KernelIdeal.main_arg4) i = (v : EReal) :=
  fun h c i => (fn_all _ _ _ _ _ _ _ (h c)).2.2.2.2.1 i

/-- Every entry of the second layer's weights is a real. -/
theorem real_arg5 : Cert.Pre_KernelIdeal m → ∀ (c : Dev Cert.KernelIdeal.nD) i, ∃ v : ℝ,
    m ((c.tc : Thread Cert.KernelIdeal.nD Cert.KernelIdeal.τ).loc Cert.KernelIdeal.main_arg5) i = (v : EReal) :=
  fun h c i => (fn_all _ _ _ _ _ _ _ (h c)).2.2.2.2.2.1 i

/-- The second layer's bias is a real. -/
theorem real_arg6 : Cert.Pre_KernelIdeal m → ∀ (c : Dev Cert.KernelIdeal.nD) i, ∃ v : ℝ,
    m ((c.tc : Thread Cert.KernelIdeal.nD Cert.KernelIdeal.τ).loc Cert.KernelIdeal.main_arg6) i = (v : EReal) :=
  fun h c i => (fn_all _ _ _ _ _ _ _ (h c)).2.2.2.2.2.2 i

end Cert.Fin

end
-- ==== Proof.KI.Value0.lean ====
/-
  The attention kernel's two output arrays, entry by entry, are the specification's attended states and their squared
  norms.

  The grid has 4 row tiles of 2048 rows and 16 column tiles of 512 columns; point 16 · i + j is row tile i, column
  tile j. For a global row R, in row tile R / 2048 at local row R % 2048, the running maximum, denominator and numerator
  after j column tiles are minus infinity, zero, zero for j = 0 and what point 16 · (R / 2048) + (j - 1) leaves otherwise.
  Reading one column tile's update at the local row, with the query block's row the projection of global row R, the key
  block's row c the projection of global column 512 · j + c and the value block's row c the state at that column, the
  three quantities satisfy the tile-by-tile softmax recurrences over the specification's scores; after the 16th tile
  the numerator over the denominator is the attended state, which is what the last point of the row tile writes to the
  first output array, and the second output array holds that row's sum of squares, the squared norm.
-/
import proofs.«178816_j65481071400898_2_alg».proof.Proof.KI.Launch
import proofs.«178816_j65481071400898_2_alg».proof.Proof.KI.R0Val
import proofs.«178816_j65481071400898_2_alg».proof.Proof.KI.R0Blocks
import proofs.«178816_j65481071400898_2_alg».proof.Proof.KI.Step0
import proofs.«178816_j65481071400898_2_alg».proof.Proof.KI.PayIdx0
import proofs.«178816_j65481071400898_2_alg».proof.Proof.KI.HostVals
import proofs.«178816_j65481071400898_2_alg».proof.Proof.Bridge
import proofs.«178816_j65481071400898_2_alg».proof.Proof.Finite
import proofs.«178816_j65481071400898_2_alg».proof.Proof.LibTileSums

set_option maxRecDepth 16384

noncomputable section

open scoped BigOperators

namespace Cert.KernelIdeal.Value0

open Cert.KernelIdeal Cert.KernelIdeal.Gen Cert.KernelIdeal.Hand
open Idealize.ShloMosaic Idealize.ShloMosaic.TcCoe Idealize.ShloMosaic.ValueIdx

/-! ## Rows, points, and the indices they name -/

/-- The local row of global row R in its row tile: R % 2048. -/
abbrev rowOf (R : Fin 8192) : Fin 2048 := ⟨R.val % 2048, Nat.mod_lt _ (by norm_num)⟩

/-- Point 16 · (R / 2048) + j is a point of the grid. -/
theorem pt_lt (R : Fin 8192) (j : ℕ) (hj : j < 16) : 16 * (R.val / 2048) + j < cfg0.N :=
  lt_of_lt_of_eq (by have := R.isLt; omega) N_0.symm

/-- Column tile j of the row tile of global row R. -/
def pt (R : Fin 8192) (j : ℕ) (hj : j < 16) : Fin cfg0.N := ⟨16 * (R.val / 2048) + j, pt_lt R j hj⟩

theorem pt_val (R : Fin 8192) (j : ℕ) (hj : j < 16) : (pt R j hj).val = 16 * (R.val / 2048) + j := rfl

/-- The query block's first row plus the local row is the global row. -/
theorem qrow_eq (R : Fin 8192) (j : ℕ) (hj : j < 16) (h : 2048 * ((pt R j hj).val / 16) + (rowOf R).val < 8192) :
    (⟨2048 * ((pt R j hj).val / 16) + (rowOf R).val, h⟩ : Fin 8192) = R :=
  Fin.ext (by show 2048 * ((16 * (R.val / 2048) + j) / 16) + R.val % 2048 = R.val; omega)

/-- The key block's first row plus c is column c of tile j. -/
theorem kcol_eq (R : Fin 8192) (j : ℕ) (hj : j < 16) (c' : Fin 512)
    (h : 512 * ((pt R j hj).val % 16) + c'.val < 8192) :
    (⟨512 * ((pt R j hj).val % 16) + c'.val, h⟩ : Fin 8192) = TileSums.tileIdx ⟨j, hj⟩ c' :=
  Fin.ext (by show 512 * ((16 * (R.val / 2048) + j) % 16) + c'.val = 512 * j + c'.val; omega)

section Point

variable (V : (c : Dev nD) → (b : Ref sig .tc) → Buf (Elt Ideal) ((c : Thread nD τ).loc b)) (c : Dev nD)

/-- What the running maximum, denominator and numerator hold, for the row tile of global row R, after j column tiles:
    the reset values before the first, then what the tile's point leaves. -/
def state (R : Fin 8192) : ℕ → Vec Ideal S2048x1 .f32 × Vec Ideal S2048x1 .f32 × Vec Ideal S2048x256 .f32
  | 0 => (k0_pay6 (F := Ideal), k0_pay7 (F := Ideal), k0_pay8 (F := Ideal))
  | j + 1 => if h : j < 16 then scrAt0 V c (pt R j h).val (pt R j h).isLt
      else (k0_pay6 (F := Ideal), k0_pay7 (F := Ideal), k0_pay8 (F := Ideal))

theorem state_zero (R : Fin 8192) :
    state V c R 0 = (k0_pay6 (F := Ideal), k0_pay7 (F := Ideal), k0_pay8 (F := Ideal)) := rfl

theorem state_succ (R : Fin 8192) (j : ℕ) (hj : j < 16) :
    state V c R (j + 1) = scrAt0 V c (pt R j hj).val (pt R j hj).isLt := dif_pos hj

/-- The running quantities at two equal positions are equal. -/
theorem scr_congr (n n' : ℕ) (e : n = n') (hn : n < cfg0.N) (hn' : n' < cfg0.N) :
    scrAt0 V c n hn = scrAt0 V c n' hn' := by subst e; rfl

/-- What tile j's point is handed is the state after j tiles. -/
theorem prev_eq (R : Fin 8192) (j : ℕ) (hj : j < 16) : prev0 V c (pt R j hj) = state V c R j := by
  unfold prev0
  cases j with
  | zero =>
    have h0 : (pt R 0 hj).val % 16 = 0 := by show (16 * (R.val / 2048) + 0) % 16 = 0; omega
    rw [if_pos h0]
    rfl
  | succ j' =>
    have h0 : ¬(pt R (j' + 1) hj).val % 16 = 0 := by show ¬(16 * (R.val / 2048) + (j' + 1)) % 16 = 0; omega
    have hj' : j' < 16 := by omega
    rw [if_neg h0, state_succ V c R j' hj']
    exact scr_congr V c _ _ (by show 16 * (R.val / 2048) + (j' + 1) - 1 = 16 * (R.val / 2048) + j'; omega) _ _

/-- One column tile's update, from the state after j tiles to the state after j + 1. -/
theorem state_step (R : Fin 8192) (j : ℕ) (hj : j < 16) :
    state V c R (j + 1)
      = (stepM (iblk0 (V c) 0 (pt R j hj)) (iblk0 (V c) 1 (pt R j hj)) (state V c R j).1,
         stepL (iblk0 (V c) 0 (pt R j hj)) (iblk0 (V c) 1 (pt R j hj)) (state V c R j).1 (state V c R j).2.1,
         stepA (iblk0 (V c) 0 (pt R j hj)) (iblk0 (V c) 1 (pt R j hj)) (iblk0 (V c) 2 (pt R j hj)) (state V c R j).1
           (state V c R j).2.2) := by
  rw [state_succ V c R j hj, scrAt0_step V c (pt R j hj), prev_eq V c R j hj]

variable (x : (⟨Spec.S8192x256, .f32⟩ : BufTy).Contents (Elt Ideal))
  (Wq Wk : (⟨Spec.S256x256, .f32⟩ : BufTy).Contents (Elt Ideal))

/-- The scaled scores of a query block's row against a key block's rows are the specification's scores, when the
    query row is the projection of global row R and the key rows are the projections of tile j's columns. -/
theorem score_of_blocks (x0 : FVec Ideal S2048x256 .bf16) (x1 : FVec Ideal S512x256 .bf16) (R : Fin 8192) (j : ℕ)
    (hj : j < 16) (h0 : ∀ d : Fin 256, x0 (ix2 (rowOf R) d) = Spec.projQ x Wq R d)
    (h1 : ∀ (c' : Fin 512) (d : Fin 256), x1 (ix2 c' d) = Spec.projK x Wk (TileSums.tileIdx ⟨j, hj⟩ c') d)
    (c' : Fin 512) :
    (∑ d : Fin 256, x0 (ix2 (rowOf R) d) * x1 (ix2 c' d)) * Ideal.ofBits .f32 0x3D800000#32
      = Spec.score x Wq Wk R (TileSums.tileIdx ⟨j, hj⟩ c') := by
  unfold Spec.score
  simp only [h0, h1]

variable (hq : ∀ (R : Fin 8192) (d : Fin 256), (V c main_v3 : S8192x256.Idx → EReal) (ix2 R d) = Spec.projQ x Wq R d)
  (hk : ∀ (R : Fin 8192) (d : Fin 256), (V c main_v7 : S8192x256.Idx → EReal) (ix2 R d) = Spec.projK x Wk R d)
  (hv : ∀ i : S8192x256.Idx, (V c main_v8 : S8192x256.Idx → EReal) i = x i)

include hq in
/-- The query block's local row is the projection of the global row. -/
theorem blk0_at (R : Fin 8192) (j : ℕ) (hj : j < 16) (d : Fin 256) :
    (iblk0 (V c) 0 (pt R j hj) : S2048x256.Idx → EReal) (ix2 (rowOf R) d) = Spec.projQ x Wq R d := by
  rw [iblk0_0_apply V c (pt R j hj) (rowOf R) d, qrow_eq, hq]

include hk in
/-- The key block's row c is the projection of column c of tile j. -/
theorem blk1_at (R : Fin 8192) (j : ℕ) (hj : j < 16) (c' : Fin 512) (d : Fin 256) :
    (iblk0 (V c) 1 (pt R j hj) : S512x256.Idx → EReal) (ix2 c' d)
      = Spec.projK x Wk (TileSums.tileIdx ⟨j, hj⟩ c') d := by
  rw [iblk0_1_apply V c (pt R j hj) c' d, kcol_eq, hk]

include hv in
/-- The value block's row c is the state at column c of tile j. -/
theorem blk2_at (R : Fin 8192) (j : ℕ) (hj : j < 16) (c' : Fin 512) (d : Fin 256) :
    (iblk0 (V c) 2 (pt R j hj) : S512x256.Idx → EReal) (ix2 c' d) = x (ix2 (TileSums.tileIdx ⟨j, hj⟩ c') d) := by
  rw [iblk0_2_apply V c (pt R j hj) c' d, kcol_eq, hv]

include hq hk in
/-- The running maximum's recurrence. -/
theorem M_rec (j : ℕ) (hj : j < 16) (R : Fin 8192) :
    (state V c R (j + 1)).1 (ix2 (rowOf R) (0 : Fin 1))
      = max ((state V c R j).1 (ix2 (rowOf R) (0 : Fin 1)))
          ((Finset.univ : Finset (Fin 512)).fold max (Ideal.ofBits .f32 0xFF800000#32)
            fun c' => Cert.Spec.score x Wq Wk R (TileSums.tileIdx ⟨j, hj⟩ c')) := by
  rw [state_step V c R j hj]
  refine (Step0.stepM_apply (iblk0 (V c) 0 (pt R j hj)) (iblk0 (V c) 1 (pt R j hj)) (state V c R j).1 (rowOf R)).trans ?_
  refine congrArg (max _) ?_
  exact congrArg (fun f => Finset.fold max (Ideal.ofBits .f32 0xFF800000#32) f (Finset.univ : Finset (Fin 512)))
    (funext fun c' => score_of_blocks x Wq Wk _ _ R j hj (blk0_at V c x Wq hq R j hj) (blk1_at V c x Wk hk R j hj) c')

include hq hk in
/-- The running denominator's recurrence. -/
theorem L_rec (j : ℕ) (hj : j < 16) (R : Fin 8192) :
    (state V c R (j + 1)).2.1 (ix2 (rowOf R) (0 : Fin 1))
      = Ideal.exp ((state V c R j).1 (ix2 (rowOf R) (0 : Fin 1)) - (state V c R (j + 1)).1 (ix2 (rowOf R) (0 : Fin 1)))
          * (state V c R j).2.1 (ix2 (rowOf R) (0 : Fin 1))
        + ∑ c' : Fin 512, Ideal.exp (Cert.Spec.score x Wq Wk R (TileSums.tileIdx ⟨j, hj⟩ c')
            - (state V c R (j + 1)).1 (ix2 (rowOf R) (0 : Fin 1))) := by
  rw [state_step V c R j hj]
  refine (Step0.stepL_apply (iblk0 (V c) 0 (pt R j hj)) (iblk0 (V c) 1 (pt R j hj)) (state V c R j).1
    (state V c R j).2.1 (rowOf R)).trans ?_
  refine congrArg (_ + ·) (Finset.sum_congr rfl fun c' _ => ?_)
  rw [score_of_blocks x Wq Wk _ _ R j hj (blk0_at V c x Wq hq R j hj) (blk1_at V c x Wk hk R j hj) c']

include hq hk hv in
/-- The running numerator's recurrence. -/
theorem A_rec (j : ℕ) (hj : j < 16) (R : Fin 8192) (d : Fin 256) :
    (state V c R (j + 1)).2.2 (ix2 (rowOf R) d)
      = Ideal.exp ((state V c R j).1 (ix2 (rowOf R) (0 : Fin 1)) - (state V c R (j + 1)).1 (ix2 (rowOf R) (0 : Fin 1)))
          * (state V c R j).2.2 (ix2 (rowOf R) d)
        + ∑ c' : Fin 512, Ideal.exp (Cert.Spec.score x Wq Wk R (TileSums.tileIdx ⟨j, hj⟩ c')
            - (state V c R (j + 1)).1 (ix2 (rowOf R) (0 : Fin 1))) * x (ix2 (TileSums.tileIdx ⟨j, hj⟩ c') d) := by
  rw [state_step V c R j hj]
  refine (Step0.stepA_apply (iblk0 (V c) 0 (pt R j hj)) (iblk0 (V c) 1 (pt R j hj)) (iblk0 (V c) 2 (pt R j hj))
    (state V c R j).1 (state V c R j).2.2 (rowOf R) d).trans ?_
  refine congrArg (_ + ·) (Finset.sum_congr rfl fun c' _ => ?_)
  rw [score_of_blocks x Wq Wk _ _ R j hj (blk0_at V c x Wq hq R j hj) (blk1_at V c x Wk hk R j hj) c',
    blk2_at V c x hv R j hj c' d]

variable (hx : ∀ i, ∃ v : ℝ, x i = (v : EReal)) (hWq : ∀ i, ∃ v : ℝ, Wq i = (v : EReal))
  (hWk : ∀ i, ∃ v : ℝ, Wk i = (v : EReal))

include hq hk hv hx hWq hWk in
/-- After the 16th column tile the numerator over the denominator, at the local row, is the attended state. -/
theorem quot_at (R : Fin 8192) (d : Fin 256) :
    Ideal.div ((state V c R 16).2.2 (ix2 (rowOf R) d)) ((state V c R 16).2.1 (ix2 (rowOf R) (0 : Fin 1)))
      = Cert.Spec.attn x Wq Wk R d :=
  Cert.Bridge.attn_of_recurrence x Wq Wk hx hWq hWk
    (fun j R' => (state V c R' j).1 (ix2 (rowOf R') (0 : Fin 1)))
    (fun j R' => (state V c R' j).2.1 (ix2 (rowOf R') (0 : Fin 1)))
    (fun j R' d' => (state V c R' j).2.2 (ix2 (rowOf R') d'))
    (fun R' => PayIdx0.pay6_apply (ix2 (rowOf R') (0 : Fin 1))) (fun R' => PayIdx0.pay7_apply (ix2 (rowOf R') (0 : Fin 1)))
    (fun R' d' => PayIdx0.pay8_apply (ix2 (rowOf R') d'))
    (fun j hj R' => M_rec V c x Wq Wk hq hk j hj R')
    (fun j hj R' => L_rec V c x Wq Wk hq hk j hj R')
    (fun j hj R' d' => A_rec V c x Wq Wk hq hk hv j hj R' d')
    R d

/-- The last column tile's point of the row tile of global row R. -/
theorem last_mod (R : Fin 8192) : (pt R 15 (by norm_num)).val % 16 = 15 := by
  show (16 * (R.val / 2048) + 15) % 16 = 15; omega

include hq hk hv hx hWq hWk in
/-- The epilogue's quotient at the last point is the attended state. -/
theorem pay3_at (R : Fin 8192) (d : Fin 256) :
    k0_pay3 (F := Ideal) (scrAt0 V c (pt R 15 (by norm_num)).val (pt R 15 (by norm_num)).isLt).2.2
        (scrAt0 V c (pt R 15 (by norm_num)).val (pt R 15 (by norm_num)).isLt).2.1 (ix2 (rowOf R) d)
      = Cert.Spec.attn x Wq Wk R d := by
  refine (PayIdx0.pay3_apply _ _ (rowOf R) d).trans ?_
  rw [← state_succ V c R 15 (by norm_num)]
  exact quot_at V c x Wq Wk hq hk hv hx hWq hWk R d

include hq hk hv hx hWq hWk in
/-- The first output array holds the attended states. -/
theorem attn_arr (R : Fin 8192) (d : Fin 256) :
    ((dat0 V c).arrAt 3 cfg0.N : S8192x256.Idx → EReal) (ix2 R d) = Cert.Spec.attn x Wq Wk R d := by
  refine (attn0_apply V c R d).trans ?_
  show outAt0_3 V c (pt R 15 (by norm_num)) (ix2 (rowOf R) d) = _
  rw [outAt0_3_last V c (pt R 15 (by norm_num)) (last_mod R)]
  refine (PayIdx0.pay5_apply _ _ _).trans ?_
  exact pay3_at V c x Wq Wk hq hk hv hx hWq hWk R d

include hq hk hv hx hWq hWk in
/-- The second output array holds the attended rows' squared norms. -/
theorem sq_arr (R : Fin 8192) :
    ((dat0 V c).arrAt 4 cfg0.N : S8192x1.Idx → EReal) (ix2 R (0 : Fin 1)) = Cert.Spec.sqn x Wq Wk R := by
  refine (sq0_apply V c R).trans ?_
  show outAt0_4 V c (pt R 15 (by norm_num)) (ix2 (rowOf R) (0 : Fin 1)) = _
  rw [outAt0_4_last V c (pt R 15 (by norm_num)) (last_mod R)]
  refine (PayIdx0.pay4_apply _ _ (rowOf R)).trans ?_
  refine (Finset.sum_congr rfl fun d _ => ?_).trans (Cert.Bridge.sqn_of_attn x Wq Wk R)
  rw [pay3_at V c x Wq Wk hq hk hv hx hWq hWk R d]

end Point

/-! ## At the program's buffers -/

variable (m : (ℓ : Loc nD τ sig) → Buf (Elt Ideal) ℓ)

/-- After the attention kernel its first output buffer holds the specification's attended states. -/
theorem attn_val (hpre : Cert.Pre_KernelIdeal m) (c : Dev nD) (R : Fin 8192) (d : Fin 256) :
    (W2 m c (Proc.devRef .tc main_v9_0) : S8192x256.Idx → EReal) (ix2 R d)
      = Cert.Spec.attn (m ((c.tc : Thread nD τ).loc main_arg0)) (m ((c.tc : Thread nD τ).loc main_arg1))
          (m ((c.tc : Thread nD τ).loc main_arg2)) R d := by
  have e : W2 m c (Proc.devRef .tc main_v9_0) = (dat0 (V1 m) c).arrAt 3 cfg0.N := W2_arr m c 3
  rw [e]
  exact attn_arr (V1 m) c _ _ _
    (fun R d => HostVals.after0_q (W0 m c) R d) (fun R d => HostVals.after0_k (W0 m c) R d)
    (fun i => HostVals.after0_v (W0 m c) i)
    (Cert.Fin.real_arg0 hpre c) (Cert.Fin.real_arg1 hpre c) (Cert.Fin.real_arg2 hpre c) R d

/-- After the attention kernel its second output buffer holds the attended rows' squared norms. -/
theorem sq_val (hpre : Cert.Pre_KernelIdeal m) (c : Dev nD) (R : Fin 8192) :
    (W2 m c (Proc.devRef .tc main_v9_1) : S8192x1.Idx → EReal) (ix2 R (0 : Fin 1))
      = Cert.Spec.sqn (m ((c.tc : Thread nD τ).loc main_arg0)) (m ((c.tc : Thread nD τ).loc main_arg1))
          (m ((c.tc : Thread nD τ).loc main_arg2)) R := by
  have e : W2 m c (Proc.devRef .tc main_v9_1) = (dat0 (V1 m) c).arrAt 4 cfg0.N := W2_arr m c 4
  rw [e]
  exact sq_arr (V1 m) c _ _ _
    (fun R d => HostVals.after0_q (W0 m c) R d) (fun R d => HostVals.after0_k (W0 m c) R d)
    (fun i => HostVals.after0_v (W0 m c) i)
    (Cert.Fin.real_arg0 hpre c) (Cert.Fin.real_arg1 hpre c) (Cert.Fin.real_arg2 hpre c) R

end Cert.KernelIdeal.Value0

end
-- ==== Proof.KI.R1Pieces.lean ====
/-
  What each case of the second kernel's body leaves, as the body's own arithmetic. One column tile adds to the
  running row sums the row sums of exp(-max(|x|² + |y|² - 2 x·y, 0)) over the tile's columns, a function of the row
  block, the column block, their squared norms and the sums handed in; the first tile of a row block applies it to
  zero; the last tile also leaves the two-layer head applied to the mean of the updated sums.
-/
import proofs.«178816_j65481071400898_2_alg».proof.Proof.KI.R1Dat
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The origin of a rank-two block, as the constant function. -/
theorem hz2_1 : (![0, 0] : Fin 2 → Nat) = fun _ => 0 := funext fun a => by fin_cases a <;> rfl

/-! ## What each case leaves -/

/-- The first column tile of a row block: the tile's update of the zero sums (the body reads back the zeros it has
    just stored). -/
theorem sout1_A_0_eq (c : Dev nD) (i : grid1.Coords)
    (arg2 : Memref sig .tc .vmem S2048x256 .bf16) (harg2 : arg2.IsWhole) (arg3 : Memref sig .tc .vmem S512x256 .bf16) (harg3 : arg3.IsWhole)
    (arg4 : Memref sig .tc .vmem S2048x1 .f32) (harg4 : arg4.IsWhole) (arg5 : Memref sig .tc .vmem S512x1 .f32) (harg5 : arg5.IsWhole)
    (arg6 : Memref sig .tc .vmem S1x64 .f32) (harg6 : arg6.IsWhole) (arg7 : Memref sig .tc .vmem S1x64 .f32) (harg7 : arg7.IsWhole)
    (arg8 : Memref sig .tc .vmem S64x1 .f32) (harg8 : arg8.IsWhole) (arg9 : Memref sig .tc .vmem S1x1 .f32) (harg9 : arg9.IsWhole)
    (arg10 : Memref sig .tc .vmem S2048x1 .f32) (harg10 : arg10.IsWhole) (arg11 : Memref sig .tc .vmem S2048x1 .f32) (harg11 : arg11.IsWhole)
    (hc0 : cond1_0 i) (hc1 : ¬cond1_1 i)
    (x0 : Vec F S2048x256 .bf16) (x1 : Vec F S512x256 .bf16) (x2 : Vec F S2048x1 .f32) (x3 : Vec F S512x1 .f32)
    (x4 : Vec F S1x64 .f32) (x5 : Vec F S1x64 .f32) (x6 : Vec F S64x1 .f32) (x7 : Vec F S1x1 .f32) :
    sout1_A_0 c i arg2 harg2 arg3 harg3 arg4 harg4 arg5 harg5 arg6 harg6 arg7 harg7 arg8 harg8 arg9 harg9 arg10 harg10 arg11 harg11 hc0 hc1 x0 x1 x2 x3 x4 x5 x6 x7 = k1_pay3 x0 x1 x2 x3 (k1_pay2 (F := F)) := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun1_A
  dsimp only
  sl_unfold_words
  rw [View.canon_cons_unit_zero (S := S2048x1) hz2_1]
  simp only [View.readCov_unit_zero (S := S2048x1) _ hz2_1, View.readAt_eq_ld,
    harg2.read_unread, harg3.read_unread, harg4.read_unread, harg5.read_unread, harg6.read_unread, harg7.read_unread,
    harg8.read_unread, harg9.read_unread, harg10.read_unread, harg11.read_unread,
    View.ld_unit_zero (S := S2048x256) hz2_1, View.ld_unit_zero (S := S512x256) hz2_1, View.ld_unit_zero (S := S2048x1) hz2_1,
    View.ld_unit_zero (S := S512x1) hz2_1, View.ld_unit_zero (S := S1x64) hz2_1, View.ld_unit_zero (S := S64x1) hz2_1,
    View.ld_unit_zero (S := S1x1) hz2_1]
  try rfl

/-- An inner column tile: the tile's update of the sums handed in. -/
theorem sout1_B_0_eq (c : Dev nD) (i : grid1.Coords)
    (arg2 : Memref sig .tc .vmem S2048x256 .bf16) (harg2 : arg2.IsWhole) (arg3 : Memref sig .tc .vmem S512x256 .bf16) (harg3 : arg3.IsWhole)
    (arg4 : Memref sig .tc .vmem S2048x1 .f32) (harg4 : arg4.IsWhole) (arg5 : Memref sig .tc .vmem S512x1 .f32) (harg5 : arg5.IsWhole)
    (arg6 : Memref sig .tc .vmem S1x64 .f32) (harg6 : arg6.IsWhole) (arg7 : Memref sig .tc .vmem S1x64 .f32) (harg7 : arg7.IsWhole)
    (arg8 : Memref sig .tc .vmem S64x1 .f32) (harg8 : arg8.IsWhole) (arg9 : Memref sig .tc .vmem S1x1 .f32) (harg9 : arg9.IsWhole)
    (arg10 : Memref sig .tc .vmem S2048x1 .f32) (harg10 : arg10.IsWhole) (arg11 : Memref sig .tc .vmem S2048x1 .f32) (harg11 : arg11.IsWhole)
    (hc0 : ¬cond1_0 i) (hc1 : ¬cond1_1 i)
    (x0 : Vec F S2048x256 .bf16) (x1 : Vec F S512x256 .bf16) (x2 : Vec F S2048x1 .f32) (x3 : Vec F S512x1 .f32)
    (x4 : Vec F S1x64 .f32) (x5 : Vec F S1x64 .f32) (x6 : Vec F S64x1 .f32) (x7 : Vec F S1x1 .f32) (xs0 : Vec F S2048x1 .f32) :
    sout1_B_0 c i arg2 harg2 arg3 harg3 arg4 harg4 arg5 harg5 arg6 harg6 arg7 harg7 arg8 harg8 arg9 harg9 arg10 harg10 arg11 harg11 hc0 hc1 x0 x1 x2 x3 x4 x5 x6 x7 xs0 = k1_pay3 x0 x1 x2 x3 xs0 := by
  unfold sout1_B_0
  rw [View.read_writes_eq_canon _ _ _ (scover1_B_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun1_B
  dsimp only
  sl_unfold_words
  rw [View.canon_cons_unit_zero (S := S2048x1) hz2_1]
  simp only [View.readCov_unit_zero (S := S2048x1) _ hz2_1, View.readAt_eq_ld,
    harg2.read_unread, harg3.read_unread, harg4.read_unread, harg5.read_unread, harg6.read_unread, harg7.read_unread,
    harg8.read_unread, harg9.read_unread, harg10.read_unread, harg11.read_unread,
    View.ld_unit_zero (S := S2048x256) hz2_1, View.ld_unit_zero (S := S512x256) hz2_1, View.ld_unit_zero (S := S2048x1) hz2_1,
    View.ld_unit_zero (S := S512x1) hz2_1, View.ld_unit_zero (S := S1x64) hz2_1, View.ld_unit_zero (S := S64x1) hz2_1,
    View.ld_unit_zero (S := S1x1) hz2_1]
  try rfl

/-- The last column tile: the same update of the sums handed in; -/
theorem sout1_C_0_eq (c : Dev nD) (i : grid1.Coords)
    (arg2 : Memref sig .tc .vmem S2048x256 .bf16) (harg2 : arg2.IsWhole) (arg3 : Memref sig .tc .vmem S512x256 .bf16) (harg3 : arg3.IsWhole)
    (arg4 : Memref sig .tc .vmem S2048x1 .f32) (harg4 : arg4.IsWhole) (arg5 : Memref sig .tc .vmem S512x1 .f32) (harg5 : arg5.IsWhole)
    (arg6 : Memref sig .tc .vmem S1x64 .f32) (harg6 : arg6.IsWhole) (arg7 : Memref sig .tc .vmem S1x64 .f32) (harg7 : arg7.IsWhole)
    (arg8 : Memref sig .tc .vmem S64x1 .f32) (harg8 : arg8.IsWhole) (arg9 : Memref sig .tc .vmem S1x1 .f32) (harg9 : arg9.IsWhole)
    (arg10 : Memref sig .tc .vmem S2048x1 .f32) (harg10 : arg10.IsWhole) (arg11 : Memref sig .tc .vmem S2048x1 .f32) (harg11 : arg11.IsWhole)
    (hc0 : ¬cond1_0 i) (hc1 : cond1_1 i)
    (x0 : Vec F S2048x256 .bf16) (x1 : Vec F S512x256 .bf16) (x2 : Vec F S2048x1 .f32) (x3 : Vec F S512x1 .f32)
    (x4 : Vec F S1x64 .f32) (x5 : Vec F S1x64 .f32) (x6 : Vec F S64x1 .f32) (x7 : Vec F S1x1 .f32) (xs0 : Vec F S2048x1 .f32) :
    sout1_C_0 c i arg2 harg2 arg3 harg3 arg4 harg4 arg5 harg5 arg6 harg6 arg7 harg7 arg8 harg8 arg9 harg9 arg10 harg10 arg11 harg11 hc0 hc1 x0 x1 x2 x3 x4 x5 x6 x7 xs0 = k1_pay3 x0 x1 x2 x3 xs0 := by
  unfold sout1_C_0
  rw [View.read_writes_eq_canon _ _ _ (scover1_C_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun1_C
  dsimp only
  sl_unfold_words
  rw [View.canon_cons_unit_zero (S := S2048x1) hz2_1]
  simp only [View.readCov_unit_zero (S := S2048x1) _ hz2_1, View.readAt_eq_ld,
    harg2.read_unread, harg3.read_unread, harg4.read_unread, harg5.read_unread, harg6.read_unread, harg7.read_unread,
    harg8.read_unread, harg9.read_unread, harg10.read_unread, harg11.read_unread,
    View.ld_unit_zero (S := S2048x256) hz2_1, View.ld_unit_zero (S := S512x256) hz2_1, View.ld_unit_zero (S := S2048x1) hz2_1,
    View.ld_unit_zero (S := S512x1) hz2_1, View.ld_unit_zero (S := S1x64) hz2_1, View.ld_unit_zero (S := S64x1) hz2_1,
    View.ld_unit_zero (S := S1x1) hz2_1]
  try rfl

/-- and the output block: the head applied to the sums AFTER this tile's update (the body reads the accumulator
    back after storing it). -/
theorem out1_C_8_eq (c : Dev nD) (i : grid1.Coords)
    (arg2 : Memref sig .tc .vmem S2048x256 .bf16) (harg2 : arg2.IsWhole) (arg3 : Memref sig .tc .vmem S512x256 .bf16) (harg3 : arg3.IsWhole)
    (arg4 : Memref sig .tc .vmem S2048x1 .f32) (harg4 : arg4.IsWhole) (arg5 : Memref sig .tc .vmem S512x1 .f32) (harg5 : arg5.IsWhole)
    (arg6 : Memref sig .tc .vmem S1x64 .f32) (harg6 : arg6.IsWhole) (arg7 : Memref sig .tc .vmem S1x64 .f32) (harg7 : arg7.IsWhole)
    (arg8 : Memref sig .tc .vmem S64x1 .f32) (harg8 : arg8.IsWhole) (arg9 : Memref sig .tc .vmem S1x1 .f32) (harg9 : arg9.IsWhole)
    (arg10 : Memref sig .tc .vmem S2048x1 .f32) (harg10 : arg10.IsWhole) (arg11 : Memref sig .tc .vmem S2048x1 .f32) (harg11 : arg11.IsWhole)
    (hc0 : ¬cond1_0 i) (hc1 : cond1_1 i)
    (x0 : Vec F S2048x256 .bf16) (x1 : Vec F S512x256 .bf16) (x2 : Vec F S2048x1 .f32) (x3 : Vec F S512x1 .f32)
    (x4 : Vec F S1x64 .f32) (x5 : Vec F S1x64 .f32) (x6 : Vec F S64x1 .f32) (x7 : Vec F S1x1 .f32) (xs0 : Vec F S2048x1 .f32) :
    out1_C_8 c i arg2 harg2 arg3 harg3 arg4 harg4 arg5 harg5 arg6 harg6 arg7 harg7 arg8 harg8 arg9 harg9 arg10 harg10 arg11 harg11 hc0 hc1 x0 x1 x2 x3 x4 x5 x6 x7 xs0 = k1_pay1 (k1_pay3 x0 x1 x2 x3 xs0) x4 x5 x6 x7 := by
  unfold out1_C_8
  rw [View.read_writes_eq_canon _ _ _ (cover1_C_8 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun1_C
  dsimp only
  sl_unfold_words
  rw [View.canon_cons_unit_zero (S := S2048x1) hz2_1]
  simp only [View.readCov_unit_zero (S := S2048x1) _ hz2_1, View.readAt_eq_ld,
    harg2.read_unread, harg3.read_unread, harg4.read_unread, harg5.read_unread, harg6.read_unread, harg7.read_unread,
    harg8.read_unread, harg9.read_unread, harg10.read_unread, harg11.read_unread,
    View.ld_unit_zero (S := S2048x256) hz2_1, View.ld_unit_zero (S := S512x256) hz2_1, View.ld_unit_zero (S := S2048x1) hz2_1,
    View.ld_unit_zero (S := S512x1) hz2_1, View.ld_unit_zero (S := S1x64) hz2_1, View.ld_unit_zero (S := S64x1) hz2_1,
    View.ld_unit_zero (S := S1x1) hz2_1]
  try rfl

/-! ## The recurrence, point by point -/

/-- After any point the accumulator holds the tile's update of zero (at a first column tile) or of what the point
    before left. -/
theorem outsAt1_acc (c : Dev nD) (t : Fin cfg1.N) :
    (outsAt1 V c t.val t.isLt).2 = k1_pay3 (iblk1 V c 0 t) (iblk1 V c 1 t) (iblk1 V c 2 t) (iblk1 V c 3 t)
      (if t.val % 16 = 0 then k1_pay2 (F := F) else (outsAt1 V c (t.val - 1) (Nat.lt_of_le_of_lt (Nat.sub_le _ _) t.isLt)).2) := by
  by_cases h0 : t.val % 16 = 0
  · have h1 : ¬t.val % 16 = 15 := by omega
    rw [outsAt1_A V c t h0 h1, if_pos h0]
    dsimp only
    exact sout1_A_0_eq (F := F) c _ _ _ _ _ _ _ _ _ _ _ _ _ _ _ _ _ _ _ _ _ _ _ _ _ _ _ _ _ _ _
  · by_cases h1 : t.val % 16 = 15
    · rw [outsAt1_C V c t h0 h1, if_neg h0]
      dsimp only
      exact sout1_C_0_eq (F := F) c _ _ _ _ _ _ _ _ _ _ _ _ _ _ _ _ _ _ _ _ _ _ _ _ _ _ _ _ _ _ _ _
    · rw [outsAt1_B V c t h0 h1, if_neg h0]
      dsimp only
      exact sout1_B_0_eq (F := F) c _ _ _ _ _ _ _ _ _ _ _ _ _ _ _ _ _ _ _ _ _ _ _ _ _ _ _ _ _ _ _ _

/-- After a last column tile the output's buffer holds the head applied to the accumulator as that tile leaves it. -/
theorem outsAt1_head (c : Dev nD) (t : Fin cfg1.N) (h1 : t.val % 16 = 15) :
    (outsAt1 V c t.val t.isLt).1 = k1_pay1 ((outsAt1 V c t.val t.isLt).2) (iblk1 V c 4 t) (iblk1 V c 5 t) (iblk1 V c 6 t) (iblk1 V c 7 t) := by
  have h0 : ¬t.val % 16 = 0 := by omega
  rw [outsAt1_C V c t h0 h1]
  dsimp only
  rw [out1_C_8_eq (F := F), sout1_C_0_eq (F := F)]

end Cert.KernelIdeal.Hand

end
-- ==== Proof.KI.R1Blocks.lean ====
/-
  The second kernel region's pipeline, block by block. The grid has 4 row tiles by 16 column tiles; point `t` is at row
  tile `t / 16` and column tile `t % 16`. The printed index maps are decided once over the grid (`idx1_facts`); each input
  window's block is then read at literal coordinates as an entry of its array — a block's coordinate is the block index
  times the block size plus the coordinate inside the block (`iblk1_0_apply` … `iblk1_7_apply`; the last four windows hold
  whole arrays). The output array is written back once per row tile, at its last column tile; those 4 blocks tile the
  8192 rows, so after the run the array is one function of its index (`G8`, `flushed1_8_eq`, `cover1_8`, `final1_8`):
  at global row `R`, what the output's staging buffer holds after point `16 · (R / 2048) + 15`, at row `R % 2048` of the
  tile (`out1_apply`).
-/
import proofs.«178816_j65481071400898_2_alg».proof.Proof.KI.R1Dat
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The index maps over the grid -/

/-- The nine windows' block indices at point `t` of the 4 × 16 grid: the row-tile windows sit at block `t / 16`, the
    column-tile windows at block `t % 16`, the whole-array windows at block 0; the second axis is never cut. -/
theorem idx1_facts : ∀ t : Fin cfg1.N,
    win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = 0
    ∧ win1_3.index t (0 : Fin 2) = t.val % 16 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val / 16 ∧ win1_8.index t (1 : Fin 2) = 0 :=
  (by decide +kernel : ∀ t : Fin grid1.N, _)

/-! ## The input windows' blocks at literal coordinates -/

/-- Window 0, the row block: row `r` of the block at point `t` is row `2048 · (t / 16) + r` of the array. -/
theorem iblk1_0_apply (c : Dev nD) (t : Fin cfg1.N) (r : Fin 2048) (d : Fin 256) :
    iblk1 V c 0 t (ValueIdx.ix2 r d)
      = V c main_v9_0 (ValueIdx.ix2 (⟨2048 * (t.val / 16) + r.val, by
          have hN : t.val < 64 := lt_of_lt_of_eq t.isLt (show cfg1.N = 64 from N_1)
          have := r.isLt; omega⟩ : Fin 8192) d) := by
  obtain ⟨e0, e1, -⟩ := idx1_facts t
  unfold iblk1
  rw [View.read_apply]
  show V c main_v9_0 _ = V c main_v9_0 _
  congr 1
  funext a
  apply Fin.ext
  match a with
  | ⟨0, _⟩ => show win1_0.index t (0 : Fin 2) * 2048 + 1 * r.val = 2048 * (t.val / 16) + r.val; rw [e0]; omega
  | ⟨1, _⟩ => show win1_0.index t (1 : Fin 2) * 256 + 1 * d.val = d.val; rw [e1]; omega

/-- Window 1, the column block of the same array: row `c'` of the block is row `512 · (t % 16) + c'` of the array. -/
theorem iblk1_1_apply (c : Dev nD) (t : Fin cfg1.N) (c' : Fin 512) (d : Fin 256) :
    iblk1 V c 1 t (ValueIdx.ix2 c' d)
      = V c main_v9_0 (ValueIdx.ix2 (⟨512 * (t.val % 16) + c'.val, by
          have := c'.isLt; omega⟩ : Fin 8192) d) := by
  obtain ⟨-, -, e0, e1, -⟩ := idx1_facts t
  unfold iblk1
  rw [View.read_apply]
  show V c main_v9_0 _ = V c main_v9_0 _
  congr 1
  funext a
  apply Fin.ext
  match a with
  | ⟨0, _⟩ => show win1_1.index t (0 : Fin 2) * 512 + 1 * c'.val = 512 * (t.val % 16) + c'.val; rw [e0]; omega
  | ⟨1, _⟩ => show win1_1.index t (1 : Fin 2) * 256 + 1 * d.val = d.val; rw [e1]; omega

/-- Window 2, the row block's squared norms: entry `r` of the block is entry `2048 · (t / 16) + r` of the column. -/
theorem iblk1_2_apply (c : Dev nD) (t : Fin cfg1.N) (r : Fin 2048) :
    iblk1 V c 2 t (ValueIdx.ix2 r (0 : Fin 1))
      = V c main_v9_1 (ValueIdx.ix2 (⟨2048 * (t.val / 16) + r.val, by
          have hN : t.val < 64 := lt_of_lt_of_eq t.isLt (show cfg1.N = 64 from N_1)
          have := r.isLt; omega⟩ : Fin 8192) (0 : Fin 1)) := by
  obtain ⟨-, -, -, -, e0, e1, -⟩ := idx1_facts t
  unfold iblk1
  rw [View.read_apply]
  show V c main_v9_1 _ = V c main_v9_1 _
  congr 1
  funext a
  apply Fin.ext
  match a with
  | ⟨0, _⟩ => show win1_2.index t (0 : Fin 2) * 2048 + 1 * r.val = 2048 * (t.val / 16) + r.val; rw [e0]; omega
  | ⟨1, _⟩ => show win1_2.index t (1 : Fin 2) * 1 + 1 * 0 = 0; rw [e1]

/-- Window 3, the column block's squared norms: entry `c'` of the block is entry `512 · (t % 16) + c'` of the column. -/
theorem iblk1_3_apply (c : Dev nD) (t : Fin cfg1.N) (c' : Fin 512) :
    iblk1 V c 3 t (ValueIdx.ix2 c' (0 : Fin 1))
      = V c main_v9_1 (ValueIdx.ix2 (⟨512 * (t.val % 16) + c'.val, by
          have := c'.isLt; omega⟩ : Fin 8192) (0 : Fin 1)) := by
  obtain ⟨-, -, -, -, -, -, e0, e1, -⟩ := idx1_facts t
  unfold iblk1
  rw [View.read_apply]
  show V c main_v9_1 _ = V c main_v9_1 _
  congr 1
  funext a
  apply Fin.ext
  match a with
  | ⟨0, _⟩ => show win1_3.index t (0 : Fin 2) * 512 + 1 * c'.val = 512 * (t.val % 16) + c'.val; rw [e0]; omega
  | ⟨1, _⟩ => show win1_3.index t (1 : Fin 2) * 1 + 1 * 0 = 0; rw [e1]

/-- Window 4 holds the whole `[1, 64]` first-layer weights at every point. -/
theorem iblk1_4_apply (c : Dev nD) (t : Fin cfg1.N) (j : S1x64.Idx) : iblk1 V c 4 t j = V c main_arg3 j := by
  obtain ⟨-, -, -, -, -, -, -, -, e0, e1, -⟩ := idx1_facts t
  unfold iblk1
  rw [View.read_apply]
  show V c main_arg3 _ = V c main_arg3 _
  congr 1
  funext a
  apply Fin.ext
  match a with
  | ⟨0, _⟩ => show win1_4.index t (0 : Fin 2) * 1 + 1 * (j 0).val = (j 0).val; rw [e0]; omega
  | ⟨1, _⟩ => show win1_4.index t (1 : Fin 2) * 64 + 1 * (j 1).val = (j 1).val; rw [e1]; omega

/-- Window 5 holds the whole `[1, 64]` first-layer bias at every point. -/
theorem iblk1_5_apply (c : Dev nD) (t : Fin cfg1.N) (j : S1x64.Idx) : iblk1 V c 5 t j = V c main_v10 j := by
  obtain ⟨-, -, -, -, -, -, -, -, -, -, e0, e1, -⟩ := idx1_facts t
  unfold iblk1
  rw [View.read_apply]
  show V c main_v10 _ = V c main_v10 _
  congr 1
  funext a
  apply Fin.ext
  match a with
  | ⟨0, _⟩ => show win1_5.index t (0 : Fin 2) * 1 + 1 * (j 0).val = (j 0).val; rw [e0]; omega
  | ⟨1, _⟩ => show win1_5.index t (1 : Fin 2) * 64 + 1 * (j 1).val = (j 1).val; rw [e1]; omega

/-- Window 6 holds the whole `[64, 1]` second-layer weights at every point. -/
theorem iblk1_6_apply (c : Dev nD) (t : Fin cfg1.N) (j : S64x1.Idx) : iblk1 V c 6 t j = V c main_arg5 j := by
  obtain ⟨-, -, -, -, -, -, -, -, -, -, -, -, e0, e1, -⟩ := idx1_facts t
  unfold iblk1
  rw [View.read_apply]
  show V c main_arg5 _ = V c main_arg5 _
  congr 1
  funext a
  apply Fin.ext
  match a with
  | ⟨0, _⟩ => show win1_6.index t (0 : Fin 2) * 64 + 1 * (j 0).val = (j 0).val; rw [e0]; omega
  | ⟨1, _⟩ => show win1_6.index t (1 : Fin 2) * 1 + 1 * (j 1).val = (j 1).val; rw [e1]; omega

/-- Window 7 holds the whole `[1, 1]` second-layer bias at every point. -/
theorem iblk1_7_apply (c : Dev nD) (t : Fin cfg1.N) (j : S1x1.Idx) : iblk1 V c 7 t j = V c main_v11 j := by
  obtain ⟨-, -, -, -, -, -, -, -, -, -, -, -, -, -, e0, e1, -⟩ := idx1_facts t
  unfold iblk1
  rw [View.read_apply]
  show V c main_v11 _ = V c main_v11 _
  congr 1
  funext a
  apply Fin.ext
  match a with
  | ⟨0, _⟩ => show win1_7.index t (0 : Fin 2) * 1 + 1 * (j 0).val = (j 0).val; rw [e0]; omega
  | ⟨1, _⟩ => show win1_7.index t (1 : Fin 2) * 1 + 1 * (j 1).val = (j 1).val; rw [e1]; omega

/-! ## The output array after the run -/

/-- The last point of the row tile that holds global row `R`: point `16 · (R / 2048) + 15`. -/
def lastPt1 (R : Fin 8192) : Fin cfg1.N :=
  ⟨16 * (R.val / 2048) + 15, by have := R.isLt; have hN : cfg1.N = 64 := N_1; omega⟩

/-- What the output array ends holding, as one function of its index: at global row `R`, what the output's staging
    buffer holds after the last point of `R`'s row tile, at the row's place `R % 2048` inside the tile. -/
def G8 (c : Dev nD) : S8192x1.Idx → Elt F .f32 := fun i =>
  (outsAt1 V c (lastPt1 ⟨(i 0).val, (i 0).isLt⟩).val (lastPt1 ⟨(i 0).val, (i 0).isLt⟩).isLt).1
    (ValueIdx.ix2 (⟨(i 0).val % 2048, Nat.mod_lt _ (by decide)⟩ : Fin 2048) (⟨(i 1).val, (i 1).isLt⟩ : Fin 1))

/-- `G8` at an index, read at any point and tile coordinates that name the same row. -/
theorem G8_apply_of (c : Dev nD) (i : S8192x1.Idx) (t : Fin cfg1.N) (x : S2048x1.Idx)
    (ht : t.val = 16 * ((i 0).val / 2048) + 15) (hx0 : (x 0).val = (i 0).val % 2048) (hx1 : (x 1).val = (i 1).val) :
    G8 V c i = (outsAt1 V c t.val t.isLt).1 x := by
  obtain rfl : t = lastPt1 ⟨(i 0).val, (i 0).isLt⟩ := Fin.ext ht
  unfold G8
  refine congrArg _ (funext fun a => Fin.ext ?_)
  match a with
  | ⟨0, _⟩ => exact hx0.symm
  | ⟨1, _⟩ => exact hx1.symm

/-- WHAT A LAST COLUMN TILE WRITES BACK is its block of `G8`. -/
theorem flushed1_8_eq (c : Dev nD) (t : Fin cfg1.N) (hf : (cfg1.win 8).flush t = true) :
    (dat1 V c).flushed 8 t = ((cfg1.win 8).blk t).view.read (Elt F) (G8 V c) := by
  have hN : t.val < 64 := lt_of_lt_of_eq t.isLt (show cfg1.N = 64 from N_1)
  have h15 : t.val % 16 = 15 := (flush1_8 t).mp hf
  obtain ⟨-, -, -, -, -, -, -, -, -, -, -, -, -, -, -, -, e0, e1⟩ := idx1_facts t
  show (cfg1.win 8).cut (grid1.coords t) ((dat1 V c).after 8 t) = _
  rw [after1_8]
  funext j
  rw [View.read_apply]
  have hj0 : (j 0).val < 2048 := (j 0).isLt
  have hj1 : (j 1).val < 1 := (j 1).isLt
  refine (G8_apply_of V c _ t _ ?_ ?_ ?_).symm
  · show t.val = 16 * ((win1_8.index t (0 : Fin 2) * 2048 + 1 * (j 0).val) / 2048) + 15
    rw [e0]; omega
  · show (j 0).val = (win1_8.index t (0 : Fin 2) * 2048 + 1 * (j 0).val) % 2048
    rw [e0]; omega
  · show (j 1).val = win1_8.index t (1 : Fin 2) * 1 + 1 * (j 1).val
    rw [e1]; omega

/-- An index of the output array is in point `t`'s block iff each coordinate is in the block's range on its axis. -/
theorem mem_blk1_8 (t : Fin cfg1.N) (i : S8192x1.Idx) :
    i ∈ ((cfg1.win 8).blk t).view.set ↔ ∀ a : Fin 2, win1_8.index t a * S2048x1.size a ≤ (i a).val ∧ (i a).val < win1_8.index t a * S2048x1.size a + S2048x1.size a := by
  show i ∈ ((View.whole main_v12).slice (win1_8.rect t)).set ↔ _
  rw [View.set_slice_whole, Rect.mem_set_unit]
  exact Iff.rfl

/-- Every index of the output array is in the block some last column tile writes back: its row tile's. -/
theorem cover1_8 (i : S8192x1.Idx) : ∃ t : Fin cfg1.N, (cfg1.win 8).flush t = true ∧ i ∈ ((cfg1.win 8).blk t).view.set := by
  have hi0 : (i 0).val < 8192 := (i 0).isLt
  have hi1 : (i 1).val < 1 := (i 1).isLt
  have htv : (lastPt1 ⟨(i 0).val, (i 0).isLt⟩).val = 16 * ((i 0).val / 2048) + 15 := rfl
  obtain ⟨-, -, -, -, -, -, -, -, -, -, -, -, -, -, -, -, e0, e1⟩ := idx1_facts (lastPt1 ⟨(i 0).val, (i 0).isLt⟩)
  refine ⟨lastPt1 ⟨(i 0).val, (i 0).isLt⟩, (flush1_8 _).mpr (by rw [htv]; omega), ?_⟩
  rw [mem_blk1_8]
  intro a
  match a with
  | ⟨0, _⟩ =>
    show win1_8.index (lastPt1 ⟨(i 0).val, (i 0).isLt⟩) (0 : Fin 2) * 2048 ≤ (i 0).val ∧ (i 0).val < win1_8.index (lastPt1 ⟨(i 0).val, (i 0).isLt⟩) (0 : Fin 2) * 2048 + 2048
    rw [e0, htv]; omega
  | ⟨1, _⟩ =>
    show win1_8.index (lastPt1 ⟨(i 0).val, (i 0).isLt⟩) (1 : Fin 2) * 1 ≤ (i 1).val ∧ (i 1).val < win1_8.index (lastPt1 ⟨(i 0).val, (i 0).isLt⟩) (1 : Fin 2) * 1 + 1
    rw [e1]; omega

/-- THE OUTPUT ARRAY after the run is `G8`: the write-backs tile it. -/
theorem final1_8 (c : Dev nD) : (dat1 V c).arrAt 8 cfg1.N = G8 V c :=
  (dat1 V c).arrAt_eq_of_cover 8 (G8 V c) (flushed1_8_eq V c) cover1_8

/-- The output array at global row `R`: what the output's staging buffer holds after the last point of `R`'s row
    tile, at the row's place inside the tile. -/
theorem out1_apply (c : Dev nD) (R : Fin 8192) :
    (dat1 V c).arrAt 8 cfg1.N (ValueIdx.ix2 R (0 : Fin 1))
      = (outsAt1 V c (16 * (R.val / 2048) + 15) (by have := R.isLt; have hN : cfg1.N = 64 := N_1; omega)).1
          (ValueIdx.ix2 (⟨R.val % 2048, Nat.mod_lt _ (by decide)⟩ : Fin 2048) (0 : Fin 1)) := by
  rw [final1_8]
  rfl

end Cert.KernelIdeal.Hand

end
-- ==== Proof.KI.PayIdx1.lean ====
/-
  The second kernel's payloads read at an index, at the ideal values (every float an extended real, every operation
  exact, a change of format the identity).

  Per column tile the body holds a row block `x0` [2048, 256] and a column block `x1` [512, 256] of one matrix, their
  squared row norms `x2` [2048, 1] and `x3` [512, 1], and the running row sum `acc` [2048, 1]. Entry `(r, c)` of the tile
  is `exp (−max (‖x0 r‖² + ‖x1 c‖² − 2·⟨x0 r, x1 c⟩) 0)`; the step adds the tile's row sums to `acc` (`pay3_apply`); the
  sum starts at zero (`pay2_apply`); at the last tile the row sum is scaled to a mean and goes through a two-layer head,
  `max (mean · w1 + b1) 0` over 64 units, then the sum against `w2` plus `b2` (`pay1_apply`).

  Each statement keeps the payload's own association and operand order and its float literals as words. The layout
  operations in between are read through: a shape cast to the same shape is the identity, a column `[a, 1]` broadcast to
  `[a, b]` repeats the column (`broadcastTo_a1_ab_apply`), a row `[1, b]` broadcast repeats the row, a transpose swaps the
  coordinates, a vector `[a]` cast to a column `[a, 1]` keeps its entries (`shapeCast_a_a1_apply`); a product into the zero
  splat is the sum over the contracted coordinate (`matmul_gram_apply`, `matmul_head_apply`), and a lane sum along the
  second axis is the sum over a row (`rowSum_apply`).
-/
import proofs.«178816_j65481071400898_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.PayIdx1

open Cert.KernelIdeal Cert.KernelIdeal.Gen Idealize.ShloMosaic Idealize.ShloMosaic.ValueIdx

variable {α : Type}

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The product of a `[2048, 256]` block with a `[256, 512]` block into the zero splat, at `(r, c)`: the sum over the contracted coordinate. -/
theorem matmul_gram_lhs0 (i : S2048x512.Idx) (q : dot_S2048x256_S256x512_S2048x512_1_0_0_1_n_n.contr.Idx) :
    (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
theorem matmul_gram_rhs1 (i : S2048x512.Idx) (q : dot_S2048x256_S256x512_S2048x512_1_0_0_1_n_n.contr.Idx) :
    (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl
theorem matmul_gram_apply (lhs : FVec Ideal S2048x256 .bf16) (rhs : FVec Ideal S256x512 .bf16) (r : Fin 2048) (c : Fin 512) :
    matmul dot_S2048x256_S256x512_S2048x512_1_0_0_1_n_n none lhs rhs (constant (F := Ideal) S2048x512 .f32 0x00000000#32) (ix2 r c)
      = ∑ k : Fin 256, lhs (ix2 r k) * rhs (ix2 k c) := by
  refine (Ideal.matmul_constant_zero_apply dot_S2048x256_S256x512_S2048x512_1_0_0_1_n_n none lhs rhs (ix2 r c)).trans ?_
  rw [← Equiv.sum_comp (contrEquiv1 dot_S2048x256_S256x512_S2048x512_1_0_0_1_n_n 256 rfl rfl).symm]
  refine Finset.sum_congr rfl fun k _ => ?_
  have hk := contrEquiv1_symm_val dot_S2048x256_S256x512_S2048x512_1_0_0_1_n_n 256 rfl rfl k
  have el : dot_S2048x256_S256x512_S2048x512_1_0_0_1_n_n.lhsIdx (ix2 r c) ((contrEquiv1 dot_S2048x256_S256x512_S2048x512_1_0_0_1_n_n 256 rfl rfl).symm k) = ix2 r k := funext fun a => Fin.ext (by
    match a with
    | ⟨0, _⟩ => exact matmul_gram_lhs0 _ _
    | ⟨1, _⟩ => exact (dot_S2048x256_S256x512_S2048x512_1_0_0_1_n_n.lhsIdx_val_of_single rfl _ _).trans hk)
  have er : dot_S2048x256_S256x512_S2048x512_1_0_0_1_n_n.rhsIdx (ix2 r c) ((contrEquiv1 dot_S2048x256_S256x512_S2048x512_1_0_0_1_n_n 256 rfl rfl).symm k) = ix2 k c := funext fun a => Fin.ext (by
    match a with
    | ⟨0, _⟩ => exact (dot_S2048x256_S256x512_S2048x512_1_0_0_1_n_n.rhsIdx_val_of_single rfl _ _).trans hk
    | ⟨1, _⟩ => exact matmul_gram_rhs1 _ _)
  rw [el, er]

/-- The product of a `[2048, 64]` block with a `[64, 1]` column into the zero splat, at `(r, c)`: the sum over the contracted coordinate. -/
theorem matmul_head_lhs0 (i : S2048x1.Idx) (q : dot_S2048x64_S64x1_S2048x1_1_0_0_1_n_n.contr.Idx) :
    (dot_S2048x64_S64x1_S2048x1_1_0_0_1_n_n.lhsIdx i q 0).val = (i 0).val := by
  unfold DotDims.lhsIdx
  rw [dif_neg (show ¬(0 : Fin S2048x64.rank) ∈ dot_S2048x64_S64x1_S2048x1_1_0_0_1_n_n.lhsBatch by decide), dif_pos (show (0 : Fin S2048x64.rank) ∈ dot_S2048x64_S64x1_S2048x1_1_0_0_1_n_n.lhsNonContracting by decide)]
  rfl
theorem matmul_head_rhs1 (i : S2048x1.Idx) (q : dot_S2048x64_S64x1_S2048x1_1_0_0_1_n_n.contr.Idx) :
    (dot_S2048x64_S64x1_S2048x1_1_0_0_1_n_n.rhsIdx i q 1).val = (i 1).val := by
  unfold DotDims.rhsIdx
  rw [dif_neg (show ¬(1 : Fin S64x1.rank) ∈ dot_S2048x64_S64x1_S2048x1_1_0_0_1_n_n.rhsBatch by decide), dif_pos (show (1 : Fin S64x1.rank) ∈ dot_S2048x64_S64x1_S2048x1_1_0_0_1_n_n.rhsNonContracting by decide)]
  rfl
theorem matmul_head_apply (lhs : FVec Ideal S2048x64 .bf16) (rhs : FVec Ideal S64x1 .bf16) (r : Fin 2048) (c : Fin 1) :
    matmul dot_S2048x64_S64x1_S2048x1_1_0_0_1_n_n none lhs rhs (constant (F := Ideal) S2048x1 .f32 0x00000000#32) (ix2 r c)
      = ∑ k : Fin 64, lhs (ix2 r k) * rhs (ix2 k c) := by
  refine (Ideal.matmul_constant_zero_apply dot_S2048x64_S64x1_S2048x1_1_0_0_1_n_n none lhs rhs (ix2 r c)).trans ?_
  rw [← Equiv.sum_comp (contrEquiv1 dot_S2048x64_S64x1_S2048x1_1_0_0_1_n_n 64 rfl rfl).symm]
  refine Finset.sum_congr rfl fun k _ => ?_
  have hk := contrEquiv1_symm_val dot_S2048x64_S64x1_S2048x1_1_0_0_1_n_n 64 rfl rfl k
  have el : dot_S2048x64_S64x1_S2048x1_1_0_0_1_n_n.lhsIdx (ix2 r c) ((contrEquiv1 dot_S2048x64_S64x1_S2048x1_1_0_0_1_n_n 64 rfl rfl).symm k) = ix2 r k := funext fun a => Fin.ext (by
    match a with
    | ⟨0, _⟩ => exact matmul_head_lhs0 _ _
    | ⟨1, _⟩ => exact (dot_S2048x64_S64x1_S2048x1_1_0_0_1_n_n.lhsIdx_val_of_single rfl _ _).trans hk)
  have er : dot_S2048x64_S64x1_S2048x1_1_0_0_1_n_n.rhsIdx (ix2 r c) ((contrEquiv1 dot_S2048x64_S64x1_S2048x1_1_0_0_1_n_n 64 rfl rfl).symm k) = ix2 k c := funext fun a => Fin.ext (by
    match a with
    | ⟨0, _⟩ => exact (dot_S2048x64_S64x1_S2048x1_1_0_0_1_n_n.rhsIdx_val_of_single rfl _ _).trans hk
    | ⟨1, _⟩ => exact matmul_head_rhs1 _ _)
  rw [el, er]

/-- The lane sum of a `[2048, 512]` block along its second axis, at row `r`: the sum over that row's 512 entries. -/
theorem rowSum_apply (src : FVec Ideal S2048x512 .f32) (r : Fin 2048) :
    multiReduction (F := Ideal) .add [1] S2048 src 0x00000000#32 reduces_S2048x512_S2048 (.inl rfl) rfl (ix1 r)
      = ∑ c : Fin 512, src (ix2 r c) := by
  refine (Ideal.multiReduction_add_single src 0x00000000#32 reduces_S2048x512_S2048 (.inl rfl) rfl (ix1 r)).trans ?_
  refine Finset.sum_congr rfl fun c _ => congrArg src ?_
  funext a
  refine Fin.ext ?_
  match a with
  | ⟨0, _⟩ => rfl
  | ⟨1, _⟩ => rfl

/-- The running row sum starts from the zero splat: every entry is the word `0x00000000`. -/
theorem pay2_apply (j : S2048x1.Idx) : k1_pay2 (F := Ideal) j = Ideal.ofBits .f32 0x00000000#32 := by
  unfold k1_pay2
  exact congrFun (shapeCast_self _ _) j

/-- One column tile's step of the running row sum, at row `r`: the old sum plus the sum over the tile's 512 columns of
    `exp (−max (‖xr‖² + ‖xc‖² − 2·⟨xr, xc⟩) 0)`, with the payload's own association and operand order. -/
theorem pay3_apply (x0 : FVec Ideal S2048x256 .bf16) (x1 : FVec Ideal S512x256 .bf16) (x2 : FVec Ideal S2048x1 .f32)
    (x3 : FVec Ideal S512x1 .f32) (acc : FVec Ideal S2048x1 .f32) (r : Fin 2048) :
    k1_pay3 (F := Ideal) x0 x1 x2 x3 acc (ix2 r (0 : Fin 1))
      = acc (ix2 r (0 : Fin 1)) + ∑ c : Fin 512, Ideal.exp (Ideal.ofBits .f32 0xBF800000#32
          * max ((x2 (ix2 r (0 : Fin 1)) + x3 (ix2 c (0 : Fin 1)))
              - Ideal.ofBits .f32 0x40000000#32 * (∑ d : Fin 256, x0 (ix2 r d) * x1 (ix2 c d)))
            (Ideal.ofBits .f32 0x00000000#32)) := by
  unfold k1_pay3
  refine (congrFun (shapeCast_self _ _) _).trans ?_
  refine congrArg (acc (ix2 r (0 : Fin 1)) + ·) ?_
  refine (shapeCast_a_a1_apply _ _ r 0).trans ?_
  refine (rowSum_apply _ r).trans ?_
  refine Finset.sum_congr rfl fun c _ => ?_
  refine congrArg Ideal.exp ?_
  refine congrArg (Ideal.ofBits .f32 0xBF800000#32 * ·) ?_
  refine congrArg (max · (Ideal.ofBits .f32 0x00000000#32)) ?_
  refine congrArg₂ (· - ·) ?_ ?_
  · refine congrArg₂ (· + ·) ?_ ?_
    · exact (broadcastTo_a1_ab_apply _ _ r c).trans (congrFun (shapeCast_self x2 _) _)
    · exact (broadcastTo_1b_ab_apply _ _ r c).trans
        ((transpose_ix2_apply _ _ (0 : Fin 1) c).trans (congrFun (shapeCast_self x3 _) _))
  · refine congrArg (Ideal.ofBits .f32 0x40000000#32 * ·) ?_
    refine (matmul_gram_apply _ _ r c).trans ?_
    refine Finset.sum_congr rfl fun d _ => congrArg₂ (· * ·) ?_ ?_
    · exact congrFun (shapeCast_self x0 _) _
    · exact (transpose_ix2_apply _ _ d c).trans (congrFun (shapeCast_self x1 _) _)

/-- The head at the last tile, at row `r`: the mean (the row sum times the word `0x39000000`, 2⁻¹³), the first layer
    `max (mean · w1 + b1) 0` over its 64 units, the second layer's sum against `w2`, plus `b2`; the two format
    changes in between are the identity on extended reals. -/
theorem pay1_apply (accv : FVec Ideal S2048x1 .f32) (w1 b1 : FVec Ideal S1x64 .f32) (w2 : FVec Ideal S64x1 .f32)
    (b2 : FVec Ideal S1x1 .f32) (r : Fin 2048) :
    k1_pay1 (F := Ideal) accv w1 b1 w2 b2 (ix2 r (0 : Fin 1))
      = (∑ u : Fin 64, (max ((accv (ix2 r (0 : Fin 1)) * Ideal.ofBits .f32 0x39000000#32) * w1 (ix2 (0 : Fin 1) u)
              + b1 (ix2 (0 : Fin 1) u)) (Ideal.ofBits .f32 0x00000000#32)) * w2 (ix2 u (0 : Fin 1)))
          + b2 (ix2 (0 : Fin 1) (0 : Fin 1)) := by
  unfold k1_pay1
  refine congrArg₂ (· + ·) ?_ ?_
  · refine (matmul_head_apply _ _ r (0 : Fin 1)).trans ?_
    refine Finset.sum_congr rfl fun u _ => congrArg₂ (· * ·) ?_ rfl
    refine congrArg (max · (Ideal.ofBits .f32 0x00000000#32)) ?_
    refine congrArg₂ (· + ·) ?_ ?_
    · refine congrArg₂ (· * ·) ?_ ?_
      · exact broadcastTo_a1_ab_apply _ _ r u
      · exact broadcastTo_1b_ab_apply _ _ r u
    · exact (broadcastTo_1b_ab_apply _ _ r u).trans (congrFun (shapeCast_self b1 _) _)
  · exact (broadcastTo_1b_ab_apply _ _ r (0 : Fin 1)).trans (congrFun (shapeCast_self b2 _) _)

end Cert.KernelIdeal.PayIdx1

end
-- ==== Proof.KI.Value1.lean ====
/-
  The second kernel's output array is the specification's output, given that the first kernel left the attended states
  and their squared norms in the two arrays the second kernel reads.

  Row R of the output lies in row tile R / 2048 at place R % 2048. The accumulator of that row starts at zero and, at
  column tile j, adds the sum over the tile's 512 columns of exp (-max (n[R] + n[C] - 2 a[R]·a[C]) 0), C = 512 j + c;
  after the sixteenth tile the head is applied to it. The weights reach the kernel unchanged, the two biases through
  a reshape that keeps their entries.
-/
import proofs.«178816_j65481071400898_2_alg».proof.Proof.KI.Launch
import proofs.«178816_j65481071400898_2_alg».proof.Proof.KI.R1Pieces
import proofs.«178816_j65481071400898_2_alg».proof.Proof.KI.R1Blocks
import proofs.«178816_j65481071400898_2_alg».proof.Proof.KI.PayIdx1
import proofs.«178816_j65481071400898_2_alg».proof.Proof.KI.HostVals
import proofs.«178816_j65481071400898_2_alg».proof.Proof.Bridge
import proofs.«178816_j65481071400898_2_alg».proof.Proof.LibTileSums

set_option maxRecDepth 16384

noncomputable section

open scoped BigOperators

namespace Cert.KernelIdeal.Value1

open Cert.KernelIdeal Cert.KernelIdeal.Gen Cert.KernelIdeal.Hand Idealize.ShloMosaic Idealize.ShloMosaic.ValueIdx
open Idealize.ShloMosaic.TcCoe Idealize.SL.Sem Idealize.ShloMosaic.StableHlo

/-! ## Points and rows -/

/-- Column tile j of row tile i is a point of the grid. -/
theorem pt_lt {i j : ℕ} (hi : i < 4) (hj : j < 16) : 16 * i + j < cfg1.N :=
  lt_of_lt_of_eq (by omega : 16 * i + j < 64) (show (64 : ℕ) = cfg1.N from N_1.symm)

/-- A row of the array lies in one of four row tiles. -/
theorem row_lt (R : Fin 8192) : R.val / 2048 < 4 := by have := R.isLt; omega

/-- Row r of row tile i, as a row of the array. -/
def rowIdx1 (i : ℕ) (hi : i < 4) (r : Fin 2048) : Fin 8192 := ⟨2048 * i + r.val, by have := r.isLt; omega⟩
/-- Column c' of column tile j, as a row of the array the columns are read from. -/
def colIdx1 (j : ℕ) (hj : j < 16) (c' : Fin 512) : Fin 8192 := ⟨512 * j + c'.val, by have := c'.isLt; omega⟩

/-! ## One point's step, over any entry contents -/

section Step

variable (V : (c : Dev nD) → (b : Ref sig .tc) → Buf (Elt Ideal) ((c : Thread nD τ).loc b)) (c : Dev nD)

/-- The array of attended states as the kernel finds it, and the array of their squared norms, as functions to the
    extended reals. -/
abbrev attnAt : S8192x256.Idx → EReal := V c main_v9_0
abbrev sqnAt : S8192x1.Idx → EReal := V c main_v9_1

/-- The contents after a point depend on the point's position only. -/
theorem outsAt1_congr {n n' : ℕ} (e : n = n') (hn : n < cfg1.N) (hn' : n' < cfg1.N) :
    outsAt1 V c n hn = outsAt1 V c n' hn' := by subst e; rfl

/-- The accumulator's recurrence at a position given as a number. -/
theorem acc_nat (n : ℕ) (hn : n < cfg1.N) :
    (outsAt1 V c n hn).2 = k1_pay3 (iblk1 V c 0 ⟨n, hn⟩) (iblk1 V c 1 ⟨n, hn⟩) (iblk1 V c 2 ⟨n, hn⟩) (iblk1 V c 3 ⟨n, hn⟩)
      (if n % 16 = 0 then k1_pay2 (F := Ideal) else (outsAt1 V c (n - 1) (Nat.lt_of_le_of_lt (Nat.sub_le _ _) hn)).2) :=
  outsAt1_acc V c ⟨n, hn⟩

/-- The head at a last column tile, at a position given as a number. -/
theorem head_nat (n : ℕ) (hn : n < cfg1.N) (h1 : n % 16 = 15) :
    (outsAt1 V c n hn).1 = k1_pay1 ((outsAt1 V c n hn).2) (iblk1 V c 4 ⟨n, hn⟩) (iblk1 V c 5 ⟨n, hn⟩) (iblk1 V c 6 ⟨n, hn⟩) (iblk1 V c 7 ⟨n, hn⟩) :=
  outsAt1_head V c ⟨n, hn⟩ h1

/-- The row block at column tile j of row tile i holds rows 2048 i … 2048 i + 2047 of the attended states, -/
theorem blk0_at (i j : ℕ) (hi : i < 4) (hj : j < 16) (r : Fin 2048) (d : Fin 256) :
    iblk1 V c 0 ⟨16 * i + j, pt_lt hi hj⟩ (ix2 r d) = V c main_v9_0 (ix2 (rowIdx1 i hi r) d) :=
  (iblk1_0_apply V c ⟨16 * i + j, pt_lt hi hj⟩ r d).trans
    (congrArg (fun a : Fin 8192 => V c main_v9_0 (ix2 a d))
      (Fin.ext (by show 2048 * ((16 * i + j) / 16) + r.val = 2048 * i + r.val; omega)))
/-- the column block rows 512 j … 512 j + 511 of the same array, -/
theorem blk1_at (i j : ℕ) (hi : i < 4) (hj : j < 16) (c' : Fin 512) (d : Fin 256) :
    iblk1 V c 1 ⟨16 * i + j, pt_lt hi hj⟩ (ix2 c' d) = V c main_v9_0 (ix2 (colIdx1 j hj c') d) :=
  (iblk1_1_apply V c ⟨16 * i + j, pt_lt hi hj⟩ c' d).trans
    (congrArg (fun a : Fin 8192 => V c main_v9_0 (ix2 a d))
      (Fin.ext (by show 512 * ((16 * i + j) % 16) + c'.val = 512 * j + c'.val; omega)))
/-- and the two norm blocks the same rows of the squared norms. -/
theorem blk2_at (i j : ℕ) (hi : i < 4) (hj : j < 16) (r : Fin 2048) :
    iblk1 V c 2 ⟨16 * i + j, pt_lt hi hj⟩ (ix2 r (0 : Fin 1)) = V c main_v9_1 (ix2 (rowIdx1 i hi r) (0 : Fin 1)) :=
  (iblk1_2_apply V c ⟨16 * i + j, pt_lt hi hj⟩ r).trans
    (congrArg (fun a : Fin 8192 => V c main_v9_1 (ix2 a (0 : Fin 1)))
      (Fin.ext (by show 2048 * ((16 * i + j) / 16) + r.val = 2048 * i + r.val; omega)))
theorem blk3_at (i j : ℕ) (hi : i < 4) (hj : j < 16) (c' : Fin 512) :
    iblk1 V c 3 ⟨16 * i + j, pt_lt hi hj⟩ (ix2 c' (0 : Fin 1)) = V c main_v9_1 (ix2 (colIdx1 j hj c') (0 : Fin 1)) :=
  (iblk1_3_apply V c ⟨16 * i + j, pt_lt hi hj⟩ c').trans
    (congrArg (fun a : Fin 8192 => V c main_v9_1 (ix2 a (0 : Fin 1)))
      (Fin.ext (by show 512 * ((16 * i + j) % 16) + c'.val = 512 * j + c'.val; omega)))

/-- ONE STEP. At column tile j of row tile i the accumulator's row r is what it was (zero at the first tile) plus the
    tile's kernel sum, read off the two arrays at the rows the blocks hold. -/
theorem acc_step (i j : ℕ) (hi : i < 4) (hj : j < 16) (r : Fin 2048) :
    (outsAt1 V c (16 * i + j) (pt_lt hi hj)).2 (ix2 r (0 : Fin 1))
      = (if j = 0 then Ideal.ofBits .f32 0x00000000#32
          else (outsAt1 V c (16 * i + (j - 1)) (pt_lt hi (Nat.lt_of_le_of_lt (Nat.sub_le _ _) hj))).2 (ix2 r (0 : Fin 1)))
        + ∑ c' : Fin 512, Ideal.exp (Ideal.ofBits .f32 0xBF800000#32
            * max ((sqnAt V c (ix2 (rowIdx1 i hi r) (0 : Fin 1)) + sqnAt V c (ix2 (colIdx1 j hj c') (0 : Fin 1)))
                - Ideal.ofBits .f32 0x40000000#32
                  * ∑ d : Fin 256, attnAt V c (ix2 (rowIdx1 i hi r) d) * attnAt V c (ix2 (colIdx1 j hj c') d))
              (Ideal.ofBits .f32 0x00000000#32)) := by
  refine (congrFun (acc_nat V c (16 * i + j) (pt_lt hi hj)) (ix2 r (0 : Fin 1))).trans ?_
  refine (PayIdx1.pay3_apply _ _ _ _ _ r).trans ?_
  refine congrArg₂ (· + ·) ?_ (Finset.sum_congr rfl fun c' _ => ?_)
  · by_cases h0 : j = 0
    · rw [if_pos h0, if_pos (by omega : (16 * i + j) % 16 = 0)]
      exact PayIdx1.pay2_apply _
    · rw [if_neg h0, if_neg (by omega : ¬(16 * i + j) % 16 = 0)]
      exact congrFun (congrArg Prod.snd (outsAt1_congr V c (by omega) _ _)) _
  · refine congrArg Ideal.exp ?_
    refine congrArg (Ideal.ofBits .f32 0xBF800000#32 * ·) ?_
    refine congrArg (max · (Ideal.ofBits .f32 0x00000000#32)) ?_
    refine congrArg₂ (· - ·) ?_ ?_
    · refine congrArg₂ (· + ·) ?_ ?_
      · exact blk2_at V c i j hi hj r
      · exact blk3_at V c i j hi hj c'
    · refine congrArg (Ideal.ofBits .f32 0x40000000#32 * ·) ?_
      refine Finset.sum_congr rfl fun d _ => congrArg₂ (· * ·) ?_ ?_
      · exact blk0_at V c i j hi hj r d
      · exact blk1_at V c i j hi hj c' d

/-- The accumulator of array row R before column tile j: zero before the first, then what the tile before left at the
    row's place in its row tile (past the sixteen tiles: zero, never read). -/
def acc1 (j : ℕ) (R : Fin 8192) : EReal :=
  match j with
  | 0 => Ideal.ofBits .f32 0x00000000#32
  | j + 1 =>
    if hj : j < 16 then
      (outsAt1 V c (16 * (R.val / 2048) + j) (pt_lt (row_lt R) hj)).2
        (ix2 (⟨R.val % 2048, Nat.mod_lt _ (by decide)⟩ : Fin 2048) (0 : Fin 1))
    else Ideal.ofBits .f32 0x00000000#32

theorem acc1_succ {j : ℕ} (hj : j < 16) (R : Fin 8192) :
    acc1 V c (j + 1) R = (outsAt1 V c (16 * (R.val / 2048) + j) (pt_lt (row_lt R) hj)).2
        (ix2 (⟨R.val % 2048, Nat.mod_lt _ (by decide)⟩ : Fin 2048) (0 : Fin 1)) := by
  exact (show acc1 V c (j + 1) R
      = dite (j < 16) (fun hj => (outsAt1 V c (16 * (R.val / 2048) + j) (pt_lt (row_lt R) hj)).2
          (ix2 (⟨R.val % 2048, Nat.mod_lt _ (by decide)⟩ : Fin 2048) (0 : Fin 1)))
        (fun _ => Ideal.ofBits .f32 0x00000000#32) from rfl).trans (dif_pos hj)

/-- The accumulator's recurrence over the column tiles, row by row of the array. -/
theorem acc1_step (j : ℕ) (hj : j < 16) (R : Fin 8192) :
    acc1 V c (j + 1) R = acc1 V c j R + ∑ c' : Fin 512, Ideal.exp (Ideal.ofBits .f32 0xBF800000#32
        * max ((sqnAt V c (ix2 R (0 : Fin 1)) + sqnAt V c (ix2 (TileSums.tileIdx ⟨j, hj⟩ c') (0 : Fin 1)))
            - Ideal.ofBits .f32 0x40000000#32
              * ∑ d : Fin 256, attnAt V c (ix2 R d) * attnAt V c (ix2 (TileSums.tileIdx ⟨j, hj⟩ c') d))
          (Ideal.ofBits .f32 0x00000000#32)) := by
  have eR : rowIdx1 (R.val / 2048) (row_lt R) (⟨R.val % 2048, Nat.mod_lt _ (by decide)⟩ : Fin 2048) = R :=
    Fin.ext (by show 2048 * (R.val / 2048) + R.val % 2048 = R.val; omega)
  have eC : ∀ c' : Fin 512, colIdx1 j hj c' = TileSums.tileIdx ⟨j, hj⟩ c' := fun c' => Fin.ext rfl
  rw [acc1_succ V c hj R]
  refine (acc_step V c (R.val / 2048) j (row_lt R) hj _).trans ?_
  rw [eR]
  refine congrArg₂ (· + ·) ?_ (Finset.sum_congr rfl fun c' _ => by rw [eC c'])
  cases j with
  | zero => exact if_pos rfl
  | succ j' =>
    rw [if_neg (by omega : ¬j' + 1 = 0), acc1_succ V c (Nat.lt_of_succ_lt hj) R]
    exact congrFun (congrArg Prod.snd (outsAt1_congr V c (by omega) _ _)) _

end Step

/-! ## What the second kernel is entered with -/

section Entry

variable (m : (ℓ : Loc nD τ sig) → Buf (Elt Ideal) ℓ) (c : Dev nD)

/-- A buffer that neither the projections nor the attention kernel writes holds after them what it held at launch. -/
theorem W2_keeps (b : Ref sig .tc) (h0 : b ∉ hostOps0_W) (hk0 : ∀ w, Pipeline.arrRef spec0 w ≠ b) :
    Hand.W2 m c (Proc.devRef .tc b) = m ((c.tc : Thread nD τ).loc b) :=
  (Hand.W2_of_ne m c b hk0).trans ((HostVals.after0_keeps (Hand.W0 m c) b h0).trans rfl)

/-- If the two reshapes do not write it either, the second kernel finds it as launched. -/
theorem W3_keeps (b : Ref sig .tc) (h0 : b ∉ hostOps0_W) (h1 : b ∉ hostOps1_W) (hk0 : ∀ w, Pipeline.arrRef spec0 w ≠ b) :
    Hand.W3 m c (Proc.devRef .tc b) = m ((c.tc : Thread nD τ).loc b) :=
  (HostVals.after1_keeps (Hand.W2 m c) b h1).trans (W2_keeps m c b h0 hk0)

/-- The first layer's bias reaches the kernel as a row: entry u of the vector at (0, u). -/
theorem W3_b1 (u : Fin 64) :
    (Hand.W3 m c (Proc.devRef .tc main_v10) : S1x64.Idx → EReal) (ix2 0 u)
      = (m ((c.tc : Thread nD τ).loc main_arg4) : S64.Idx → EReal) (ix1 u) := by
  refine (HostVals.after1_b1 (Hand.W2 m c) u).trans ?_
  rw [W2_keeps m c main_arg4 (by decide) (by decide)]

/-- The second layer's bias likewise: its one entry at (0, 0). -/
theorem W3_b2 :
    (Hand.W3 m c (Proc.devRef .tc main_v11) : S1x1.Idx → EReal) (ix2 0 0)
      = (m ((c.tc : Thread nD τ).loc main_arg6) : S1.Idx → EReal) (ix1 0) := by
  refine (HostVals.after1_b2 (Hand.W2 m c)).trans ?_
  rw [W2_keeps m c main_arg6 (by decide) (by decide)]

/-- The entry contents read at a TensorCore reference are the boundary valuation there. -/
theorem V3_eq (b : Ref sig .tc) : Hand.V3 m c b = Hand.W3 m c (Proc.devRef .tc b) := rfl

/-! ## The output -/

/-- THE VALUE of the second kernel's output array: row R holds the specification's output at R, once the two arrays
    the kernel reads hold the attended states and their squared norms. -/
theorem out_val
    (hattn : ∀ (R : Fin 8192) (d : Fin 256),
      (Hand.W3 m c (Proc.devRef .tc main_v9_0) : S8192x256.Idx → EReal) (ix2 R d) = Cert.Spec.attn (m ((c.tc : Thread nD τ).loc main_arg0)) (m ((c.tc : Thread nD τ).loc main_arg1)) (m ((c.tc : Thread nD τ).loc main_arg2)) R d)
    (hsq : ∀ R : Fin 8192,
      (Hand.W3 m c (Proc.devRef .tc main_v9_1) : S8192x1.Idx → EReal) (ix2 R (0 : Fin 1)) = Cert.Spec.sqn (m ((c.tc : Thread nD τ).loc main_arg0)) (m ((c.tc : Thread nD τ).loc main_arg1)) (m ((c.tc : Thread nD τ).loc main_arg2)) R)
    (R : Fin 8192) :
    (Hand.W4 m c (Proc.devRef .tc main_v12) : S8192x1.Idx → EReal) (ix2 R (0 : Fin 1))
      = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) R := by
  have hAcc : ∀ j (hj : j < 16) (R : Fin 8192), acc1 (Hand.V3 m) c (j + 1) R
      = acc1 (Hand.V3 m) c j R + ∑ c' : Fin 512, Ideal.exp (Ideal.ofBits .f32 0xBF800000#32
          * max ((Cert.Spec.sqn (m ((c.tc : Thread nD τ).loc main_arg0)) (m ((c.tc : Thread nD τ).loc main_arg1)) (m ((c.tc : Thread nD τ).loc main_arg2)) R + Cert.Spec.sqn (m ((c.tc : Thread nD τ).loc main_arg0)) (m ((c.tc : Thread nD τ).loc main_arg1)) (m ((c.tc : Thread nD τ).loc main_arg2)) (TileSums.tileIdx ⟨j, hj⟩ c'))
              - Ideal.ofBits .f32 0x40000000#32
                * (∑ d : Fin 256, Cert.Spec.attn (m ((c.tc : Thread nD τ).loc main_arg0)) (m ((c.tc : Thread nD τ).loc main_arg1)) (m ((c.tc : Thread nD τ).loc main_arg2)) R d * Cert.Spec.attn (m ((c.tc : Thread nD τ).loc main_arg0)) (m ((c.tc : Thread nD τ).loc main_arg1)) (m ((c.tc : Thread nD τ).loc main_arg2)) (TileSums.tileIdx ⟨j, hj⟩ c') d))
            (Ideal.ofBits .f32 0x00000000#32)) := by
    intro j hj R
    refine (acc1_step (Hand.V3 m) c j hj R).trans ?_
    refine congrArg (acc1 (Hand.V3 m) c j R + ·) (Finset.sum_congr rfl fun c' _ => ?_)
    refine congrArg Ideal.exp ?_
    refine congrArg (Ideal.ofBits .f32 0xBF800000#32 * ·) ?_
    refine congrArg (max · (Ideal.ofBits .f32 0x00000000#32)) ?_
    refine congrArg₂ (· - ·) ?_ ?_
    · refine congrArg₂ (· + ·) ?_ ?_
      · exact hsq R
      · exact hsq _
    · refine congrArg (Ideal.ofBits .f32 0x40000000#32 * ·) ?_
      refine Finset.sum_congr rfl fun d _ => congrArg₂ (· * ·) ?_ ?_
      · exact hattn R d
      · exact hattn _ d
  refine Eq.trans ?_ (Cert.Bridge.out_of_recurrence (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (acc1 (Hand.V3 m) c) (fun _ => rfl) hAcc R)
  refine (congrFun (Hand.W4_out m c) (ix2 R (0 : Fin 1))).trans ?_
  refine (out1_apply (Hand.V3 m) c R).trans ?_
  refine (congrFun (head_nat (Hand.V3 m) c (16 * (R.val / 2048) + 15) _ (by omega)) _).trans ?_
  refine (PayIdx1.pay1_apply _ _ _ _ _ _).trans ?_
  refine congrArg₂ (· + ·) ?_ ?_
  · refine Finset.sum_congr rfl fun u _ => congrArg₂ (· * ·) ?_ ?_
    · refine congrArg (max · (Ideal.ofBits .f32 0x00000000#32)) ?_
      refine congrArg₂ (· + ·) ?_ ?_
      · refine congrArg₂ (· * ·) ?_ ?_
        · refine congrArg (· * Ideal.ofBits .f32 0x39000000#32) ?_
          exact (acc1_succ (Hand.V3 m) c (by omega : 15 < 16) R).symm
        · refine (iblk1_4_apply (Hand.V3 m) c _ _).trans ?_
          rw [V3_eq m c main_arg3, W3_keeps m c main_arg3 (by decide) (by decide) (by decide)]
      · refine (iblk1_5_apply (Hand.V3 m) c _ _).trans ?_
        exact W3_b1 m c u
    · refine (iblk1_6_apply (Hand.V3 m) c _ _).trans ?_
      rw [V3_eq m c main_arg5, W3_keeps m c main_arg5 (by decide) (by decide) (by decide)]
  · refine (iblk1_7_apply (Hand.V3 m) c _ _).trans ?_
    exact W3_b2 m c

end Entry

end Cert.KernelIdeal.Value1

end
-- ==== Proof.KI.Final.lean ====
/-
  The idealized program's result: at the return its result buffer holds, row by row, the specification's function of
  the seven argument arrays — the last reshape reads the second kernel's output column, which is the head applied to
  the mean of the Gaussian kernel of the attention rows, and those rows and their squared norms are what the first
  kernel left, unchanged by the two reshapes in between.
-/
import proofs.«178816_j65481071400898_2_alg».proof.Proof.KI.Value0
import proofs.«178816_j65481071400898_2_alg».proof.Proof.KI.Value1

noncomputable section

namespace Cert.KernelIdeal.Final

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The two reshapes between the kernels write neither of the first kernel's output arrays. -/
theorem W3_attn (c : Dev nD) : Hand.W3 m c (Proc.devRef .tc main_v9_0) = Hand.W2 m c (Proc.devRef .tc main_v9_0) :=
  Cert.KernelIdeal.HostVals.after1_keeps (Hand.W2 m c) main_v9_0 (by decide)
theorem W3_sq (c : Dev nD) : Hand.W3 m c (Proc.devRef .tc main_v9_1) = Hand.W2 m c (Proc.devRef .tc main_v9_1) :=
  Cert.KernelIdeal.HostVals.after1_keeps (Hand.W2 m c) main_v9_1 (by decide)

/-- THE RESULT at the last boundary is the specification's function of the arguments. -/
theorem result_val (hpre : Cert.Pre_KernelIdeal m) (c : Dev nD) :
    (Hand.W5 m c (Proc.devRef .tc main_v13) : S8192.Idx → EReal)
      = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  obtain ⟨R, rfl⟩ : ∃ R : Fin 8192, i = ix1 R := ⟨i 0, eq_ix1 i⟩
  rw [Cert.Spec.G_ix1]
  refine (Cert.KernelIdeal.HostVals.after2_out (Hand.W4 m c) R).trans ?_
  refine Cert.KernelIdeal.Value1.out_val m c (fun R d => ?_) (fun R => ?_) R
  · rw [W3_attn m c]; exact Cert.KernelIdeal.Value0.attn_val m hpre c R d
  · rw [W3_sq m c]; exact Cert.KernelIdeal.Value0.sq_val m hpre c R

/-- THE RUN, read: every weakly fair execution of the idealized program ends with its result buffer at the
    specification's function of the arguments and with the arguments unchanged. -/
theorem run_G (ρ : Dev nD → PrngReg) (hpre : Cert.Pre_KernelIdeal m) :
    θ_run defs (onTc (τ := τ) (main (F := Ideal))) ⟨m, fun _ => 0, ρ⟩ (fun r => ∀ c : Dev nD,
      r.2.mem ((c.tc : Thread nD τ).loc main_v13) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_val m hpre c), (h c).2⟩) (Hand.run_value (F := Ideal) m ρ)

end Cert.KernelIdeal.Final

end
-- ==== Proof.RefIsG.lean ====
/-
  The reference computes the specification. Each stage of the reference program, read at an index given by its
  coordinates, is the specification's stage of the same name: the two projections, the scaled scores, the row maximum
  (a fold of the maximum over the row from -∞, then once more against -∞), the shifted exponentials, their row sums, the
  normalized weights' product with the states, the squared norms, the squared distances cut off at zero, the Gaussian
  kernel, its row means, and the two layers of the perceptron. The layout stages in between (transposes, broadcasts,
  the final reshape) only move indices, and each such move is identified with the coordinates it yields. The stages are
  met in program order, so that no algebra is needed: every step is an unfolding or a renaming of an index.
-/
import proofs.«178816_j65481071400898_2_alg».proof.Proof.Spec
import proofs.«178816_j65481071400898_2_alg».proof.Proof.Gen.ReferenceIdeal.Read

noncomputable section

open scoped BigOperators

namespace Cert.RefValue

open Idealize.ShloMosaic Idealize.ShloMosaic.TcCoe Idealize.SL.Sem Idealize.ShloMosaic.ValueIdx
open Cert.ReferenceIdeal Cert.ReferenceIdeal.Gen Cert.ReferenceIdeal.Read

/-- Two indices of rank two with the same coordinates are equal. -/
local macro "idx2" : tactic =>
  `(tactic| (funext a; apply Fin.ext; match a with | ⟨0, _⟩ => rfl | ⟨1, _⟩ => rfl))
/-- Two indices of rank one with the same coordinate are equal. -/
local macro "idx1" : tactic =>
  `(tactic| (funext a; apply Fin.ext; match a with | ⟨0, _⟩ => rfl))

variable (x0 : (⟨S8192x256, .f32⟩ : BufTy).Contents (Elt Ideal)) (x1 x2 : (⟨S256x256, .f32⟩ : BufTy).Contents (Elt Ideal))
  (x3 : (⟨S1x64, .f32⟩ : BufTy).Contents (Elt Ideal)) (x4 : (⟨S64, .f32⟩ : BufTy).Contents (Elt Ideal))
  (x5 : (⟨S64x1, .f32⟩ : BufTy).Contents (Elt Ideal)) (x6 : (⟨S1, .f32⟩ : BufTy).Contents (Elt Ideal))

/-! ## Attention -/

/-- The first product is the queries. -/
theorem v0_at (r : Fin 8192) (d : Fin 256) :
    val_main_v0 (F := Ideal) x0 x1 (ix2 r d) = Spec.projQ x0 x1 r d := by
  rw [val_main_v0_apply]
  unfold Spec.projQ
  refine Finset.sum_congr rfl fun k _ => ?_
  rw [show lidx_main_v0 (ix2 r d) k = ix2 r k from by idx2, show ridx_main_v0 (ix2 r d) k = ix2 k d from by idx2]

/-- The second product is the keys. -/
theorem v1_at (r : Fin 8192) (d : Fin 256) :
    val_main_v1 (F := Ideal) x0 x2 (ix2 r d) = Spec.projK x0 x2 r d := by
  rw [val_main_v1_apply]
  unfold Spec.projK
  refine Finset.sum_congr rfl fun k _ => ?_
  rw [show lidx_main_v1 (ix2 r d) k = ix2 r k from by idx2, show ridx_main_v1 (ix2 r d) k = ix2 k d from by idx2]

/-- The queries' product with the transposed keys, scaled, is the scores. -/
theorem v5_at (r c : Fin 8192) :
    val_main_v5 (F := Ideal) x0 x1 x2 (ix2 r c) = Spec.score x0 x1 x2 r c := by
  rw [val_main_v5_apply, val_main_v3_apply, val_main_v4_apply, val_main_cst_apply]
  unfold Spec.score
  have hs : (∑ k : Fin 256, val_main_v0 (F := Ideal) x0 x1 (lidx_main_v3 (ix2 r c) k)
        * val_main_v2 (F := Ideal) x0 x2 (ridx_main_v3 (ix2 r c) k))
      = ∑ d : Fin 256, Spec.projQ x0 x1 r d * Spec.projK x0 x2 c d :=
    Finset.sum_congr rfl fun k _ => by
      rw [show lidx_main_v3 (ix2 r c) k = ix2 r k from by idx2, v0_at, val_main_v2_apply,
        show idx_main_v2 (ridx_main_v3 (ix2 r c) k) = ix2 c k from by idx2, v1_at]
  rw [hs]
  rfl

/-- A maximum over the second axis started from -∞, at row r, is the fold of the maximum over the row's entries. -/
theorem rowfold (y : (⟨S8192x8192, .f32⟩ : BufTy).Contents (Elt Ideal)) (r : Fin 8192) :
    Host.reduce (FloatOps.maximumf (F := Ideal) (φ := .f32)) y (val_main_cst_0 (F := Ideal))
        reducesTo_S8192x8192_S8192_d1 h_S_ (ix1 r)
      = (Finset.univ : Finset (Fin 8192)).fold max (Ideal.ofBits .f32 0xFF800000#32) fun c => y (ix2 r c) := by
  rw [Host.reduce_eq_fold_single (FloatOps.maximumf (F := Ideal) (φ := .f32)) y _ reducesTo_S8192x8192_S8192_d1
    (by decide) h_S_]
  refine Finset.fold_congr fun k _ => ?_
  exact congrArg y (funext fun a => Fin.ext (by match a with | ⟨0, _⟩ => rfl | ⟨1, _⟩ => rfl))

/-- The reduction of the scores is the fold of the maximum over each row. -/
theorem v6_at (r : Fin 8192) :
    val_main_v6 (F := Ideal) x0 x1 x2 (ix1 r)
      = (Finset.univ : Finset (Fin 8192)).fold max (Ideal.ofBits .f32 0xFF800000#32)
          fun c => Spec.score x0 x1 x2 r c := by
  unfold val_main_v6
  rw [rowfold]
  exact Finset.fold_congr fun c _ => v5_at x0 x1 x2 r c

/-- Taken once more against -∞ it is the row maximum. -/
theorem v8_at (r : Fin 8192) :
    val_main_v8 (F := Ideal) x0 x1 x2 (ix1 r) = Spec.rowMax x0 x1 x2 r := by
  rw [val_main_v8_apply, val_main_v7_apply, val_main_cst_1_apply, v6_at]
  rfl

/-- The exponential of a score less its row's maximum. -/
theorem v12_at (r c : Fin 8192) :
    val_main_v12 (F := Ideal) x0 x1 x2 (ix2 r c) = Spec.pexp x0 x1 x2 r c := by
  rw [val_main_v12_apply, val_main_v11_apply, v5_at, val_main_v10_apply, val_main_v9_apply,
    show idx_main_v9 (idx_main_v10 (ix2 r c)) = ix1 r from by idx1, v8_at]
  rfl

/-- The exponentials' row sums. -/
theorem v13_at (r : Fin 8192) :
    val_main_v13 (F := Ideal) x0 x1 x2 (ix1 r) = Spec.denom x0 x1 x2 r := by
  rw [val_main_v13_apply, val_main_cst_2_apply]
  unfold Spec.denom
  refine congrArg (_ + ·) (Finset.sum_congr rfl fun k _ => ?_)
  rw [show idx_main_v13 (ix1 r) k = ix2 r k from by idx2, v12_at]

/-- The normalized weights' product with the states. -/
theorem v17_at (r : Fin 8192) (d : Fin 256) :
    val_main_v17 (F := Ideal) x0 x1 x2 (ix2 r d) = Spec.attn x0 x1 x2 r d := by
  rw [val_main_v17_apply]
  unfold Spec.attn
  refine Finset.sum_congr rfl fun k _ => ?_
  rw [show lidx_main_v17 (ix2 r d) k = ix2 r k from by idx2, show ridx_main_v17 (ix2 r d) k = ix2 k d from by idx2,
    val_main_v16_apply, v12_at, val_main_v15_apply, val_main_v14_apply,
    show idx_main_v14 (idx_main_v15 (ix2 r k)) = ix1 r from by idx1, v13_at]
  rfl

/-! ## The Gaussian kernel -/

/-- The squared norms of the attended rows. -/
theorem v19_at (r : Fin 8192) :
    val_main_v19 (F := Ideal) x0 x1 x2 (ix1 r) = Spec.sqn x0 x1 x2 r := by
  rw [val_main_v19_apply, val_main_cst_3_apply]
  unfold Spec.sqn
  refine congrArg (_ + ·) (Finset.sum_congr rfl fun k _ => ?_)
  rw [show idx_main_v19 (ix1 r) k = ix2 r k from by idx2, val_main_v18_apply, v17_at]
  rfl

/-- The inner products of the attended rows. -/
theorem v26_at (r c : Fin 8192) :
    val_main_v26 (F := Ideal) x0 x1 x2 (ix2 r c)
      = ∑ d : Fin 256, Spec.attn x0 x1 x2 r d * Spec.attn x0 x1 x2 c d := by
  rw [val_main_v26_apply]
  refine Finset.sum_congr rfl fun k _ => ?_
  rw [show lidx_main_v26 (ix2 r c) k = ix2 r k from by idx2, v17_at, val_main_v25_apply,
    show idx_main_v25 (ridx_main_v26 (ix2 r c) k) = ix2 c k from by idx2, v17_at]

/-- The squared distances, cut off below at zero. -/
theorem v31_at (r c : Fin 8192) :
    val_main_v31 (F := Ideal) x0 x1 x2 (ix2 r c) = Spec.dist2 x0 x1 x2 r c := by
  rw [val_main_v31_apply, val_main_v29_apply, val_main_v24_apply, val_main_v22_apply, val_main_v20_apply,
    show idx_main_v20 (idx_main_v22 (ix2 r c)) = ix1 r from by idx1, v19_at,
    val_main_v23_apply, val_main_v21_apply, show idx_main_v21 (idx_main_v23 (ix2 r c)) = ix1 c from by idx1, v19_at,
    val_main_v28_apply, val_main_v27_apply, val_main_cst_4_apply, v26_at, val_main_v30_apply, val_main_cst_5_apply]
  rfl

/-- The kernel. -/
theorem v34_at (r c : Fin 8192) :
    val_main_v34 (F := Ideal) x0 x1 x2 (ix2 r c) = Spec.rbf x0 x1 x2 r c := by
  rw [val_main_v34_apply, val_main_v33_apply, val_main_v32_apply, val_main_cst_6_apply, v31_at]
  rfl

/-- The kernel's row sums. -/
theorem v35_at (r : Fin 8192) :
    val_main_v35 (F := Ideal) x0 x1 x2 (ix1 r)
      = Ideal.ofBits .f32 0x00000000#32 + ∑ c : Fin 8192, Spec.rbf x0 x1 x2 r c := by
  rw [val_main_v35_apply, val_main_cst_7_apply]
  refine congrArg (_ + ·) (Finset.sum_congr rfl fun k _ => ?_)
  rw [show idx_main_v35 (ix1 r) k = ix2 r k from by idx2, v34_at]

/-- The kernel's row means, as a column. -/
theorem v38_at (r : Fin 8192) (k : Fin 1) :
    val_main_v38 (F := Ideal) x0 x1 x2 (ix2 r k) = Spec.feat x0 x1 x2 r := by
  rw [val_main_v38_apply, val_main_v36_apply, show idx_main_v36 (ix2 r k) = ix1 r from by idx1, v35_at,
    val_main_v37_apply, val_main_cst_8_apply]
  rfl

/-! ## The perceptron -/

/-- The column of means times the one-row matrix of first-layer weights. -/
theorem v39_at (r : Fin 8192) (u : Fin 64) :
    val_main_v39 (F := Ideal) x0 x1 x2 x3 (ix2 r u) = ∑ j : Fin 1, Spec.feat x0 x1 x2 r * x3 (ix2 j u) := by
  rw [val_main_v39_apply]
  refine Finset.sum_congr rfl fun k _ => ?_
  rw [show lidx_main_v39 (ix2 r u) k = ix2 r k from by idx2, show ridx_main_v39 (ix2 r u) k = ix2 k u from by idx2,
    v38_at]

/-- The hidden layer. -/
theorem v43_at (r : Fin 8192) (u : Fin 64) :
    val_main_v43 (F := Ideal) x0 x1 x2 x3 x4 (ix2 r u) = Spec.hidden x0 x1 x2 x3 x4 r u := by
  rw [val_main_v43_apply, val_main_v42_apply, v39_at, val_main_v41_apply, val_main_v40_apply,
    show idx_main_v40 (idx_main_v41 (ix2 r u)) = ix1 u from by idx1, val_main_call0_v0_apply,
    val_main_call0_cst_apply]
  rfl

/-- The hidden layer times the second layer's weights. -/
theorem v44_at (r : Fin 8192) :
    val_main_v44 (F := Ideal) x0 x1 x2 x3 x4 x5 (ix2 r (0 : Fin 1))
      = ∑ u : Fin 64, Spec.hidden x0 x1 x2 x3 x4 r u * x5 (ix2 u (0 : Fin 1)) := by
  rw [val_main_v44_apply]
  refine Finset.sum_congr rfl fun k _ => ?_
  rw [show lidx_main_v44 (ix2 r (0 : Fin 1)) k = ix2 r k from by idx2,
    show ridx_main_v44 (ix2 r (0 : Fin 1)) k = ix2 k (0 : Fin 1) from by idx2, v43_at]

/-- The output, as a column. -/
theorem v47_at (r : Fin 8192) :
    val_main_v47 (F := Ideal) x0 x1 x2 x3 x4 x5 x6 (ix2 r (0 : Fin 1)) = Spec.out x0 x1 x2 x3 x4 x5 x6 r := by
  rw [val_main_v47_apply, v44_at, val_main_v46_apply, val_main_v45_apply,
    show idx_main_v45 (idx_main_v46 (ix2 r (0 : Fin 1))) = ix1 (0 : Fin 1) from by idx1]
  rfl

/-- The reference's last stage is the specification. -/
theorem val_eq_G : val_main_v48 (F := Ideal) x0 x1 x2 x3 x4 x5 x6 = Spec.G x0 x1 x2 x3 x4 x5 x6 := by
  funext i
  obtain ⟨r, rfl⟩ : ∃ r : Fin 8192, i = ix1 r := ⟨i 0, eq_ix1 i⟩
  rw [val_main_v48_apply,
    show idx_main_v48 (ix1 r) = ix2 r (0 : Fin 1) from funext fun a => Fin.ext (by
      match a with
      | ⟨0, _⟩ => show r.val / 1 = r.val; exact Nat.div_one _
      | ⟨1, _⟩ => rfl),
    v47_at]
  rfl

/-- The reference run's result is the specification of the argument arrays. -/
theorem ref_eq_G (m : (ℓ : Loc nD τ sig) → Buf (Elt Ideal) ℓ) (c : Dev nD) :
    Cert.ReferenceIdeal.Value.res_main_v48 (F := Ideal) m c
      = Cert.Spec.G (m ((c.tc : Thread nD τ).loc Cert.ReferenceIdeal.main_arg0))
          (m ((c.tc : Thread nD τ).loc Cert.ReferenceIdeal.main_arg1))
          (m ((c.tc : Thread nD τ).loc Cert.ReferenceIdeal.main_arg2))
          (m ((c.tc : Thread nD τ).loc Cert.ReferenceIdeal.main_arg3))
          (m ((c.tc : Thread nD τ).loc Cert.ReferenceIdeal.main_arg4))
          (m ((c.tc : Thread nD τ).loc Cert.ReferenceIdeal.main_arg5))
          (m ((c.tc : Thread nD τ).loc Cert.ReferenceIdeal.main_arg6)) := by
  rw [val_main_v48_eq]
  exact val_eq_G _ _ _ _ _ _ _

end Cert.RefValue

end
-- ==== Proof.lean ====
/-
  The certificate's five claims for a program of two kernels — tiled attention with a running softmax, then a
  pairwise Gaussian-kernel mean with a two-layer head — against its reference.
  Frames: the word-level program and its idealization run to the end, fault nowhere and leave their arguments
  unchanged, by the several-segments launch over both kernels' point-by-point proof data; the reference by its
  generated run. The idealization rewrote nothing. At the ideal instance both programs end holding one function of
  the arguments: per row, the running maximum, denominator and numerator of the tiled kernel end at the global
  softmax's quantities when every input is finite, a sum over all columns is the sum over the column tiles, and
  multiplying by 2^-13 is dividing by 8192.
-/
import proofs.«178816_j65481071400898_2_alg».proof.Defs
import proofs.«178816_j65481071400898_2_alg».proof.Proof.Gen.Kernel
import proofs.«178816_j65481071400898_2_alg».proof.Proof.Gen.KernelIdeal
import proofs.«178816_j65481071400898_2_alg».proof.Proof.Gen.ReferenceIdeal
import proofs.«178816_j65481071400898_2_alg».proof.Proof.Gen.ReferenceIdeal.Run
import proofs.«178816_j65481071400898_2_alg».proof.Proof.Gen.ReferenceIdeal.Read
import proofs.«178816_j65481071400898_2_alg».proof.Proof.Gen.Pre_finite_inputs
import proofs.«178816_j65481071400898_2_alg».proof.Proof.K.Launch
import proofs.«178816_j65481071400898_2_alg».proof.Proof.KI.Launch
import proofs.«178816_j65481071400898_2_alg».proof.Proof.KI.Final
import proofs.«178816_j65481071400898_2_alg».proof.Proof.RefIsG

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level program runs to the end and leaves its arguments unchanged. -/
theorem frame_p : Cert.frame_Kernel := fun m ρ _ => Cert.Kernel.Hand.frame (F := Bits) m ρ
/-- So does its idealization. -/
theorem frame_pi : Cert.frame_KernelIdeal := fun m ρ _ => Cert.KernelIdeal.Hand.frame (F := Ideal) m ρ
/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)
/-- The idealization rewrote no operation. -/
theorem preserves : Cert.preserves_Kernel_KernelIdeal := trivial

/-- At the ideal instance the tiled program's result buffer and the reference's end at one function of arguments that
    agree: the specification's. The tiled side needs every input finite (the running softmax's rescaling is an identity
    of real numbers); the reference's run term is the specification by unfolding, operation by operation. -/
theorem algebraic : Cert.algebraic_KernelIdeal_ReferenceIdeal := by
  intro m ρ m' ρ' hpre hagree
  refine ⟨_, Cert.KernelIdeal.Final.run_G m ρ hpre, ?_⟩
  refine (θ_run Cert.ReferenceIdeal.defs _ _).mono (fun _ h c => ⟨(h c).1.trans ?_, (h c).2⟩)
    (Cert.ReferenceIdeal.Value.run (F := Ideal) m' ρ')
  rw [Cert.RefValue.ref_eq_G, (hagree c).1, (hagree c).2.1, (hagree c).2.2.1, (hagree c).2.2.2.1, (hagree c).2.2.2.2.1,
    (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
